-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x56x56 : Shape := ⟨4, ![16, 256, 56, 56]⟩
abbrev S64x256 : Shape := ⟨2, ![64, 256]⟩
abbrev S64x64x3x3 : Shape := ⟨4, ![64, 64, 3, 3]⟩
abbrev S256x64 : Shape := ⟨2, ![256, 64]⟩
abbrev S16x256 : Shape := ⟨2, ![16, 256]⟩
abbrev S256x16 : Shape := ⟨2, ![256, 16]⟩
abbrev S64 : Shape := ⟨1, ![64]⟩
abbrev S256 : Shape := ⟨1, ![256]⟩
abbrev S_ : Shape := ⟨0, ![]⟩

class Facts : Prop where
  bcast_S_S16x256x56x56 : S_.BroadcastsInDim S16x256x56x56 (![] : Fin 0 → Fin S16x256x56x56.rank)
  reducesTo_S16x256x56x56_S_d0_1_2_3 : S16x256x56x56.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S64x64x3x3 : S_.BroadcastsInDim S64x64x3x3 (![] : Fin 0 → Fin S64x64x3x3.rank)
  reducesTo_S64x64x3x3_S_d0_1_2_3 : S64x64x3x3.ReducesTo [0, 1, 2, 3] S_
  bcast_S_S256x64 : S_.BroadcastsInDim S256x64 (![] : Fin 0 → Fin S256x64.rank)
  reducesTo_S256x64_S_d0_1 : S256x64.ReducesTo [0, 1] S_
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S64 .f32) (main_arg8 : FVec F S64 .f32) (main_arg9 : FVec F S64 .f32) (main_arg10 : FVec F S256 .f32) (main_arg11 : FVec F S256 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S16x256 .f32) (main_arg5 : FVec F S256x16 .f32) (main_arg6 : FVec F S64 .f32) (main_arg7 : FVec F S64 .f32) (main_arg8 : FVec F S64 .f32) (main_arg9 : FVec F S64 .f32) (main_arg10 : FVec F S256 .f32) (main_arg11 : FVec F S256 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S16x256 .f32 := Host.absf main_arg4
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  let main_v24 : FVec F S256x16 .f32 := Host.absf main_arg5
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x256x56x56 .f32) (main_arg1 : FVec F S64x256 .f32) (main_arg2 : FVec F S64x64x3x3 .f32) (main_arg3 : FVec F S256x64 .f32) (main_arg4 : FVec F S16x256 .f32) (main_arg5 : FVec F S256x16 .f32) (main_arg6 : FVec F S64 .f32) (main_arg7 : FVec F S64 .f32) (main_arg8 : FVec F S64 .f32) (main_arg9 : FVec F S64 .f32) (main_arg10 : FVec F S256 .f32) (main_arg11 : FVec F S256 .f32) : IVec S_ 1 :=
  let main_v0 : FVec F S16x256x56x56 .f32 := Host.absf main_arg0
  let main_cst : FVec F S_ .f32 := constant S_ .f32 0x7F800000#32
  let main_v1 : FVec F S16x256x56x56 .f32 := broadcastInDim S16x256x56x56 ![] bcast_S_S16x256x56x56 main_cst
  let main_v2 : IVec S16x256x56x56 1 := cmpf .olt main_v0 main_v1
  let main_c : IVec S_ 1 := constantI S_ 1 1#1
  let main_v3 : IVec S_ 1 := (fun x v => Host.reduce IntOp.andi x v reducesTo_S16x256x56x56_S_d0_1_2_3 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64x64x3x3 .f32 := Host.absf main_arg2
  let main_cst_2 : FVec F S_ .f32 := constant S_ .f32 0x7F800000#32
  let main_v10 : FVec F S64x64x3x3 .f32 := broadcastInDim S64x64x3x3 ![] bcast_S_S64x64x3x3 main_cst_2
  let main_v11 : IVec S64x64x3x3 1 := cmpf .olt main_v9 main_v10
  let main_c_3 : IVec S_ 1 := constantI S_ 1 1#1
  let main_v12 : IVec S_ 1 := (fun x v => Host.reduce IntOp.andi x v reducesTo_S64x64x3x3_S_d0_1_2_3 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_arg7 main_arg8 main_arg9 main_arg10 main_arg11 main_v13 main_v16
-- ==== Kernel.lean ====
abbrev S16x256x56x56 : Shape := ⟨4, ![16, 256, 56, 56]⟩
abbrev S64x256 : Shape := ⟨2, ![64, 256]⟩
abbrev S64x64x3x3 : Shape := ⟨4, ![64, 64, 3, 3]⟩
abbrev S256x64 : Shape := ⟨2, ![256, 64]⟩
abbrev S16x256 : Shape := ⟨2, ![16, 256]⟩
abbrev S256x16 : Shape := ⟨2, ![256, 16]⟩
abbrev S64 : Shape := ⟨1, ![64]⟩
abbrev S256 : Shape := ⟨1, ![256]⟩
abbrev S64x1 : Shape := ⟨2, ![64, 1]⟩
abbrev S3x3x64x64 : Shape := ⟨4, ![3, 3, 64, 64]⟩
abbrev S1x1x1x64 : Shape := ⟨4, ![1, 1, 1, 64]⟩
abbrev S3x192x64 : Shape := ⟨3, ![3, 192, 64]⟩
abbrev S256x1 : Shape := ⟨2, ![256, 1]⟩
abbrev S16x256x3136 : Shape := ⟨3, ![16, 256, 3136]⟩
abbrev S1x64 : Shape := ⟨2, ![1, 64]⟩
abbrev S1x256x3136 : Shape := ⟨3, ![1, 256, 3136]⟩
abbrev S58x58x64 : Shape := ⟨3, ![58, 58, 64]⟩
abbrev S256x3136 : Shape := ⟨2, ![256, 3136]⟩
abbrev S3136x64 : Shape := ⟨2, ![3136, 64]⟩
abbrev S56x56x64 : Shape := ⟨3, ![56, 56, 64]⟩
abbrev S56x58x64 : Shape := ⟨3, ![56, 58, 64]⟩
abbrev S58x56x64 : Shape := ⟨3, ![58, 56, 64]⟩
abbrev S3136x192 : Shape := ⟨2, ![3136, 192]⟩
abbrev S1x192x64 : Shape := ⟨3, ![1, 192, 64]⟩
abbrev S192x64 : Shape := ⟨2, ![192, 64]⟩
abbrev S16x1 : Shape := ⟨2, ![16, 1]⟩

abbrev nBuf : Space → Nat
  | .hbm => 34
  | .vmem => 13
  | .smem => 0
  | _ => 0

abbrev bufTy : (tb : Table) → Fin (tcTables nBuf tb) → BufTy
  | .hbm, ⟨0, _⟩ => ⟨S16x256x56x56, .f32⟩
  | .hbm, ⟨1, _⟩ => ⟨S64x256, .f32⟩
  | .hbm, ⟨2, _⟩ => ⟨S64x64x3x3, .f32⟩
  | .hbm, ⟨3, _⟩ => ⟨S256x64, .f32⟩
  | .hbm, ⟨4, _⟩ => ⟨S16x256, .f32⟩
  | .hbm, ⟨5, _⟩ => ⟨S256x16, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S256, .f32⟩
  | .hbm, ⟨11, _⟩ => ⟨S256, .f32⟩
  | .hbm, ⟨12, _⟩ => ⟨S64x1, .f32⟩
  | .hbm, ⟨13, _⟩ => ⟨S64x256, .f32⟩
  | .hbm, ⟨14, _⟩ => ⟨S64x256, .f32⟩
  | .hbm, ⟨15, _⟩ => ⟨S256x64, .f32⟩
  | .hbm, ⟨16, _⟩ => ⟨S256x64, .bf16⟩
  | .hbm, ⟨17, _⟩ => ⟨S3x3x64x64, .f32⟩
  | .hbm, ⟨18, _⟩ => ⟨S1x1x1x64, .f32⟩
  | .hbm, ⟨19, _⟩ => ⟨S3x3x64x64, .f32⟩
  | .hbm, ⟨20, _⟩ => ⟨S3x3x64x64, .f32⟩
  | .hbm, ⟨21, _⟩ => ⟨S3x3x64x64, .f32⟩
  | .hbm, ⟨22, _⟩ => ⟨S3x192x64, .f32⟩
  | .hbm, ⟨23, _⟩ => ⟨S3x192x64, .bf16⟩
  | .hbm, ⟨24, _⟩ => ⟨S256x1, .f32⟩
  | .hbm, ⟨25, _⟩ => ⟨S256x64, .f32⟩
  | .hbm, ⟨26, _⟩ => ⟨S256x64, .f32⟩
  | .hbm, ⟨27, _⟩ => ⟨S256x64, .bf16⟩
  | .hbm, ⟨28, _⟩ => ⟨S16x256x3136, .f32⟩
  | .hbm, ⟨29, _⟩ => ⟨S1x64, .f32⟩
  | .hbm, ⟨30, _⟩ => ⟨S1x64, .f32⟩
  | .hbm, ⟨31, _⟩ => ⟨S256x1, .f32⟩
  | .hbm, ⟨32, _⟩ => ⟨S16x256x3136, .f32⟩
  | .hbm, ⟨33, _⟩ => ⟨S16x256x56x56, .f32⟩
  | .local _ .vmem, ⟨0, _⟩ => ⟨S1x256x3136, .f32⟩
  | .local _ .vmem, ⟨1, _⟩ => ⟨S1x256x3136, .f32⟩
  | .local _ .vmem, ⟨2, _⟩ => ⟨S256x64, .bf16⟩
  | .local _ .vmem, ⟨3, _⟩ => ⟨S1x64, .f32⟩
  | .local _ .vmem, ⟨4, _⟩ => ⟨S3x192x64, .bf16⟩
  | .local _ .vmem, ⟨5, _⟩ => ⟨S1x64, .f32⟩
  | .local _ .vmem, ⟨6, _⟩ => ⟨S256x64, .bf16⟩
  | .local _ .vmem, ⟨7, _⟩ => ⟨S256x1, .f32⟩
  | .local _ .vmem, ⟨8, _⟩ => ⟨S16x256, .f32⟩
  | .local _ .vmem, ⟨9, _⟩ => ⟨S256x16, .f32⟩
  | .local _ .vmem, ⟨10, _⟩ => ⟨S1x256x3136, .f32⟩
  | .local _ .vmem, ⟨11, _⟩ => ⟨S1x256x3136, .f32⟩
  | .local _ .vmem, ⟨12, _⟩ => ⟨S58x58x64, .bf16⟩
  | _, _ => ⟨S16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x3136 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S64x256_S256x64_1_0 : S64x256.Transposes [1, 0] S256x64
  bitsLt_bf16_f32 : FTy.bits .bf16 < FTy.bits .f32
  transposes_S64x64x3x3_S3x3x64x64_2_3_1_0 : S64x64x3x3.Transposes [2, 3, 1, 0] S3x3x64x64
  bcast_S64_S1x1x1x64_3 : S64.BroadcastsInDim S1x1x1x64 (![3] : Fin 1 → Fin S1x1x1x64.rank)
  bcast_S1x1x1x64_S3x3x64x64_0_1_2_3 : S1x1x1x64.BroadcastsInDim S3x3x64x64 (![0, 1, 2, 3] : Fin 4 → Fin S3x3x64x64.rank)
  transposes_S3x3x64x64_S3x3x64x64_1_0_2_3 : S3x3x64x64.Transposes [1, 0, 2, 3] S3x3x64x64
  shapeCasts_S3x3x64x64_S3x192x64 : S3x3x64x64.ShapeCasts S3x192x64
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S16x256x56x56_S16x256x3136 : S16x256x56x56.ShapeCasts S16x256x3136
  shapeCasts_S64_S1x64 : S64.ShapeCasts S1x64
  shapeCasts_S256_S256x1 : S256.ShapeCasts S256x1
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3136x64 : S1x64.Broadcasts S3136x64
  inb_S58x58x64_S58x58x64_0_0_0 : ∀ a, (![0, 0, 0] : Fin 3 → Nat) a + S58x58x64.size a ≤ S58x58x64.size a
  h_S58x58x64 : 0 < S58x58x64.numel
  shapeCasts_S58x58x64_S58x58x64 : S58x58x64.ShapeCasts S58x58x64
  packedbf16_S58x58x64_S58x58x64_0_0_0 : (Rect.unit (s := S58x58x64) ![0, 0, 0] S58x58x64.size inb_S58x58x64_S58x58x64_0_0_0).PackedRows (EltTy.packing .bf16)
  shapeCasts_S3136x64_S56x56x64 : S3136x64.ShapeCasts S56x56x64
  inb_S58x58x64_S56x56x64_1_1_0 : ∀ a, (![1, 1, 0] : Fin 3 → Nat) a + S56x56x64.size a ≤ S58x58x64.size a
  h_S56x56x64 : 0 < S56x56x64.numel
  shapeCasts_S56x56x64_S56x56x64 : S56x56x64.ShapeCasts S56x56x64
  inb_S58x58x64_S56x58x64_1_0_0 : ∀ a, (![1, 0, 0] : Fin 3 → Nat) a + S56x58x64.size a ≤ S58x58x64.size a
  h_S56x58x64 : 0 < S56x58x64.numel
  slices_S56x58x64_S56x56x64_0_1_0 : S56x58x64.Slices ![0, 1, 0] S56x56x64
  packedbf16_S58x58x64_S56x58x64_1_0_0 : (Rect.unit (s := S58x58x64) ![1, 0, 0] S56x58x64.size inb_S58x58x64_S56x58x64_1_0_0).PackedRows (EltTy.packing .bf16)
  inb_S58x58x64_S58x56x64_0_0_0 : ∀ a, (![0, 0, 0] : Fin 3 → Nat) a + S58x56x64.size a ≤ S58x58x64.size a
  h_S58x56x64 : 0 < S58x56x64.numel
  slices_S58x56x64_o0_0_0_S56x56x64 : S58x56x64.Slices ![0, 0, 0] S56x56x64
  shapeCasts_S56x56x64_S3136x64 : S56x56x64.ShapeCasts S3136x64
  slices_S58x56x64_o1_0_0_S56x56x64 : S58x56x64.Slices ![1, 0, 0] S56x56x64
  slices_S58x56x64_o2_0_0_S56x56x64 : S58x56x64.Slices ![2, 0, 0] S56x56x64
  concatenates_S3136x64_S3136x64_S3136x64_S3136x192_d1 : Shape.Concatenates [S3136x64, S3136x64, S3136x64] S3136x192 1
  inb_S3x192x64_S1x192x64_0_0_0 : ∀ a, (![0, 0, 0] : Fin 3 → Nat) a + S1x192x64.size a ≤ S3x192x64.size a
  h_S1x192x64 : 0 < S1x192x64.numel
  shapeCasts_S1x192x64_S192x64 : S1x192x64.ShapeCasts S192x64
  inb_S58x58x64_S58x56x64_0_1_0 : ∀ a, (![0, 1, 0] : Fin 3 → Nat) a + S58x56x64.size a ≤ S58x58x64.size a
  inb_S3x192x64_S1x192x64_1_0_0 : ∀ a, (![1, 0, 0] : Fin 3 → Nat) a + S1x192x64.size a ≤ S3x192x64.size a
  inb_S58x58x64_S58x56x64_0_2_0 : ∀ a, (![0, 2, 0] : Fin 3 → Nat) a + S58x56x64.size a ≤ S58x58x64.size a
  inb_S3x192x64_S1x192x64_2_0_0 : ∀ a, (![2, 0, 0] : Fin 3 → Nat) a + S1x192x64.size a ≤ S3x192x64.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3136 : S256x1.Broadcasts S256x3136
  reduces_S256x3136_S256 : S256x3136.Reduces [1] S256
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  shapeCasts_S256x3136_S1x256x3136 : S256x3136.ShapeCasts S1x256x3136
  shapeCasts_S16x256x3136_S16x256x56x56 : S16x256x3136.ShapeCasts S16x256x56x56
  dot_S256x3136_S256x64_S3136x64_0_0_1_1_n_n_wf : DotDims.WF S256x3136 S256x64 S3136x64 [0] [0] [1] [1] [] []
  dot_S3136x192_S192x64_S3136x64_1_0_0_1_n_n_wf : DotDims.WF S3136x192 S192x64 S3136x64 [1] [0] [0] [1] [] []
  dot_S256x64_S3136x64_S256x3136_1_1_0_0_n_n_wf : DotDims.WF S256x64 S3136x64 S256x3136 [1] [1] [0] [0] [] []
  dot_S16x256_S256x1_S16x1_1_0_0_1_n_n_wf : DotDims.WF S16x256 S256x1 S16x1 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S16x256x3136.size a
  hwx0_0 : ∀ i : grid0.Coords, EltTy.bits .f32 = 32 ∨ (Rect.block (s := S16x256x3136) S1x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x192x64.size a ≤ S3x192x64.size a
  hwx0_3 : ∀ i : grid0.Coords, EltTy.bits .bf16 = 32 ∨ (Rect.block (s := S3x192x64) S3x192x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x256.size a ≤ S16x256.size a
  hwx0_7 : ∀ i : grid0.Coords, EltTy.bits .f32 = 32 ∨ (Rect.block (s := S16x256) S16x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x16.size a ≤ S256x16.size a
  hwx0_8 : ∀ i : grid0.Coords, EltTy.bits .f32 = 32 ∨ (Rect.block (s := S256x16) S256x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x3136.size a ≤ S16x256x3136.size a
  hwx0_9 : ∀ i : grid0.Coords, EltTy.bits .f32 = 32 ∨ (Rect.block (s := S16x256x3136) S1x256x3136.size (cc0_transform_9 i) (hinb0_9 i)).WholeWords (EltTy.packing .f32)

variable [Facts₀]

def dot_S256x3136_S256x64_S3136x64_0_0_1_1_n_n : DotDims S256x3136 S256x64 S3136x64 where
  lhsContracting := [0]
  rhsContracting := [0]
  lhsNonContracting := [1]
  rhsNonContracting := [1]
  lhsBatch := []
  rhsBatch := []
  wf := dot_S256x3136_S256x64_S3136x64_0_0_1_1_n_n_wf
def dot_S3136x192_S192x64_S3136x64_1_0_0_1_n_n : DotDims S3136x192 S192x64 S3136x64 where
  lhsContracting := [1]
  rhsContracting := [0]
  lhsNonContracting := [0]
  rhsNonContracting := [1]
  lhsBatch := []
  rhsBatch := []
  wf := dot_S3136x192_S192x64_S3136x64_1_0_0_1_n_n_wf
def dot_S256x64_S3136x64_S256x3136_1_1_0_0_n_n : DotDims S256x64 S3136x64 S256x3136 where
  lhsContracting := [1]
  rhsContracting := [1]
  lhsNonContracting := [0]
  rhsNonContracting := [0]
  lhsBatch := []
  rhsBatch := []
  wf := dot_S256x64_S3136x64_S256x3136_1_1_0_0_n_n_wf
def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v16) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S3x192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S16x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S256x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x256x3136.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x256x56x56 : Shape := ⟨4, ![16, 256, 56, 56]⟩
abbrev S64x256 : Shape := ⟨2, ![64, 256]⟩
abbrev S64x64x3x3 : Shape := ⟨4, ![64, 64, 3, 3]⟩
abbrev S256x64 : Shape := ⟨2, ![256, 64]⟩
abbrev S16x256 : Shape := ⟨2, ![16, 256]⟩
abbrev S256x16 : Shape := ⟨2, ![256, 16]⟩
abbrev S64 : Shape := ⟨1, ![64]⟩
abbrev S256 : Shape := ⟨1, ![256]⟩
abbrev S16x56x56x256 : Shape := ⟨4, ![16, 56, 56, 256]⟩
abbrev S50176x256 : Shape := ⟨2, ![50176, 256]⟩
abbrev S1x64 : Shape := ⟨2, ![1, 64]⟩
abbrev S50176x64 : Shape := ⟨2, ![50176, 64]⟩
abbrev S3272x256 : Shape := ⟨2, ![3272, 256]⟩
abbrev S3272x64 : Shape := ⟨2, ![3272, 64]⟩
abbrev S16x56x56x64 : Shape := ⟨4, ![16, 56, 56, 64]⟩
abbrev S3x3x64x64 : Shape := ⟨4, ![3, 3, 64, 64]⟩
abbrev S9x64x64 : Shape := ⟨3, ![9, 64, 64]⟩
abbrev S1x56x56x64 : Shape := ⟨4, ![1, 56, 56, 64]⟩
abbrev S58x58x64 : Shape := ⟨3, ![58, 58, 64]⟩
abbrev S56x56x64 : Shape := ⟨3, ![56, 56, 64]⟩
abbrev S3136x64 : Shape := ⟨2, ![3136, 64]⟩
abbrev S58x56x64 : Shape := ⟨3, ![58, 56, 64]⟩
abbrev S1x64x64 : Shape := ⟨3, ![1, 64, 64]⟩
abbrev S64x64 : Shape := ⟨2, ![64, 64]⟩
abbrev S16x3136x256 : Shape := ⟨3, ![16, 3136, 256]⟩
abbrev S16x3136x64 : Shape := ⟨3, ![16, 3136, 64]⟩
abbrev S1x256 : Shape := ⟨2, ![1, 256]⟩
abbrev S1x3136x64 : Shape := ⟨3, ![1, 3136, 64]⟩
abbrev S1x3136x256 : Shape := ⟨3, ![1, 3136, 256]⟩
abbrev S3136x256 : Shape := ⟨2, ![3136, 256]⟩
abbrev S1x16 : Shape := ⟨2, ![1, 16]⟩
abbrev S1x1x256 : Shape := ⟨3, ![1, 1, 256]⟩

abbrev nBuf : Space → Nat
  | .hbm => 34
  | .vmem => 26
  | .smem => 0
  | _ => 0

abbrev bufTy : (tb : Table) → Fin (tcTables nBuf tb) → BufTy
  | .hbm, ⟨0, _⟩ => ⟨S16x256x56x56, .f32⟩
  | .hbm, ⟨1, _⟩ => ⟨S64x256, .f32⟩
  | .hbm, ⟨2, _⟩ => ⟨S64x64x3x3, .f32⟩
  | .hbm, ⟨3, _⟩ => ⟨S256x64, .f32⟩
  | .hbm, ⟨4, _⟩ => ⟨S16x256, .f32⟩
  | .hbm, ⟨5, _⟩ => ⟨S256x16, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S256, .f32⟩
  | .hbm, ⟨11, _⟩ => ⟨S256, .f32⟩
  | .hbm, ⟨12, _⟩ => ⟨S16x56x56x256, .f32⟩
  | .hbm, ⟨13, _⟩ => ⟨S50176x256, .f32⟩
  | .hbm, ⟨14, _⟩ => ⟨S256x64, .f32⟩
  | .hbm, ⟨15, _⟩ => ⟨S1x64, .f32⟩
  | .hbm, ⟨16, _⟩ => ⟨S1x64, .f32⟩
  | .hbm, ⟨17, _⟩ => ⟨S50176x64, .f32⟩
  | .hbm, ⟨18, _⟩ => ⟨S16x56x56x64, .f32⟩
  | .hbm, ⟨19, _⟩ => ⟨S3x3x64x64, .f32⟩
  | .hbm, ⟨20, _⟩ => ⟨S9x64x64, .f32⟩
  | .hbm, ⟨21, _⟩ => ⟨S1x64, .f32⟩
  | .hbm, ⟨22, _⟩ => ⟨S1x64, .f32⟩
  | .hbm, ⟨23, _⟩ => ⟨S16x56x56x64, .f32⟩
  | .hbm, ⟨24, _⟩ => ⟨S16x3136x256, .f32⟩
  | .hbm, ⟨25, _⟩ => ⟨S16x3136x64, .f32⟩
  | .hbm, ⟨26, _⟩ => ⟨S64x256, .f32⟩
  | .hbm, ⟨27, _⟩ => ⟨S256x16, .f32⟩
  | .hbm, ⟨28, _⟩ => ⟨S16x256, .f32⟩
  | .hbm, ⟨29, _⟩ => ⟨S1x256, .f32⟩
  | .hbm, ⟨30, _⟩ => ⟨S1x256, .f32⟩
  | .hbm, ⟨31, _⟩ => ⟨S16x3136x256, .f32⟩
  | .hbm, ⟨32, _⟩ => ⟨S16x56x56x256, .f32⟩
  | .hbm, ⟨33, _⟩ => ⟨S16x256x56x56, .f32⟩
  | .local _ .vmem, ⟨0, _⟩ => ⟨S3272x256, .f32⟩
  | .local _ .vmem, ⟨1, _⟩ => ⟨S3272x256, .f32⟩
  | .local _ .vmem, ⟨2, _⟩ => ⟨S256x64, .f32⟩
  | .local _ .vmem, ⟨3, _⟩ => ⟨S1x64, .f32⟩
  | .local _ .vmem, ⟨4, _⟩ => ⟨S1x64, .f32⟩
  | .local _ .vmem, ⟨5, _⟩ => ⟨S3272x64, .f32⟩
  | .local _ .vmem, ⟨6, _⟩ => ⟨S3272x64, .f32⟩
  | .local _ .vmem, ⟨7, _⟩ => ⟨S1x56x56x64, .f32⟩
  | .local _ .vmem, ⟨8, _⟩ => ⟨S1x56x56x64, .f32⟩
  | .local _ .vmem, ⟨9, _⟩ => ⟨S9x64x64, .f32⟩
  | .local _ .vmem, ⟨10, _⟩ => ⟨S1x64, .f32⟩
  | .local _ .vmem, ⟨11, _⟩ => ⟨S1x64, .f32⟩
  | .local _ .vmem, ⟨12, _⟩ => ⟨S1x56x56x64, .f32⟩
  | .local _ .vmem, ⟨13, _⟩ => ⟨S1x56x56x64, .f32⟩
  | .local _ .vmem, ⟨14, _⟩ => ⟨S58x58x64, .f32⟩
  | .local _ .vmem, ⟨15, _⟩ => ⟨S1x3136x64, .f32⟩
  | .local _ .vmem, ⟨16, _⟩ => ⟨S1x3136x64, .f32⟩
  | .local _ .vmem, ⟨17, _⟩ => ⟨S1x3136x256, .f32⟩
  | .local _ .vmem, ⟨18, _⟩ => ⟨S1x3136x256, .f32⟩
  | .local _ .vmem, ⟨19, _⟩ => ⟨S64x256, .f32⟩
  | .local _ .vmem, ⟨20, _⟩ => ⟨S1x256, .f32⟩
  | .local _ .vmem, ⟨21, _⟩ => ⟨S1x256, .f32⟩
  | .local _ .vmem, ⟨22, _⟩ => ⟨S256x16, .f32⟩
  | .local _ .vmem, ⟨23, _⟩ => ⟨S16x256, .f32⟩
  | .local _ .vmem, ⟨24, _⟩ => ⟨S1x3136x256, .f32⟩
  | .local _ .vmem, ⟨25, _⟩ => ⟨S1x3136x256, .f32⟩
  | _, _ => ⟨S16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3272x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3272x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x56x56x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x56x56x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x3136x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x3136x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x3136x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S16x256x56x56_S16x56x56x256_0_2_3_1 : S16x256x56x56.Transposes [0, 2, 3, 1] S16x56x56x256
  shapeCasts_S16x56x56x256_S50176x256 : S16x56x56x256.ShapeCasts S50176x256
  transposes_S64x256_S256x64_1_0 : S64x256.Transposes [1, 0] S256x64
  shapeCasts_S64_S1x64 : S64.ShapeCasts S1x64
  inb_S3272x256_S3272x256_0_0 : ∀ a, (![0, 0] : Fin 2 → Nat) a + S3272x256.size a ≤ S3272x256.size a
  h_S3272x256 : 0 < S3272x256.numel
  shapeCasts_S3272x256_S3272x256 : S3272x256.ShapeCasts S3272x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3272x64 : S1x64.Broadcasts S3272x64
  inb_S3272x64_S3272x64_0_0 : ∀ a, (![0, 0] : Fin 2 → Nat) a + S3272x64.size a ≤ S3272x64.size a
  h_S3272x64 : 0 < S3272x64.numel
  shapeCasts_S50176x64_S16x56x56x64 : S50176x64.ShapeCasts S16x56x56x64
  transposes_S64x64x3x3_S3x3x64x64_2_3_1_0 : S64x64x3x3.Transposes [2, 3, 1, 0] S3x3x64x64
  shapeCasts_S3x3x64x64_S9x64x64 : S3x3x64x64.ShapeCasts S9x64x64
  inb_S58x58x64_S58x58x64_0_0_0 : ∀ a, (![0, 0, 0] : Fin 3 → Nat) a + S58x58x64.size a ≤ S58x58x64.size a
  h_S58x58x64 : 0 < S58x58x64.numel
  shapeCasts_S58x58x64_S58x58x64 : S58x58x64.ShapeCasts S58x58x64
  inb_S1x56x56x64_S1x56x56x64_0_0_0_0 : ∀ a, (![0, 0, 0, 0] : Fin 4 → Nat) a + S1x56x56x64.size a ≤ S1x56x56x64.size a
  h_S1x56x56x64 : 0 < S1x56x56x64.numel
  shapeCasts_S1x56x56x64_S56x56x64 : S1x56x56x64.ShapeCasts S56x56x64
  inb_S58x58x64_S56x56x64_1_1_0 : ∀ a, (![1, 1, 0] : Fin 3 → Nat) a + S56x56x64.size a ≤ S58x58x64.size a
  h_S56x56x64 : 0 < S56x56x64.numel
  shapeCasts_S56x56x64_S56x56x64 : S56x56x64.ShapeCasts S56x56x64
  inb_S58x58x64_S58x56x64_0_0_0 : ∀ a, (![0, 0, 0] : Fin 3 → Nat) a + S58x56x64.size a ≤ S58x58x64.size a
  h_S58x56x64 : 0 < S58x56x64.numel
  slices_S58x56x64_o0_0_0_S56x56x64 : S58x56x64.Slices ![0, 0, 0] S56x56x64
  shapeCasts_S56x56x64_S3136x64 : S56x56x64.ShapeCasts S3136x64
  inb_S9x64x64_S1x64x64_0_0_0 : ∀ a, (![0, 0, 0] : Fin 3 → Nat) a + S1x64x64.size a ≤ S9x64x64.size a
  h_S1x64x64 : 0 < S1x64x64.numel
  shapeCasts_S1x64x64_S64x64 : S1x64x64.ShapeCasts S64x64
  slices_S58x56x64_o1_0_0_S56x56x64 : S58x56x64.Slices ![1, 0, 0] S56x56x64
  inb_S9x64x64_S1x64x64_3_0_0 : ∀ a, (![3, 0, 0] : Fin 3 → Nat) a + S1x64x64.size a ≤ S9x64x64.size a
  slices_S58x56x64_o2_0_0_S56x56x64 : S58x56x64.Slices ![2, 0, 0] S56x56x64
  inb_S9x64x64_S1x64x64_6_0_0 : ∀ a, (![6, 0, 0] : Fin 3 → Nat) a + S1x64x64.size a ≤ S9x64x64.size a
  inb_S58x58x64_S58x56x64_0_1_0 : ∀ a, (![0, 1, 0] : Fin 3 → Nat) a + S58x56x64.size a ≤ S58x58x64.size a
  inb_S9x64x64_S1x64x64_1_0_0 : ∀ a, (![1, 0, 0] : Fin 3 → Nat) a + S1x64x64.size a ≤ S9x64x64.size a
  inb_S9x64x64_S1x64x64_4_0_0 : ∀ a, (![4, 0, 0] : Fin 3 → Nat) a + S1x64x64.size a ≤ S9x64x64.size a
  inb_S9x64x64_S1x64x64_7_0_0 : ∀ a, (![7, 0, 0] : Fin 3 → Nat) a + S1x64x64.size a ≤ S9x64x64.size a
  inb_S58x58x64_S58x56x64_0_2_0 : ∀ a, (![0, 2, 0] : Fin 3 → Nat) a + S58x56x64.size a ≤ S58x58x64.size a
  inb_S9x64x64_S1x64x64_2_0_0 : ∀ a, (![2, 0, 0] : Fin 3 → Nat) a + S1x64x64.size a ≤ S9x64x64.size a
  inb_S9x64x64_S1x64x64_5_0_0 : ∀ a, (![5, 0, 0] : Fin 3 → Nat) a + S1x64x64.size a ≤ S9x64x64.size a
  inb_S9x64x64_S1x64x64_8_0_0 : ∀ a, (![8, 0, 0] : Fin 3 → Nat) a + S1x64x64.size a ≤ S9x64x64.size a
  broadcasts_S1x64_S3136x64 : S1x64.Broadcasts S3136x64
  shapeCasts_S3136x64_S1x56x56x64 : S3136x64.ShapeCasts S1x56x56x64
  shapeCasts_S16x56x56x256_S16x3136x256 : S16x56x56x256.ShapeCasts S16x3136x256
  shapeCasts_S16x56x56x64_S16x3136x64 : S16x56x56x64.ShapeCasts S16x3136x64
  transposes_S256x64_S64x256_1_0 : S256x64.Transposes [1, 0] S64x256
  transposes_S16x256_S256x16_1_0 : S16x256.Transposes [1, 0] S256x16
  transposes_S256x16_S16x256_1_0 : S256x16.Transposes [1, 0] S16x256
  shapeCasts_S256_S1x256 : S256.ShapeCasts S1x256
  inb_S1x3136x64_S1x3136x64_0_0_0 : ∀ a, (![0, 0, 0] : Fin 3 → Nat) a + S1x3136x64.size a ≤ S1x3136x64.size a
  h_S1x3136x64 : 0 < S1x3136x64.numel
  shapeCasts_S1x3136x64_S1x3136x64 : S1x3136x64.ShapeCasts S1x3136x64
  shapeCasts_S1x3136x64_S3136x64 : S1x3136x64.ShapeCasts S3136x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3136x256 : S1x256.Broadcasts S3136x256
  shapeCasts_S3136x256_S1x3136x256 : S3136x256.ShapeCasts S1x3136x256
  reduces_S1x3136x256_S1x256 : S1x3136x256.Reduces [1] S1x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S1x256_S1x1x256 : S1x256.ShapeCasts S1x1x256
  broadcasts_S1x1x256_S1x3136x256 : S1x1x256.Broadcasts S1x3136x256
  inb_S1x3136x256_S1x3136x256_0_0_0 : ∀ a, (![0, 0, 0] : Fin 3 → Nat) a + S1x3136x256.size a ≤ S1x3136x256.size a
  h_S1x3136x256 : 0 < S1x3136x256.numel
  shapeCasts_S1x3136x256_S1x3136x256 : S1x3136x256.ShapeCasts S1x3136x256
  shapeCasts_S16x3136x256_S16x56x56x256 : S16x3136x256.ShapeCasts S16x56x56x256
  transposes_S16x56x56x256_S16x256x56x56_0_3_1_2 : S16x56x56x256.Transposes [0, 3, 1, 2] S16x256x56x56
  dot_S3272x256_S256x64_S3272x64_1_0_0_1_n_n_wf : DotDims.WF S3272x256 S256x64 S3272x64 [1] [0] [0] [1] [] []
  dot_S3136x64_S64x64_S3136x64_1_0_0_1_n_n_wf : DotDims.WF S3136x64 S64x64 S3136x64 [1] [0] [0] [1] [] []
  dot_S3136x64_S64x256_S3136x256_1_0_0_1_n_n_wf : DotDims.WF S3136x64 S64x256 S3136x256 [1] [0] [0] [1] [] []
  dot_S1x256_S256x16_S1x16_1_0_0_1_n_n_wf : DotDims.WF S1x256 S256x16 S1x16 [1] [0] [0] [1] [] []
  dot_S1x16_S16x256_S1x256_1_0_0_1_n_n_wf : DotDims.WF S1x16 S16x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3272x256.size a < S50176x256.size a
  hwx0_0 : ∀ i : grid0.Coords, EltTy.bits .f32 = 32 ∨ (Rect.unit (s := S50176x256) (fun a => cc0_transform_0 i a * S3272x256.size a) (fun a => (Pipeline.Clip.of (cc0_transform_0 i a) (S3272x256.size a) (S50176x256.size a)).extent (S3272x256.size a)) fun a => Pipeline.Clip.inb (Pipeline.Clip.ok_of (hstart0_0 i a))).WholeWords (EltTy.packing .f32)
  hwxs0_0 : ∀ i : grid0.Coords, EltTy.bits .f32 = 32 ∨ (Rect.unit (s := S3272x256) (fun _ => 0) (fun a => (Pipeline.Clip.of (cc0_transform_0 i a) (S3272x256.size a) (S50176x256.size a)).extent (S3272x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S3272x64.size a < S50176x64.size a
  hwx0_4 : ∀ i : grid0.Coords, EltTy.bits .f32 = 32 ∨ (Rect.unit (s := S50176x64) (fun a => cc0_transform_4 i a * S3272x64.size a) (fun a => (Pipeline.Clip.of (cc0_transform_4 i a) (S3272x64.size a) (S50176x64.size a)).extent (S3272x64.size a)) fun a => Pipeline.Clip.inb (Pipeline.Clip.ok_of (hstart0_4 i a))).WholeWords (EltTy.packing .f32)
  hwxs0_4 : ∀ i : grid0.Coords, EltTy.bits .f32 = 32 ∨ (Rect.unit (s := S3272x64) (fun _ => 0) (fun a => (Pipeline.Clip.of (cc0_transform_4 i a) (S3272x64.size a) (S50176x64.size a)).extent (S3272x64.size a)) fun a => (Nat.zero_add _).trans_le (Pipeline.Clip.extent_le (Pipeline.Clip.ok_of (hstart0_4 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x56x56x64.size a ≤ S16x56x56x64.size a
  hwx1_0 : ∀ i : grid1.Coords, EltTy.bits .f32 = 32 ∨ (Rect.block (s := S16x56x56x64) S1x56x56x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x64x64.size a ≤ S9x64x64.size a
  hwx1_1 : ∀ i : grid1.Coords, EltTy.bits .f32 = 32 ∨ (Rect.block (s := S9x64x64) S9x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x56x56x64.size a ≤ S16x56x56x64.size a
  hwx1_4 : ∀ i : grid1.Coords, EltTy.bits .f32 = 32 ∨ (Rect.block (s := S16x56x56x64) S1x56x56x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x3136x64.size a ≤ S16x3136x64.size a
  hwx2_0 : ∀ i : grid2.Coords, EltTy.bits .f32 = 32 ∨ (Rect.block (s := S16x3136x64) S1x3136x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x3136x256.size a ≤ S16x3136x256.size a
  hwx2_1 : ∀ i : grid2.Coords, EltTy.bits .f32 = 32 ∨ (Rect.block (s := S16x3136x256) S1x3136x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .f32 = 32 ∨ (Rect.block (s := S64x256) S64x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x16.size a ≤ S256x16.size a
  hwx2_5 : ∀ i : grid2.Coords, EltTy.bits .f32 = 32 ∨ (Rect.block (s := S256x16) S256x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x256.size a ≤ S16x256.size a
  hwx2_6 : ∀ i : grid2.Coords, EltTy.bits .f32 = 32 ∨ (Rect.block (s := S16x256) S16x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x3136x256.size a ≤ S16x3136x256.size a
  hwx2_7 : ∀ i : grid2.Coords, EltTy.bits .f32 = 32 ∨ (Rect.block (s := S16x3136x256) S1x3136x256.size (cc2_transform_7 i) (hinb2_7 i)).WholeWords (EltTy.packing .f32)

variable [Facts₀]

def dot_S3272x256_S256x64_S3272x64_1_0_0_1_n_n : DotDims S3272x256 S256x64 S3272x64 where
  lhsContracting := [1]
  rhsContracting := [0]
  lhsNonContracting := [0]
  rhsNonContracting := [1]
  lhsBatch := []
  rhsBatch := []
  wf := dot_S3272x256_S256x64_S3272x64_1_0_0_1_n_n_wf
def dot_S3136x64_S64x64_S3136x64_1_0_0_1_n_n : DotDims S3136x64 S64x64 S3136x64 where
  lhsContracting := [1]
  rhsContracting := [0]
  lhsNonContracting := [0]
  rhsNonContracting := [1]
  lhsBatch := []
  rhsBatch := []
  wf := dot_S3136x64_S64x64_S3136x64_1_0_0_1_n_n_wf
def dot_S3136x64_S64x256_S3136x256_1_0_0_1_n_n : DotDims S3136x64 S64x256 S3136x256 where
  lhsContracting := [1]
  rhsContracting := [0]
  lhsNonContracting := [0]
  rhsNonContracting := [1]
  lhsBatch := []
  rhsBatch := []
  wf := dot_S3136x64_S64x256_S3136x256_1_0_0_1_n_n_wf
def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf

abbrev win0_0 : Pipeline.Window sig grid0 :=
  Pipeline.Window.ofSpecClip (Memref.whole main_v1) S3272x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v5) S3272x64.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S1x56x56x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S9x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x56x56x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S1x3136x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x3136x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S64x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S256x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S16x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S1x3136x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== Proof.KBodyDefs.lean ====
import proofs.«108509_g2000006651879042_pallasbulk_171_5_alg».proof.Proof.Gen.Kernel.Skeleton
import Idealize.ShloMosaic.Lib.Pipeline.FrameBody
import Idealize.ShloMosaic.Lib.Pipeline.Value

set_option maxRecDepth 16384

noncomputable section

namespace Cert.Kernel.Body

open Cert.Kernel Cert.Kernel.Gen
open Cert.Kernel.Facts₀ Cert.Kernel.Facts
open Idealize.ShloMosaic Idealize.SL.Sem

variable {F : FTy → Type} [FloatOps F]

/-! ## The rectangles of the padded scratch

The scratch is a 58 × 58 × 64 buffer: a 56 × 56 image of 64 channels with a one-pixel border. The body fills it
whole with zeros (`rW`), then stores the image into its interior by rewriting the rows 1 … 56 at all 58 columns
(`rS`: those rows as they are, with the columns 1 … 56 replaced), and then reads three column windows of 56
columns at column offsets 0, 1, 2 (`rL0`, `rL1`, `rL2`), all 58 rows each. -/

/-- The whole scratch. -/
abbrev rW : Rect S58x58x64 := Rect.unit (s := S58x58x64) ![0, 0, 0] S58x58x64.size Facts₀.inb_S58x58x64_S58x58x64_0_0_0
/-- Rows 1 … 56, every column. -/
abbrev rS : Rect S58x58x64 := Rect.unit (s := S58x58x64) ![1, 0, 0] S56x58x64.size Facts₀.inb_S58x58x64_S56x58x64_1_0_0
/-- Columns 0 … 55, every row. -/
abbrev rL0 : Rect S58x58x64 := Rect.unit (s := S58x58x64) ![0, 0, 0] S58x56x64.size Facts₀.inb_S58x58x64_S58x56x64_0_0_0
/-- Columns 1 … 56, every row. -/
abbrev rL1 : Rect S58x58x64 := Rect.unit (s := S58x58x64) ![0, 1, 0] S58x56x64.size Facts₀.inb_S58x58x64_S58x56x64_0_1_0
/-- Columns 2 … 57, every row. -/
abbrev rL2 : Rect S58x58x64 := Rect.unit (s := S58x58x64) ![0, 2, 0] S58x56x64.size Facts₀.inb_S58x58x64_S58x56x64_0_2_0

/-- The three 192 × 64 slices of the grouped 3 × 3 weights. -/
abbrev rK0 : Rect S3x192x64 := Rect.unit (s := S3x192x64) ![0, 0, 0] S1x192x64.size Facts₀.inb_S3x192x64_S1x192x64_0_0_0
abbrev rK1 : Rect S3x192x64 := Rect.unit (s := S3x192x64) ![1, 0, 0] S1x192x64.size Facts₀.inb_S3x192x64_S1x192x64_1_0_0
abbrev rK2 : Rect S3x192x64 := Rect.unit (s := S3x192x64) ![2, 0, 0] S1x192x64.size Facts₀.inb_S3x192x64_S1x192x64_2_0_0

/-! ## The padded image -/

/-- Rows 1 … 56 of the zero-filled scratch, as the interior store finds them before rewriting them. -/
def oldRows : Vec F S56x58x64 .bf16 := fun j => View.canon [(⟨rW, k0_pay3 (F := F)⟩ : View.Piece (Elt F) S58x58x64 .bf16)] (rS.toLoadRect.idx j)

/-- The scratch's two stores, last first: the rows 1 … 56 with the image `h1` at the columns 1 … 56, over the zero fill. -/
def padL (h1 : FVec F S56x56x64 .bf16) : List (View.Piece (Elt F) S58x58x64 .bf16) :=
  [⟨rS, updateSlice (oldRows (F := F)) h1 ![0, 1, 0] Facts₀.slices_S56x58x64_S56x56x64_0_1_0⟩, ⟨rW, k0_pay3 (F := F)⟩]

/-- What the scratch holds after its two stores: the image `h1` with a one-pixel zero border. -/
def pad (h1 : FVec F S56x56x64 .bf16) : S58x58x64.Idx → Elt F .bf16 := View.canon (padL h1)

/-- The column windows of the padded image the 3 × 3 convolution reads: 56 columns from column 0, 1, 2. -/
def tap0 (h1 : FVec F S56x56x64 .bf16) : Vec F S58x56x64 .bf16 := fun j => View.canon (padL h1) (rL0.toLoadRect.idx j)
def tap1 (h1 : FVec F S56x56x64 .bf16) : Vec F S58x56x64 .bf16 := fun j => View.canon (padL h1) (rL1.toLoadRect.idx j)
def tap2 (h1 : FVec F S56x56x64 .bf16) : Vec F S58x56x64 .bf16 := fun j => View.canon (padL h1) (rL2.toLoadRect.idx j)

/-! ## What the body stores -/

/-- The block the body stores into the output window's buffer, of the blocks it loads from the nine input windows:
    the first 1 × 1 convolution's activation `h1` (`k0_pay4`), padded; the three grouped taps of the 3 × 3
    convolution accumulated, biased and clamped, the last 1 × 1 convolution (`k0_pay7`) with its bias
    (`k0_pay8`); the gate, the residual and the final clamp (`k0_pay1`). -/
def outBlk (x : Vec F S1x256x3136 .f32) (w1 : Vec F S256x64 .bf16) (b1 : Vec F S1x64 .f32) (w2 : Vec F S3x192x64 .bf16)
    (b2 : Vec F S1x64 .f32) (w3 : Vec F S256x64 .bf16) (b3 : Vec F S256x1 .f32) (fc1 : Vec F S16x256 .f32)
    (fc2 : Vec F S256x16 .f32) : Vec F S1x256x3136 .f32 :=
  k0_pay1 (k0_pay2 x)
    (k0_pay7 (k0_pay5 (F := F)) (k0_pay6 (tap0 (k0_pay4 x w1 b1)) (View.ld w2 rK0))
      (tap1 (k0_pay4 x w1 b1)) (View.ld w2 rK1) (tap2 (k0_pay4 x w1 b1)) (View.ld w2 rK2) b2 w3)
    (k0_pay8 b3) fc1 fc2

end Cert.Kernel.Body

end
-- ==== Proof.KBodyRun.lean ====
import proofs.«108509_g2000006651879042_pallasbulk_171_5_alg».proof.Proof.Gen.Kernel.Skeleton
import proofs.«108509_g2000006651879042_pallasbulk_171_5_alg».proof.Proof.KBodyDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Zero offsets, however many axes, are the constant zero function. -/
theorem off3_zero : (![0, 0, 0] : Fin 3 → Nat) = fun _ => 0 := by funext a; fin_cases a <;> rfl
theorem off2_zero : (![0, 0] : Fin 2 → Nat) = fun _ => 0 := by funext a; fin_cases a <;> rfl

set_option maxHeartbeats 4000000 in
/-- The kernel body on whole staging memrefs — the nine inputs' at read contents `x0 … x8`, the output's and the
    scratch at anything — runs to the continuation holding the inputs' as they were, the output's at `outBlk` of the
    inputs' and the scratch at something. The scratch is loaded whole before anything is stored into it (the value
    is not used), zero-filled, rewritten on the rows 1 … 56, and read back through three column windows, each a read
    of the two stores alone. -/
theorem sound_kernel (c : Dev nD) (E : Set ℕ) (i : grid0.Coords) (arg1 : Memref sig .tc .vmem S1x256x3136 .f32) (harg1 : arg1.IsWhole) (arg2 : Memref sig .tc .vmem S256x64 .bf16) (harg2 : arg2.IsWhole) (arg3 : Memref sig .tc .vmem S1x64 .f32) (harg3 : arg3.IsWhole) (arg4 : Memref sig .tc .vmem S3x192x64 .bf16) (harg4 : arg4.IsWhole) (arg5 : Memref sig .tc .vmem S1x64 .f32) (harg5 : arg5.IsWhole) (arg6 : Memref sig .tc .vmem S256x64 .bf16) (harg6 : arg6.IsWhole) (arg7 : Memref sig .tc .vmem S256x1 .f32) (harg7 : arg7.IsWhole) (arg8 : Memref sig .tc .vmem S16x256 .f32) (harg8 : arg8.IsWhole) (arg9 : Memref sig .tc .vmem S256x16 .f32) (harg9 : arg9.IsWhole) (arg10 : Memref sig .tc .vmem S1x256x3136 .f32) (harg10 : arg10.IsWhole) (arg11 : Memref sig .tc .vmem S58x58x64 .bf16) (harg11 : arg11.IsWhole)
    (x0 : Vec F S1x256x3136 .f32) (x1 : Vec F S256x64 .bf16) (x2 : Vec F S1x64 .f32) (x3 : Vec F S3x192x64 .bf16) (x4 : Vec F S1x64 .f32) (x5 : Vec F S256x64 .bf16) (x6 : Vec F S256x1 .f32) (x7 : Vec F S16x256 .f32) (x8 : Vec F S256x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8) ∗ (∃ d, owns (c : Thread nD τ) arg11 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (fun y => ⟨_, List.mem_singleton_self _,
      View.mem_set_unit_zero off3_zero Facts₀.inb_S1x256x3136_S1x256x3136_0_0_0 y⟩)).trans ?_
    rw [View.canon_unit_zero off3_zero]
    have e0 : View.readAt (Elt F) arg1.view (Rect.unit (s := S1x256x3136) ![0, 0, 0] S1x256x3136.size Facts₀.inb_S1x256x3136_S1x256x3136_0_0_0).toLoadRect f0 = arg1.view.read (Elt F) f0 :=
      View.ld_unit_zero off3_zero _ _
    have e1 : View.readAt (Elt F) arg2.view (Rect.unit (s := S256x64) ![0, 0] S256x64.size Facts₀.inb_S256x64_S256x64_0_0).toLoadRect f1 = arg2.view.read (Elt F) f1 :=
      View.ld_unit_zero off2_zero _ _
    have e2 : View.readAt (Elt F) arg3.view (Rect.unit (s := S1x64) ![0, 0] S1x64.size Facts₀.inb_S1x64_S1x64_0_0).toLoadRect f2 = arg3.view.read (Elt F) f2 :=
      View.ld_unit_zero off2_zero _ _
    have e4 : View.readAt (Elt F) arg5.view (Rect.unit (s := S1x64) ![0, 0] S1x64.size Facts₀.inb_S1x64_S1x64_0_0).toLoadRect f4 = arg5.view.read (Elt F) f4 :=
      View.ld_unit_zero off2_zero _ _
    have e5 : View.readAt (Elt F) arg6.view (Rect.unit (s := S256x64) ![0, 0] S256x64.size Facts₀.inb_S256x64_S256x64_0_0).toLoadRect f5 = arg6.view.read (Elt F) f5 :=
      View.ld_unit_zero off2_zero _ _
    have e6 : View.readAt (Elt F) arg7.view (Rect.unit (s := S256x1) ![0, 0] S256x1.size Facts₀.inb_S256x1_S256x1_0_0).toLoadRect f6 = arg7.view.read (Elt F) f6 :=
      View.ld_unit_zero off2_zero _ _
    have e7 : View.readAt (Elt F) arg8.view (Rect.unit (s := S16x256) ![0, 0] S16x256.size Facts₀.inb_S16x256_S16x256_0_0).toLoadRect f7 = arg8.view.read (Elt F) f7 :=
      View.ld_unit_zero off2_zero _ _
    have e8 : View.readAt (Elt F) arg9.view (Rect.unit (s := S256x16) ![0, 0] S256x16.size Facts₀.inb_S256x16_S256x16_0_0).toLoadRect f8 = arg9.view.read (Elt F) f8 :=
      View.ld_unit_zero off2_zero _ _
    rw [e0, e1, e2, e4, e5, e6, e7, e8]
    simp only [View.readCov_eq_canon']
    rfl
  iexists _; iexists _; isplitr
  swap; · iexact H10
  ipureintro; rfl

end Cert.Kernel.Body

end
-- ==== Proof.KBody.lean ====
import proofs.«108509_g2000006651879042_pallasbulk_171_5_alg».proof.Proof.Gen.Kernel.Frame
import proofs.«108509_g2000006651879042_pallasbulk_171_5_alg».proof.Proof.Gen.Kernel.Skeleton
import proofs.«108509_g2000006651879042_pallasbulk_171_5_alg».proof.Proof.KBodyDefs
import proofs.«108509_g2000006651879042_pallasbulk_171_5_alg».proof.Proof.KBodyRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point
    `t` each input's buffer at its block and the output's at `outBlk` of the nine input blocks; the invariant the
    scoped rest (the padded scratch, at anything: every point fills it whole before reading it) and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body obligation, at a generic point -/

/-- The scratch operand: a whole scoped buffer of the kernel's own. -/
abbrev scM : Memref sig .tc .vmem S58x58x64 .bf16 := Memref.whole cc0_scratch0

/-- The invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' memrefs hold their blocks, so the body's triple applies; the invariant lends
    the scratch at whatever it holds and takes it back at whatever the body leaves in it; the generator register and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and its twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Body

end
-- ==== Proof.KBodyFrame.lean ====
import proofs.«108509_g2000006651879042_pallasbulk_171_5_alg».proof.Defs
import proofs.«108509_g2000006651879042_pallasbulk_171_5_alg».proof.Proof.Gen.Pre_finite_inputs
import proofs.«108509_g2000006651879042_pallasbulk_171_5_alg».proof.Proof.KBody

noncomputable section

namespace Cert.Kernel.Body

open Idealize.ShloMosaic Idealize.SL.Sem

/-- The frame conjunct of the claim for this program: it terminates without a fault, whatever the launch memory, and
    its twelve argument arrays end as launched (the precondition is not needed). -/
theorem frame_k : Cert.frame_Kernel (hKernel := Cert.Kernel.Gen.facts) (hPre_finite_inputs := Cert.Pre_finite_inputs.Gen.facts) :=
  fun m ρ _ => Cert.Kernel.Gen.frame_of m ρ (dats m) (A_eq m) (run_main (F := Bits) m ρ)

end Cert.Kernel.Body

end
-- ==== Proof.KIBodyDefs.lean ====
import proofs.«108509_g2000006651879042_pallasbulk_171_5_alg».proof.Proof.Gen.KernelIdeal.Skeleton
import Idealize.ShloMosaic.Lib.Pipeline.FrameBody
import Idealize.ShloMosaic.Lib.Pipeline.Value

set_option maxRecDepth 16384

noncomputable section

namespace Cert.KernelIdeal.Body

open Cert.KernelIdeal Cert.KernelIdeal.Gen
open Cert.KernelIdeal.Facts₀ Cert.KernelIdeal.Facts
open Idealize.ShloMosaic Idealize.SL.Sem

variable {F : FTy → Type} [FloatOps F]

/-! ## The rectangles of the padded scratch

The scratch is a 58 × 58 × 64 buffer: a 56 × 56 image of 64 channels with a one-pixel border. The body fills it
whole with zeros (`rW`), then stores the image into its interior by rewriting the rows 1 … 56 at all 58 columns
(`rS`: those rows as they are, with the columns 1 … 56 replaced), and then reads three column windows of 56
columns at column offsets 0, 1, 2 (`rL0`, `rL1`, `rL2`), all 58 rows each. -/

/-- The whole scratch. -/
abbrev rW : Rect S58x58x64 := Rect.unit (s := S58x58x64) ![0, 0, 0] S58x58x64.size Facts₀.inb_S58x58x64_S58x58x64_0_0_0
/-- Rows 1 … 56, every column. -/
abbrev rS : Rect S58x58x64 := Rect.unit (s := S58x58x64) ![1, 0, 0] S56x58x64.size Facts₀.inb_S58x58x64_S56x58x64_1_0_0
/-- Columns 0 … 55, every row. -/
abbrev rL0 : Rect S58x58x64 := Rect.unit (s := S58x58x64) ![0, 0, 0] S58x56x64.size Facts₀.inb_S58x58x64_S58x56x64_0_0_0
/-- Columns 1 … 56, every row. -/
abbrev rL1 : Rect S58x58x64 := Rect.unit (s := S58x58x64) ![0, 1, 0] S58x56x64.size Facts₀.inb_S58x58x64_S58x56x64_0_1_0
/-- Columns 2 … 57, every row. -/
abbrev rL2 : Rect S58x58x64 := Rect.unit (s := S58x58x64) ![0, 2, 0] S58x56x64.size Facts₀.inb_S58x58x64_S58x56x64_0_2_0

/-- The three 192 × 64 slices of the grouped 3 × 3 weights. -/
abbrev rK0 : Rect S3x192x64 := Rect.unit (s := S3x192x64) ![0, 0, 0] S1x192x64.size Facts₀.inb_S3x192x64_S1x192x64_0_0_0
abbrev rK1 : Rect S3x192x64 := Rect.unit (s := S3x192x64) ![1, 0, 0] S1x192x64.size Facts₀.inb_S3x192x64_S1x192x64_1_0_0
abbrev rK2 : Rect S3x192x64 := Rect.unit (s := S3x192x64) ![2, 0, 0] S1x192x64.size Facts₀.inb_S3x192x64_S1x192x64_2_0_0

/-! ## The padded image -/

/-- Rows 1 … 56 of the zero-filled scratch, as the interior store finds them before rewriting them. -/
def oldRows : Vec F S56x58x64 .bf16 := fun j => View.canon [(⟨rW, k0_pay3 (F := F)⟩ : View.Piece (Elt F) S58x58x64 .bf16)] (rS.toLoadRect.idx j)

/-- The scratch's two stores, last first: the rows 1 … 56 with the image `h1` at the columns 1 … 56, over the zero fill. -/
def padL (h1 : FVec F S56x56x64 .bf16) : List (View.Piece (Elt F) S58x58x64 .bf16) :=
  [⟨rS, updateSlice (oldRows (F := F)) h1 ![0, 1, 0] Facts₀.slices_S56x58x64_S56x56x64_0_1_0⟩, ⟨rW, k0_pay3 (F := F)⟩]

/-- What the scratch holds after its two stores: the image `h1` with a one-pixel zero border. -/
def pad (h1 : FVec F S56x56x64 .bf16) : S58x58x64.Idx → Elt F .bf16 := View.canon (padL h1)

/-- The column windows of the padded image the 3 × 3 convolution reads: 56 columns from column 0, 1, 2. -/
def tap0 (h1 : FVec F S56x56x64 .bf16) : Vec F S58x56x64 .bf16 := fun j => View.canon (padL h1) (rL0.toLoadRect.idx j)
def tap1 (h1 : FVec F S56x56x64 .bf16) : Vec F S58x56x64 .bf16 := fun j => View.canon (padL h1) (rL1.toLoadRect.idx j)
def tap2 (h1 : FVec F S56x56x64 .bf16) : Vec F S58x56x64 .bf16 := fun j => View.canon (padL h1) (rL2.toLoadRect.idx j)

/-! ## What the body stores -/

/-- The block the body stores into the output window's buffer, of the blocks it loads from the nine input windows:
    the first 1 × 1 convolution's activation `h1` (`k0_pay4`), padded; the three grouped taps of the 3 × 3
    convolution accumulated, biased and clamped, the last 1 × 1 convolution (`k0_pay7`) with its bias
    (`k0_pay8`); the gate, the residual and the final clamp (`k0_pay1`). -/
def outBlk (x : Vec F S1x256x3136 .f32) (w1 : Vec F S256x64 .bf16) (b1 : Vec F S1x64 .f32) (w2 : Vec F S3x192x64 .bf16)
    (b2 : Vec F S1x64 .f32) (w3 : Vec F S256x64 .bf16) (b3 : Vec F S256x1 .f32) (fc1 : Vec F S16x256 .f32)
    (fc2 : Vec F S256x16 .f32) : Vec F S1x256x3136 .f32 :=
  k0_pay1 (k0_pay2 x)
    (k0_pay7 (k0_pay5 (F := F)) (k0_pay6 (tap0 (k0_pay4 x w1 b1)) (View.ld w2 rK0))
      (tap1 (k0_pay4 x w1 b1)) (View.ld w2 rK1) (tap2 (k0_pay4 x w1 b1)) (View.ld w2 rK2) b2 w3)
    (k0_pay8 b3) fc1 fc2

end Cert.KernelIdeal.Body

end
-- ==== Proof.KIBodyRun.lean ====
import proofs.«108509_g2000006651879042_pallasbulk_171_5_alg».proof.Proof.Gen.KernelIdeal.Skeleton
import proofs.«108509_g2000006651879042_pallasbulk_171_5_alg».proof.Proof.KIBodyDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Zero offsets, however many axes, are the constant zero function. -/
theorem off3_zero : (![0, 0, 0] : Fin 3 → Nat) = fun _ => 0 := by funext a; fin_cases a <;> rfl
theorem off2_zero : (![0, 0] : Fin 2 → Nat) = fun _ => 0 := by funext a; fin_cases a <;> rfl

set_option maxHeartbeats 4000000 in
/-- The kernel body on whole staging memrefs — the nine inputs' at read contents `x0 … x8`, the output's and the
    scratch at anything — runs to the continuation holding the inputs' as they were, the output's at `outBlk` of the
    inputs' and the scratch at something. The scratch is loaded whole before anything is stored into it (the value
    is not used), zero-filled, rewritten on the rows 1 … 56, and read back through three column windows, each a read
    of the two stores alone. -/
theorem sound_kernel (c : Dev nD) (E : Set ℕ) (i : grid0.Coords) (arg1 : Memref sig .tc .vmem S1x256x3136 .f32) (harg1 : arg1.IsWhole) (arg2 : Memref sig .tc .vmem S256x64 .bf16) (harg2 : arg2.IsWhole) (arg3 : Memref sig .tc .vmem S1x64 .f32) (harg3 : arg3.IsWhole) (arg4 : Memref sig .tc .vmem S3x192x64 .bf16) (harg4 : arg4.IsWhole) (arg5 : Memref sig .tc .vmem S1x64 .f32) (harg5 : arg5.IsWhole) (arg6 : Memref sig .tc .vmem S256x64 .bf16) (harg6 : arg6.IsWhole) (arg7 : Memref sig .tc .vmem S256x1 .f32) (harg7 : arg7.IsWhole) (arg8 : Memref sig .tc .vmem S16x256 .f32) (harg8 : arg8.IsWhole) (arg9 : Memref sig .tc .vmem S256x16 .f32) (harg9 : arg9.IsWhole) (arg10 : Memref sig .tc .vmem S1x256x3136 .f32) (harg10 : arg10.IsWhole) (arg11 : Memref sig .tc .vmem S58x58x64 .bf16) (harg11 : arg11.IsWhole)
    (x0 : Vec F S1x256x3136 .f32) (x1 : Vec F S256x64 .bf16) (x2 : Vec F S1x64 .f32) (x3 : Vec F S3x192x64 .bf16) (x4 : Vec F S1x64 .f32) (x5 : Vec F S256x64 .bf16) (x6 : Vec F S256x1 .f32) (x7 : Vec F S16x256 .f32) (x8 : Vec F S256x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8) ∗ (∃ d, owns (c : Thread nD τ) arg11 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (fun y => ⟨_, List.mem_singleton_self _,
      View.mem_set_unit_zero off3_zero Facts₀.inb_S1x256x3136_S1x256x3136_0_0_0 y⟩)).trans ?_
    rw [View.canon_unit_zero off3_zero]
    have e0 : View.readAt (Elt F) arg1.view (Rect.unit (s := S1x256x3136) ![0, 0, 0] S1x256x3136.size Facts₀.inb_S1x256x3136_S1x256x3136_0_0_0).toLoadRect f0 = arg1.view.read (Elt F) f0 :=
      View.ld_unit_zero off3_zero _ _
    have e1 : View.readAt (Elt F) arg2.view (Rect.unit (s := S256x64) ![0, 0] S256x64.size Facts₀.inb_S256x64_S256x64_0_0).toLoadRect f1 = arg2.view.read (Elt F) f1 :=
      View.ld_unit_zero off2_zero _ _
    have e2 : View.readAt (Elt F) arg3.view (Rect.unit (s := S1x64) ![0, 0] S1x64.size Facts₀.inb_S1x64_S1x64_0_0).toLoadRect f2 = arg3.view.read (Elt F) f2 :=
      View.ld_unit_zero off2_zero _ _
    have e4 : View.readAt (Elt F) arg5.view (Rect.unit (s := S1x64) ![0, 0] S1x64.size Facts₀.inb_S1x64_S1x64_0_0).toLoadRect f4 = arg5.view.read (Elt F) f4 :=
      View.ld_unit_zero off2_zero _ _
    have e5 : View.readAt (Elt F) arg6.view (Rect.unit (s := S256x64) ![0, 0] S256x64.size Facts₀.inb_S256x64_S256x64_0_0).toLoadRect f5 = arg6.view.read (Elt F) f5 :=
      View.ld_unit_zero off2_zero _ _
    have e6 : View.readAt (Elt F) arg7.view (Rect.unit (s := S256x1) ![0, 0] S256x1.size Facts₀.inb_S256x1_S256x1_0_0).toLoadRect f6 = arg7.view.read (Elt F) f6 :=
      View.ld_unit_zero off2_zero _ _
    have e7 : View.readAt (Elt F) arg8.view (Rect.unit (s := S16x256) ![0, 0] S16x256.size Facts₀.inb_S16x256_S16x256_0_0).toLoadRect f7 = arg8.view.read (Elt F) f7 :=
      View.ld_unit_zero off2_zero _ _
    have e8 : View.readAt (Elt F) arg9.view (Rect.unit (s := S256x16) ![0, 0] S256x16.size Facts₀.inb_S256x16_S256x16_0_0).toLoadRect f8 = arg9.view.read (Elt F) f8 :=
      View.ld_unit_zero off2_zero _ _
    rw [e0, e1, e2, e4, e5, e6, e7, e8]
    simp only [View.readCov_eq_canon']
    rfl
  iexists _; iexists _; isplitr
  swap; · iexact H10
  ipureintro; rfl

end Cert.KernelIdeal.Body

end
-- ==== Proof.KIBody.lean ====
import proofs.«108509_g2000006651879042_pallasbulk_171_5_alg».proof.Proof.Gen.KernelIdeal.Frame
import proofs.«108509_g2000006651879042_pallasbulk_171_5_alg».proof.Proof.Gen.KernelIdeal.Skeleton
import proofs.«108509_g2000006651879042_pallasbulk_171_5_alg».proof.Proof.KIBodyDefs
import proofs.«108509_g2000006651879042_pallasbulk_171_5_alg».proof.Proof.KIBodyRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point
    `t` each input's buffer at its block and the output's at `outBlk` of the nine input blocks; the invariant the
    scoped rest (the padded scratch, at anything: every point fills it whole before reading it) and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body obligation, at a generic point -/

/-- The scratch operand: a whole scoped buffer of the kernel's own. -/
abbrev scM : Memref sig .tc .vmem S58x58x64 .bf16 := Memref.whole cc0_scratch0

/-- The invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' memrefs hold their blocks, so the body's triple applies; the invariant lends
    the scratch at whatever it holds and takes it back at whatever the body leaves in it; the generator register and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and its twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Body

end
-- ==== Proof.KIBodyFrame.lean ====
import proofs.«108509_g2000006651879042_pallasbulk_171_5_alg».proof.Defs
import proofs.«108509_g2000006651879042_pallasbulk_171_5_alg».proof.Proof.Gen.Pre_finite_inputs
import proofs.«108509_g2000006651879042_pallasbulk_171_5_alg».proof.Proof.KIBody

noncomputable section

namespace Cert.KernelIdeal.Body

open Idealize.ShloMosaic Idealize.SL.Sem

/-- The frame conjunct of the claim for this program: it terminates without a fault, whatever the launch memory, and
    its twelve argument arrays end as launched (the precondition is not needed). -/
theorem frame_ki : Cert.frame_KernelIdeal (hKernelIdeal := Cert.KernelIdeal.Gen.facts) (hPre_finite_inputs := Cert.Pre_finite_inputs.Gen.facts) :=
  fun m ρ _ => Cert.KernelIdeal.Gen.frame_of m ρ (dats m) (A_eq m) (run_main (F := Ideal) m ρ)

end Cert.KernelIdeal.Body

end
-- ==== Proof.R0Defs.lean ====
import proofs.«108509_g2000006651879042_pallasbulk_171_5_alg».proof.Proof.Gen.ReferenceIdeal.Launch
import proofs.«108509_g2000006651879042_pallasbulk_171_5_alg».proof.Proof.Gen.ReferenceIdeal.Skeleton
import proofs.«108509_g2000006651879042_pallasbulk_171_5_alg».proof.Proof.Gen.ReferenceIdeal.Points
import Idealize.ShloMosaic.Lib.Pipeline.FrameBody
import Idealize.ShloMosaic.Lib.Pipeline.Frame
import Idealize.ShloMosaic.Lib.Tactic

set_option maxRecDepth 16384

noncomputable section

namespace Cert.ReferenceIdeal.R0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! # Region 0: the row-tiled matmul, scale, bias, relu over 50176 rows in 16 blocks of 3272 rows

The last block overhangs the array by 2176 rows: windows 0 (the rows) and 4 (the result) are cut there. -/

/-- Window `w`'s block at point `t`, read off its array as the region finds it: the block's part inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' block at point `t` as a whole 3272-row block: its part inside the array, and the zero word on the rows
    past the array's end (rows that no transfer moves and nothing inside the array depends on). -/
def xin0 (c : Dev nD) (t : Fin cfg0.N) : S3272x256.Idx → Elt F .f32 :=
  win0_0.fill (grid0.coords t) (fun _ => Scalar.ofBits .f32 0#32) (iblk0 V c 0 t)

/-- What the body leaves in the result window's staging buffer, from what it loads from the four input windows:
    relu ((x · w) * scale + bias), the one store's payload. -/
def out0_4 (x0 : Vec F S3272x256 .f32) (x1 : Vec F S256x64 .f32) (x2 : Vec F S1x64 .f32) (x3 : Vec F S1x64 .f32) :
    Vec F S3272x64 .f32 :=
  k0_pay1 x0 x1 x2 x3

/-- The proof data of pipeline 0 on core `c`: the arrays as the region finds them; after the body at point `t` each
    input's buffer at its block (the rows' filled out past the array's end) and the result's at `out0_4` of those;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => xin0 V c t
    | ⟨1, _⟩ => iblk0 V c 1 t
    | ⟨2, _⟩ => iblk0 V c 2 t
    | ⟨3, _⟩ => iblk0 V c 3 t
    | ⟨4, _⟩ => out0_4 (xin0 V c t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xin0 V c t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (xin0 V c t) (iblk0 V c 1 t) (iblk0 V c 2 t) (iblk0 V c 3 t) := by dsimp only [dat0]

/-- The invariant is the same at every point: the scoped rest and the generator register. -/
theorem Phi_in0 (c : Dev nD) : (Pipeline.ΦA (U := UR sig nD τ) (Val := Elt F) spec0 c) ⊢ (dat0 V c).Φ 0 := BI.Entails.refl _
theorem Phi_out0 (c : Dev nD) : (dat0 V c).Φ (Fin.last cfg0.N) ⊢ Pipeline.ΦA (U := UR sig nD τ) (Val := Elt F) spec0 c := BI.Entails.refl _
theorem q_eq0 (c : Dev nD) (w : Fin cfg0.W) : (dat0 V c).q w = fullShare := rfl
theorem owed_eq0 (c : Dev nD) (t : Fin (cfg0.N + 1)) : (dat0 V c).owed t = 0 := rfl

end Cert.ReferenceIdeal.R0

end
-- ==== Proof.R0Body.lean ====
import proofs.«108509_g2000006651879042_pallasbulk_171_5_alg».proof.Proof.R0Defs
import Idealize.ShloMosaic.Lib.Pipeline.FrameBody
import Idealize.ShloMosaic.Lib.Tactic

set_option maxRecDepth 16384

noncomputable section

namespace Cert.ReferenceIdeal.R0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Whole-buffer accesses

Every access of the body is the unit-stride rectangle of the buffer's own sizes at offsets zero: a load through it
reads the contents, a store through it leaves the payload. -/

/-- Such a rectangle places each index at itself. -/
theorem idx_unit0 {S : Shape} {off : Fin S.rank → Nat} (h0 : ∀ a, off a = 0) (inb : ∀ a, off a + S.size a ≤ S.size a)
    (x : S.Idx) : (Rect.unit (s := S) off S.size inb).idx x = x := by
  funext a; apply Fin.ext
  show off a + 1 * (x a : Nat) = x a
  rw [h0 a]; omega

/-- A load through it reads the contents. -/
theorem ld_unit0 {S : Shape} {e : EltTy} {off : Fin S.rank → Nat} (h0 : ∀ a, off a = 0)
    (inb : ∀ a, off a + S.size a ≤ S.size a) (X : S.Idx → Elt F e) :
    View.ld X (Rect.unit (s := S) off S.size inb) = X :=
  funext fun x => congrArg X (idx_unit0 h0 inb x)

/-- Every index lies in it. -/
theorem mem_unit0 {S : Shape} {off : Fin S.rank → Nat} (h0 : ∀ a, off a = 0) (inb : ∀ a, off a + S.size a ≤ S.size a)
    (y : S.Idx) : y ∈ (Rect.unit (s := S) off S.size inb).set :=
  Rect.mem_set_unit.mpr fun a => ⟨by rw [h0 a]; exact Nat.zero_le _, by rw [h0 a, Nat.zero_add]; exact (y a).isLt⟩

/-- One store through it leaves the payload, whatever the view and the prior contents. -/
theorem read_writes_unit0 {S : Shape} {e : EltTy} {κ : Kind} {sp : Space} {off : Fin S.rank → Nat} (h0 : ∀ a, off a = 0)
    (inb : ∀ a, off a + S.size a ≤ S.size a) (v : View sig κ sp S e) (f : v.ty.Contents (Elt F))
    (p : S.Idx → Elt F e) :
    v.read (Elt F) (v.writes (Elt F) f [⟨Rect.unit (s := S) off S.size inb, p⟩]) = p := by
  rw [View.read_writes_eq_canon v f _ fun y => ⟨_, List.mem_singleton.mpr rfl, mem_unit0 h0 inb y⟩]
  funext y
  have h := View.canon_cons_emb (Val := Elt F) (Rect.unit (s := S) off S.size inb) p [] y
  rwa [show (Rect.unit (s := S) off S.size inb).emb y = y from idx_unit0 h0 inb y] at h

theorem zero2 : ∀ a : Fin 2, (![0, 0] : Fin 2 → Nat) a = 0 := Fin.forall_fin_two.mpr ⟨rfl, rfl⟩

/-! ## The body's triple -/

set_option maxHeartbeats 1000000 in
/-- The kernel body on whole staging memrefs, the four inputs' at read contents `x0 … x3` and the result's at anything,
    runs to the continuation holding the inputs' as they were and the result's at `out0_4` of the inputs'. -/
theorem sound_kernel0 (c : Dev nD) (E : Set ℕ) (i : grid0.Coords)
    (arg1 : Memref sig .tc .vmem S3272x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S3272x64 .f32) (harg5 : arg5.IsWhole)
    (x0 : Vec F S3272x256 .f32) (x1 : Vec F S256x64 .f32) (x2 : Vec F S1x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__matmul_bn_act_kernel i arg1 harg1 arg2 harg2 arg3 harg3 arg4 harg4 arg5 harg5) K := by
  simp only [cc0__matmul_bn_act_kernel_eq_skeleton]; unfold cc0__matmul_bn_act_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [read_writes_unit0 zero2]
  unfold out0_4
  simp only [View.readAt_eq_ld]
  have e0 := ld_unit0 (F := F) (S := S3272x256) zero2 inb_S3272x256_S3272x256_0_0 (View.read (Elt F) arg1.view f0)
  have e1 := ld_unit0 (F := F) (S := S256x64) zero2 inb_S256x64_S256x64_0_0 (View.read (Elt F) arg2.view f1)
  have e2 := ld_unit0 (F := F) (S := S1x64) zero2 inb_S1x64_S1x64_0_0 (View.read (Elt F) arg3.view f2)
  have e3 := ld_unit0 (F := F) (S := S1x64) zero2 inb_S1x64_S1x64_0_0 (View.read (Elt F) arg4.view f3)
  rw [e0, e1, e2, e3]

end Cert.ReferenceIdeal.R0

end
-- ==== Proof.R0Local.lean ====
import proofs.«108509_g2000006651879042_pallasbulk_171_5_alg».proof.Proof.R0Defs
import Idealize.ShloMosaic.Lib.Pipeline.Value
import Idealize.ShloMosaic.PureOps.Ideal.Laws

set_option maxRecDepth 16384

noncomputable section

namespace Cert.ReferenceIdeal.R0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Row-locality of the body's contraction

At the last grid point the rows' staging buffer holds the array's last 1096 rows and, past them, words nothing names.
The result's rows inside the array must not depend on those: that is the statement that element `J` of the
contraction reads the left operand on row `J 0` only. The class of float operations leaves this to each instance; at
the exact instance the contraction is the textbook sum, which has it. -/

/-- Element `J` of the body's contraction depends on the left operand only through its row `J 0`. -/
def RowLocal (F : FTy → Type) [FloatOps F] : Prop :=
  ∀ (X X' : FVec F S3272x256 .f32) (W : FVec F S256x64 .f32) (acc : FVec F S3272x64 .f32) (J : S3272x64.Idx),
    (∀ K : S3272x256.Idx, (K 0).val = (J 0).val → X K = X' K) →
    matmul dot_S3272x256_S256x64_S3272x64_1_0_0_1_n_n none X W acc J
      = matmul dot_S3272x256_S256x64_S3272x64_1_0_0_1_n_n none X' W acc J

/-- Then so does the body's whole payload: the scale, the bias and the relu are element by element. -/
theorem out0_4_row (hloc : RowLocal F) (X X' : Vec F S3272x256 .f32) (x1 : Vec F S256x64 .f32) (x2 x3 : Vec F S1x64 .f32)
    (J : S3272x64.Idx) (h : ∀ K : S3272x256.Idx, (K 0).val = (J 0).val → X K = X' K) :
    out0_4 X x1 x2 x3 J = out0_4 X' x1 x2 x3 J := by
  unfold out0_4 k0_pay1
  simp only [shapeCast_self]
  show FloatOps.maximumf (FloatOps.addf (FloatOps.mulf (matmul _ none X x1 _ J) _) _) _
    = FloatOps.maximumf (FloatOps.addf (FloatOps.mulf (matmul _ none X' x1 _ J) _) _) _
  rw [hloc X X' _ _ J h]

/-- The exact contraction is row-local: element `J` is the accumulator plus the sum over `k` of row `J 0` of the left
    operand times column `J 1` of the right. -/
theorem rowLocal_ideal : RowLocal Ideal := by
  intro X X' W acc J h
  show FloatOps.matmul _ none X W acc J = FloatOps.matmul _ none X' W acc J
  rw [Ideal.matmul_apply, Ideal.matmul_apply]
  refine congrArg (acc J + ·) (Finset.sum_congr rfl fun k _ => ?_)
  rw [h _ rfl]

end Cert.ReferenceIdeal.R0

end
-- ==== Proof.R0Oblig.lean ====
import proofs.«108509_g2000006651879042_pallasbulk_171_5_alg».proof.Proof.R0Body
import proofs.«108509_g2000006651879042_pallasbulk_171_5_alg».proof.Proof.R0Local
import Idealize.ShloMosaic.Lib.Pipeline.FrameBody
import Idealize.ShloMosaic.Lib.Pipeline.Frame
import Idealize.ShloMosaic.Lib.Tactic

set_option maxRecDepth 16384

noncomputable section

namespace Cert.ReferenceIdeal.R0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each staging buffer -/

/-- The rows' buffer, fetched at every point: the block's part inside the array on the leading rows, contents nothing
    names (`d`) past them. -/
theorem before0_0 (c : Dev nD) (t : Fin cfg0.N) (d) :
    (dat0 V c).before 0 t d = win0_0.fill (grid0.coords t) d (iblk0 V c 0 t) := by
  rw [(dat0 V c).before_fetched 0 t (fetch0_0 t) d]
  unfold Dat.fetched Dat.blockOf iblk0
  rw [A_eq0]

/-- The weights', the scale's and the bias's buffers hold their blocks at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]) t d).trans
    (by unfold Dat.fetched Dat.blockOf iblk0; rw [A_eq0]; rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]) t d).trans
    (by unfold Dat.fetched Dat.blockOf iblk0; rw [A_eq0]; rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]) t d).trans
    (by unfold Dat.fetched Dat.blockOf iblk0; rw [A_eq0]; rfl)

/-- The result's buffer, written back at every point, holds contents nothing names. -/
theorem before0_4 (c : Dev nD) (t : Fin cfg0.N) (d) : (dat0 V c).before 4 t d = d :=
  (dat0 V c).before_out_reset 4 rfl t (by
    by_cases h : t.val = 0
    · exact .inl h
    · exact .inr ⟨h, flush0_4 _⟩) d

/-! ## The cut rows -/

/-- The rows' and the result's blocks are cut alike: to the same leading rows. -/
theorem xsize_4_0 (i : grid0.Coords) : win0_4.xsize i 0 = win0_0.xsize i 0 := rfl

/-- Two fillings of the rows' block agree on every row the transfer moves, whatever fills the rest. -/
theorem fill_row_eq (i : grid0.Coords) (d d' : S3272x256.Idx → Elt F .f32) (g : (win0_0.xblock i).Idx → Elt F .f32)
    (K : S3272x256.Idx) (hK : (K 0).val < win0_0.xsize i 0) : win0_0.fill i d g K = win0_0.fill i d' g K := by
  have hm : win0_0.moved i K = true := (win0_0.moved_iff i K).mpr fun a => by
    match a with
    | ⟨0, _⟩ => exact hK
    | ⟨1, _⟩ => exact (K 1).isLt
  unfold Window.fill
  rw [dif_pos hm, dif_pos hm]

/-- So the result's rows inside the array do not depend on what fills the rows' block past the array's end. -/
theorem cut_out0_4 (hloc : RowLocal F) (i : grid0.Coords) (d d' : S3272x256.Idx → Elt F .f32)
    (g : (win0_0.xblock i).Idx → Elt F .f32) (x1 : Vec F S256x64 .f32) (x2 x3 : Vec F S1x64 .f32) :
    win0_4.cut i (out0_4 (win0_0.fill i d g) x1 x2 x3) = win0_4.cut i (out0_4 (win0_0.fill i d' g) x1 x2 x3) := by
  funext j
  exact out0_4_row hloc _ _ x1 x2 x3 (win0_4.xinj i j) fun K hK =>
    fill_row_eq i d d' g K (by rw [hK, ← xsize_4_0]; exact (j 0).isLt)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: the two cut windows' buffers described on the rows inside the array only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare
        (win0_0.fill (grid0.coords t) d (win0_0.cut (grid0.coords t) ((dat0 V c).after 0 t))))
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (∃ d, owns (c : Thread nD τ) (st0_4 t) fullShare
        (win0_4.fill (grid0.coords t) d (win0_4.cut (grid0.coords t) ((dat0 V c).after 4 t)))))

set_option maxHeartbeats 1000000 in
/-- The body at any point: the inputs' memrefs hold their blocks, the rows' filled out with contents nothing names, so
    the body's triple applies; what it leaves in the result's buffer agrees with `out0_4` of the named blocks on the
    rows inside the array, the contraction being row-local. -/
theorem sound_body0 (hloc : RowLocal F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  rw [before0_0 V c t d0, before0_1 V c t d1, before0_2 V c t d2, before0_3 V c t d3, before0_4 V c t d4]
  iapply (sound_kernel0 c Set.univ _ _ _ _ _ _ _ _ _ _ _ (win0_0.fill (grid0.coords t) d0 (iblk0 V c 0 t))
    (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show win0_0.cut (grid0.coords t) (xin0 V c t) = iblk0 V c 0 t from win0_0.cut_fill _ _ _]
    iexact H0
  isplitl [H1]; · iexact H1
  isplitl [H2]; · iexact H2
  isplitl [H3]; · iexact H3
  iexists out0_4 (win0_0.fill (grid0.coords t) d0 (iblk0 V c 0 t)) (iblk0 V c 1 t) (iblk0 V c 2 t) (iblk0 V c 3 t)
  have hcut : win0_4.cut (grid0.coords t)
        (out0_4 (win0_0.fill (grid0.coords t) d0 (iblk0 V c 0 t)) (iblk0 V c 1 t) (iblk0 V c 2 t) (iblk0 V c 3 t))
      = win0_4.cut (grid0.coords t) (out0_4 (xin0 V c t) (iblk0 V c 1 t) (iblk0 V c 2 t) (iblk0 V c 3 t)) :=
    cut_out0_4 hloc (grid0.coords t) d0 _ (iblk0 V c 0 t) (iblk0 V c 1 t) (iblk0 V c 2 t) (iblk0 V c 3 t)
  rw [win0_4.fill_congr_cut (grid0.coords t) hcut]
  iexact H4

/-- The library's body obligation, at every point: the loop's form, the cut windows 0 and 4 described on the part
    their transfers move. -/
theorem body_obligation0 (hloc : RowLocal F) (c : Dev nD) :
    BodyObligationLoose (dat0 (F := F) V c) (defs₀ (F := F)) Variants.none () Set.univ := fun t => by
  rw [bigSep_W0, bigSep_W0]
  exact sound_body0 V hloc c t

end Cert.ReferenceIdeal.R0

end
-- ==== Proof.R1Defs.lean ====
import proofs.«108509_g2000006651879042_pallasbulk_171_5_alg».proof.Proof.Gen.ReferenceIdeal.Launch
import proofs.«108509_g2000006651879042_pallasbulk_171_5_alg».proof.Proof.Gen.ReferenceIdeal.Skeleton
import Idealize.ShloMosaic.Lib.Pipeline.FrameBody

/-! # Region 1 (the 3×3 convolution): the body's rectangles and what it leaves, as pure functions

The body zero-fills a 58×58×64 scratch, stores the 56×56×64 input block at rows and columns 1…56
of it, loads three 58×56×64 column-shifted rectangles of the scratch (columns 0…55, 1…56, 2…57),
takes nine 3136×64 taps of them into nine 64×64 matrix products, scales, shifts and clamps at zero.
Here: the rectangles, the scratch after its two stores as ONE function of the input block (`pad`),
and the output staging buffer after the body as ONE function of the four input blocks (`out1_4`). -/

set_option maxRecDepth 16384

noncomputable section

namespace Cert.ReferenceIdeal.R1

open Cert.ReferenceIdeal.Gen
open Idealize.ShloMosaic Idealize.SL.Sem

variable {F : FTy → Type} [FloatOps F]

/-! ## The body's accesses -/

/-- The input block, whole. -/
abbrev rX : Rect S1x56x56x64 := Rect.unit (s := S1x56x56x64) ![0, 0, 0, 0] S1x56x56x64.size inb_S1x56x56x64_S1x56x56x64_0_0_0_0
/-- The scratch, whole. -/
abbrev rAll : Rect S58x58x64 := Rect.unit (s := S58x58x64) ![0, 0, 0] S58x58x64.size inb_S58x58x64_S58x58x64_0_0_0
/-- The scratch's interior: rows 1…56, columns 1…56. -/
abbrev rIn : Rect S58x58x64 := Rect.unit (s := S58x58x64) ![1, 1, 0] S56x56x64.size inb_S58x58x64_S56x56x64_1_1_0
/-- The scratch's columns 0…55, 1…56, 2…57 (all 58 rows). -/
abbrev rC0 : Rect S58x58x64 := Rect.unit (s := S58x58x64) ![0, 0, 0] S58x56x64.size inb_S58x58x64_S58x56x64_0_0_0
abbrev rC1 : Rect S58x58x64 := Rect.unit (s := S58x58x64) ![0, 1, 0] S58x56x64.size inb_S58x58x64_S58x56x64_0_1_0
abbrev rC2 : Rect S58x58x64 := Rect.unit (s := S58x58x64) ![0, 2, 0] S58x56x64.size inb_S58x58x64_S58x56x64_0_2_0
/-- The nine 64×64 tap matrices. -/
abbrev rW0 : Rect S9x64x64 := Rect.unit (s := S9x64x64) ![0, 0, 0] S1x64x64.size inb_S9x64x64_S1x64x64_0_0_0
abbrev rW1 : Rect S9x64x64 := Rect.unit (s := S9x64x64) ![1, 0, 0] S1x64x64.size inb_S9x64x64_S1x64x64_1_0_0
abbrev rW2 : Rect S9x64x64 := Rect.unit (s := S9x64x64) ![2, 0, 0] S1x64x64.size inb_S9x64x64_S1x64x64_2_0_0
abbrev rW3 : Rect S9x64x64 := Rect.unit (s := S9x64x64) ![3, 0, 0] S1x64x64.size inb_S9x64x64_S1x64x64_3_0_0
abbrev rW4 : Rect S9x64x64 := Rect.unit (s := S9x64x64) ![4, 0, 0] S1x64x64.size inb_S9x64x64_S1x64x64_4_0_0
abbrev rW5 : Rect S9x64x64 := Rect.unit (s := S9x64x64) ![5, 0, 0] S1x64x64.size inb_S9x64x64_S1x64x64_5_0_0
abbrev rW6 : Rect S9x64x64 := Rect.unit (s := S9x64x64) ![6, 0, 0] S1x64x64.size inb_S9x64x64_S1x64x64_6_0_0
abbrev rW7 : Rect S9x64x64 := Rect.unit (s := S9x64x64) ![7, 0, 0] S1x64x64.size inb_S9x64x64_S1x64x64_7_0_0
abbrev rW8 : Rect S9x64x64 := Rect.unit (s := S9x64x64) ![8, 0, 0] S1x64x64.size inb_S9x64x64_S1x64x64_8_0_0
/-- The scale row and the shift row, whole. -/
abbrev rB : Rect S1x64 := Rect.unit (s := S1x64) ![0, 0] S1x64.size inb_S1x64_S1x64_0_0

/-! ## The scratch after its two stores -/

/-- The scratch after the zero fill and the store of the block `y` at its interior, as pieces, last first:
    `y` inside rows and columns 1…56, zero on the one-element border. -/
def pad (y : FVec F S56x56x64 .f32) : Vec F S58x58x64 .f32 :=
  View.canon [⟨rIn, y⟩, ⟨rAll, k1_pay2 (F := F)⟩]

/-! ## What the body leaves in the output window's buffer -/

/-- The stored value from the padded scratch `P`, the nine tap matrices `x1`, the scale row `x2` and the shift row
    `x3`: the payloads of the three parts composed (three taps of columns 0…55; six taps of columns 1…56 and
    2…57; the last tap, the scale, the shift and the clamp). -/
def conv1 (P : Vec F S58x58x64 .f32) (x1 : Vec F S9x64x64 .f32) (x2 : Vec F S1x64 .f32) (x3 : Vec F S1x64 .f32) : FVec F S1x56x56x64 .f32 :=
  k1_pay1
    (k1_pay5 (k1_pay4 (View.ld P rC0) (View.ld x1 rW0) (View.ld x1 rW3) (View.ld x1 rW6))
      (View.ld P rC1) (View.ld x1 rW1) (View.ld x1 rW4) (View.ld x1 rW7)
      (View.ld P rC2) (View.ld x1 rW2) (View.ld x1 rW5))
    (k1_pay6 (View.ld P rC2)) (View.ld x1 rW8) (View.ld x2 rB) (View.ld x3 rB)

/-- Window 4's staging buffer after the body, from the input windows' blocks: its one store as a piece. -/
def out1_4 (x0 : Vec F S1x56x56x64 .f32) (x1 : Vec F S9x64x64 .f32) (x2 : Vec F S1x64 .f32) (x3 : Vec F S1x64 .f32) : Vec F S1x56x56x64 .f32 :=
  View.canon [⟨rX, conv1 (pad (k1_pay3 (View.ld x0 rX))) x1 x2 x3⟩]

/-- Its store tiles the buffer (checked by evaluation), so it covers it. -/
theorem cover1_4 (p0 : Vec F S1x56x56x64 .f32) (y : S1x56x56x64.Idx) :
    ∃ pc ∈ ([⟨rX, p0⟩] : List (View.Piece (Elt F) S1x56x56x64 .f32)), y ∈ pc.1.set :=
  View.cover_of_tiled [⟨rX, p0⟩] S1x56x56x64.size (by rfl) y

/-- The output buffer is the stored value itself: the one piece is the whole buffer. -/
theorem out1_4_eq (x0 : Vec F S1x56x56x64 .f32) (x1 : Vec F S9x64x64 .f32) (x2 : Vec F S1x64 .f32) (x3 : Vec F S1x64 .f32) (y : S1x56x56x64.Idx) :
    out1_4 x0 x1 x2 x3 (rX.emb y) = conv1 (pad (k1_pay3 (View.ld x0 rX))) x1 x2 x3 y := by
  unfold out1_4; exact View.canon_cons_emb _ _ _ _

end Cert.ReferenceIdeal.R1

end
-- ==== Proof.R1Kernel.lean ====
import proofs.«108509_g2000006651879042_pallasbulk_171_5_alg».proof.Proof.R1Defs
import proofs.«108509_g2000006651879042_pallasbulk_171_5_alg».proof.Proof.Gen.ReferenceIdeal.Points
import Idealize.ShloMosaic.Lib.Pipeline.FrameBody
import Idealize.ShloMosaic.Lib.Tactic

/-! # Region 1: the body's triple

On whole staging memrefs — the four inputs' at read contents, the output's and the scratch at anything — the
convolution body runs to the continuation holding the inputs' as they were, the output's at `out1_4` of the
inputs', and the scratch at some contents. -/

set_option maxRecDepth 16384

noncomputable section

namespace Cert.ReferenceIdeal.R1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The kernel body on whole memrefs: the inputs' at read contents `x0 … x3`, the output's and the scratch at anything.
    The two stores into the scratch are listed as pieces; each of the three column-shifted loads reads the pieces'
    canon at its box (the fill covers every box), which is `pad` of the stored block there. -/
theorem sound_kernel1 (c : Dev nD) (E : Set ℕ) (i : grid1.Coords)
    (arg1 : Memref sig .tc .vmem S1x56x56x64 .f32) (harg1 : arg1.IsWhole) (arg2 : Memref sig .tc .vmem S9x64x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x56x56x64 .f32) (harg5 : arg5.IsWhole) (arg6 : Memref sig .tc .vmem S58x58x64 .f32) (harg6 : arg6.IsWhole)
    (x0 : Vec F S1x56x56x64 .f32) (x1 : Vec F S9x64x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3) ∗ (∃ d, owns (c : Thread nD τ) arg6 fullShare d)) -∗ K ⟨⟩))
      ⊢ wp frame (wpE (defs₀ (F := F)) Variants.none c none) E (cc1__conv3x3_bn_relu_kernel i arg1 harg1 arg2 harg2 arg3 harg3 arg4 harg4 arg5 harg5 arg6 harg6) K := by
  simp only [cc1__conv3x3_bn_relu_kernel_eq_skeleton]; unfold cc1__conv3x3_bn_relu_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1_4 _)]
    unfold out1_4 conv1 pad
    sl_unfold_run_names
    simp only [View.readCov_eq_canon', View.readAt_eq_ld]
  · iexists _; iexists _; isplitr
    swap; · iexact H5
    ipureintro; rfl

end Cert.ReferenceIdeal.R1

end
-- ==== Proof.R1Frame.lean ====
import proofs.«108509_g2000006651879042_pallasbulk_171_5_alg».proof.Proof.R1Kernel
import proofs.«108509_g2000006651879042_pallasbulk_171_5_alg».proof.Proof.Gen.ReferenceIdeal.Launch
import proofs.«108509_g2000006651879042_pallasbulk_171_5_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the proof data and the body obligation, at the region's entry contents `V`

Each window's block at a point (`iblk1`), each input found at its block whether fetched there or not
(`before1_W_of`), the proof data (`dat1`: the arrays as the region finds them; after the body each input's
buffer at its block and the output's at `out1_4` of the four input blocks; the invariant the scoped rest and
the generator register), and the body obligation: the scratch is taken out of the scoped rest at some contents,
handed to the body, and put back at what the body leaves, forgotten. -/

set_option maxRecDepth 16384

noncomputable section

namespace Cert.ReferenceIdeal.R1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch in the invariant -/

/-- The scratch operand: a whole scoped buffer of the kernel's own, passed beside the windows. -/
abbrev scM1_0 : Memref sig .tc .vmem S58x58x64 .f32 := Memref.whole cc1_scratch0

/-- The invariant lends the scratch at some contents and takes it back at any: the scoped rest is a chain of
    whole buffers at some contents each, the scratch among them. -/
theorem PhiA1_open (c : Dev nD) :
    (Pipeline.ΦA spec1 c : sProp 𝕄)
      ⊢ iprop((∃ d, owns (c : Thread nD τ) scM1_0 fullShare d)
          ∗ ((∃ d, owns (c : Thread nD τ) scM1_0 fullShare d) -∗ (Pipeline.ΦA spec1 c : sProp 𝕄))) := by
  unfold Pipeline.ΦA; rw [scopedRest1_eq]; simp only [scM1_0, owns_whole]
  iintro ⟨⟨B0, B1, B2, B3, B4, B5, B6, B7, B8, B9, B10, B11, B12, B13, B14, B15, B16, B17, B18⟩, Hr⟩
  isplitl [B7]; · iexact B7
  iintro B7
  isplitr [Hr]; swap; · iexact Hr
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  iexact B18

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them (`V`); after the body at point
    `t` each input's buffer at its block and the output's at `out1_4` of the input blocks; the invariant the scoped
    rest (the scratch in it, at some contents) and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- The invariant is the class's at every point; the shares are full; nothing is owed. -/
theorem Phi_eq1 (c : Dev nD) (t : Fin (cfg1.N + 1)) : (dat1 V c).Φ t = (Pipeline.ΦA spec1 c : sProp 𝕄) := by dsimp only [dat1]
theorem Phi_in1 (c : Dev nD) : (Pipeline.ΦA (U := UR sig nD τ) (Val := Elt F) spec1 c : sProp 𝕄) ⊢ (dat1 V c).Φ 0 := by
  rw [Phi_eq1]
theorem Phi_out1 (c : Dev nD) : (dat1 V c).Φ (Fin.last cfg1.N) ⊢ (Pipeline.ΦA (U := UR sig nD τ) (Val := Elt F) spec1 c : sProp 𝕄) := by
  rw [Phi_eq1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), the invariant lends the scratch
    (`PhiA1_open`), so `sound_kernel1` applies; the scratch goes back into the invariant, the core's `owes`
    passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4, Phi_eq1, Phi_eq1]
  iintro ⟨HΦ, Ho, ⟨%d0, H0⟩, ⟨%d1, H1⟩, ⟨%d2, H2⟩, ⟨%d3, H3⟩, ⟨%d4, H4⟩⟩
  ihave HX := (PhiA1_open c) $$ HΦ
  icases HX with ⟨HS, Hclose⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [Hclose HS]; · iapply Hclose; iexact HS
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.ReferenceIdeal.R1

end
-- ==== Proof.R2Defs.lean ====
import proofs.«108509_g2000006651879042_pallasbulk_171_5_alg».proof.Proof.Gen.ReferenceIdeal.Launch
import proofs.«108509_g2000006651879042_pallasbulk_171_5_alg».proof.Proof.Gen.ReferenceIdeal.Skeleton
import proofs.«108509_g2000006651879042_pallasbulk_171_5_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ
/-! Region 2 of the reference program (the third kernel call: 1x1 convolution, per-channel scale and bias, the
    squeeze-excite gate, the residual sum and the final rectification), at any contents `V` of the TensorCore's buffers
    when the region is entered: the windows' blocks, the value the body leaves in the output window's staging buffer as
    one pure function of the seven input blocks, and the pipeline's proof data. -/

/-! # Region 2 of @main: the third kernel call (1x1 convolution, scale and bias, squeeze-excite gate, residual, relu),
    at the buffer contents `V` the region is entered with -/

section Defs
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store take a whole staging buffer -/

abbrev r2_0 : Rect S1x3136x64 := Rect.unit (s := S1x3136x64) ![0, 0, 0] S1x3136x64.size inb_S1x3136x64_S1x3136x64_0_0_0
abbrev r2_1 : Rect S1x3136x256 := Rect.unit (s := S1x3136x256) ![0, 0, 0] S1x3136x256.size inb_S1x3136x256_S1x3136x256_0_0_0
abbrev r2_2 : Rect S64x256 := Rect.unit (s := S64x256) ![0, 0] S64x256.size inb_S64x256_S64x256_0_0
abbrev r2_3 : Rect S1x256 := Rect.unit (s := S1x256) ![0, 0] S1x256.size inb_S1x256_S1x256_0_0
abbrev r2_5 : Rect S256x16 := Rect.unit (s := S256x16) ![0, 0] S256x16.size inb_S256x16_S256x16_0_0
abbrev r2_6 : Rect S16x256 := Rect.unit (s := S16x256) ![0, 0] S16x256.size inb_S16x256_S16x256_0_0

/-! ## What the body leaves in the output window's buffer -/

/-- Window 7's staging buffer after the body, from the seven input windows' blocks: its one store as a piece
    (the payload is the skeleton's: the gated, residual-added, rectified image). -/
def out2_7 (x0 : Vec F S1x3136x64 .f32) (x1 : Vec F S1x3136x256 .f32) (x2 : Vec F S64x256 .f32) (x3 : Vec F S1x256 .f32)
    (x4 : Vec F S1x256 .f32) (x5 : Vec F S256x16 .f32) (x6 : Vec F S16x256 .f32) : Vec F S1x3136x256 .f32 :=
  View.canon [⟨r2_1, k2_pay1 (View.ld x0 r2_0) (View.ld x2 r2_2) (View.ld x3 r2_3) (View.ld x4 r2_3) (View.ld x5 r2_5)
    (View.ld x6 r2_6) (View.ld x1 r2_1)⟩]

/-- The store tiles the buffer (checked by evaluation), so it covers it. -/
theorem cover2_7 (p0 : Vec F S1x3136x256 .f32) (y : S1x3136x256.Idx) :
    ∃ pc ∈ ([⟨r2_1, p0⟩] : List (View.Piece (Elt F) S1x3136x256 .f32)), y ∈ pc.1.set :=
  View.cover_of_tiled [⟨r2_1, p0⟩] S1x3136x256.size (by rfl) y

end Defs

section Data
variable (V : (c : Dev nD) → (b : Ref sig .tc) → Buf (Elt F) ((c : Thread nD τ).loc b))

/-- Input window 0's current staging buffer holds its block at every point, fetched there or not, for any proof
    data whose array is `V`'s (`hA`) and whose body leaves the block in place (`hafter`): the window is uncut and
    never idle, and where it is not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): the window is uncut and
    never idle, and where it is not fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): the window is uncut and
    never idle, and where it is not fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): the window is uncut and
    never idle, and where it is not fetched its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): the window is uncut and
    never idle, and where it is not fetched its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): the window is uncut and
    never idle, and where it is not fetched its block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): the window is uncut and
    never idle, and where it is not fetched its block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them (`V`); after the body at point
    `t` each input's buffer at its block and the output's at `out2_7` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- The invariant at the first and after the last point is the class's: the scoped rest and the generator register. -/
theorem Phi_in2 (c : Dev nD) : (Pipeline.ΦA (U := UR sig nD τ) (Val := Elt F) spec2 c) ⊢ (dat2 V c).Φ 0 := by
  rw [show (dat2 V c).Φ 0 = Pipeline.ΦA spec2 c from rfl]
theorem Phi_out2 (c : Dev nD) : (dat2 V c).Φ (Fin.last cfg2.N) ⊢ Pipeline.ΦA (U := UR sig nD τ) (Val := Elt F) spec2 c := by
  rw [show (dat2 V c).Φ (Fin.last cfg2.N) = Pipeline.ΦA spec2 c from rfl]
/-- Full shares of every staging buffer; nothing owed at any point. -/
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]

end Data

end Cert.ReferenceIdeal.R2

end
-- ==== Proof.R2Kernel.lean ====
import proofs.«108509_g2000006651879042_pallasbulk_171_5_alg».proof.Proof.R2Defs

set_option maxRecDepth 16384

noncomputable section

namespace Cert.ReferenceIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ
/-! The body of region 2's kernel, run symbolically on whole staging buffers: it reads the seven input buffers, leaves
    them as they were, and leaves the output buffer at `out2_7` of what it read. -/

/-! ## The body's triple -/

set_option maxHeartbeats 1000000 in
/-- The kernel body on whole staging memrefs, the inputs' at read contents `xW` and the output's at anything, runs to
    the continuation holding the inputs' as they were and the output's at `out2_7` of the inputs'. -/
theorem sound_kernel2 (c : Dev nD) (E : Set ℕ) (i : grid2.Coords)
    (arg0 : Memref sig .tc .vmem S1x3136x64 .f32) (harg0 : arg0.IsWhole) (arg1 : Memref sig .tc .vmem S1x3136x256 .f32) (harg1 : arg1.IsWhole)
    (arg2 : Memref sig .tc .vmem S64x256 .f32) (harg2 : arg2.IsWhole) (arg3 : Memref sig .tc .vmem S1x256 .f32) (harg3 : arg3.IsWhole)
    (arg4 : Memref sig .tc .vmem S1x256 .f32) (harg4 : arg4.IsWhole) (arg5 : Memref sig .tc .vmem S256x16 .f32) (harg5 : arg5.IsWhole)
    (arg6 : Memref sig .tc .vmem S16x256 .f32) (harg6 : arg6.IsWhole) (arg7 : Memref sig .tc .vmem S1x3136x256 .f32) (harg7 : arg7.IsWhole)
    (x0 : Vec F S1x3136x64 .f32) (x1 : Vec F S1x3136x256 .f32) (x2 : Vec F S64x256 .f32) (x3 : Vec F S1x256 .f32)
    (x4 : Vec F S1x256 .f32) (x5 : Vec F S256x16 .f32) (x6 : Vec F S16x256 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E
          (cc2__conv3_bn_se_residual_kernel i arg0 harg0 arg1 harg1 arg2 harg2 arg3 harg3 arg4 harg4 arg5 harg5 arg6 harg6 arg7 harg7) K := by
  simp only [cc2__conv3_bn_se_residual_kernel_eq_skeleton]; unfold cc2__conv3_bn_se_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

end Cert.ReferenceIdeal.R2

end
-- ==== Proof.R2.lean ====
import proofs.«108509_g2000006651879042_pallasbulk_171_5_alg».proof.Proof.R2Kernel

set_option maxRecDepth 16384

noncomputable section

namespace Cert.ReferenceIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ
/-! The body obligation of region 2's pipeline at every grid point, from the kernel's triple. -/

section Body
variable (V : (c : Dev nD) → (b : Ref sig .tc) → Buf (Elt F) ((c : Thread nD τ).loc b))

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`), so `sound_kernel2` applies; the invariant
    and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t)
    (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Body

end Cert.ReferenceIdeal.R2

end
-- ==== Proof.RefRunVals.lean ====
import proofs.«108509_g2000006651879042_pallasbulk_171_5_alg».proof.Proof.R0Oblig
import proofs.«108509_g2000006651879042_pallasbulk_171_5_alg».proof.Proof.R1Frame
import proofs.«108509_g2000006651879042_pallasbulk_171_5_alg».proof.Proof.R2
import proofs.«108509_g2000006651879042_pallasbulk_171_5_alg».proof.Proof.Gen.ReferenceIdeal.Regions

noncomputable section

/-! # The reference's buffer contents at every boundary between a host stretch and a kernel region

The program is four host stretches around three kernel regions. From the launch memory `m`, the unscoped
buffers of core `c` after each of the seven items are named `W1 … W7`: a host stretch is the fold of its
operations (`StableHlo.after`), a region changes exactly one buffer — its output window's array — to what the
pipeline's write-backs leave there (`Dat.arrAt … N` of the region's proof data at the region's entry contents). -/

namespace Cert.ReferenceIdeal.RefRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.R0 Cert.ReferenceIdeal.R1 Cert.ReferenceIdeal.R2

variable {F : FTy → Type} [FloatOps F]
variable (m : (ℓ : Loc nD τ sig) → Buf (Elt F) ℓ)

/-- Core `c`'s buffers at launch. -/
abbrev W0 (c : Dev nD) : Valuation τ sig (Elt F) := fun b => m (c, b)
/-- After the first host stretch: region 0's entry contents. -/
abbrev W1 (c : Dev nD) : Valuation τ sig (Elt F) := StableHlo.after hostOps0 (W0 m c)
/-- The same, read at the TensorCore's references. -/
abbrev V1 : (c : Dev nD) → (b : Ref sig .tc) → Buf (Elt F) ((c : Thread nD τ).loc b) := fun c b => W1 m c b
/-- What region 0 leaves in its output array `main_v5`: every block's write-back folded, in point order. -/
def out0 (c : Dev nD) : Buf (Elt F) ((c : Thread nD τ).loc main_v5) := (dat0 (V1 m) c).arrAt 4 cfg0.N
/-- After region 0: `main_v5` at `out0`, every other buffer as entered. -/
def W2 (c : Dev nD) : Valuation τ sig (Elt F) := Function.update (W1 m c) (Proc.devRef .tc main_v5) (out0 m c)
abbrev V2 : (c : Dev nD) → (b : Ref sig .tc) → Buf (Elt F) ((c : Thread nD τ).loc b) := fun c b => W2 m c b
/-- After the second host stretch: region 1's entry contents. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- What region 1 leaves in its output array `main_v11`. -/
def out1 (c : Dev nD) : Buf (Elt F) ((c : Thread nD τ).loc main_v11) := (dat1 (V3 m) c).arrAt 4 cfg1.N
/-- After region 1. -/
def W4 (c : Dev nD) : Valuation τ sig (Elt F) := Function.update (W3 m c) (Proc.devRef .tc main_v11) (out1 m c)
abbrev V4 : (c : Dev nD) → (b : Ref sig .tc) → Buf (Elt F) ((c : Thread nD τ).loc b) := fun c b => W4 m c b
/-- After the third host stretch: region 2's entry contents. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- What region 2 leaves in its output array `main_v19`. -/
def out2 (c : Dev nD) : Buf (Elt F) ((c : Thread nD τ).loc main_v19) := (dat2 (V5 m) c).arrAt 7 cfg2.N
/-- After region 2. -/
def W6 (c : Dev nD) : Valuation τ sig (Elt F) := Function.update (W5 m c) (Proc.devRef .tc main_v19) (out2 m c)
abbrev V6 : (c : Dev nD) → (b : Ref sig .tc) → Buf (Elt F) ((c : Thread nD τ).loc b) := fun c b => W6 m c b
/-- After the last host stretch: the contents the program ends with. -/
abbrev W7 (c : Dev nD) : Valuation τ sig (Elt F) := StableHlo.after hostOps3 (W6 m c)

/-! ## Where each region's output lands, and what a region leaves alone -/

theorem W_out0 (c : Dev nD) : W2 m c (Proc.devRef .tc main_v5) = (dat0 (V1 m) c).arrAt 4 cfg0.N := by
  unfold W2; exact Function.update_self _ _ _
theorem W2_of_ne (c : Dev nD) (r : Ref sig .tc) (h : r ≠ main_v5) : W2 m c (Proc.devRef .tc r) = W1 m c (Proc.devRef .tc r) := by
  unfold W2; exact Function.update_of_ne (StableHlo.devRef_ne_of_ne h) _ _
theorem W_out1 (c : Dev nD) : W4 m c (Proc.devRef .tc main_v11) = (dat1 (V3 m) c).arrAt 4 cfg1.N := by
  unfold W4; exact Function.update_self _ _ _
theorem W4_of_ne (c : Dev nD) (r : Ref sig .tc) (h : r ≠ main_v11) : W4 m c (Proc.devRef .tc r) = W3 m c (Proc.devRef .tc r) := by
  unfold W4; exact Function.update_of_ne (StableHlo.devRef_ne_of_ne h) _ _
theorem W_out2 (c : Dev nD) : W6 m c (Proc.devRef .tc main_v19) = (dat2 (V5 m) c).arrAt 7 cfg2.N := by
  unfold W6; exact Function.update_self _ _ _
theorem W6_of_ne (c : Dev nD) (r : Ref sig .tc) (h : r ≠ main_v19) : W6 m c (Proc.devRef .tc r) = W5 m c (Proc.devRef .tc r) := by
  unfold W6; exact Function.update_of_ne (StableHlo.devRef_ne_of_ne h) _ _

/-! ## What a host stretch leaves alone: every buffer none of its operations writes -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-- A buffer no item writes ends as launched. -/
theorem W7_untouched (c : Dev nD) (r : Ref sig .tc) (h0 : r ∉ hostOps0_W) (h1 : r ∉ hostOps1_W) (h2 : r ∉ hostOps2_W)
    (h3 : r ∉ hostOps3_W) (n5 : r ≠ main_v5) (n11 : r ≠ main_v11) (n19 : r ≠ main_v19) :
    W7 m c r = m ((c : Thread nD τ).loc r) :=
  (W7_of m c r h3).trans <| (W6_of_ne m c r n19).trans <| (W5_of m c r h2).trans <| (W4_of_ne m c r n11).trans <|
    (W3_of m c r h1).trans <| (W2_of_ne m c r n5).trans <| (W1_of m c r h0).trans rfl

theorem W7_main_arg0 (c : Dev nD) : W7 m c main_arg0 = m ((c : Thread nD τ).loc main_arg0) :=
  W7_untouched m c main_arg0 (by decide) (by decide) (by decide) (by decide) (by decide) (by decide) (by decide)
theorem W7_main_arg1 (c : Dev nD) : W7 m c main_arg1 = m ((c : Thread nD τ).loc main_arg1) :=
  W7_untouched m c main_arg1 (by decide) (by decide) (by decide) (by decide) (by decide) (by decide) (by decide)
theorem W7_main_arg2 (c : Dev nD) : W7 m c main_arg2 = m ((c : Thread nD τ).loc main_arg2) :=
  W7_untouched m c main_arg2 (by decide) (by decide) (by decide) (by decide) (by decide) (by decide) (by decide)
theorem W7_main_arg3 (c : Dev nD) : W7 m c main_arg3 = m ((c : Thread nD τ).loc main_arg3) :=
  W7_untouched m c main_arg3 (by decide) (by decide) (by decide) (by decide) (by decide) (by decide) (by decide)
theorem W7_main_arg4 (c : Dev nD) : W7 m c main_arg4 = m ((c : Thread nD τ).loc main_arg4) :=
  W7_untouched m c main_arg4 (by decide) (by decide) (by decide) (by decide) (by decide) (by decide) (by decide)
theorem W7_main_arg5 (c : Dev nD) : W7 m c main_arg5 = m ((c : Thread nD τ).loc main_arg5) :=
  W7_untouched m c main_arg5 (by decide) (by decide) (by decide) (by decide) (by decide) (by decide) (by decide)
theorem W7_main_arg6 (c : Dev nD) : W7 m c main_arg6 = m ((c : Thread nD τ).loc main_arg6) :=
  W7_untouched m c main_arg6 (by decide) (by decide) (by decide) (by decide) (by decide) (by decide) (by decide)
theorem W7_main_arg7 (c : Dev nD) : W7 m c main_arg7 = m ((c : Thread nD τ).loc main_arg7) :=
  W7_untouched m c main_arg7 (by decide) (by decide) (by decide) (by decide) (by decide) (by decide) (by decide)
theorem W7_main_arg8 (c : Dev nD) : W7 m c main_arg8 = m ((c : Thread nD τ).loc main_arg8) :=
  W7_untouched m c main_arg8 (by decide) (by decide) (by decide) (by decide) (by decide) (by decide) (by decide)
theorem W7_main_arg9 (c : Dev nD) : W7 m c main_arg9 = m ((c : Thread nD τ).loc main_arg9) :=
  W7_untouched m c main_arg9 (by decide) (by decide) (by decide) (by decide) (by decide) (by decide) (by decide)
theorem W7_main_arg10 (c : Dev nD) : W7 m c main_arg10 = m ((c : Thread nD τ).loc main_arg10) :=
  W7_untouched m c main_arg10 (by decide) (by decide) (by decide) (by decide) (by decide) (by decide) (by decide)
theorem W7_main_arg11 (c : Dev nD) : W7 m c main_arg11 = m ((c : Thread nD τ).loc main_arg11) :=
  W7_untouched m c main_arg11 (by decide) (by decide) (by decide) (by decide) (by decide) (by decide) (by decide)

/-! ## The two facts a region's exit takes: its arrays hold what the pipeline leaves, the rest is as entered

An input window's array is never written (`Dat.arrAt_in`), so it holds its entry contents, which the update
leaves alone; the output window's array is the updated buffer. -/

theorem hF0 (c : Dev nD) : ∀ w : Fin cfg0.W, (dat0 (V1 m) c).arrAt w cfg0.N = V2 m c (Pipeline.arrRef spec0 w) :=
  fun | ⟨0, _⟩ => ((dat0 (V1 m) c).arrAt_in 0 rfl _).trans ((A_eq0 (V1 m) c 0).trans (W2_of_ne m c _ (by decide)).symm) | ⟨1, _⟩ => ((dat0 (V1 m) c).arrAt_in 1 rfl _).trans ((A_eq0 (V1 m) c 1).trans (W2_of_ne m c _ (by decide)).symm) | ⟨2, _⟩ => ((dat0 (V1 m) c).arrAt_in 2 rfl _).trans ((A_eq0 (V1 m) c 2).trans (W2_of_ne m c _ (by decide)).symm) | ⟨3, _⟩ => ((dat0 (V1 m) c).arrAt_in 3 rfl _).trans ((A_eq0 (V1 m) c 3).trans (W2_of_ne m c _ (by decide)).symm) | ⟨4, _⟩ => (W_out0 m c).symm | ⟨_ + 5, h⟩ => absurd h (Nat.not_lt.2 (Nat.le_add_left _ _))
theorem hrest0 (c : Dev nD) : ∀ b, b ∉ Finset.univ.image (Pipeline.arrRef spec0) → V2 m c b = V1 m c b :=
  fun b hb => W2_of_ne m c b fun e => hb (Finset.mem_image.mpr ⟨4, Finset.mem_univ _, e.symm⟩)

theorem hF1 (c : Dev nD) : ∀ w : Fin cfg1.W, (dat1 (V3 m) c).arrAt w cfg1.N = V4 m c (Pipeline.arrRef spec1 w) :=
  fun | ⟨0, _⟩ => ((dat1 (V3 m) c).arrAt_in 0 rfl _).trans ((A_eq1 (V3 m) c 0).trans (W4_of_ne m c _ (by decide)).symm) | ⟨1, _⟩ => ((dat1 (V3 m) c).arrAt_in 1 rfl _).trans ((A_eq1 (V3 m) c 1).trans (W4_of_ne m c _ (by decide)).symm) | ⟨2, _⟩ => ((dat1 (V3 m) c).arrAt_in 2 rfl _).trans ((A_eq1 (V3 m) c 2).trans (W4_of_ne m c _ (by decide)).symm) | ⟨3, _⟩ => ((dat1 (V3 m) c).arrAt_in 3 rfl _).trans ((A_eq1 (V3 m) c 3).trans (W4_of_ne m c _ (by decide)).symm) | ⟨4, _⟩ => (W_out1 m c).symm | ⟨_ + 5, h⟩ => absurd h (Nat.not_lt.2 (Nat.le_add_left _ _))
theorem hrest1 (c : Dev nD) : ∀ b, b ∉ Finset.univ.image (Pipeline.arrRef spec1) → V4 m c b = V3 m c b :=
  fun b hb => W4_of_ne m c b fun e => hb (Finset.mem_image.mpr ⟨4, Finset.mem_univ _, e.symm⟩)

theorem hF2 (c : Dev nD) : ∀ w : Fin cfg2.W, (dat2 (V5 m) c).arrAt w cfg2.N = V6 m c (Pipeline.arrRef spec2 w) :=
  fun | ⟨0, _⟩ => ((dat2 (V5 m) c).arrAt_in 0 rfl _).trans ((A_eq2 (V5 m) c 0).trans (W6_of_ne m c _ (by decide)).symm) | ⟨1, _⟩ => ((dat2 (V5 m) c).arrAt_in 1 rfl _).trans ((A_eq2 (V5 m) c 1).trans (W6_of_ne m c _ (by decide)).symm) | ⟨2, _⟩ => ((dat2 (V5 m) c).arrAt_in 2 rfl _).trans ((A_eq2 (V5 m) c 2).trans (W6_of_ne m c _ (by decide)).symm) | ⟨3, _⟩ => ((dat2 (V5 m) c).arrAt_in 3 rfl _).trans ((A_eq2 (V5 m) c 3).trans (W6_of_ne m c _ (by decide)).symm) | ⟨4, _⟩ => ((dat2 (V5 m) c).arrAt_in 4 rfl _).trans ((A_eq2 (V5 m) c 4).trans (W6_of_ne m c _ (by decide)).symm) | ⟨5, _⟩ => ((dat2 (V5 m) c).arrAt_in 5 rfl _).trans ((A_eq2 (V5 m) c 5).trans (W6_of_ne m c _ (by decide)).symm) | ⟨6, _⟩ => ((dat2 (V5 m) c).arrAt_in 6 rfl _).trans ((A_eq2 (V5 m) c 6).trans (W6_of_ne m c _ (by decide)).symm) | ⟨7, _⟩ => (W_out2 m c).symm | ⟨_ + 8, h⟩ => absurd h (Nat.not_lt.2 (Nat.le_add_left _ _))
theorem hrest2 (c : Dev nD) : ∀ b, b ∉ Finset.univ.image (Pipeline.arrRef spec2) → V6 m c b = V5 m c b :=
  fun b hb => W6_of_ne m c b fun e => hb (Finset.mem_image.mpr ⟨7, Finset.mem_univ _, e.symm⟩)

end Cert.ReferenceIdeal.RefRun

end
-- ==== Proof.RefRunRegs.lean ====
import proofs.«108509_g2000006651879042_pallasbulk_171_5_alg».proof.Proof.RefRunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

/-! # The reference's three kernel regions as segments of its run

Between two items core `c` holds every unscoped buffer whole at the boundary's contents (`W1 … W7`), beside its
generator register at some state and its `owes` at nothing. Each region's record says how that state enters the
pipeline (the windows' arrays split out, the register into the invariant) and how it comes back. -/

namespace Cert.ReferenceIdeal.RefRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.R0 Cert.ReferenceIdeal.R1 Cert.ReferenceIdeal.R2

variable {F : FTy → Type} [FloatOps F]
local notation "𝕄" => MT nD τ sig Unit (Elt F) ℕ (UR sig nD τ) ℕ
variable (m : (ℓ : Loc nD τ sig) → Buf (Elt F) ℓ)

/-- Every pipeline's proof data, each at its region's entry contents: a literal match on the pipeline's index. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- a library lemma stated over the pinned configuration unifies with the printed one only when unification may unfold
-- plain definitions in a metavariable's type
set_option backward.isDefEq.respectTransparency.types false in
/-- REGION 0 over the thread state: entered from every unscoped buffer at `W1`, left at `W2`. Its
    arrays are split out of the unscoped buffers and put back at the exit contents; the generator register goes
    into the invariant and comes back; nothing is owed; the kernel has no semaphore of its own. -/
def reg0 (hloc : R0.RowLocal F) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m) hloc c
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 0 c).owed 0 = 0 from owed_eq0 (V1 m) c 0]
      iexact HO
    isplitl [Hp]; · iexact Hp
    iexact Hrest
  hin c := by
    refine .trans ?_ (Phi_in0 (V1 m) c)
    unfold Pipeline.ΦA
    iintro ⟨Hp, -, Hr⟩
    isplitl [Hr]; · iexact Hr
    iexact Hp
  hout c := by
    rw [Pipeline.ownSems0_none]
    refine (Phi_out0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed_eq0 (V1 m) c _]
    iexact HO

-- a library lemma stated over the pinned configuration unifies with the printed one only when unification may unfold
-- plain definitions in a metavariable's type
set_option backward.isDefEq.respectTransparency.types false in
/-- REGION 1 over the thread state: entered from every unscoped buffer at `W3`, left at `W4`. Its
    arrays are split out of the unscoped buffers and put back at the exit contents; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 1 c).owed 0 = 0 from owed_eq1 (V3 m) c 0]
      iexact HO
    isplitl [Hp]; · iexact Hp
    iexact Hrest
  hin c := by
    refine .trans ?_ (Phi_in1 (V3 m) c)
    unfold Pipeline.ΦA
    iintro ⟨Hp, -, Hr⟩
    isplitl [Hr]; · iexact Hr
    iexact Hp
  hout c := by
    rw [Pipeline.ownSems0_none]
    refine (Phi_out1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed_eq1 (V3 m) c _]
    iexact HO

-- a library lemma stated over the pinned configuration unifies with the printed one only when unification may unfold
-- plain definitions in a metavariable's type
set_option backward.isDefEq.respectTransparency.types false in
/-- REGION 2 over the thread state: entered from every unscoped buffer at `W5`, left at `W6`. Its
    arrays are split out of the unscoped buffers and put back at the exit contents; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun c t => owed_eq2 (V5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (V5 m) c w) (V5 m c) fun w => A_eq2 (V5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 2 c).owed 0 = 0 from owed_eq2 (V5 m) c 0]
      iexact HO
    isplitl [Hp]; · iexact Hp
    iexact Hrest
  hin c := by
    refine .trans ?_ (Phi_in2 (V5 m) c)
    unfold Pipeline.ΦA
    iintro ⟨Hp, -, Hr⟩
    isplitl [Hr]; · iexact Hr
    iexact Hp
  hout c := by
    rw [Pipeline.ownSems0_none]
    refine (Phi_out2 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (V5 m) c w)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 2 c).owed (Fin.last _) = 0 from owed_eq2 (V5 m) c _]
    iexact HO

end Cert.ReferenceIdeal.RefRun

end
-- ==== Proof.RefRun.lean ====
import proofs.«108509_g2000006651879042_pallasbulk_171_5_alg».proof.Proof.RefRunRegs

noncomputable section

/-! # The reference's run, with the value of its result

Every weakly fair execution of the reference program from the memory `m` terminates without a fault; the final
memory holds the result buffer `main_v21` at the last boundary's contents `W7` — the fold of the four host
stretches and the three regions' outputs from the launch memory — and every argument as launched. -/

namespace Cert.ReferenceIdeal.RefRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.R0 Cert.ReferenceIdeal.R1 Cert.ReferenceIdeal.R2

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The program's seven items in order: a host segment per stretch from its boundary's contents, a region per kernel. -/
abbrev segs (hloc : R0.RowLocal F) : List (Pipeline.Seg (pcfgs (F := F)) adm (pdats m) () defs₀ 𝒱₀ L lv) :=
  [ .host (hseg hostOps0 hostOps0_sub hostOps0_fresh (W0 m)),
    .region (reg0 m hloc),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

-- the launch theorem's implicit arguments are found by unifying its conclusion with this one, which takes unfolding
-- plain definitions in a metavariable's type
set_option backward.isDefEq.respectTransparency.types false in
/-- THE RUN: termination, no fault, the result buffer at `W7`, the arguments unchanged. -/
theorem run (hloc : R0.RowLocal F) : θ_run defs (onTc (τ := τ) (main (F := F))) ⟨m, fun _ => 0, ρ⟩ (fun r => ∀ c : Dev nD,
      r.2.mem ((c.tc : Thread nD τ).loc main_v21) = W7 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m) () cellOf_inj emb₁ defs₀ 𝒱₀ L lv m ρ main (segs m hloc)
    (fun c Q => by
      rewrite [main_chain c, Pipeline.Seg.run_eq_chain,
        show (segs m hloc).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h c => ⟨h c _ (mem_uc main_v21 (by decide)),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c),
      (h c _ (mem_uc main_arg10 (by decide))).trans (W7_main_arg10 m c),
      (h c _ (mem_uc main_arg11 (by decide))).trans (W7_main_arg11 m c)⟩)

/-- THE FRAME: termination, no fault, the arguments unchanged (the run, its first conjunct dropped). -/
theorem frame (hloc : R0.RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run m ρ hloc)

end Cert.ReferenceIdeal.RefRun

end
-- ==== Proof.LibRealLift.lean ====
/-
  Finite arrays.  An array of extended reals that is the coercion of an array of reals stays one under every operation
  the two programs apply to finite data: sums, differences, products, a quotient by a nonzero real, `tanh`, `exp`, a
  change of float format (the identity), a matrix product into a zero accumulator, the host's `dot_general`, a sum
  along one axis (the kernel's and the host's), and every change of layout (which only re-indexes).  Each lemma names
  the real array the result is the coercion of, so that all further algebra is done over ℝ.
-/
import Idealize.ShloMosaic.PureOps.Ideal
import Idealize.ShloMosaic.PureOps.Ideal.Laws
import Idealize.ShloMosaic.Lib.ValueIdx
import Idealize.ShloMosaic.Lib.Pipeline.Value

noncomputable section

namespace Cert.RealLift

open Idealize.ShloMosaic

/-- `A` is the coercion of the real array `a`, entry by entry. -/
def IsR {ι : Type} (A : ι → EReal) (a : ι → ℝ) : Prop := ∀ i, A i = ((a i : ℝ) : EReal)

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of finite entries is the coercion of the real sum of products. -/
theorem sum_mul_coe {ι : Type} (s : Finset ι) (f g : ι → EReal) (f' g' : ι → ℝ) (hf : ∀ i, f i = ((f' i : ℝ) : EReal))
    (hg : ∀ i, g i = ((g' i : ℝ) : EReal)) : ∑ i ∈ s, f i * g i = ((∑ i ∈ s, f' i * g' i : ℝ) : EReal) := by
  rw [coe_sum]
  exact Finset.sum_congr rfl fun i _ => by rw [hf i, hg i, EReal.coe_mul]

theorem sum_coe {ι : Type} (s : Finset ι) (f : ι → EReal) (f' : ι → ℝ) (hf : ∀ i, f i = ((f' i : ℝ) : EReal)) :
    ∑ i ∈ s, f i = ((∑ i ∈ s, f' i : ℝ) : EReal) := by
  rw [coe_sum]
  exact Finset.sum_congr rfl fun i _ => hf i

variable {s t : Shape} {φ : FTy}

namespace IsR

theorem of_eq {ι : Type} {A : ι → EReal} {a a' : ι → ℝ} (h : IsR A a) (e : ∀ i, a i = a' i) : IsR A a' :=
  fun i => (h i).trans (congrArg _ (e i))

theorem addf {A B : FVec Ideal s φ} {a b : s.Idx → ℝ} (hA : IsR A a) (hB : IsR B b) :
    IsR (Idealize.ShloMosaic.addf A B) (fun i => a i + b i) := fun i => by
  show A i + B i = _
  rw [hA i, hB i, EReal.coe_add]

theorem subf {A B : FVec Ideal s φ} {a b : s.Idx → ℝ} (hA : IsR A a) (hB : IsR B b) :
    IsR (Idealize.ShloMosaic.subf A B) (fun i => a i - b i) := fun i => by
  show A i - B i = _
  rw [hA i, hB i, EReal.coe_sub]

theorem mulf {A B : FVec Ideal s φ} {a b : s.Idx → ℝ} (hA : IsR A a) (hB : IsR B b) :
    IsR (Idealize.ShloMosaic.mulf A B) (fun i => a i * b i) := fun i => by
  show A i * B i = _
  rw [hA i, hB i, EReal.coe_mul]

/-- A quotient by a nonzero real. -/
theorem div_coe (x y : ℝ) (hy : y ≠ 0) : Ideal.div ((x : ℝ) : EReal) ((y : ℝ) : EReal) = ((x / y : ℝ) : EReal) := by
  rw [Ideal.div_coe hy, ← EReal.coe_mul, mul_one_div]

theorem divf {A B : FVec Ideal s φ} {a b : s.Idx → ℝ} (hA : IsR A a) (hB : IsR B b) (hb : ∀ i, b i ≠ 0) :
    IsR (Idealize.ShloMosaic.divf A B) (fun i => a i / b i) := fun i => by
  show Ideal.div (A i) (B i) = _
  rw [hA i, hB i, div_coe _ _ (hb i)]

theorem hostDivf {A B : FVec Ideal s φ} {a b : s.Idx → ℝ} (hA : IsR A a) (hB : IsR B b) (hb : ∀ i, b i ≠ 0) :
    IsR (Host.divf A B) (fun i => a i / b i) := fun i => by
  show Ideal.div (A i) (B i) = _
  rw [hA i, hB i, div_coe _ _ (hb i)]

theorem tanh {A : FVec Ideal s φ} {a : s.Idx → ℝ} (hA : IsR A a) :
    IsR (Idealize.ShloMosaic.tanh A) (fun i => Real.tanh (a i)) := fun i => by
  show Ideal.tanh (A i) = _
  rw [hA i]; rfl

theorem exp {A : FVec Ideal s φ} {a : s.Idx → ℝ} (hA : IsR A a) :
    IsR (Idealize.ShloMosaic.exp A) (fun i => Real.exp (a i)) := fun i => by
  show Ideal.exp (A i) = _
  rw [hA i]; rfl

theorem hostTanh {A : FVec Ideal s φ} {a : s.Idx → ℝ} (hA : IsR A a) :
    IsR (Host.tanh A) (fun i => Real.tanh (a i)) := fun i => by
  show Ideal.tanh (A i) = _
  rw [hA i]; rfl

theorem hostExp {A : FVec Ideal s φ} {a : s.Idx → ℝ} (hA : IsR A a) :
    IsR (Host.exp A) (fun i => Real.exp (a i)) := fun i => by
  show Ideal.exp (A i) = _
  rw [hA i]; rfl

/-- A change of float format is the identity on the extended reals. -/
theorem truncf {A : FVec Ideal s φ} {a : s.Idx → ℝ} (hA : IsR A a) (ψ : FTy) (h : ψ.bits < φ.bits) :
    IsR (Idealize.ShloMosaic.truncf ψ A h : FVec Ideal s ψ) a := fun i => hA i

theorem extf {A : FVec Ideal s φ} {a : s.Idx → ℝ} (hA : IsR A a) (ψ : FTy) (h : φ.bits < ψ.bits) :
    IsR (Idealize.ShloMosaic.extf ψ A h : FVec Ideal s ψ) a := fun i => hA i

/-- Layout operations only re-index. -/
theorem shapeCast {A : s.Idx → EReal} {a : s.Idx → ℝ} (hA : IsR A a) (h : s.ShapeCasts t) :
    IsR (Idealize.ShloMosaic.shapeCast t A h) (Idealize.ShloMosaic.shapeCast t a h) := fun _ => hA _

theorem broadcastTo {A : s.Idx → EReal} {a : s.Idx → ℝ} (hA : IsR A a) (h : s.Broadcasts t) :
    IsR (Idealize.ShloMosaic.broadcastTo t A h) (Idealize.ShloMosaic.broadcastTo t a h) := fun _ => hA _

theorem broadcastInDim {A : s.Idx → EReal} {a : s.Idx → ℝ} (hA : IsR A a) (dims : Fin s.rank → Fin t.rank)
    (h : s.BroadcastsInDim t dims) :
    IsR (Idealize.ShloMosaic.broadcastInDim t dims h A) (Idealize.ShloMosaic.broadcastInDim t dims h a) := fun _ => hA _

/-- A splat of a real. -/
theorem broadcast {x : EReal} {r : ℝ} (h : x = ((r : ℝ) : EReal)) : IsR (Idealize.ShloMosaic.broadcast s x) (fun _ => r) :=
  fun _ => h

theorem constant {b : BitVec φ.bits} {r : ℝ} (h : Ideal.ofBits φ b = ((r : ℝ) : EReal)) :
    IsR (Idealize.ShloMosaic.constant (F := Ideal) s φ b) (fun _ => r) := fun _ => h

/-- A matrix product of finite operands into the zero accumulator: the real sum of products over the contraction. -/
theorem matmul0 {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Idealize.ShloMosaic.matmul D prec A B (Idealize.ShloMosaic.constant so .f32 0x00000000#32))
      (fun j => ∑ k : D.contr.Idx, a (D.lhsIdx j k) * b (D.rhsIdx j k)) := fun j => by
  refine (Ideal.matmul_constant_zero_apply D prec A B j).trans ?_
  exact sum_mul_coe _ _ _ _ _ (fun k => hA _) (fun k => hB _)

/-- The host's `dot_general` of finite operands. -/
theorem dotGeneral {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Host.dotGeneral D prec A B) (fun j => ∑ k : D.contr.Idx, a (D.lhsIdx j k) * b (D.rhsIdx j k)) := fun j => by
  refine (Ideal.dotGeneral_apply D prec .single A B j).trans ?_
  exact sum_mul_coe _ _ _ _ _ (fun k => hA _) (fun k => hB _)

/-- The kernel's sum along one axis of a finite array. -/
theorem multiReduction_add {ax : Fin s.rank} {A : FVec Ideal s φ} {a : s.Idx → ℝ} (hA : IsR A a) (acc : BitVec φ.bits)
    (h : s.Reduces [ax] t) (hφ : FKind.Formats φ) (hacc : acc = FKind.add.neutral φ hφ) :
    IsR (Idealize.ShloMosaic.multiReduction .add [ax] t A acc h hφ hacc) (fun j => ∑ k : Fin (s.size ax), a (h.lift j k)) :=
  fun j => by
    refine (Ideal.multiReduction_add_single A acc h hφ hacc j).trans ?_
    exact sum_coe _ _ _ (fun k => hA _)

end IsR

end Cert.RealLift

end
-- ==== Proof.Spec.lean ====
/-
  The mathematics both programs compute, over the reals: one residual block with a squeeze-excite gate.
  For image `b`, channel `c`, flattened pixel `p = 56·i + j`:
    h1  = relu (s1 · (x ⋆ w1) + b1)            (a 1×1 convolution: a sum over the 256 input channels)
    h2  = relu (s2 · conv3x3(pad h1, w2) + b2) (zero padding of one pixel on each side)
    h3  = s3 · (h2 ⋆ w3) + b3
    y   = mean over the 3136 pixels of h3,  hid = relu (fc1 · y),  gate = logistic (fc2 · hid)
    out = relu (h3 · gate + x).
  The reference multiplies the batch-norm scale AFTER each contraction; the kernel folds it into the weights
  BEFORE the contraction. Over the reals the two agree by distributivity (`Finset.sum_mul`); that is the whole
  law between the two programs, and it is why finiteness of the inputs is needed on the extended reals.
-/
import Mathlib

noncomputable section

namespace Cert.Spec

open Finset BigOperators

/-- The twelve inputs, as real arrays. The image is indexed by flattened pixel. -/
structure Inp where
  x : Fin 16 → Fin 256 → Fin 3136 → ℝ
  w1 : Fin 64 → Fin 256 → ℝ
  w2 : Fin 64 → Fin 64 → Fin 3 → Fin 3 → ℝ
  w3 : Fin 256 → Fin 64 → ℝ
  fc1 : Fin 16 → Fin 256 → ℝ
  fc2 : Fin 256 → Fin 16 → ℝ
  s1 : Fin 64 → ℝ
  b1 : Fin 64 → ℝ
  s2 : Fin 64 → ℝ
  b2 : Fin 64 → ℝ
  s3 : Fin 256 → ℝ
  b3 : Fin 256 → ℝ

variable (I : Inp)

/-- First stage, scale applied after the contraction. -/
def h1 (b : Fin 16) (p : Fin 3136) (o : Fin 64) : ℝ :=
  max ((∑ c : Fin 256, I.x b c p * I.w1 o c) * I.s1 o + I.b1 o) 0

/-- First stage, scale folded into the weight. -/
def h1F (b : Fin 16) (p : Fin 3136) (o : Fin 64) : ℝ :=
  max ((∑ c : Fin 256, I.x b c p * (I.w1 o c * I.s1 o)) + I.b1 o) 0

theorem h1F_eq (b : Fin 16) (p : Fin 3136) (o : Fin 64) : h1F I b p o = h1 I b p o := by
  unfold h1F h1
  rw [Finset.sum_mul]
  congr 2
  exact Finset.sum_congr rfl fun c _ => by ring

/-- A 56×56×64 image padded with one pixel of zeros on each side, at padded coordinates `(i, j)`
    (`0 ≤ i, j < 58`; outside the interior it is zero). The image is given by flattened pixel. -/
def pad (h : Fin 3136 → Fin 64 → ℝ) (i j : ℕ) (ci : Fin 64) : ℝ :=
  if hh : (1 ≤ i ∧ i ≤ 56) ∧ (1 ≤ j ∧ j ≤ 56) then h ⟨56 * (i - 1) + (j - 1), by omega⟩ ci else 0

/-- The 3×3 convolution of the padded image at output pixel `p`, output channel `o`: nine taps. -/
def conv (h : Fin 3136 → Fin 64 → ℝ) (p : Fin 3136) (o : Fin 64) : ℝ :=
  ∑ kx : Fin 3, ∑ ky : Fin 3, ∑ ci : Fin 64, pad h (p.val / 56 + ky.val) (p.val % 56 + kx.val) ci * I.w2 o ci ky kx

/-- The same with the three vertical taps laid side by side along a contraction of length 192 and the
    scale folded into the weight. -/
def convF (h : Fin 3136 → Fin 64 → ℝ) (p : Fin 3136) (o : Fin 64) : ℝ :=
  ∑ kx : Fin 3, ∑ q : Fin 192,
    pad h (p.val / 56 + q.val / 64) (p.val % 56 + kx.val) ⟨q.val % 64, Nat.mod_lt _ (by norm_num)⟩
      * (I.w2 o ⟨q.val % 64, Nat.mod_lt _ (by norm_num)⟩ ⟨q.val / 64, by have := q.isLt; omega⟩ kx * I.s2 o)

/-- A sum over `q < 192` as the double sum over `q / 64` and `q % 64`. -/
theorem sum_192 (f : ℕ → ℕ → ℝ) :
    (∑ q : Fin 192, f (q.val / 64) (q.val % 64)) = ∑ ky : Fin 3, ∑ ci : Fin 64, f ky.val ci.val := by
  rw [← Finset.sum_product']
  refine (Finset.sum_bij' (fun (q : Fin 192) _ => ((⟨q.val / 64, by have := q.isLt; omega⟩ : Fin 3), (⟨q.val % 64, Nat.mod_lt _ (by norm_num)⟩ : Fin 64)))
    (fun (a : Fin 3 × Fin 64) _ => (⟨64 * a.1.val + a.2.val, by have := a.1.isLt; have := a.2.isLt; omega⟩ : Fin 192))
    (fun _ _ => Finset.mem_univ _) (fun _ _ => Finset.mem_univ _) ?_ ?_ ?_)
  · intro q _; apply Fin.ext; simp only []; omega
  · intro a _; apply Prod.ext <;> apply Fin.ext <;> simp only [] <;> omega
  · intro q _; rfl

theorem convF_eq (h : Fin 3136 → Fin 64 → ℝ) (p : Fin 3136) (o : Fin 64) :
    convF I h p o = conv I h p o * I.s2 o := by
  unfold convF conv
  rw [Finset.sum_mul]
  refine Finset.sum_congr rfl fun kx _ => ?_
  have := sum_192 (fun a r => if hr : r < 64 ∧ a < 3 then
      pad h (p.val / 56 + a) (p.val % 56 + kx.val) ⟨r, hr.1⟩ * (I.w2 o ⟨r, hr.1⟩ ⟨a, hr.2⟩ kx * I.s2 o) else 0)
  rw [Finset.sum_mul]
  refine Eq.trans ?_ (this.trans ?_)
  · refine Finset.sum_congr rfl fun q _ => ?_
    have h1 : q.val % 64 < 64 := Nat.mod_lt _ (by norm_num)
    have h2 : q.val / 64 < 3 := by have := q.isLt; omega
    rw [dif_pos ⟨h1, h2⟩]
  · refine Finset.sum_congr rfl fun ky _ => ?_
    rw [Finset.sum_mul]
    refine Finset.sum_congr rfl fun ci _ => ?_
    rw [dif_pos ⟨ci.isLt, ky.isLt⟩]
    ring

/-- Second stage, scale after. -/
def h2 (b : Fin 16) (p : Fin 3136) (o : Fin 64) : ℝ :=
  max (conv I (h1 I b) p o * I.s2 o + I.b2 o) 0

/-- Second stage, scale folded, over the folded first stage. -/
def h2F (b : Fin 16) (p : Fin 3136) (o : Fin 64) : ℝ :=
  max (convF I (h1F I b) p o + I.b2 o) 0

theorem h2F_eq (b : Fin 16) (p : Fin 3136) (o : Fin 64) : h2F I b p o = h2 I b p o := by
  unfold h2F h2
  rw [show h1F I b = h1 I b from funext fun p => funext fun o => h1F_eq I b p o, convF_eq]

/-- Third stage before the gate, scale after. -/
def h3 (b : Fin 16) (c : Fin 256) (p : Fin 3136) : ℝ :=
  (∑ o : Fin 64, h2 I b p o * I.w3 c o) * I.s3 c + I.b3 c

/-- Third stage, scale folded, weight on the left. -/
def h3F (b : Fin 16) (c : Fin 256) (p : Fin 3136) : ℝ :=
  (∑ o : Fin 64, (I.w3 c o * I.s3 c) * h2F I b p o) + I.b3 c

theorem h3F_eq (b : Fin 16) (c : Fin 256) (p : Fin 3136) : h3F I b c p = h3 I b c p := by
  unfold h3F h3
  rw [Finset.sum_mul]
  congr 1
  exact Finset.sum_congr rfl fun o _ => by rw [h2F_eq]; ring

/-- The squeeze: the mean over the pixels. -/
def y (b : Fin 16) (c : Fin 256) : ℝ := (∑ p : Fin 3136, h3 I b c p) / 3136
/-- The hidden layer of the excitation. -/
def hid (b : Fin 16) (r : Fin 16) : ℝ := max (∑ c : Fin 256, y I b c * I.fc1 r c) 0
/-- The gate. -/
def gate (b : Fin 16) (c : Fin 256) : ℝ := (1 + Real.exp (-(∑ r : Fin 16, hid I b r * I.fc2 c r)))⁻¹
/-- The block's output. -/
def out (b : Fin 16) (c : Fin 256) (p : Fin 3136) : ℝ := max (h3 I b c p * gate I b c + I.x b c p) 0

/-- The same four with the weights on the left of each product (the kernel's column-vector form). -/
def yF (b : Fin 16) (c : Fin 256) : ℝ := (∑ p : Fin 3136, h3F I b c p) / 3136
def hidF (b : Fin 16) (r : Fin 16) : ℝ := max (∑ c : Fin 256, I.fc1 r c * yF I b c) 0
def gateF (b : Fin 16) (c : Fin 256) : ℝ := (1 + Real.exp (-(∑ r : Fin 16, I.fc2 c r * hidF I b r)))⁻¹
def outF (b : Fin 16) (c : Fin 256) (p : Fin 3136) : ℝ := max (h3F I b c p * gateF I b c + I.x b c p) 0

theorem yF_eq (b : Fin 16) (c : Fin 256) : yF I b c = y I b c := by
  unfold yF y; congr 1; exact Finset.sum_congr rfl fun p _ => h3F_eq I b c p
theorem hidF_eq (b : Fin 16) (r : Fin 16) : hidF I b r = hid I b r := by
  unfold hidF hid; congr 1; exact Finset.sum_congr rfl fun c _ => by rw [yF_eq]; ring
theorem gateF_eq (b : Fin 16) (c : Fin 256) : gateF I b c = gate I b c := by
  unfold gateF gate
  rw [show (∑ r : Fin 16, I.fc2 c r * hidF I b r) = ∑ r : Fin 16, hid I b r * I.fc2 c r from
    Finset.sum_congr rfl fun r _ => by rw [hidF_eq]; ring]
theorem outF_eq (b : Fin 16) (c : Fin 256) (p : Fin 3136) : outF I b c p = out I b c p := by
  unfold outF out; rw [h3F_eq, gateF_eq]

end Cert.Spec

end
-- ==== Proof.KV1.lean ====
/-
  The fused kernel's first stage at an entry: the 1×1 convolution with the scale folded into the weight, the bias
  and the rectifier, at the extended reals, for finite data, is the real number `Spec.h1F`.
  Also: sums over the contraction's index set of the kernel's five matrix products as sums over `Fin K`.
-/
import proofs.«108509_g2000006651879042_pallasbulk_171_5_alg».proof.Proof.Gen.KernelIdeal.Skeleton
import proofs.«108509_g2000006651879042_pallasbulk_171_5_alg».proof.Proof.LibRealLift
import proofs.«108509_g2000006651879042_pallasbulk_171_5_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.KV

open Cert.KernelIdeal Cert.KernelIdeal.Gen Cert.RealLift

/-! ## The five contractions, re-indexed by the contracted coordinate -/

abbrev D1 := dot_S256x3136_S256x64_S3136x64_0_0_1_1_n_n
abbrev D2 := dot_S3136x192_S192x64_S3136x64_1_0_0_1_n_n
abbrev D3 := dot_S256x64_S3136x64_S256x3136_1_1_0_0_n_n
abbrev D4 := dot_S16x256_S256x1_S16x1_1_0_0_1_n_n
abbrev D5 := dot_S256x16_S16x1_S256x1_1_0_0_1_n_n

theorem D1_rank : D1.contr.rank = 1 := rfl
theorem D1_size : D1.contr.size ⟨0, by rw [D1_rank]; exact Nat.one_pos⟩ = 256 := rfl
theorem D2_rank : D2.contr.rank = 1 := rfl
theorem D2_size : D2.contr.size ⟨0, by rw [D2_rank]; exact Nat.one_pos⟩ = 192 := rfl
theorem D3_rank : D3.contr.rank = 1 := rfl
theorem D3_size : D3.contr.size ⟨0, by rw [D3_rank]; exact Nat.one_pos⟩ = 64 := rfl
theorem D4_rank : D4.contr.rank = 1 := rfl
theorem D4_size : D4.contr.size ⟨0, by rw [D4_rank]; exact Nat.one_pos⟩ = 256 := rfl
theorem D5_rank : D5.contr.rank = 1 := rfl
theorem D5_size : D5.contr.size ⟨0, by rw [D5_rank]; exact Nat.one_pos⟩ = 16 := rfl

/-- [256, 3136] × [256, 64] contracting the first axis of both: entry (p, o) sums l (k, p) · r (k, o). -/
theorem D1_sum {α : Type} [AddCommMonoid α] (f : S256x3136.Idx → S256x64.Idx → α) (p : Fin 3136) (o : Fin 64) :
    ∑ k : D1.contr.Idx, f (D1.lhsIdx (ix2 p o) k) (D1.rhsIdx (ix2 p o) k) = ∑ k : Fin 256, f (ix2 k p) (ix2 k o) := by
  rw [← Equiv.sum_comp (contrEquiv1 D1 256 D1_rank D1_size).symm]
  refine Finset.sum_congr rfl fun k _ => ?_
  have hk := contrEquiv1_symm_val D1 256 D1_rank D1_size k
  congr 1 <;> (funext a; apply Fin.ext; match a with
    | ⟨0, _⟩ => exact hk
    | ⟨1, _⟩ => rfl)

/-- [3136, 192] × [192, 64]: entry (p, o) sums l (p, k) · r (k, o). -/
theorem D2_sum {α : Type} [AddCommMonoid α] (f : S3136x192.Idx → S192x64.Idx → α) (p : Fin 3136) (o : Fin 64) :
    ∑ k : D2.contr.Idx, f (D2.lhsIdx (ix2 p o) k) (D2.rhsIdx (ix2 p o) k) = ∑ k : Fin 192, f (ix2 p k) (ix2 k o) := by
  rw [← Equiv.sum_comp (contrEquiv1 D2 192 D2_rank D2_size).symm]
  refine Finset.sum_congr rfl fun k _ => ?_
  have hk := contrEquiv1_symm_val D2 192 D2_rank D2_size k
  congr 1
  · funext a; apply Fin.ext; match a with
    | ⟨0, _⟩ => rfl
    | ⟨1, _⟩ => exact hk
  · funext a; apply Fin.ext; match a with
    | ⟨0, _⟩ => exact hk
    | ⟨1, _⟩ => rfl

/-- [256, 64] × [3136, 64] contracting the second axis of both: entry (c, p) sums l (c, k) · r (p, k). -/
theorem D3_sum {α : Type} [AddCommMonoid α] (f : S256x64.Idx → S3136x64.Idx → α) (c : Fin 256) (p : Fin 3136) :
    ∑ k : D3.contr.Idx, f (D3.lhsIdx (ix2 c p) k) (D3.rhsIdx (ix2 c p) k) = ∑ k : Fin 64, f (ix2 c k) (ix2 p k) := by
  rw [← Equiv.sum_comp (contrEquiv1 D3 64 D3_rank D3_size).symm]
  refine Finset.sum_congr rfl fun k _ => ?_
  have hk := contrEquiv1_symm_val D3 64 D3_rank D3_size k
  congr 1 <;> (funext a; apply Fin.ext; match a with
    | ⟨0, _⟩ => rfl
    | ⟨1, _⟩ => exact hk)

/-- [16, 256] × [256, 1]: entry (r, 0) sums l (r, k) · v (k, 0). -/
theorem D4_sum {α : Type} [AddCommMonoid α] (f : S16x256.Idx → S256x1.Idx → α) (r : Fin 16) (z : Fin 1) :
    ∑ k : D4.contr.Idx, f (D4.lhsIdx (ix2 r z) k) (D4.rhsIdx (ix2 r z) k) = ∑ k : Fin 256, f (ix2 r k) (ix2 k z) := by
  rw [← Equiv.sum_comp (contrEquiv1 D4 256 D4_rank D4_size).symm]
  refine Finset.sum_congr rfl fun k _ => ?_
  have hk := contrEquiv1_symm_val D4 256 D4_rank D4_size k
  congr 1
  · funext a; apply Fin.ext; match a with
    | ⟨0, _⟩ => rfl
    | ⟨1, _⟩ => exact hk
  · funext a; apply Fin.ext; match a with
    | ⟨0, _⟩ => exact hk
    | ⟨1, _⟩ => rfl

/-- [256, 16] × [16, 1]: entry (c, 0) sums l (c, k) · v (k, 0). -/
theorem D5_sum {α : Type} [AddCommMonoid α] (f : S256x16.Idx → S16x1.Idx → α) (c : Fin 256) (z : Fin 1) :
    ∑ k : D5.contr.Idx, f (D5.lhsIdx (ix2 c z) k) (D5.rhsIdx (ix2 c z) k) = ∑ k : Fin 16, f (ix2 c k) (ix2 k z) := by
  rw [← Equiv.sum_comp (contrEquiv1 D5 16 D5_rank D5_size).symm]
  refine Finset.sum_congr rfl fun k _ => ?_
  have hk := contrEquiv1_symm_val D5 16 D5_rank D5_size k
  congr 1
  · funext a; apply Fin.ext; match a with
    | ⟨0, _⟩ => rfl
    | ⟨1, _⟩ => exact hk
  · funext a; apply Fin.ext; match a with
    | ⟨0, _⟩ => exact hk
    | ⟨1, _⟩ => rfl

/-- The zero word is the real zero. -/
theorem zero_f32 : Ideal.ofBits .f32 0x00000000#32 = ((0 : ℝ) : EReal) := by
  rw [Ideal.ofBits_zero_f32]; rfl

theorem coe_max0 (a : ℝ) : max ((a : ℝ) : EReal) (Ideal.ofBits .f32 0x00000000#32) = ((max a 0 : ℝ) : EReal) := by
  rw [zero_f32]; exact (EReal.coe_strictMono.monotone.map_max).symm

/-- The first product at an entry, for finite operands. -/
theorem mm1 (A : FVec Ideal S256x3136 .bf16) (B : FVec Ideal S256x64 .bf16) (a : Fin 256 → Fin 3136 → ℝ) (w : Fin 256 → Fin 64 → ℝ)
    (hA : ∀ k p, A (ix2 k p) = ((a k p : ℝ) : EReal)) (hB : ∀ k o, B (ix2 k o) = ((w k o : ℝ) : EReal)) (p : Fin 3136) (o : Fin 64) :
    matmul D1 none A B (constant S3136x64 .f32 0x00000000#32) (ix2 p o) = ((∑ k : Fin 256, a k p * w k o : ℝ) : EReal) :=
  (Ideal.matmul_constant_zero_apply D1 none A B (ix2 p o)).trans
    ((D1_sum (fun l r => A l * B r) p o).trans (sum_mul_coe _ _ _ _ _ (fun k => hA k p) (fun k => hB k o)))

/-- The 3×3 stage's products at an entry. -/
theorem mm2 (A : FVec Ideal S3136x192 .bf16) (B : FVec Ideal S192x64 .bf16) (a : Fin 3136 → Fin 192 → ℝ) (w : Fin 192 → Fin 64 → ℝ)
    (hA : ∀ p k, A (ix2 p k) = ((a p k : ℝ) : EReal)) (hB : ∀ k o, B (ix2 k o) = ((w k o : ℝ) : EReal)) (p : Fin 3136) (o : Fin 64) :
    matmul D2 none A B (constant S3136x64 .f32 0x00000000#32) (ix2 p o) = ((∑ k : Fin 192, a p k * w k o : ℝ) : EReal) :=
  (Ideal.matmul_constant_zero_apply D2 none A B (ix2 p o)).trans
    ((D2_sum (fun l r => A l * B r) p o).trans (sum_mul_coe _ _ _ _ _ (fun k => hA p k) (fun k => hB k o)))

/-- The last 1×1 product at an entry. -/
theorem mm3 (A : FVec Ideal S256x64 .bf16) (B : FVec Ideal S3136x64 .bf16) (a : Fin 256 → Fin 64 → ℝ) (h : Fin 3136 → Fin 64 → ℝ)
    (hA : ∀ c k, A (ix2 c k) = ((a c k : ℝ) : EReal)) (hB : ∀ p k, B (ix2 p k) = ((h p k : ℝ) : EReal)) (c : Fin 256) (p : Fin 3136) :
    matmul D3 none A B (constant S256x3136 .f32 0x00000000#32) (ix2 c p) = ((∑ k : Fin 64, a c k * h p k : ℝ) : EReal) :=
  (Ideal.matmul_constant_zero_apply D3 none A B (ix2 c p)).trans
    ((D3_sum (fun l r => A l * B r) c p).trans (sum_mul_coe _ _ _ _ _ (fun k => hA c k) (fun k => hB p k)))

/-- The two products of the excitation at an entry. -/
theorem mm4 (A : FVec Ideal S16x256 .f32) (B : FVec Ideal S256x1 .f32) (a : Fin 16 → Fin 256 → ℝ) (v : Fin 256 → ℝ)
    (hA : ∀ r k, A (ix2 r k) = ((a r k : ℝ) : EReal)) (hB : ∀ k, B (ix2 k (0 : Fin 1)) = ((v k : ℝ) : EReal)) (r : Fin 16) :
    matmul D4 none A B (constant S16x1 .f32 0x00000000#32) (ix2 r (0 : Fin 1)) = ((∑ k : Fin 256, a r k * v k : ℝ) : EReal) :=
  (Ideal.matmul_constant_zero_apply D4 none A B (ix2 r 0)).trans
    ((D4_sum (fun l r => A l * B r) r 0).trans (sum_mul_coe _ _ _ _ _ (fun k => hA r k) (fun k => hB k)))

theorem mm5 (A : FVec Ideal S256x16 .f32) (B : FVec Ideal S16x1 .f32) (a : Fin 256 → Fin 16 → ℝ) (v : Fin 16 → ℝ)
    (hA : ∀ c k, A (ix2 c k) = ((a c k : ℝ) : EReal)) (hB : ∀ k, B (ix2 k (0 : Fin 1)) = ((v k : ℝ) : EReal)) (c : Fin 256) :
    matmul D5 none A B (constant S256x1 .f32 0x00000000#32) (ix2 c (0 : Fin 1)) = ((∑ k : Fin 16, a c k * v k : ℝ) : EReal) :=
  (Ideal.matmul_constant_zero_apply D5 none A B (ix2 c 0)).trans
    ((D5_sum (fun l r => A l * B r) c 0).trans (sum_mul_coe _ _ _ _ _ (fun k => hA c k) (fun k => hB k)))

/-! ## The first stage -/

variable (I : Cert.Spec.Inp) (b : Fin 16)

/-- The pixel of row `i`, column `j`. -/
abbrev px (i j : Fin 56) : Fin 3136 := ⟨56 * i.val + j.val, by have := i.isLt; have := j.isLt; omega⟩

theorem pay4_apply (x : Vec Ideal S1x256x3136 .f32) (w1 : Vec Ideal S256x64 .bf16) (b1 : Vec Ideal S1x64 .f32)
    (hx : ∀ (c : Fin 256) (p : Fin 3136), x (ix3 (0 : Fin 1) c p) = ((I.x b c p : ℝ) : EReal))
    (hw : ∀ (c : Fin 256) (o : Fin 64), w1 (ix2 c o) = ((I.w1 o c * I.s1 o : ℝ) : EReal))
    (hb : ∀ o : Fin 64, b1 (ix2 (0 : Fin 1) o) = ((I.b1 o : ℝ) : EReal))
    (i j : Fin 56) (o : Fin 64) :
    Gen.k0_pay4 x w1 b1 (ix3 i j o) = ((Cert.Spec.h1F I b (px i j) o : ℝ) : EReal) := by
  unfold Gen.k0_pay4 Gen.k0_pay2
  dsimp only
  rw [shapeCast_self]
  refine (shapeCast_apply _ _ (ix3 i j o) (ix2 (px i j) o) ?_).trans ?_
  · rw [Shape.rowMajor_val_two, Shape.rowMajor_val_three]
    show (56 * i.val + j.val) * 64 + o.val = (i.val * 56 + j.val) * 64 + o.val
    omega
  rw [truncf_apply, maximumf_apply, addf_apply, broadcast_apply]
  refine (congrArg₂ max (congrArg₂ HAdd.hAdd
      (mm1 _ _ (fun k p => I.x b k p) (fun k o => I.w1 o k * I.s1 o) ?_ ?_ (px i j) o)
      (?_ : _ = ((I.b1 o : ℝ) : EReal))) rfl).trans ?_
  · intro k p
    rw [truncf_apply]
    refine (shapeCast_apply _ _ (ix2 k p) (ix3 (0 : Fin 1) k p) ?_).trans (hx k p)
    rw [Shape.rowMajor_val_two, Shape.rowMajor_val_three]
    show ((0 : ℕ) * 256 + k.val) * 3136 + p.val = k.val * 3136 + p.val
    omega
  · intro k o
    rw [shapeCast_self]; exact hw k o
  · rw [shapeCast_self]
    refine (broadcastTo_apply _ _ (ix2 (px i j) o) (ix2 (0 : Fin 1) o) ?_).trans (hb o)
    intro a
    match a with
    | ⟨0, _⟩ => rfl
    | ⟨1, _⟩ => rfl
  · rw [← EReal.coe_add]
    exact coe_max0 _

end Cert.KernelIdeal.KV

end
-- ==== Proof.KV2.lean ====
/-
  The zero-padded image the 3×3 convolution reads. After the zero fill and the interior store, the 58×58×64 scratch
  holds the first stage's image with a one-pixel zero border; the three column windows the kernel loads (56 columns
  from column 0, 1, 2) are that padded image shifted by the window's column offset.
-/
import proofs.«108509_g2000006651879042_pallasbulk_171_5_alg».proof.Proof.KIBodyDefs
import proofs.«108509_g2000006651879042_pallasbulk_171_5_alg».proof.Proof.KV1

noncomputable section

open Idealize.ShloMosaic Idealize.ShloMosaic.ValueIdx
open scoped BigOperators

namespace Cert.KernelIdeal.KV

open Cert.KernelIdeal Cert.KernelIdeal.Gen Cert.RealLift Cert.KernelIdeal.Body

theorem zero_bf16 : Ideal.ofBits .bf16 0x0000#16 = ((0 : ℝ) : EReal) := by
  simp [Ideal.ofBits, Ideal.ieee]

/-- The zero fill at any index. -/
theorem pay3_apply (y : S58x58x64.Idx) : (k0_pay3 (F := Ideal)) y = ((0 : ℝ) : EReal) := by
  unfold k0_pay3
  rw [shapeCast_self]
  exact zero_bf16

/-- The scratch after its two stores, read at the padded coordinates `(i', j', ci)`. -/
theorem pad_apply (h1 : FVec Ideal S56x56x64 .bf16) (hr : Fin 3136 → Fin 64 → ℝ)
    (hh : ∀ (i j : Fin 56) (o : Fin 64), h1 (ix3 i j o) = ((hr (px i j) o : ℝ) : EReal))
    (y : S58x58x64.Idx) (i' j' : ℕ) (ci : Fin 64) (h0 : (y 0).val = i') (h1' : (y 1).val = j') (h2 : (y 2).val = ci.val) :
    View.canon (padL h1) y = ((Cert.Spec.pad hr i' j' ci : ℝ) : EReal) := by
  have hi58 : i' < 58 := h0 ▸ (y 0).isLt
  have hj58 : j' < 58 := h1' ▸ (y 1).isLt
  unfold padL
  by_cases hrow : 1 ≤ i' ∧ i' ≤ 56
  · -- a row the interior store rewrote
    have hy : y = rS.emb (ix3 (⟨i' - 1, by omega⟩ : Fin 56) (⟨j', hj58⟩ : Fin 58) ci) := by
      funext a; apply Fin.ext
      match a with
      | ⟨0, _⟩ => show (y 0).val = 1 + 1 * (i' - 1); omega
      | ⟨1, _⟩ => show (y 1).val = 0 + 1 * j'; omega
      | ⟨2, _⟩ => show (y 2).val = 0 + 1 * ci.val; omega
    rw [hy, View.canon_cons_emb]
    unfold updateSlice
    by_cases hcol : 1 ≤ j' ∧ j' ≤ 56
    · rw [dif_pos (by
        intro a
        match a with
        | ⟨0, _⟩ => exact ⟨Nat.zero_le _, by show i' - 1 < 0 + 56; omega⟩
        | ⟨1, _⟩ => exact ⟨by show 1 ≤ j'; omega, by show j' < 1 + 56; omega⟩
        | ⟨2, _⟩ => exact ⟨Nat.zero_le _, by show ci.val < 0 + 64; omega⟩)]
      have e : (fun b : Fin 3 => (⟨((ix3 (⟨i' - 1, by omega⟩ : Fin 56) (⟨j', hj58⟩ : Fin 58) ci : S56x58x64.Idx) (b.cast rfl)).val - (![0, 1, 0] : Fin 3 → ℕ) (b.cast rfl), by
            match b with
            | ⟨0, _⟩ => show i' - 1 - 0 < 56; omega
            | ⟨1, _⟩ => show j' - 1 < 56; omega
            | ⟨2, _⟩ => show ci.val - 0 < 64; omega⟩ : S56x56x64.Coord b))
          = ix3 (⟨i' - 1, by omega⟩ : Fin 56) (⟨j' - 1, by omega⟩ : Fin 56) ci := by
        funext b; apply Fin.ext
        match b with
        | ⟨0, _⟩ => rfl
        | ⟨1, _⟩ => rfl
        | ⟨2, _⟩ => rfl
      refine (congrArg h1 e).trans ((hh _ _ _).trans ?_)
      unfold Cert.Spec.pad
      rw [dif_pos ⟨hrow, hcol⟩]
    · rw [dif_neg (by
        intro hin
        have h := hin ⟨1, by decide⟩
        have h1 : 1 ≤ j' := h.1
        have h2 : j' < 1 + 56 := h.2
        exact hcol ⟨h1, by omega⟩)]
      unfold oldRows
      rw [View.canon_unit_zero (by funext a; match a with | ⟨0, _⟩ => rfl | ⟨1, _⟩ => rfl | ⟨2, _⟩ => rfl)]
      refine (pay3_apply _).trans ?_
      unfold Cert.Spec.pad
      rw [dif_neg (fun h => hcol h.2)]
  · -- the first or the last row: only the zero fill reaches it
    rw [View.canon_cons_of_not_mem _ _ (by
      intro hm
      have hm' : y ∈ (Rect.unit (s := S58x58x64) ![1, 0, 0] S56x58x64.size Facts₀.inb_S58x58x64_S56x58x64_1_0_0).set := hm
      have h := (Rect.mem_set_unit.mp hm') (0 : Fin 3)
      have h1 : 1 ≤ (y 0).val := h.1
      have h2 : (y 0).val < 1 + 56 := h.2
      exact hrow ⟨by omega, by omega⟩)]
    rw [View.canon_unit_zero (by funext a; match a with | ⟨0, _⟩ => rfl | ⟨1, _⟩ => rfl | ⟨2, _⟩ => rfl)]
    refine (pay3_apply _).trans ?_
    unfold Cert.Spec.pad
    rw [dif_neg (fun h => hrow h.1)]

/-- The three column windows at `(i', j, ci)`: the padded image at column `j + kx`. -/
theorem tap0_apply (h1 : FVec Ideal S56x56x64 .bf16) (hr : Fin 3136 → Fin 64 → ℝ)
    (hh : ∀ (i j : Fin 56) (o : Fin 64), h1 (ix3 i j o) = ((hr (px i j) o : ℝ) : EReal)) (i' : Fin 58) (j : Fin 56) (ci : Fin 64) :
    tap0 h1 (ix3 i' j ci) = ((Cert.Spec.pad hr i'.val (j.val + 0) ci : ℝ) : EReal) :=
  pad_apply h1 hr hh _ _ _ ci (by show 0 + 1 * i'.val = _; omega) (by show 0 + 1 * j.val = _; omega) (by show 0 + 1 * ci.val = _; omega)
theorem tap1_apply (h1 : FVec Ideal S56x56x64 .bf16) (hr : Fin 3136 → Fin 64 → ℝ)
    (hh : ∀ (i j : Fin 56) (o : Fin 64), h1 (ix3 i j o) = ((hr (px i j) o : ℝ) : EReal)) (i' : Fin 58) (j : Fin 56) (ci : Fin 64) :
    tap1 h1 (ix3 i' j ci) = ((Cert.Spec.pad hr i'.val (j.val + 1) ci : ℝ) : EReal) :=
  pad_apply h1 hr hh _ _ _ ci (by show 0 + 1 * i'.val = _; omega) (by show 1 + 1 * j.val = _; omega) (by show 0 + 1 * ci.val = _; omega)
theorem tap2_apply (h1 : FVec Ideal S56x56x64 .bf16) (hr : Fin 3136 → Fin 64 → ℝ)
    (hh : ∀ (i j : Fin 56) (o : Fin 64), h1 (ix3 i j o) = ((hr (px i j) o : ℝ) : EReal)) (i' : Fin 58) (j : Fin 56) (ci : Fin 64) :
    tap2 h1 (ix3 i' j ci) = ((Cert.Spec.pad hr i'.val (j.val + 2) ci : ℝ) : EReal) :=
  pad_apply h1 hr hh _ _ _ ci (by show 0 + 1 * i'.val = _; omega) (by show 2 + 1 * j.val = _; omega) (by show 0 + 1 * ci.val = _; omega)

end Cert.KernelIdeal.KV

end
-- ==== Proof.KV3.lean ====
/-
  The 3×3 convolution's three grouped products. For each column offset `kx` the kernel lays the three vertical taps
  of the padded image side by side (192 = 3·64 columns) and multiplies by the 192×64 slice of the regrouped weights:
  entry (p, o) is the sum over q < 192 of pad(p/56 + q/64, p%56 + kx, q%64) · w2c(kx, q, o).
-/
import proofs.«108509_g2000006651879042_pallasbulk_171_5_alg».proof.Proof.KV2

noncomputable section

open Idealize.ShloMosaic Idealize.ShloMosaic.ValueIdx
open scoped BigOperators

namespace Cert.KernelIdeal.KV

open Cert.KernelIdeal Cert.KernelIdeal.Gen Cert.RealLift Cert.KernelIdeal.Body

/-- One vertical tap of a column window, flattened: rows `ky … ky+55`, read at pixel `p`. -/
theorem vtap_apply (T : Vec Ideal S58x56x64 .bf16) (ky : ℕ) (hky : ky ≤ 2) (hs : S58x56x64.Slices ![ky, 0, 0] S56x56x64)
    (p : Fin 3136) (ci : Fin 64) :
    shapeCast S3136x64 (extractStridedSlice S56x56x64 ![ky, 0, 0] T hs) shapeCasts_S56x56x64_S3136x64 (ix2 p ci)
      = T (ix3 (⟨p.val / 56 + ky, by have := p.isLt; omega⟩ : Fin 58) (⟨p.val % 56, Nat.mod_lt _ (by norm_num)⟩ : Fin 56) ci) := by
  refine (shapeCast_apply _ _ (ix2 p ci) (ix3 (⟨p.val / 56, by have := p.isLt; omega⟩ : Fin 56) (⟨p.val % 56, Nat.mod_lt _ (by norm_num)⟩ : Fin 56) ci) ?_).trans ?_
  · rw [Shape.rowMajor_val_two, Shape.rowMajor_val_three]
    show (p.val / 56 * 56 + p.val % 56) * 64 + ci.val = p.val * 64 + ci.val
    have := Nat.div_add_mod p.val 56
    omega
  · refine extractStridedSlice_apply _ _ _ _ _ ?_
    intro a
    match a with
    | ⟨0, _⟩ => show p.val / 56 + ky = ky + p.val / 56; omega
    | ⟨1, _⟩ => show p.val % 56 = 0 + p.val % 56; omega
    | ⟨2, _⟩ => show ci.val = 0 + ci.val; omega

/-- Three [3136, 64] pieces side by side, read at column `64·ky + ci`. -/
theorem cat3_apply {α : Type} (a0 a1 a2 : S3136x64.Idx → α)
    (h : Shape.Concatenates (([⟨S3136x64, a0⟩, ⟨S3136x64, a1⟩, ⟨S3136x64, a2⟩] : List ((s : Shape) × (s.Idx → α))).map (·.1)) S3136x192 1)
    (p : Fin 3136) (q : Fin 192) (ci : Fin 64) :
    (q.val = ci.val → concatenate S3136x192 1 [⟨S3136x64, a0⟩, ⟨S3136x64, a1⟩, ⟨S3136x64, a2⟩] h (ix2 p q) = a0 (ix2 p ci))
    ∧ (q.val = 64 + ci.val → concatenate S3136x192 1 [⟨S3136x64, a0⟩, ⟨S3136x64, a1⟩, ⟨S3136x64, a2⟩] h (ix2 p q) = a1 (ix2 p ci))
    ∧ (q.val = 128 + ci.val → concatenate S3136x192 1 [⟨S3136x64, a0⟩, ⟨S3136x64, a1⟩, ⟨S3136x64, a2⟩] h (ix2 p q) = a2 (ix2 p ci)) := by
  refine ⟨fun hq => ?_, fun hq => ?_, fun hq => ?_⟩
  · refine concatenate_apply_piece 1 _ h (ix2 p q) 0 (by show 0 < 3; omega) S3136x64 a0 rfl rfl 0 rfl (ix2 p ci) ?_ ?_
    · intro b hb
      match b with
      | ⟨0, _⟩ => rfl
      | ⟨1, _⟩ => exact absurd rfl hb
    · show 0 + ci.val = q.val; omega
  · refine concatenate_apply_piece 1 _ h (ix2 p q) 1 (by show 1 < 3; omega) S3136x64 a1 rfl rfl 64 rfl (ix2 p ci) ?_ ?_
    · intro b hb
      match b with
      | ⟨0, _⟩ => rfl
      | ⟨1, _⟩ => exact absurd rfl hb
    · show 64 + ci.val = q.val; omega
  · refine concatenate_apply_piece 1 _ h (ix2 p q) 2 (by show 2 < 3; omega) S3136x64 a2 rfl rfl 128 rfl (ix2 p ci) ?_ ?_
    · intro b hb
      match b with
      | ⟨0, _⟩ => rfl
      | ⟨1, _⟩ => exact absurd rfl hb
    · show 128 + ci.val = q.val; omega

end Cert.KernelIdeal.KV

end
-- ==== Proof.KV4.lean ====
/-
  The second stage (3×3 convolution through the padded image, bias, rectifier) and the third stage's product, at an entry.
-/
import proofs.«108509_g2000006651879042_pallasbulk_171_5_alg».proof.Proof.KV3

noncomputable section

open Idealize.ShloMosaic Idealize.ShloMosaic.ValueIdx
open scoped BigOperators

namespace Cert.KernelIdeal.KV

open Cert.KernelIdeal Cert.KernelIdeal.Gen Cert.RealLift Cert.KernelIdeal.Body

/-- The channel `q % 64` and the vertical tap `q / 64` of a column of the grouped operand. -/
abbrev qc (q : Fin 192) : Fin 64 := ⟨q.val % 64, Nat.mod_lt _ (by norm_num)⟩
abbrev qk (q : Fin 192) : Fin 3 := ⟨q.val / 64, by have := q.isLt; omega⟩

/-- One grouped product: the three vertical taps of a column window of the padded image, side by side, times a
    192×64 slice of weights. -/
theorem group_apply (T : FVec Ideal S58x56x64 .bf16) (Wv : FVec Ideal S1x192x64 .bf16) (hr : Fin 3136 → Fin 64 → ℝ) (kx : ℕ)
    (Wr : Fin 192 → Fin 64 → ℝ)
    (hT : ∀ (i' : Fin 58) (j : Fin 56) (ci : Fin 64), T (ix3 i' j ci) = ((Cert.Spec.pad hr i'.val (j.val + kx) ci : ℝ) : EReal))
    (hW : ∀ (q : Fin 192) (o : Fin 64), Wv (ix3 (0 : Fin 1) q o) = ((Wr q o : ℝ) : EReal)) (p : Fin 3136) (o : Fin 64) :
    matmul dot_S3136x192_S192x64_S3136x64_1_0_0_1_n_n none
      (concatenate S3136x192 1
        [⟨S3136x64, shapeCast S3136x64 (extractStridedSlice S56x56x64 ![0, 0, 0] T slices_S58x56x64_o0_0_0_S56x56x64) shapeCasts_S56x56x64_S3136x64⟩,
         ⟨S3136x64, shapeCast S3136x64 (extractStridedSlice S56x56x64 ![1, 0, 0] T slices_S58x56x64_o1_0_0_S56x56x64) shapeCasts_S56x56x64_S3136x64⟩,
         ⟨S3136x64, shapeCast S3136x64 (extractStridedSlice S56x56x64 ![2, 0, 0] T slices_S58x56x64_o2_0_0_S56x56x64) shapeCasts_S56x56x64_S3136x64⟩]
        concatenates_S3136x64_S3136x64_S3136x64_S3136x192_d1 : FVec Ideal S3136x192 .bf16)
      (shapeCast S192x64 Wv shapeCasts_S1x192x64_S192x64 : FVec Ideal S192x64 .bf16) (constant S3136x64 .f32 0x00000000#32) (ix2 p o)
    = ((∑ q : Fin 192, Cert.Spec.pad hr (p.val / 56 + q.val / 64) (p.val % 56 + kx) (qc q) * Wr q o : ℝ) : EReal) := by
  refine mm2 _ _ (fun p q => Cert.Spec.pad hr (p.val / 56 + q.val / 64) (p.val % 56 + kx) (qc q)) Wr ?_ ?_ p o
  · intro p q
    have hc := cat3_apply
      (shapeCast S3136x64 (extractStridedSlice S56x56x64 ![0, 0, 0] T slices_S58x56x64_o0_0_0_S56x56x64) shapeCasts_S56x56x64_S3136x64)
      (shapeCast S3136x64 (extractStridedSlice S56x56x64 ![1, 0, 0] T slices_S58x56x64_o1_0_0_S56x56x64) shapeCasts_S56x56x64_S3136x64)
      (shapeCast S3136x64 (extractStridedSlice S56x56x64 ![2, 0, 0] T slices_S58x56x64_o2_0_0_S56x56x64) shapeCasts_S56x56x64_S3136x64)
      concatenates_S3136x64_S3136x64_S3136x64_S3136x192_d1 p q (qc q)
    have hq := q.isLt
    have hdm := Nat.div_add_mod q.val 64
    rcases (by omega : q.val / 64 = 0 ∨ q.val / 64 = 1 ∨ q.val / 64 = 2) with h0 | h1 | h2
    · rw [hc.1 (by show q.val = q.val % 64; omega), vtap_apply T 0 (by omega), hT]
      simp only [h0, Nat.add_zero]
    · rw [hc.2.1 (by show q.val = 64 + q.val % 64; omega), vtap_apply T 1 (by omega), hT]
      simp only [h1]
    · rw [hc.2.2 (by show q.val = 128 + q.val % 64; omega), vtap_apply T 2 (by omega), hT]
      simp only [h2]
  · intro q o
    refine (shapeCast_apply _ _ (ix2 q o) (ix3 (0 : Fin 1) q o) ?_).trans (hW q o)
    rw [Shape.rowMajor_val_two, Shape.rowMajor_val_three]
    show ((0 : ℕ) * 192 + q.val) * 64 + o.val = q.val * 64 + o.val
    omega

/-- A 192×64 slice of the regrouped weights, loaded through its rectangle. -/
theorem wslice_apply (w2 : Vec Ideal S3x192x64 .bf16) (W : Fin 3 → Fin 192 → Fin 64 → ℝ)
    (hw2 : ∀ (kx : Fin 3) (q : Fin 192) (o : Fin 64), w2 (ix3 kx q o) = ((W kx q o : ℝ) : EReal)) (q : Fin 192) (o : Fin 64) :
    (View.ld w2 rK0 (ix3 (0 : Fin 1) q o) = ((W 0 q o : ℝ) : EReal))
    ∧ (View.ld w2 rK1 (ix3 (0 : Fin 1) q o) = ((W 1 q o : ℝ) : EReal))
    ∧ (View.ld w2 rK2 (ix3 (0 : Fin 1) q o) = ((W 2 q o : ℝ) : EReal)) := by
  refine ⟨?_, ?_, ?_⟩
  · refine (congrArg w2 (?_ : rK0.toLoadRect.idx (ix3 (0 : Fin 1) q o) = ix3 (0 : Fin 3) q o)).trans (hw2 0 q o)
    funext a; apply Fin.ext
    match a with
    | ⟨0, _⟩ => rfl
    | ⟨1, _⟩ => show 0 + 1 * q.val = q.val; omega
    | ⟨2, _⟩ => show 0 + 1 * o.val = o.val; omega
  · refine (congrArg w2 (?_ : rK1.toLoadRect.idx (ix3 (0 : Fin 1) q o) = ix3 (1 : Fin 3) q o)).trans (hw2 1 q o)
    funext a; apply Fin.ext
    match a with
    | ⟨0, _⟩ => rfl
    | ⟨1, _⟩ => show 0 + 1 * q.val = q.val; omega
    | ⟨2, _⟩ => show 0 + 1 * o.val = o.val; omega
  · refine (congrArg w2 (?_ : rK2.toLoadRect.idx (ix3 (0 : Fin 1) q o) = ix3 (2 : Fin 3) q o)).trans (hw2 2 q o)
    funext a; apply Fin.ext
    match a with
    | ⟨0, _⟩ => rfl
    | ⟨1, _⟩ => show 0 + 1 * q.val = q.val; omega
    | ⟨2, _⟩ => show 0 + 1 * o.val = o.val; omega

variable (I : Cert.Spec.Inp)

/-- The regrouped, scale-folded 3×3 weights as reals. -/
abbrev W2r (kx : Fin 3) (q : Fin 192) (o : Fin 64) : ℝ := I.w2 o (qc q) (qk q) kx * I.s2 o

/-- The first grouped product (column offset 0). -/
theorem pay6_apply (T : FVec Ideal S58x56x64 .bf16) (Wv : FVec Ideal S1x192x64 .bf16) (hr : Fin 3136 → Fin 64 → ℝ)
    (hT : ∀ (i' : Fin 58) (j : Fin 56) (ci : Fin 64), T (ix3 i' j ci) = ((Cert.Spec.pad hr i'.val (j.val + 0) ci : ℝ) : EReal))
    (hW : ∀ (q : Fin 192) (o : Fin 64), Wv (ix3 (0 : Fin 1) q o) = ((W2r I 0 q o : ℝ) : EReal)) (p : Fin 3136) (o : Fin 64) :
    k0_pay6 (F := Ideal) T Wv (ix2 p o)
      = ((∑ q : Fin 192, Cert.Spec.pad hr (p.val / 56 + q.val / 64) (p.val % 56 + 0) (qc q) * W2r I 0 q o : ℝ) : EReal) := by
  unfold k0_pay6
  exact group_apply T Wv hr 0 (W2r I 0) hT hW p o

end Cert.KernelIdeal.KV

end
-- ==== Proof.KV5.lean ====
/-
  The third stage and the squeeze-excite tail at an entry: the last 1×1 product over the rectified second stage; then
  the bias, the mean over the pixels, the two small products, the logistic gate, the residual and the final rectifier.
-/
import proofs.«108509_g2000006651879042_pallasbulk_171_5_alg».proof.Proof.KV4

noncomputable section

open Idealize.ShloMosaic Idealize.ShloMosaic.ValueIdx
open scoped BigOperators

namespace Cert.KernelIdeal.KV

open Cert.KernelIdeal Cert.KernelIdeal.Gen Cert.RealLift Cert.KernelIdeal.Body

variable (I : Cert.Spec.Inp)

/-- One grouped product of the 3×3 stage over the reals. -/
abbrev Ak (hr : Fin 3136 → Fin 64 → ℝ) (kx : Fin 3) (p : Fin 3136) (o : Fin 64) : ℝ :=
  ∑ q : Fin 192, Cert.Spec.pad hr (p.val / 56 + q.val / 64) (p.val % 56 + kx.val) (qc q) * W2r I kx q o

/-- The rectified second stage as the kernel accumulates it. -/
abbrev h2acc (hr : Fin 3136 → Fin 64 → ℝ) (p : Fin 3136) (o : Fin 64) : ℝ :=
  max ((((0 + Ak I hr 0 p o) + Ak I hr 1 p o) + Ak I hr 2 p o) + I.b2 o) 0

theorem pay7_apply (v21 v32 : FVec Ideal S3136x64 .f32) (T1 T2 : FVec Ideal S58x56x64 .bf16) (Wv1 Wv2 : FVec Ideal S1x192x64 .bf16)
    (b2 : Vec Ideal S1x64 .f32) (w3 : Vec Ideal S256x64 .bf16) (hr : Fin 3136 → Fin 64 → ℝ) (W3r : Fin 256 → Fin 64 → ℝ)
    (h21 : ∀ (p : Fin 3136) (o : Fin 64), v21 (ix2 p o) = ((0 : ℝ) : EReal))
    (h32 : ∀ (p : Fin 3136) (o : Fin 64), v32 (ix2 p o) = ((Ak I hr 0 p o : ℝ) : EReal))
    (hT1 : ∀ (i' : Fin 58) (j : Fin 56) (ci : Fin 64), T1 (ix3 i' j ci) = ((Cert.Spec.pad hr i'.val (j.val + 1) ci : ℝ) : EReal))
    (hT2 : ∀ (i' : Fin 58) (j : Fin 56) (ci : Fin 64), T2 (ix3 i' j ci) = ((Cert.Spec.pad hr i'.val (j.val + 2) ci : ℝ) : EReal))
    (hW1 : ∀ (q : Fin 192) (o : Fin 64), Wv1 (ix3 (0 : Fin 1) q o) = ((W2r I 1 q o : ℝ) : EReal))
    (hW2 : ∀ (q : Fin 192) (o : Fin 64), Wv2 (ix3 (0 : Fin 1) q o) = ((W2r I 2 q o : ℝ) : EReal))
    (hb2 : ∀ o : Fin 64, b2 (ix2 (0 : Fin 1) o) = ((I.b2 o : ℝ) : EReal))
    (hw3 : ∀ (c : Fin 256) (o : Fin 64), w3 (ix2 c o) = ((W3r c o : ℝ) : EReal)) (c : Fin 256) (p : Fin 3136) :
    k0_pay7 (F := Ideal) v21 v32 T1 Wv1 T2 Wv2 b2 w3 (ix2 c p) = ((∑ o : Fin 64, W3r c o * h2acc I hr p o : ℝ) : EReal) := by
  unfold k0_pay7
  refine mm3 _ _ W3r (h2acc I hr) ?_ ?_ c p
  · intro c o
    rw [shapeCast_self]; exact hw3 c o
  · intro p o
    rw [truncf_apply, maximumf_apply, addf_apply, addf_apply, addf_apply, addf_apply, broadcast_apply]
    refine (congrArg₂ max (congrArg₂ HAdd.hAdd (congrArg₂ HAdd.hAdd (congrArg₂ HAdd.hAdd (congrArg₂ HAdd.hAdd (h21 p o) (h32 p o))
      (group_apply T1 Wv1 hr 1 (W2r I 1) hT1 hW1 p o)) (group_apply T2 Wv2 hr 2 (W2r I 2) hT2 hW2 p o))
      (?_ : _ = ((I.b2 o : ℝ) : EReal))) rfl).trans ?_
    · rw [shapeCast_self]
      refine (broadcastTo_apply _ _ (ix2 p o) (ix2 (0 : Fin 1) o) ?_).trans (hb2 o)
      intro a
      match a with
      | ⟨0, _⟩ => rfl
      | ⟨1, _⟩ => rfl
    · rw [← EReal.coe_add, ← EReal.coe_add, ← EReal.coe_add, ← EReal.coe_add]
      exact coe_max0 _

/-- The bias column broadcast along the pixels. -/
theorem pay8_apply (b3 : Vec Ideal S256x1 .f32) (b3r : Fin 256 → ℝ) (hb3 : ∀ c : Fin 256, b3 (ix2 c (0 : Fin 1)) = ((b3r c : ℝ) : EReal))
    (c : Fin 256) (p : Fin 3136) : k0_pay8 b3 (ix2 c p) = ((b3r c : ℝ) : EReal) := by
  unfold k0_pay8
  rw [shapeCast_self]
  refine (broadcastTo_apply _ _ (ix2 c p) (ix2 c (0 : Fin 1)) ?_).trans (hb3 c)
  intro a
  match a with
  | ⟨0, _⟩ => rfl
  | ⟨1, _⟩ => rfl

/-! ## The tail, stage by stage -/

/-- The mean over the pixels, as a column. -/
def sMean (v71 : FVec Ideal S256x3136 .f32) : FVec Ideal S256x1 .f32 :=
  divf (shapeCast S256x1 (multiReduction .add [1] S256 v71 0x00000000#32 reduces_S256x3136_S256 (.inl rfl) rfl) shapeCasts_S256_S256x1)
    (broadcast S256x1 (Scalar.ofBits .f32 0x45440000#32))
/-- The hidden layer. -/
def sHid (v76 : FVec Ideal S16x256 .f32) (v75 : FVec Ideal S256x1 .f32) : FVec Ideal S16x1 .f32 :=
  maximumf (matmul dot_S16x256_S256x1_S16x1_1_0_0_1_n_n none v76 v75 (constant S16x1 .f32 0x00000000#32)) (broadcast S16x1 (Scalar.ofBits .f32 0x00000000#32))
/-- The gate. -/
def sGate (v80 : FVec Ideal S256x16 .f32) (v79 : FVec Ideal S16x1 .f32) : FVec Ideal S256x1 .f32 :=
  logistic (matmul dot_S256x16_S16x1_S256x1_1_0_0_1_n_n none v80 v79 (constant S256x1 .f32 0x00000000#32))
/-- Gate, residual, rectifier, and the block's shape. -/
def sFin (v71 : FVec Ideal S256x3136 .f32) (v82 : FVec Ideal S256x1 .f32) (v1 : FVec Ideal S256x3136 .f32) : FVec Ideal S1x256x3136 .f32 :=
  shapeCast S1x256x3136 (maximumf (addf (mulf v71 (broadcastTo S256x3136 v82 broadcasts_S256x1_S256x3136)) v1)
    (broadcast S256x3136 (Scalar.ofBits .f32 0x00000000#32))) shapeCasts_S256x3136_S1x256x3136

theorem pay1_eq (v1 v67 v70 : FVec Ideal S256x3136 .f32) (v76 : FVec Ideal S16x256 .f32) (v80 : FVec Ideal S256x16 .f32) :
    k0_pay1 (F := Ideal) v1 v67 v70 v76 v80 = sFin (addf v67 v70) (sGate v80 (sHid v76 (sMean (addf v67 v70)))) v1 := rfl

theorem ofBits_3136 : Ideal.ofBits .f32 0x45440000#32 = ((3136 : ℝ) : EReal) := by
  simp [Ideal.ofBits, Ideal.ieee, -EReal.coe_mul]; norm_num

theorem sMean_apply (v71 : FVec Ideal S256x3136 .f32) (h3r : Fin 256 → Fin 3136 → ℝ)
    (h : ∀ (c : Fin 256) (p : Fin 3136), v71 (ix2 c p) = ((h3r c p : ℝ) : EReal)) (c : Fin 256) :
    sMean v71 (ix2 c (0 : Fin 1)) = (((∑ p : Fin 3136, h3r c p) / 3136 : ℝ) : EReal) := by
  unfold sMean
  rw [divf_apply, broadcast_apply]
  have e1 : shapeCast S256x1 (multiReduction .add [1] S256 v71 0x00000000#32 reduces_S256x3136_S256 (.inl rfl) rfl) shapeCasts_S256_S256x1 (ix2 c (0 : Fin 1))
      = ((∑ p : Fin 3136, h3r c p : ℝ) : EReal) := by
    refine (shapeCast_apply _ _ (ix2 c (0 : Fin 1)) (ix1 c) ?_).trans ?_
    · rw [Shape.rowMajor_val_two, Shape.rowMajor_val_one]
      show c.val = c.val * 1 + 0
      omega
    · refine (Ideal.multiReduction_add_single v71 0x00000000#32 reduces_S256x3136_S256 (.inl rfl) rfl (ix1 c)).trans ?_
      refine sum_coe _ _ _ (fun p => ?_)
      refine Eq.trans (congrArg v71 ?_) (h c p)
      funext a; apply Fin.ext
      match a with
      | ⟨0, _⟩ => rfl
      | ⟨1, _⟩ => rfl
  rw [e1]
  exact (congrArg (Ideal.div _) ofBits_3136).trans (Cert.RealLift.IsR.div_coe _ _ (by norm_num))

theorem sHid_apply (v76 : FVec Ideal S16x256 .f32) (v75 : FVec Ideal S256x1 .f32) (f1 : Fin 16 → Fin 256 → ℝ) (yr : Fin 256 → ℝ)
    (h76 : ∀ (r : Fin 16) (c : Fin 256), v76 (ix2 r c) = ((f1 r c : ℝ) : EReal))
    (h75 : ∀ c : Fin 256, v75 (ix2 c (0 : Fin 1)) = ((yr c : ℝ) : EReal)) (r : Fin 16) :
    sHid v76 v75 (ix2 r (0 : Fin 1)) = ((max (∑ c : Fin 256, f1 r c * yr c) 0 : ℝ) : EReal) := by
  unfold sHid
  rw [maximumf_apply, broadcast_apply]
  exact (congrArg₂ max (mm4 v76 v75 f1 yr h76 h75 r) rfl).trans (coe_max0 _)

theorem sGate_apply (v80 : FVec Ideal S256x16 .f32) (v79 : FVec Ideal S16x1 .f32) (f2 : Fin 256 → Fin 16 → ℝ) (hd : Fin 16 → ℝ)
    (h80 : ∀ (c : Fin 256) (r : Fin 16), v80 (ix2 c r) = ((f2 c r : ℝ) : EReal))
    (h79 : ∀ r : Fin 16, v79 (ix2 r (0 : Fin 1)) = ((hd r : ℝ) : EReal)) (c : Fin 256) :
    sGate v80 v79 (ix2 c (0 : Fin 1)) = (((1 + Real.exp (-(∑ r : Fin 16, f2 c r * hd r)))⁻¹ : ℝ) : EReal) := by
  unfold sGate
  show Ideal.logistic (matmul dot_S256x16_S16x1_S256x1_1_0_0_1_n_n none v80 v79 (constant S256x1 .f32 0x00000000#32) (ix2 c (0 : Fin 1))) = _
  rw [mm5 v80 v79 f2 hd h80 h79 c]
  exact Ideal.logistic_coe _

theorem sFin_apply (v71 : FVec Ideal S256x3136 .f32) (v82 : FVec Ideal S256x1 .f32) (v1 : FVec Ideal S256x3136 .f32)
    (h3r xr : Fin 256 → Fin 3136 → ℝ) (g : Fin 256 → ℝ)
    (h71 : ∀ (c : Fin 256) (p : Fin 3136), v71 (ix2 c p) = ((h3r c p : ℝ) : EReal))
    (h82 : ∀ c : Fin 256, v82 (ix2 c (0 : Fin 1)) = ((g c : ℝ) : EReal))
    (h1 : ∀ (c : Fin 256) (p : Fin 3136), v1 (ix2 c p) = ((xr c p : ℝ) : EReal)) (c : Fin 256) (p : Fin 3136) :
    sFin v71 v82 v1 (ix3 (0 : Fin 1) c p) = ((max (h3r c p * g c + xr c p) 0 : ℝ) : EReal) := by
  unfold sFin
  refine (shapeCast_apply _ _ (ix3 (0 : Fin 1) c p) (ix2 c p) ?_).trans ?_
  · rw [Shape.rowMajor_val_two, Shape.rowMajor_val_three]
    show c.val * 3136 + p.val = ((0 : ℕ) * 256 + c.val) * 3136 + p.val
    omega
  rw [maximumf_apply, addf_apply, mulf_apply, broadcast_apply, h71, h1]
  have e : broadcastTo S256x3136 v82 broadcasts_S256x1_S256x3136 (ix2 c p) = ((g c : ℝ) : EReal) := by
    refine (broadcastTo_apply _ _ (ix2 c p) (ix2 c (0 : Fin 1)) ?_).trans (h82 c)
    intro a
    match a with
    | ⟨0, _⟩ => rfl
    | ⟨1, _⟩ => rfl
  rw [e, ← EReal.coe_mul, ← EReal.coe_add]
  exact coe_max0 _

/-- The whole tail at an entry. -/
theorem pay1_apply (v1 v67 v70 : FVec Ideal S256x3136 .f32) (v76 : FVec Ideal S16x256 .f32) (v80 : FVec Ideal S256x16 .f32)
    (xr Mr : Fin 256 → Fin 3136 → ℝ) (b3r : Fin 256 → ℝ) (f1 : Fin 16 → Fin 256 → ℝ) (f2 : Fin 256 → Fin 16 → ℝ)
    (h1 : ∀ (c : Fin 256) (p : Fin 3136), v1 (ix2 c p) = ((xr c p : ℝ) : EReal))
    (h67 : ∀ (c : Fin 256) (p : Fin 3136), v67 (ix2 c p) = ((Mr c p : ℝ) : EReal))
    (h70 : ∀ (c : Fin 256) (p : Fin 3136), v70 (ix2 c p) = ((b3r c : ℝ) : EReal))
    (h76 : ∀ (r : Fin 16) (c : Fin 256), v76 (ix2 r c) = ((f1 r c : ℝ) : EReal))
    (h80 : ∀ (c : Fin 256) (r : Fin 16), v80 (ix2 c r) = ((f2 c r : ℝ) : EReal)) (c : Fin 256) (p : Fin 3136) :
    k0_pay1 (F := Ideal) v1 v67 v70 v76 v80 (ix3 (0 : Fin 1) c p)
      = ((max ((Mr c p + b3r c)
          * (1 + Real.exp (-(∑ r : Fin 16, f2 c r * max (∑ c' : Fin 256, f1 r c' * ((∑ p' : Fin 3136, (Mr c' p' + b3r c')) / 3136)) 0)))⁻¹
          + xr c p) 0 : ℝ) : EReal) := by
  rw [pay1_eq]
  have h71 : ∀ (c : Fin 256) (p : Fin 3136), addf v67 v70 (ix2 c p) = ((Mr c p + b3r c : ℝ) : EReal) := fun c p => by
    rw [addf_apply, h67, h70, ← EReal.coe_add]
  exact sFin_apply _ _ _ (fun c p => Mr c p + b3r c) xr _ h71
    (sGate_apply v80 _ f2 _ h80 (sHid_apply v76 _ f1 _ h76 (sMean_apply _ _ h71))) h1 c p

end Cert.KernelIdeal.KV

end
-- ==== Proof.KV6.lean ====
/-
  What the fused kernel stores for one image, at an entry, for finite data: the specification's folded form
  `Spec.outF`, hence (by distributivity over the reals) the specification `Spec.out`.
-/
import proofs.«108509_g2000006651879042_pallasbulk_171_5_alg».proof.Proof.KV5

noncomputable section

open Idealize.ShloMosaic Idealize.ShloMosaic.ValueIdx
open scoped BigOperators

namespace Cert.KernelIdeal.KV

open Cert.KernelIdeal Cert.KernelIdeal.Gen Cert.RealLift Cert.KernelIdeal.Body

variable (I : Cert.Spec.Inp) (b : Fin 16)

/-- The kernel's accumulation of the three grouped products is the folded 3×3 stage. -/
theorem h2acc_eq (p : Fin 3136) (o : Fin 64) : h2acc I (Cert.Spec.h1F I b) p o = Cert.Spec.h2F I b p o := by
  unfold h2acc Cert.Spec.h2F Cert.Spec.convF
  rw [Fin.sum_univ_three]
  simp only [zero_add]

theorem pay2_apply (x : Vec Ideal S1x256x3136 .f32)
    (hx : ∀ (c : Fin 256) (p : Fin 3136), x (ix3 (0 : Fin 1) c p) = ((I.x b c p : ℝ) : EReal)) (c : Fin 256) (p : Fin 3136) :
    k0_pay2 x (ix2 c p) = ((I.x b c p : ℝ) : EReal) := by
  unfold k0_pay2
  refine (shapeCast_apply _ _ (ix2 c p) (ix3 (0 : Fin 1) c p) ?_).trans (hx c p)
  rw [Shape.rowMajor_val_two, Shape.rowMajor_val_three]
  show ((0 : ℕ) * 256 + c.val) * 3136 + p.val = c.val * 3136 + p.val
  omega

theorem pay5_apply (p : Fin 3136) (o : Fin 64) : (k0_pay5 (F := Ideal)) (ix2 p o) = ((0 : ℝ) : EReal) := by
  unfold k0_pay5
  exact zero_f32

theorem outBlk_apply (x : Vec Ideal S1x256x3136 .f32) (w1 : Vec Ideal S256x64 .bf16) (b1 : Vec Ideal S1x64 .f32)
    (w2 : Vec Ideal S3x192x64 .bf16) (b2 : Vec Ideal S1x64 .f32) (w3 : Vec Ideal S256x64 .bf16) (b3 : Vec Ideal S256x1 .f32)
    (fc1 : Vec Ideal S16x256 .f32) (fc2 : Vec Ideal S256x16 .f32)
    (hx : ∀ (c : Fin 256) (p : Fin 3136), x (ix3 (0 : Fin 1) c p) = ((I.x b c p : ℝ) : EReal))
    (hw1 : ∀ (c : Fin 256) (o : Fin 64), w1 (ix2 c o) = ((I.w1 o c * I.s1 o : ℝ) : EReal))
    (hb1 : ∀ o : Fin 64, b1 (ix2 (0 : Fin 1) o) = ((I.b1 o : ℝ) : EReal))
    (hw2 : ∀ (kx : Fin 3) (q : Fin 192) (o : Fin 64), w2 (ix3 kx q o) = ((W2r I kx q o : ℝ) : EReal))
    (hb2 : ∀ o : Fin 64, b2 (ix2 (0 : Fin 1) o) = ((I.b2 o : ℝ) : EReal))
    (hw3 : ∀ (c : Fin 256) (o : Fin 64), w3 (ix2 c o) = ((I.w3 c o * I.s3 c : ℝ) : EReal))
    (hb3 : ∀ c : Fin 256, b3 (ix2 c (0 : Fin 1)) = ((I.b3 c : ℝ) : EReal))
    (hf1 : ∀ (r : Fin 16) (c : Fin 256), fc1 (ix2 r c) = ((I.fc1 r c : ℝ) : EReal))
    (hf2 : ∀ (c : Fin 256) (r : Fin 16), fc2 (ix2 c r) = ((I.fc2 c r : ℝ) : EReal))
    (c : Fin 256) (p : Fin 3136) :
    outBlk x w1 b1 w2 b2 w3 b3 fc1 fc2 (ix3 (0 : Fin 1) c p) = ((Cert.Spec.out I b c p : ℝ) : EReal) := by
  have hh := pay4_apply I b x w1 b1 hx hw1 hb1
  have hW := wslice_apply w2 (W2r I) hw2
  have h67 : ∀ (c : Fin 256) (p : Fin 3136),
      k0_pay7 (k0_pay5 (F := Ideal)) (k0_pay6 (tap0 (k0_pay4 x w1 b1)) (View.ld w2 rK0)) (tap1 (k0_pay4 x w1 b1)) (View.ld w2 rK1)
        (tap2 (k0_pay4 x w1 b1)) (View.ld w2 rK2) b2 w3 (ix2 c p)
      = ((∑ o : Fin 64, (I.w3 c o * I.s3 c) * Cert.Spec.h2F I b p o : ℝ) : EReal) := fun c p => by
    refine (pay7_apply I _ _ _ _ _ _ b2 w3 (Cert.Spec.h1F I b) (fun c o => I.w3 c o * I.s3 c)
      pay5_apply
      (fun p o => pay6_apply I _ _ (Cert.Spec.h1F I b) (tap0_apply _ _ hh) (fun q o => (hW q o).1) p o)
      (tap1_apply _ _ hh) (tap2_apply _ _ hh) (fun q o => (hW q o).2.1) (fun q o => (hW q o).2.2) hb2 hw3 c p).trans ?_
    refine congrArg _ (Finset.sum_congr rfl fun o _ => ?_)
    rw [h2acc_eq]
  unfold outBlk
  refine (pay1_apply _ _ _ fc1 fc2 (fun c p => I.x b c p) (fun c p => ∑ o : Fin 64, (I.w3 c o * I.s3 c) * Cert.Spec.h2F I b p o)
    I.b3 I.fc1 I.fc2 (pay2_apply I b x hx) h67 (pay8_apply b3 I.b3 hb3) hf1 hf2 c p).trans ?_
  rw [← Cert.Spec.outF_eq]
  rfl

end Cert.KernelIdeal.KV

end
-- ==== Proof.KIValueIn.lean ====
import proofs.«108509_g2000006651879042_pallasbulk_171_5_alg».proof.Proof.KIBody
import Idealize.ShloMosaic.Lib.Pipeline.Value
import Idealize.ShloMosaic.Lib.StableHlo.Run
import Idealize.ShloMosaic.Lib.ValueIdx

set_option maxRecDepth 16384

noncomputable section

namespace Cert.KernelIdeal.KVal

open Cert.KernelIdeal Cert.KernelIdeal.Gen Cert.KernelIdeal.Body Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## The windows' index maps over the grid

The image's windows (0 and 9) move with the grid point on their leading axis; every other window's block is its
whole array at every point. -/

theorem idx_facts : ∀ t : Fin cfg0.N, win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 3) = 0
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 3) = t.val
    ∧ win0_9.index t (1 : Fin 3) = 0
    ∧ win0_9.index t (2 : Fin 3) = 0 :=
  (by decide +kernel : ∀ t : Fin grid0.N, _)

/-! ## Each input block is its array read at the block's place -/

/-- The image block at point `t` is image `t` of the flattened input. -/
theorem iblk0_apply (c : Dev nD) (t : Fin cfg0.N) (y : S1x256x3136.Idx) (i : S16x256x3136.Idx)
    (h0 : (i 0).val = t.val) (h1 : (i 1).val = (y 1).val) (h2 : (i 2).val = (y 2).val) :
    iblk m c 0 t y = V m c main_v16 i := by
  obtain ⟨e0, e1, e2, e3, e4, e5, e6, e7, e8, e9, e10, e11, e12, e13, e14, e15, e16, e17, e18, e19, e20, e21, e22⟩ := idx_facts t
  show V m c main_v16 (((cfg0.win 0).blk t).view.emb y) = V m c main_v16 i
  refine congrArg _ (funext fun a => Fin.ext ?_)
  match a with
  | ⟨0, _⟩ => show win0_0.index t (0 : Fin 3) * 1 + 1 * (y 0).val = (i 0).val; have hy : (y 0).val < 1 := (y 0).isLt; omega
  | ⟨1, _⟩ => show win0_0.index t (1 : Fin 3) * 256 + 1 * (y 1).val = (i 1).val; omega
  | ⟨2, _⟩ => show win0_0.index t (2 : Fin 3) * 3136 + 1 * (y 2).val = (i 2).val; omega

/-- Window 1's block is its whole array, at every point. -/
theorem iblk1_eq (c : Dev nD) (t : Fin cfg0.N) : (iblk m c 1 t : S256x64.Idx → Elt F .bf16) = V m c main_v4 := by
  obtain ⟨e0, e1, e2, e3, e4, e5, e6, e7, e8, e9, e10, e11, e12, e13, e14, e15, e16, e17, e18, e19, e20, e21, e22⟩ := idx_facts t
  funext y
  show V m c main_v4 (((cfg0.win 1).blk t).view.emb y) = V m c main_v4 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 64 + 1 * (y 1).val = (y 1).val; omega

/-- Window 2's block is its whole array, at every point. -/
theorem iblk2_eq (c : Dev nD) (t : Fin cfg0.N) : (iblk m c 2 t : S1x64.Idx → Elt F .f32) = V m c main_v17 := by
  obtain ⟨e0, e1, e2, e3, e4, e5, e6, e7, e8, e9, e10, e11, e12, e13, e14, e15, e16, e17, e18, e19, e20, e21, e22⟩ := idx_facts t
  funext y
  show V m c main_v17 (((cfg0.win 2).blk t).view.emb y) = V m c main_v17 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Window 3's block is its whole array, at every point. -/
theorem iblk3_eq (c : Dev nD) (t : Fin cfg0.N) : (iblk m c 3 t : S3x192x64.Idx → Elt F .bf16) = V m c main_v11 := by
  obtain ⟨e0, e1, e2, e3, e4, e5, e6, e7, e8, e9, e10, e11, e12, e13, e14, e15, e16, e17, e18, e19, e20, e21, e22⟩ := idx_facts t
  funext y
  show V m c main_v11 (((cfg0.win 3).blk t).view.emb y) = V m c main_v11 y
  refine congrArg _ (funext fun a => Fin.ext ?_)
  match a with
  | ⟨0, _⟩ => show win0_3.index t (0 : Fin 3) * 3 + 1 * (y 0).val = (y 0).val; omega
  | ⟨1, _⟩ => show win0_3.index t (1 : Fin 3) * 192 + 1 * (y 1).val = (y 1).val; omega
  | ⟨2, _⟩ => show win0_3.index t (2 : Fin 3) * 64 + 1 * (y 2).val = (y 2).val; omega

/-- Window 4's block is its whole array, at every point. -/
theorem iblk4_eq (c : Dev nD) (t : Fin cfg0.N) : (iblk m c 4 t : S1x64.Idx → Elt F .f32) = V m c main_v18 := by
  obtain ⟨e0, e1, e2, e3, e4, e5, e6, e7, e8, e9, e10, e11, e12, e13, e14, e15, e16, e17, e18, e19, e20, e21, e22⟩ := idx_facts t
  funext y
  show V m c main_v18 (((cfg0.win 4).blk t).view.emb y) = V m c main_v18 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block is its whole array, at every point. -/
theorem iblk5_eq (c : Dev nD) (t : Fin cfg0.N) : (iblk m c 5 t : S256x64.Idx → Elt F .bf16) = V m c main_v15 := by
  obtain ⟨e0, e1, e2, e3, e4, e5, e6, e7, e8, e9, e10, e11, e12, e13, e14, e15, e16, e17, e18, e19, e20, e21, e22⟩ := idx_facts t
  funext y
  show V m c main_v15 (((cfg0.win 5).blk t).view.emb y) = V m c main_v15 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 64 + 1 * (y 1).val = (y 1).val; omega

/-- Window 6's block is its whole array, at every point. -/
theorem iblk6_eq (c : Dev nD) (t : Fin cfg0.N) : (iblk m c 6 t : S256x1.Idx → Elt F .f32) = V m c main_v19 := by
  obtain ⟨e0, e1, e2, e3, e4, e5, e6, e7, e8, e9, e10, e11, e12, e13, e14, e15, e16, e17, e18, e19, e20, e21, e22⟩ := idx_facts t
  funext y
  show V m c main_v19 (((cfg0.win 6).blk t).view.emb y) = V m c main_v19 y
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 1 + 1 * (y 1).val = (y 1).val; omega

/-- Window 7's block is its whole array, at every point. -/
theorem iblk7_eq (c : Dev nD) (t : Fin cfg0.N) : (iblk m c 7 t : S16x256.Idx → Elt F .f32) = V m c main_arg4 := by
  obtain ⟨e0, e1, e2, e3, e4, e5, e6, e7, e8, e9, e10, e11, e12, e13, e14, e15, e16, e17, e18, e19, e20, e21, e22⟩ := idx_facts t
  funext y
  show V m c main_arg4 (((cfg0.win 7).blk t).view.emb y) = V m c main_arg4 y
  refine congrArg _ (funext fun a => Fin.ext ?_)
  match a with
  | ⟨0, _⟩ => show win0_7.index t (0 : Fin 2) * 16 + 1 * (y 0).val = (y 0).val; omega
  | ⟨1, _⟩ => show win0_7.index t (1 : Fin 2) * 256 + 1 * (y 1).val = (y 1).val; omega

/-- Window 8's block is its whole array, at every point. -/
theorem iblk8_eq (c : Dev nD) (t : Fin cfg0.N) : (iblk m c 8 t : S256x16.Idx → Elt F .f32) = V m c main_arg5 := by
  obtain ⟨e0, e1, e2, e3, e4, e5, e6, e7, e8, e9, e10, e11, e12, e13, e14, e15, e16, e17, e18, e19, e20, e21, e22⟩ := idx_facts t
  funext y
  show V m c main_arg5 (((cfg0.win 8).blk t).view.emb y) = V m c main_arg5 y
  refine congrArg _ (funext fun a => Fin.ext ?_)
  match a with
  | ⟨0, _⟩ => show win0_8.index t (0 : Fin 2) * 256 + 1 * (y 0).val = (y 0).val; omega
  | ⟨1, _⟩ => show win0_8.index t (1 : Fin 2) * 16 + 1 * (y 1).val = (y 1).val; omega

/-! ## The arrays the host lines before the region compute, as terms of the launch memory -/

/-- The flattened input. -/
theorem V_v16 (c : Dev nD) : (V m c main_v16 : S16x256x3136.Idx → Elt F .f32)
    = shapeCast S16x256x3136 (m ((c : Thread nD τ).loc main_arg0)) Facts₀.shapeCasts_S16x256x56x56_S16x256x3136 := by
  show StableHlo.after hostOps0 (fun b => m (c, b)) (Proc.devRef .tc main_v16) = _
  after_results; rfl

/-- The first 1 × 1 convolution's weights, scaled per output channel, transposed, narrowed. -/
theorem V_v4 (c : Dev nD) : (V m c main_v4 : S256x64.Idx → Elt F .bf16)
    = truncf .bf16 (transpose S256x64 [1, 0] (mulf (m ((c : Thread nD τ).loc main_arg1))
        (broadcastInDim S64x256 ![0, 1] Facts₀.bcast_S64x1_S64x256_0_1 (broadcastInDim S64x1 ![0] Facts₀.bcast_S64_S64x1_0 (m ((c : Thread nD τ).loc main_arg6)))))
        Facts₀.transposes_S64x256_S256x64_1_0) Facts₀.bitsLt_bf16_f32 := by
  show StableHlo.after hostOps0 (fun b => m (c, b)) (Proc.devRef .tc main_v4) = _
  after_results

/-- The first bias as a row. -/
theorem V_v17 (c : Dev nD) : (V m c main_v17 : S1x64.Idx → Elt F .f32)
    = shapeCast S1x64 (m ((c : Thread nD τ).loc main_arg7)) Facts₀.shapeCasts_S64_S1x64 := by
  show StableHlo.after hostOps0 (fun b => m (c, b)) (Proc.devRef .tc main_v17) = _
  after_results; rfl

/-- The 3 × 3 convolution's weights: taps first, scaled per output channel, the column tap outermost, the row taps
    and input channels merged, narrowed. -/
theorem V_v11 (c : Dev nD) : (V m c main_v11 : S3x192x64.Idx → Elt F .bf16)
    = truncf .bf16 (shapeCast S3x192x64 (transpose S3x3x64x64 [1, 0, 2, 3]
        (mulf (transpose S3x3x64x64 [2, 3, 1, 0] (m ((c : Thread nD τ).loc main_arg2)) Facts₀.transposes_S64x64x3x3_S3x3x64x64_2_3_1_0)
          (broadcastInDim S3x3x64x64 ![0, 1, 2, 3] Facts₀.bcast_S1x1x1x64_S3x3x64x64_0_1_2_3
            (broadcastInDim S1x1x1x64 ![3] Facts₀.bcast_S64_S1x1x1x64_3 (m ((c : Thread nD τ).loc main_arg8)))))
        Facts₀.transposes_S3x3x64x64_S3x3x64x64_1_0_2_3) Facts₀.shapeCasts_S3x3x64x64_S3x192x64) Facts₀.bitsLt_bf16_f32 := by
  show StableHlo.after hostOps0 (fun b => m (c, b)) (Proc.devRef .tc main_v11) = _
  after_results; rfl

/-- The second bias as a row. -/
theorem V_v18 (c : Dev nD) : (V m c main_v18 : S1x64.Idx → Elt F .f32)
    = shapeCast S1x64 (m ((c : Thread nD τ).loc main_arg9)) Facts₀.shapeCasts_S64_S1x64 := by
  show StableHlo.after hostOps0 (fun b => m (c, b)) (Proc.devRef .tc main_v18) = _
  after_results; rfl

/-- The last 1 × 1 convolution's weights, scaled per output channel, narrowed. -/
theorem V_v15 (c : Dev nD) : (V m c main_v15 : S256x64.Idx → Elt F .bf16)
    = truncf .bf16 (mulf (m ((c : Thread nD τ).loc main_arg3))
        (broadcastInDim S256x64 ![0, 1] Facts₀.bcast_S256x1_S256x64_0_1 (broadcastInDim S256x1 ![0] Facts₀.bcast_S256_S256x1_0 (m ((c : Thread nD τ).loc main_arg10)))))
        Facts₀.bitsLt_bf16_f32 := by
  show StableHlo.after hostOps0 (fun b => m (c, b)) (Proc.devRef .tc main_v15) = _
  after_results

/-- The third bias as a column. -/
theorem V_v19 (c : Dev nD) : (V m c main_v19 : S256x1.Idx → Elt F .f32)
    = shapeCast S256x1 (m ((c : Thread nD τ).loc main_arg11)) Facts₀.shapeCasts_S256_S256x1 := by
  show StableHlo.after hostOps0 (fun b => m (c, b)) (Proc.devRef .tc main_v19) = _
  after_results; rfl

end Cert.KernelIdeal.KVal

end
-- ==== Proof.KIValueArgs.lean ====
import proofs.«108509_g2000006651879042_pallasbulk_171_5_alg».proof.Proof.KIBody
import Idealize.ShloMosaic.Lib.Pipeline.Value
import Idealize.ShloMosaic.Lib.StableHlo.Run
import Idealize.ShloMosaic.Lib.ValueIdx
import proofs.«108509_g2000006651879042_pallasbulk_171_5_alg».proof.Proof.KIValueIn
set_option maxRecDepth 16384

noncomputable section

namespace Cert.KernelIdeal.KVal

open Cert.KernelIdeal Cert.KernelIdeal.Gen Cert.KernelIdeal.Body Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## The launch arrays, at their shapes -/

abbrev a0 (c : Dev nD) : S16x256x56x56.Idx → Ideal .f32 := m ((c : Thread nD τ).loc main_arg0)
abbrev a1 (c : Dev nD) : S64x256.Idx → Ideal .f32 := m ((c : Thread nD τ).loc main_arg1)
abbrev a2 (c : Dev nD) : S64x64x3x3.Idx → Ideal .f32 := m ((c : Thread nD τ).loc main_arg2)
abbrev a3 (c : Dev nD) : S256x64.Idx → Ideal .f32 := m ((c : Thread nD τ).loc main_arg3)
abbrev a4 (c : Dev nD) : S16x256.Idx → Ideal .f32 := m ((c : Thread nD τ).loc main_arg4)
abbrev a5 (c : Dev nD) : S256x16.Idx → Ideal .f32 := m ((c : Thread nD τ).loc main_arg5)
abbrev a6 (c : Dev nD) : S64.Idx → Ideal .f32 := m ((c : Thread nD τ).loc main_arg6)
abbrev a7 (c : Dev nD) : S64.Idx → Ideal .f32 := m ((c : Thread nD τ).loc main_arg7)
abbrev a8 (c : Dev nD) : S64.Idx → Ideal .f32 := m ((c : Thread nD τ).loc main_arg8)
abbrev a9 (c : Dev nD) : S64.Idx → Ideal .f32 := m ((c : Thread nD τ).loc main_arg9)
abbrev a10 (c : Dev nD) : S256.Idx → Ideal .f32 := m ((c : Thread nD τ).loc main_arg10)
abbrev a11 (c : Dev nD) : S256.Idx → Ideal .f32 := m ((c : Thread nD τ).loc main_arg11)

/-- A grid point is one of the sixteen images. -/
theorem t_lt (t : Fin cfg0.N) : t.val < 16 := lt_of_lt_of_eq t.isLt N_0

/-! ## Each input block at an index, as the launch arrays -/

/-- The image block: image `t`, channel `ch`, pixel `p` = row `p / 56`, column `p % 56`. -/
theorem in0 (c : Dev nD) (t : Fin cfg0.N) (ch : Fin 256) (p : Fin 3136) :
    (iblk m c 0 t : S1x256x3136.Idx → Ideal .f32) (ix3 (0 : Fin 1) ch p)
      = a0 m c (ix4 (⟨t.val, t_lt t⟩ : Fin 16) ch (⟨p.val / 56, by have := p.isLt; omega⟩ : Fin 56) (⟨p.val % 56, Nat.mod_lt _ (by decide)⟩ : Fin 56)) := by
  refine (iblk0_apply m c t (ix3 (0 : Fin 1) ch p) (ix3 (⟨t.val, t_lt t⟩ : Fin 16) ch p) rfl rfl rfl).trans ?_
  refine (congrFun (V_v16 m c) _).trans ?_
  refine shapeCast_apply (s := S16x256x56x56) (t := S16x256x3136) _ _ _ _ ?_
  rw [Shape.rowMajor_val_four, Shape.rowMajor_val_three]
  show ((t.val * 256 + ch.val) * 56 + p.val / 56) * 56 + p.val % 56 = (t.val * 256 + ch.val) * 3136 + p.val
  omega

/-- The first 1 × 1 convolution's weight, input channel `ch`, output channel `o`: the weight scaled per output channel. -/
theorem in1 (c : Dev nD) (t : Fin cfg0.N) (ch : Fin 256) (o : Fin 64) :
    (iblk m c 1 t : S256x64.Idx → Ideal .bf16) (ix2 ch o) = a1 m c (ix2 o ch) * a6 m c (ix1 o) := by
  refine (congrFun (iblk1_eq m c t) _).trans ?_
  refine (congrFun (V_v4 m c) _).trans ?_
  refine (truncf_apply (φ := .f32) (ψ := .bf16) _ _ _).trans ?_
  refine (transpose_apply [1, 0] _ _ (ix2 ch o) (ix2 o ch) (fun b => by match b with | ⟨0, _⟩ => rfl | ⟨1, _⟩ => rfl)).trans ?_
  refine congrArg (a1 m c (ix2 o ch) * ·) ?_
  refine (broadcastInDim_apply ![0, 1] _ _ (ix2 o ch) (ix2 o (0 : Fin 1)) (fun a => by match a with | ⟨0, _⟩ => rfl | ⟨1, _⟩ => rfl)).trans ?_
  exact broadcastInDim_apply ![0] _ _ (ix2 o (0 : Fin 1)) (ix1 o) (fun a => by match a with | ⟨0, _⟩ => rfl)

/-- The first bias. -/
theorem in2 (c : Dev nD) (t : Fin cfg0.N) (o : Fin 64) :
    (iblk m c 2 t : S1x64.Idx → Ideal .f32) (ix2 (0 : Fin 1) o) = a7 m c (ix1 o) := by
  refine (congrFun (iblk2_eq m c t) _).trans ?_
  refine (congrFun (V_v17 m c) _).trans ?_
  refine shapeCast_apply (s := S64) (t := S1x64) _ _ _ _ ?_
  rw [Shape.rowMajor_val_one, Shape.rowMajor_val_two]
  show o.val = 0 * 64 + o.val
  omega

/-- The 3 × 3 convolution's weight at column tap `kx`, merged row tap and input channel `q = 64 ky + ci`, output
    channel `o`: the weight scaled per output channel. -/
theorem in3 (c : Dev nD) (t : Fin cfg0.N) (kx : Fin 3) (q : Fin 192) (o : Fin 64) :
    (iblk m c 3 t : S3x192x64.Idx → Ideal .bf16) (ix3 kx q o)
      = a2 m c (ix4 o (⟨q.val % 64, Nat.mod_lt _ (by decide)⟩ : Fin 64) (⟨q.val / 64, by have := q.isLt; omega⟩ : Fin 3) kx) * a8 m c (ix1 o) := by
  refine (congrFun (iblk3_eq m c t) _).trans ?_
  refine (congrFun (V_v11 m c) _).trans ?_
  refine (truncf_apply (φ := .f32) (ψ := .bf16) _ _ _).trans ?_
  refine (shapeCast_apply (s := S3x3x64x64) (t := S3x192x64) _ _ (ix3 kx q o) (ix4 kx (⟨q.val / 64, by have := q.isLt; omega⟩ : Fin 3) (⟨q.val % 64, Nat.mod_lt _ (by decide)⟩ : Fin 64) o) ?_).trans ?_
  · rw [Shape.rowMajor_val_four, Shape.rowMajor_val_three]
    show ((kx.val * 3 + q.val / 64) * 64 + q.val % 64) * 64 + o.val = (kx.val * 192 + q.val) * 64 + o.val
    omega
  refine (transpose_apply [1, 0, 2, 3] _ _ _ (ix4 (⟨q.val / 64, by have := q.isLt; omega⟩ : Fin 3) kx (⟨q.val % 64, Nat.mod_lt _ (by decide)⟩ : Fin 64) o)
    (fun b => by match b with | ⟨0, _⟩ => rfl | ⟨1, _⟩ => rfl | ⟨2, _⟩ => rfl | ⟨3, _⟩ => rfl)).trans ?_
  refine congrArg₂ (· * ·) ?_ ?_
  · exact transpose_apply [2, 3, 1, 0] _ _ _ (ix4 o (⟨q.val % 64, Nat.mod_lt _ (by decide)⟩ : Fin 64) (⟨q.val / 64, by have := q.isLt; omega⟩ : Fin 3) kx)
      (fun b => by match b with | ⟨0, _⟩ => rfl | ⟨1, _⟩ => rfl | ⟨2, _⟩ => rfl | ⟨3, _⟩ => rfl)
  · refine (broadcastInDim_apply (s := S1x1x1x64) (t := S3x3x64x64) ![0, 1, 2, 3] _ _
      (ix4 (⟨q.val / 64, by have := q.isLt; omega⟩ : Fin 3) kx (⟨q.val % 64, Nat.mod_lt _ (by decide)⟩ : Fin 64) o) (ix4 (0 : Fin 1) (0 : Fin 1) (0 : Fin 1) o)
      (fun a => by match a with | ⟨0, _⟩ => rfl | ⟨1, _⟩ => rfl | ⟨2, _⟩ => rfl | ⟨3, _⟩ => rfl)).trans ?_
    exact broadcastInDim_apply (s := S64) (t := S1x1x1x64) ![3] _ _ (ix4 (0 : Fin 1) (0 : Fin 1) (0 : Fin 1) o) (ix1 o) (fun a => by match a with | ⟨0, _⟩ => rfl)

/-- The second bias. -/
theorem in4 (c : Dev nD) (t : Fin cfg0.N) (o : Fin 64) :
    (iblk m c 4 t : S1x64.Idx → Ideal .f32) (ix2 (0 : Fin 1) o) = a9 m c (ix1 o) := by
  refine (congrFun (iblk4_eq m c t) _).trans ?_
  refine (congrFun (V_v18 m c) _).trans ?_
  refine shapeCast_apply (s := S64) (t := S1x64) _ _ _ _ ?_
  rw [Shape.rowMajor_val_one, Shape.rowMajor_val_two]
  show o.val = 0 * 64 + o.val
  omega

/-- The last 1 × 1 convolution's weight, output channel `ch`, input channel `o`: the weight scaled per output channel. -/
theorem in5 (c : Dev nD) (t : Fin cfg0.N) (ch : Fin 256) (o : Fin 64) :
    (iblk m c 5 t : S256x64.Idx → Ideal .bf16) (ix2 ch o) = a3 m c (ix2 ch o) * a10 m c (ix1 ch) := by
  refine (congrFun (iblk5_eq m c t) _).trans ?_
  refine (congrFun (V_v15 m c) _).trans ?_
  refine (truncf_apply (φ := .f32) (ψ := .bf16) _ _ _).trans ?_
  show a3 m c (ix2 ch o) * _ = _
  refine congrArg (a3 m c (ix2 ch o) * ·) ?_
  refine (broadcastInDim_apply ![0, 1] _ _ (ix2 ch o) (ix2 ch (0 : Fin 1)) (fun a => by match a with | ⟨0, _⟩ => rfl | ⟨1, _⟩ => rfl)).trans ?_
  exact broadcastInDim_apply ![0] _ _ (ix2 ch (0 : Fin 1)) (ix1 ch) (fun a => by match a with | ⟨0, _⟩ => rfl)

/-- The third bias. -/
theorem in6 (c : Dev nD) (t : Fin cfg0.N) (ch : Fin 256) :
    (iblk m c 6 t : S256x1.Idx → Ideal .f32) (ix2 ch (0 : Fin 1)) = a11 m c (ix1 ch) := by
  refine (congrFun (iblk6_eq m c t) _).trans ?_
  refine (congrFun (V_v19 m c) _).trans ?_
  refine shapeCast_apply (s := S256) (t := S256x1) _ _ _ _ ?_
  rw [Shape.rowMajor_val_one, Shape.rowMajor_val_two]
  show ch.val = ch.val * 1 + 0
  omega

/-- The squeeze weights. -/
theorem in7 (c : Dev nD) (t : Fin cfg0.N) : (iblk m c 7 t : S16x256.Idx → Ideal .f32) = a4 m c :=
  (iblk7_eq m c t).trans (V_main_arg4 m c)

/-- The excite weights. -/
theorem in8 (c : Dev nD) (t : Fin cfg0.N) : (iblk m c 8 t : S256x16.Idx → Ideal .f32) = a5 m c :=
  (iblk8_eq m c t).trans (V_main_arg5 m c)

end Cert.KernelIdeal.KVal

end
-- ==== Proof.KAlg.lean ====
/-
  One image's block of the fused kernel's result, in terms of the program's twelve arguments: when the arguments
  are (coercions of) real arrays, every entry of the block is the specification's real number.
-/
import proofs.«108509_g2000006651879042_pallasbulk_171_5_alg».proof.Proof.KV6
import proofs.«108509_g2000006651879042_pallasbulk_171_5_alg».proof.Proof.KIValueArgs

noncomputable section

open Idealize.ShloMosaic Idealize.ShloMosaic.ValueIdx
open scoped BigOperators

namespace Cert.KernelIdeal.KVal

open Cert.KernelIdeal Cert.KernelIdeal.Gen Cert.KernelIdeal.Body Cert.KernelIdeal.KV

variable (m : (ℓ : Loc nD τ sig) → Buf (Elt Ideal) ℓ)

theorem blk_value (c : Dev nD) (I : Cert.Spec.Inp)
    (h0 : ∀ (b : Fin 16) (ch : Fin 256) (p : Fin 3136),
      a0 m c (ix4 b ch (⟨p.val / 56, by have := p.isLt; omega⟩ : Fin 56) (⟨p.val % 56, Nat.mod_lt _ (by norm_num)⟩ : Fin 56)) = ((I.x b ch p : ℝ) : EReal))
    (h1 : ∀ (o : Fin 64) (ch : Fin 256), a1 m c (ix2 o ch) = ((I.w1 o ch : ℝ) : EReal))
    (h2 : ∀ (o ci : Fin 64) (ky kx : Fin 3), a2 m c (ix4 o ci ky kx) = ((I.w2 o ci ky kx : ℝ) : EReal))
    (h3 : ∀ (ch : Fin 256) (o : Fin 64), a3 m c (ix2 ch o) = ((I.w3 ch o : ℝ) : EReal))
    (h4 : ∀ (r : Fin 16) (ch : Fin 256), a4 m c (ix2 r ch) = ((I.fc1 r ch : ℝ) : EReal))
    (h5 : ∀ (ch : Fin 256) (r : Fin 16), a5 m c (ix2 ch r) = ((I.fc2 ch r : ℝ) : EReal))
    (h6 : ∀ o : Fin 64, a6 m c (ix1 o) = ((I.s1 o : ℝ) : EReal))
    (h7 : ∀ o : Fin 64, a7 m c (ix1 o) = ((I.b1 o : ℝ) : EReal))
    (h8 : ∀ o : Fin 64, a8 m c (ix1 o) = ((I.s2 o : ℝ) : EReal))
    (h9 : ∀ o : Fin 64, a9 m c (ix1 o) = ((I.b2 o : ℝ) : EReal))
    (h10 : ∀ ch : Fin 256, a10 m c (ix1 ch) = ((I.s3 ch : ℝ) : EReal))
    (h11 : ∀ ch : Fin 256, a11 m c (ix1 ch) = ((I.b3 ch : ℝ) : EReal))
    (t : Fin cfg0.N) (ch : Fin 256) (p : Fin 3136) :
    outBlk (iblk m c 0 t) (iblk m c 1 t) (iblk m c 2 t) (iblk m c 3 t) (iblk m c 4 t) (iblk m c 5 t) (iblk m c 6 t)
        (iblk m c 7 t) (iblk m c 8 t) (ix3 (0 : Fin 1) ch p)
      = ((Cert.Spec.out I (⟨t.val, t_lt t⟩ : Fin 16) ch p : ℝ) : EReal) := by
  refine outBlk_apply I (⟨t.val, t_lt t⟩ : Fin 16) _ _ _ _ _ _ _ _ _ ?_ ?_ ?_ ?_ ?_ ?_ ?_ ?_ ?_ ch p
  · intro ch p
    exact (in0 m c t ch p).trans (h0 _ ch p)
  · intro ch o
    refine (in1 m c t ch o).trans ?_
    rw [h1, h6, ← EReal.coe_mul]
  · intro o
    exact (in2 m c t o).trans (h7 o)
  · intro kx q o
    refine (in3 m c t kx q o).trans ?_
    rw [h2, h8, ← EReal.coe_mul]
  · intro o
    exact (in4 m c t o).trans (h9 o)
  · intro ch o
    refine (in5 m c t ch o).trans ?_
    rw [h3, h10, ← EReal.coe_mul]
  · intro ch
    exact (in6 m c t ch).trans (h11 ch)
  · intro r ch
    rw [in7 m c t]; exact h4 r ch
  · intro ch r
    rw [in8 m c t]; exact h5 ch r

end Cert.KernelIdeal.KVal

end
-- ==== Proof.KIValueOut.lean ====
import proofs.«108509_g2000006651879042_pallasbulk_171_5_alg».proof.Proof.KIBody
import Idealize.ShloMosaic.Lib.Pipeline.Value
import Idealize.ShloMosaic.Lib.StableHlo.Run
import Idealize.ShloMosaic.Lib.ValueIdx
import proofs.«108509_g2000006651879042_pallasbulk_171_5_alg».proof.Proof.KIValueIn
set_option maxRecDepth 16384

noncomputable section

namespace Cert.KernelIdeal.KVal

open Cert.KernelIdeal Cert.KernelIdeal.Gen Cert.KernelIdeal.Body Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## The output array after the region: image by image -/

/-- What point `t` leaves in the output window's buffer. -/
def blkOut (c : Dev nD) (t : Fin cfg0.N) : Vec F S1x256x3136 .f32 :=
  outBlk (iblk m c 0 t) (iblk m c 1 t) (iblk m c 2 t) (iblk m c 3 t) (iblk m c 4 t) (iblk m c 5 t) (iblk m c 6 t) (iblk m c 7 t) (iblk m c 8 t)

/-- The grid point that writes image `y 0`. -/
def tOf (y : S16x256x3136.Idx) : Fin cfg0.N := ⟨(y 0).val, lt_of_lt_of_eq (y 0).isLt N_0.symm⟩

theorem tOf_val (y : S16x256x3136.Idx) : (tOf y).val = (y 0).val := rfl

/-- The output array after the region: at image `y 0`, channel `y 1`, pixel `y 2`, what the point of that image
    left in the output window's buffer at that channel and pixel. -/
def G9 (c : Dev nD) : S16x256x3136.Idx → Elt F .f32 :=
  fun y => blkOut m c (tOf y) (ix3 (0 : Fin 1) (y 1) (y 2))

theorem G9_apply (c : Dev nD) (y : S16x256x3136.Idx) :
    G9 m c y = outBlk (iblk m c 0 (tOf y)) (iblk m c 1 (tOf y)) (iblk m c 2 (tOf y)) (iblk m c 3 (tOf y)) (iblk m c 4 (tOf y)) (iblk m c 5 (tOf y)) (iblk m c 6 (tOf y)) (iblk m c 7 (tOf y)) (iblk m c 8 (tOf y)) (ix3 (0 : Fin 1) (y 1) (y 2)) := rfl

/-- WHAT POINT `t` WRITES BACK is block `t` of `G9`. -/
theorem flushed9_eq (c : Dev nD) (t : Fin cfg0.N) :
    (dats m 0 c).flushed 9 t = ((cfg0.win 9).blk t).view.read (Elt F) (G9 m c) := by
  show (cfg0.win 9).cut (grid0.coords t) ((dats m 0 c).after 9 t) = _
  rw [after_9]
  obtain ⟨e0, e1, e2, e3, e4, e5, e6, e7, e8, e9, e10, e11, e12, e13, e14, e15, e16, e17, e18, e19, e20, e21, e22⟩ := idx_facts t
  funext j
  show blkOut m c t j = G9 m c (((cfg0.win 9).blk t).view.emb j)
  have hj0 : (j 0).val < 1 := (j 0).isLt
  have h0 : ((((cfg0.win 9).blk t).view.emb j) 0).val = t.val := by
    show win0_9.index t (0 : Fin 3) * 1 + 1 * (j 0).val = t.val; omega
  have h1 : ((((cfg0.win 9).blk t).view.emb j) 1).val = (j 1).val := by
    show win0_9.index t (1 : Fin 3) * 256 + 1 * (j 1).val = (j 1).val; omega
  have h2 : ((((cfg0.win 9).blk t).view.emb j) 2).val = (j 2).val := by
    show win0_9.index t (2 : Fin 3) * 3136 + 1 * (j 2).val = (j 2).val; omega
  have ht : tOf (((cfg0.win 9).blk t).view.emb j) = t := Fin.ext h0
  have hj : (ix3 (0 : Fin 1) ((((cfg0.win 9).blk t).view.emb j) 1) ((((cfg0.win 9).blk t).view.emb j) 2) : S1x256x3136.Idx) = j := by
    funext a
    match a with
    | ⟨0, _⟩ => exact Fin.ext (by show 0 = (j 0).val; omega)
    | ⟨1, _⟩ => exact Fin.ext h1
    | ⟨2, _⟩ => exact Fin.ext h2
  unfold G9
  rw [ht, hj]

/-- An index of the array is in point `t`'s block iff each coordinate is in the block's range on its axis. -/
theorem mem_blk9 (t : Fin cfg0.N) (i : S16x256x3136.Idx) :
    i ∈ ((cfg0.win 9).blk t).view.set ↔ ∀ a : Fin 3, win0_9.index t a * S1x256x3136.size a ≤ (i a).val ∧ (i a).val < win0_9.index t a * S1x256x3136.size a + S1x256x3136.size a := by
  show i ∈ ((View.whole main_v20).slice (win0_9.rect t)).set ↔ _
  rw [View.set_slice_whole, Rect.mem_set_unit]
  exact Iff.rfl

/-- Every index is in the block of its image's point. -/
theorem cover9 (i : S16x256x3136.Idx) : ∃ t : Fin cfg0.N, (cfg0.win 9).flush t = true ∧ i ∈ ((cfg0.win 9).blk t).view.set := by
  refine ⟨tOf i, flush0_9 _, ?_⟩
  rw [mem_blk9]
  obtain ⟨e0, e1, e2, e3, e4, e5, e6, e7, e8, e9, e10, e11, e12, e13, e14, e15, e16, e17, e18, e19, e20, e21, e22⟩ := idx_facts (tOf i)
  have hv : (tOf i).val = (i 0).val := rfl
  have hi1 : (i 1).val < 256 := (i 1).isLt
  have hi2 : (i 2).val < 3136 := (i 2).isLt
  intro a
  match a with
  | ⟨0, _⟩ => show win0_9.index (tOf i) (0 : Fin 3) * 1 ≤ (i 0).val ∧ (i 0).val < win0_9.index (tOf i) (0 : Fin 3) * 1 + 1; omega
  | ⟨1, _⟩ => show win0_9.index (tOf i) (1 : Fin 3) * 256 ≤ (i 1).val ∧ (i 1).val < win0_9.index (tOf i) (1 : Fin 3) * 256 + 256; omega
  | ⟨2, _⟩ => show win0_9.index (tOf i) (2 : Fin 3) * 3136 ≤ (i 2).val ∧ (i 2).val < win0_9.index (tOf i) (2 : Fin 3) * 3136 + 3136; omega

/-- THE OUTPUT ARRAY after the region is `G9`. -/
theorem final9 (c : Dev nD) : (dats m 0 c).arrAt 9 cfg0.N = G9 m c :=
  (dats m 0 c).arrAt_eq_of_cover 9 (G9 m c) (fun t _ => flushed9_eq m c t) cover9

/-! ## The host line after the region, and the run read -/

/-- The program's result: the output array at its four-axis shape. -/
def RES (c : Dev nD) : S16x256x56x56.Idx → Elt F .f32 :=
  shapeCast S16x256x56x56 (G9 m c) Facts₀.shapeCasts_S16x256x3136_S16x256x56x56

/-- The result at image `t`, channel `ch`, row `r`, column `q`: what the point of image `t` left in the output
    window's buffer at channel `ch`, pixel `56 r + q`. -/
theorem RES_apply (c : Dev nD) (t : Fin 16) (ch : Fin 256) (r : Fin 56) (q : Fin 56) :
    RES m c (ix4 t ch r q)
      = blkOut m c (⟨t.val, lt_of_lt_of_eq t.isLt N_0.symm⟩ : Fin cfg0.N)
          (ix3 (0 : Fin 1) ch (⟨56 * r.val + q.val, by have := r.isLt; have := q.isLt; omega⟩ : Fin 3136)) := by
  unfold RES
  refine (shapeCast_apply (s := S16x256x3136) (t := S16x256x56x56) _ _ (ix4 t ch r q)
    (ix3 t ch (⟨56 * r.val + q.val, by have := r.isLt; have := q.isLt; omega⟩ : Fin 3136)) ?_).trans rfl
  rw [Shape.rowMajor_val_three, Shape.rowMajor_val_four]
  show (t.val * 256 + ch.val) * 3136 + (56 * r.val + q.val) = ((t.val * 256 + ch.val) * 56 + r.val) * 56 + q.val
  omega

/-- What the line after the region leaves in the result's buffer. -/
theorem tail_v21 (c : Dev nD) :
    (Pipeline.afterTail₀ cfgs (dats m) 0 (V0 m) [hostOps1] c main_v21 : S16x256x56x56.Idx → Elt F .f32) = RES m c := by
  unfold Pipeline.afterTail₀
  show StableHlo.after hostOps1 _ (Proc.devRef .tc main_v21) = _
  after_results
  unfold RES
  rw [← final9 m c]
  have e : Pipeline.withArrays (cfgs 0).spec c (V0 m c) (fun w => (dats m 0 c).arrAt w (cfgs 0).N) (Proc.devRef .tc main_v20)
      = (dats m 0 c).arrAt 9 cfg0.N := Pipeline.withArrays_arr spec0 launch0.win.arr_inj c _ _ 9
  rw [e]
  rfl

/-- THE RUN, READ: the result's buffer ends at `RES` — the output array `G9` at its four-axis shape — and the twelve
    argument arrays end as launched. -/
theorem run_value : θ_run defs (onTc (τ := τ) (main (F := F))) ⟨m, fun _ => 0, ρ⟩ (fun r => ∀ c : Dev nD,
      r.2.mem ((c.tc : Thread nD τ).loc main_v21) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v21 (Pipeline.mem_restRefs_of main_v21 (by decide) (by decide))).trans (tail_v21 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 7).trans (((dats m 0 c).arrAt_in 7 rfl _).trans ((A_eq m c 7).trans (V_main_arg4 m c))),
      ((h c).1 8).trans (((dats m 0 c).arrAt_in 8 rfl _).trans ((A_eq m c 8).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.KVal

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.Finite.lean ====
/-
  The precondition decoded. The stated precondition is the conjunction, over the twelve arguments, of "every entry's
  absolute value is below +∞", each taken over its whole array by an all-reduction. At the exact values it makes every
  entry of every argument a real number; the arguments then are (the coercions of) one real input of the specification.
-/
import proofs.«108509_g2000006651879042_pallasbulk_171_5_alg».proof.Pre_finite_inputs
import proofs.«108509_g2000006651879042_pallasbulk_171_5_alg».proof.Proof.LibFiniteInputs
import proofs.«108509_g2000006651879042_pallasbulk_171_5_alg».proof.Proof.Spec
import Idealize.ShloMosaic.Lib.Affine
import Idealize.ShloMosaic.Lib.ValueIdx

noncomputable section

namespace Cert.Finite

open Idealize.ShloMosaic Idealize.ShloMosaic.ValueIdx
open Cert.Pre_finite_inputs

/-! ## Every entry of every argument is a real -/

set_option maxHeartbeats 1000000 in
/-- The precondition at the exact values: the conjunction of twelve all-reductions is 1, so each is, so every entry of
    each argument has absolute value below +∞, so is a real. -/
theorem reals_of_pre [Cert.Pre_finite_inputs.Facts]
    (a0 : FVec Ideal ⟨4, ![16, 256, 56, 56]⟩ .f32) (a1 : FVec Ideal ⟨2, ![64, 256]⟩ .f32)
    (a2 : FVec Ideal ⟨4, ![64, 64, 3, 3]⟩ .f32) (a3 : FVec Ideal ⟨2, ![256, 64]⟩ .f32)
    (a4 : FVec Ideal ⟨2, ![16, 256]⟩ .f32) (a5 : FVec Ideal ⟨2, ![256, 16]⟩ .f32)
    (a6 a7 a8 a9 : FVec Ideal ⟨1, ![64]⟩ .f32) (a10 a11 : FVec Ideal ⟨1, ![256]⟩ .f32)
    (h : Cert.Pre_finite_inputs.fn (F := Ideal) a0 a1 a2 a3 a4 a5 a6 a7 a8 a9 a10 a11 = fun _ => 1#1) :
    (∀ i, ∃ r : ℝ, a0 i = ((r : ℝ) : EReal)) ∧ (∀ i, ∃ r : ℝ, a1 i = ((r : ℝ) : EReal))
      ∧ (∀ i, ∃ r : ℝ, a2 i = ((r : ℝ) : EReal)) ∧ (∀ i, ∃ r : ℝ, a3 i = ((r : ℝ) : EReal))
      ∧ (∀ i, ∃ r : ℝ, a4 i = ((r : ℝ) : EReal)) ∧ (∀ i, ∃ r : ℝ, a5 i = ((r : ℝ) : EReal))
      ∧ (∀ i, ∃ r : ℝ, a6 i = ((r : ℝ) : EReal)) ∧ (∀ i, ∃ r : ℝ, a7 i = ((r : ℝ) : EReal))
      ∧ (∀ i, ∃ r : ℝ, a8 i = ((r : ℝ) : EReal)) ∧ (∀ i, ∃ r : ℝ, a9 i = ((r : ℝ) : EReal))
      ∧ (∀ i, ∃ r : ℝ, a10 i = ((r : ℝ) : EReal)) ∧ (∀ i, ∃ r : ℝ, a11 i = ((r : ℝ) : EReal)) := by
  have h0 := congrFun h ix0
  dsimp only [fn, fn_part1, fn_part2, fn_part3] at h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨Cert.FiniteInputs.all_real a0 _ _ _ e0, Cert.FiniteInputs.all_real a1 _ _ _ e1,
    Cert.FiniteInputs.all_real a2 _ _ _ e2, Cert.FiniteInputs.all_real a3 _ _ _ e3,
    Cert.FiniteInputs.all_real a4 _ _ _ e4, Cert.FiniteInputs.all_real a5 _ _ _ e5,
    Cert.FiniteInputs.all_real a6 _ _ _ e6, Cert.FiniteInputs.all_real a7 _ _ _ e7,
    Cert.FiniteInputs.all_real a8 _ _ _ e8, Cert.FiniteInputs.all_real a9 _ _ _ e9,
    Cert.FiniteInputs.all_real a10 _ _ _ e10, Cert.FiniteInputs.all_real a11 _ _ _ e11⟩

/-! ## The real input the arguments are -/

/-- An extended real that is a real is the coercion of its real part. -/
theorem coe_toReal {x : EReal} (h : ∃ r : ℝ, x = ((r : ℝ) : EReal)) : x = ((x.toReal : ℝ) : EReal) := by
  obtain ⟨r, rfl⟩ := h
  rw [EReal.toReal_coe]

theorem div56 (p : Fin 3136) : p.val / 56 < 56 := by have := p.isLt; omega
theorem mod56 (p : Fin 3136) : p.val % 56 < 56 := Nat.mod_lt _ (by decide)

variable (a0 : (⟨4, ![16, 256, 56, 56]⟩ : Shape).Idx → EReal) (a1 : (⟨2, ![64, 256]⟩ : Shape).Idx → EReal)
  (a2 : (⟨4, ![64, 64, 3, 3]⟩ : Shape).Idx → EReal) (a3 : (⟨2, ![256, 64]⟩ : Shape).Idx → EReal)
  (a4 : (⟨2, ![16, 256]⟩ : Shape).Idx → EReal) (a5 : (⟨2, ![256, 16]⟩ : Shape).Idx → EReal)
  (a6 a7 a8 a9 : (⟨1, ![64]⟩ : Shape).Idx → EReal) (a10 a11 : (⟨1, ![256]⟩ : Shape).Idx → EReal)

/-- The specification's input read off the twelve arguments: the real part of each entry; the image by flattened
    pixel `p = 56 i + j`. -/
def inpOf : Cert.Spec.Inp where
  x b c p := (a0 (ix4 b c ⟨p.val / 56, div56 p⟩ ⟨p.val % 56, mod56 p⟩)).toReal
  w1 o c := (a1 (ix2 o c)).toReal
  w2 o ci ky kx := (a2 (ix4 o ci ky kx)).toReal
  w3 c o := (a3 (ix2 c o)).toReal
  fc1 r c := (a4 (ix2 r c)).toReal
  fc2 c r := (a5 (ix2 c r)).toReal
  s1 o := (a6 (ix1 o)).toReal
  b1 o := (a7 (ix1 o)).toReal
  s2 o := (a8 (ix1 o)).toReal
  b2 o := (a9 (ix1 o)).toReal
  s3 c := (a10 (ix1 c)).toReal
  b3 c := (a11 (ix1 c)).toReal

/-! Under the finiteness facts each argument's entry is the coercion of the input's. -/

theorem inpOf_x (h0 : ∀ i, ∃ r : ℝ, a0 i = ((r : ℝ) : EReal)) (b : Fin 16) (c : Fin 256) (p : Fin 3136) :
    a0 (ix4 b c ⟨p.val / 56, div56 p⟩ ⟨p.val % 56, mod56 p⟩)
      = (((inpOf a0 a1 a2 a3 a4 a5 a6 a7 a8 a9 a10 a11).x b c p : ℝ) : EReal) := coe_toReal (h0 _)
theorem inpOf_w1 (h1 : ∀ i, ∃ r : ℝ, a1 i = ((r : ℝ) : EReal)) (o : Fin 64) (c : Fin 256) :
    a1 (ix2 o c) = (((inpOf a0 a1 a2 a3 a4 a5 a6 a7 a8 a9 a10 a11).w1 o c : ℝ) : EReal) := coe_toReal (h1 _)
theorem inpOf_w2 (h2 : ∀ i, ∃ r : ℝ, a2 i = ((r : ℝ) : EReal)) (o ci : Fin 64) (ky kx : Fin 3) :
    a2 (ix4 o ci ky kx) = (((inpOf a0 a1 a2 a3 a4 a5 a6 a7 a8 a9 a10 a11).w2 o ci ky kx : ℝ) : EReal) := coe_toReal (h2 _)
theorem inpOf_w3 (h3 : ∀ i, ∃ r : ℝ, a3 i = ((r : ℝ) : EReal)) (c : Fin 256) (o : Fin 64) :
    a3 (ix2 c o) = (((inpOf a0 a1 a2 a3 a4 a5 a6 a7 a8 a9 a10 a11).w3 c o : ℝ) : EReal) := coe_toReal (h3 _)
theorem inpOf_fc1 (h4 : ∀ i, ∃ r : ℝ, a4 i = ((r : ℝ) : EReal)) (r : Fin 16) (c : Fin 256) :
    a4 (ix2 r c) = (((inpOf a0 a1 a2 a3 a4 a5 a6 a7 a8 a9 a10 a11).fc1 r c : ℝ) : EReal) := coe_toReal (h4 _)
theorem inpOf_fc2 (h5 : ∀ i, ∃ r : ℝ, a5 i = ((r : ℝ) : EReal)) (c : Fin 256) (r : Fin 16) :
    a5 (ix2 c r) = (((inpOf a0 a1 a2 a3 a4 a5 a6 a7 a8 a9 a10 a11).fc2 c r : ℝ) : EReal) := coe_toReal (h5 _)
theorem inpOf_s1 (h6 : ∀ i, ∃ r : ℝ, a6 i = ((r : ℝ) : EReal)) (o : Fin 64) :
    a6 (ix1 o) = (((inpOf a0 a1 a2 a3 a4 a5 a6 a7 a8 a9 a10 a11).s1 o : ℝ) : EReal) := coe_toReal (h6 _)
theorem inpOf_b1 (h7 : ∀ i, ∃ r : ℝ, a7 i = ((r : ℝ) : EReal)) (o : Fin 64) :
    a7 (ix1 o) = (((inpOf a0 a1 a2 a3 a4 a5 a6 a7 a8 a9 a10 a11).b1 o : ℝ) : EReal) := coe_toReal (h7 _)
theorem inpOf_s2 (h8 : ∀ i, ∃ r : ℝ, a8 i = ((r : ℝ) : EReal)) (o : Fin 64) :
    a8 (ix1 o) = (((inpOf a0 a1 a2 a3 a4 a5 a6 a7 a8 a9 a10 a11).s2 o : ℝ) : EReal) := coe_toReal (h8 _)
theorem inpOf_b2 (h9 : ∀ i, ∃ r : ℝ, a9 i = ((r : ℝ) : EReal)) (o : Fin 64) :
    a9 (ix1 o) = (((inpOf a0 a1 a2 a3 a4 a5 a6 a7 a8 a9 a10 a11).b2 o : ℝ) : EReal) := coe_toReal (h9 _)
theorem inpOf_s3 (h10 : ∀ i, ∃ r : ℝ, a10 i = ((r : ℝ) : EReal)) (c : Fin 256) :
    a10 (ix1 c) = (((inpOf a0 a1 a2 a3 a4 a5 a6 a7 a8 a9 a10 a11).s3 c : ℝ) : EReal) := coe_toReal (h10 _)
theorem inpOf_b3 (h11 : ∀ i, ∃ r : ℝ, a11 i = ((r : ℝ) : EReal)) (c : Fin 256) :
    a11 (ix1 c) = (((inpOf a0 a1 a2 a3 a4 a5 a6 a7 a8 a9 a10 a11).b3 c : ℝ) : EReal) := coe_toReal (h11 _)

end Cert.Finite

end
-- ==== Proof.RefRunRead.lean ====
import proofs.«108509_g2000006651879042_pallasbulk_171_5_alg».proof.Proof.RefRunVals
import Idealize.ShloMosaic.Lib.StableHlo.Run

noncomputable section

/-! # The host stretches read off the boundary contents

Each kernel region's input arrays, and the program's result, as the host operations' functions (transposes and
reshapes) of the launch memory's arguments and of the regions' outputs `out0`, `out1`, `out2`. -/

namespace Cert.ReferenceIdeal.RefRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.R0 Cert.ReferenceIdeal.R1 Cert.ReferenceIdeal.R2

open Idealize.ShloMosaic.StableHlo
variable {F : FTy → Type} [FloatOps F]
variable (m : (ℓ : Loc nD τ sig) → Buf (Elt F) ℓ)

/-! ## Region 0's inputs: the activations in NHWC order flattened to rows, the 1x1 weights transposed, scale and bias as rows -/

theorem W1_main_v0 (c : Dev nD) : W1 m c (Proc.devRef .tc main_v0)
    = transpose S16x56x56x256 [0, 2, 3, 1] (m ((c : Thread nD τ).loc main_arg0)) transposes_S16x256x56x56_S16x56x56x256_0_2_3_1 := by
  after_results
theorem W1_main_v1 (c : Dev nD) : W1 m c (Proc.devRef .tc main_v1)
    = shapeCast S50176x256 (transpose S16x56x56x256 [0, 2, 3, 1] (m ((c : Thread nD τ).loc main_arg0)) transposes_S16x256x56x56_S16x56x56x256_0_2_3_1)
        shapeCasts_S16x56x56x256_S50176x256 := by
  after_results; rfl
theorem W1_main_v2 (c : Dev nD) : W1 m c (Proc.devRef .tc main_v2)
    = transpose S256x64 [1, 0] (m ((c : Thread nD τ).loc main_arg1)) transposes_S64x256_S256x64_1_0 := by
  after_results
theorem W1_main_v3 (c : Dev nD) : W1 m c (Proc.devRef .tc main_v3) = shapeCast S1x64 (m ((c : Thread nD τ).loc main_arg6)) shapeCasts_S64_S1x64 := by
  after_results; rfl
theorem W1_main_v4 (c : Dev nD) : W1 m c (Proc.devRef .tc main_v4) = shapeCast S1x64 (m ((c : Thread nD τ).loc main_arg7)) shapeCasts_S64_S1x64 := by
  after_results; rfl

/-! ## Region 1's inputs: region 0's output as images, the 3x3 weights as nine taps, scale and bias as rows -/

theorem W3_main_v6 (c : Dev nD) : W3 m c (Proc.devRef .tc main_v6)
    = shapeCast S16x56x56x64 (out0 m c) shapeCasts_S50176x64_S16x56x56x64 := by
  after_results; rw [W_out0]; rfl
theorem W3_main_v8 (c : Dev nD) : W3 m c (Proc.devRef .tc main_v8)
    = shapeCast S9x64x64 (transpose S3x3x64x64 [2, 3, 1, 0] (m ((c : Thread nD τ).loc main_arg2)) transposes_S64x64x3x3_S3x3x64x64_2_3_1_0)
        shapeCasts_S3x3x64x64_S9x64x64 := by
  after_results; rw [W2_of_ne m c _ (by decide), W1_of m c _ (by decide)]; rfl
theorem W3_main_v9 (c : Dev nD) : W3 m c (Proc.devRef .tc main_v9) = shapeCast S1x64 (m ((c : Thread nD τ).loc main_arg8)) shapeCasts_S64_S1x64 := by
  after_results; rw [W2_of_ne m c _ (by decide), W1_of m c _ (by decide)]; rfl
theorem W3_main_v10 (c : Dev nD) : W3 m c (Proc.devRef .tc main_v10) = shapeCast S1x64 (m ((c : Thread nD τ).loc main_arg9)) shapeCasts_S64_S1x64 := by
  after_results; rw [W2_of_ne m c _ (by decide), W1_of m c _ (by decide)]; rfl

/-! ## Region 2's inputs: region 1's output and the activations as per-image rows, the last 1x1 weights and the
    squeeze-excite weights transposed, scale and bias as rows -/

/-- A buffer the first stretch wrote and nothing later writes still holds it at region 2's entry. -/
theorem W4_of_W1 (c : Dev nD) (r : Ref sig .tc) (n5 : r ≠ main_v5) (h1 : r ∉ hostOps1_W) (n11 : r ≠ main_v11) :
    W4 m c (Proc.devRef .tc r) = W1 m c (Proc.devRef .tc r) :=
  (W4_of_ne m c r n11).trans <| (W3_of m c r h1).trans (W2_of_ne m c r n5)
/-- An argument still holds its launch contents at region 2's entry. -/
theorem W4_arg (c : Dev nD) (r : Ref sig .tc) (h0 : r ∉ hostOps0_W) (n5 : r ≠ main_v5) (h1 : r ∉ hostOps1_W) (n11 : r ≠ main_v11) :
    W4 m c (Proc.devRef .tc r) = m ((c : Thread nD τ).loc r) :=
  (W4_of_W1 m c r n5 h1 n11).trans ((W1_of m c r h0).trans rfl)

theorem W5_main_v12 (c : Dev nD) : W5 m c (Proc.devRef .tc main_v12)
    = shapeCast S16x3136x256 (transpose S16x56x56x256 [0, 2, 3, 1] (m ((c : Thread nD τ).loc main_arg0)) transposes_S16x256x56x56_S16x56x56x256_0_2_3_1)
        shapeCasts_S16x56x56x256_S16x3136x256 := by
  after_results; rw [W4_of_W1 m c _ (by decide) (by decide) (by decide), W1_main_v0]; rfl
theorem W5_main_v13 (c : Dev nD) : W5 m c (Proc.devRef .tc main_v13)
    = shapeCast S16x3136x64 (out1 m c) shapeCasts_S16x56x56x64_S16x3136x64 := by
  after_results; rw [W_out1]; rfl
theorem W5_main_v14 (c : Dev nD) : W5 m c (Proc.devRef .tc main_v14)
    = transpose S64x256 [1, 0] (m ((c : Thread nD τ).loc main_arg3)) transposes_S256x64_S64x256_1_0 := by
  after_results; rw [W4_arg m c _ (by decide) (by decide) (by decide) (by decide)]
theorem W5_main_v15 (c : Dev nD) : W5 m c (Proc.devRef .tc main_v15)
    = transpose S256x16 [1, 0] (m ((c : Thread nD τ).loc main_arg4)) transposes_S16x256_S256x16_1_0 := by
  after_results; rw [W4_arg m c _ (by decide) (by decide) (by decide) (by decide)]
theorem W5_main_v16 (c : Dev nD) : W5 m c (Proc.devRef .tc main_v16)
    = transpose S16x256 [1, 0] (m ((c : Thread nD τ).loc main_arg5)) transposes_S256x16_S16x256_1_0 := by
  after_results; rw [W4_arg m c _ (by decide) (by decide) (by decide) (by decide)]
theorem W5_main_v17 (c : Dev nD) : W5 m c (Proc.devRef .tc main_v17) = shapeCast S1x256 (m ((c : Thread nD τ).loc main_arg10)) shapeCasts_S256_S1x256 := by
  after_results; rw [W4_arg m c _ (by decide) (by decide) (by decide) (by decide)]; rfl
theorem W5_main_v18 (c : Dev nD) : W5 m c (Proc.devRef .tc main_v18) = shapeCast S1x256 (m ((c : Thread nD τ).loc main_arg11)) shapeCasts_S256_S1x256 := by
  after_results; rw [W4_arg m c _ (by decide) (by decide) (by decide) (by decide)]; rfl

/-! ## The result: region 2's output as images, back in NCHW order -/

theorem W7_main_v21 (c : Dev nD) : W7 m c (Proc.devRef .tc main_v21)
    = transpose S16x256x56x56 [0, 3, 1, 2] (shapeCast S16x56x56x256 (out2 m c) shapeCasts_S16x3136x256_S16x56x56x256)
        transposes_S16x56x56x256_S16x256x56x56_0_3_1_2 := by
  after_results; rw [W_out2]; rfl

end Cert.ReferenceIdeal.RefRun

end
-- ==== Proof.RefRunIdx.lean ====
import proofs.«108509_g2000006651879042_pallasbulk_171_5_alg».proof.Proof.RefRunRead
import Idealize.ShloMosaic.Lib.Pipeline.Value
import Idealize.ShloMosaic.Lib.ValueIdx
import Idealize.ShloMosaic.Lib.ValueLayout

noncomputable section

/-! # The host stretches read at an index

The transposes and reshapes between the regions only move elements: each region's input arrays, and the result,
read at one index are one element of an argument or of the previous region's output. A pixel `p < 3136` of an image
is row `p / 56`, column `p % 56`; a row of the flattened activations is `b * 3136 + p`. -/

namespace Cert.ReferenceIdeal.RefRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.R0 Cert.ReferenceIdeal.R1 Cert.ReferenceIdeal.R2

open Idealize.ShloMosaic.ValueIdx
variable {F : FTy → Type} [FloatOps F]
variable (m : (ℓ : Loc nD τ sig) → Buf (Elt F) ℓ)

theorem div56_lt (p : Fin 3136) : p.val / 56 < 56 := by omega
theorem mod56_lt (p : Fin 3136) : p.val % 56 < 56 := by omega
theorem pix_lt (i j : Fin 56) : 56 * i.val + j.val < 3136 := by omega
theorem row_lt (b : Fin 16) (p : Fin 3136) : b.val * 3136 + p.val < 50176 := by omega
theorem div3_lt (t : Fin 9) : t.val / 3 < 3 := by omega
theorem mod3_lt (t : Fin 9) : t.val % 3 < 3 := by omega

/-- The activations, NCHW to NHWC: the transposed array at `(b, i, j, ch)` is the argument at `(b, ch, i, j)`. -/
theorem nhwc_apply (x : S16x256x56x56.Idx → Elt F .f32) (b : Fin 16) (i j : Fin 56) (ch : Fin 256) :
    transpose S16x56x56x256 [0, 2, 3, 1] x transposes_S16x256x56x56_S16x56x56x256_0_2_3_1 (ix4 b i j ch) = x (ix4 b ch i j) :=
  transpose_apply _ x _ _ _ fun a => match a with | ⟨0, _⟩ => rfl | ⟨1, _⟩ => rfl | ⟨2, _⟩ => rfl | ⟨3, _⟩ => rfl

/-! ## Region 0's inputs -/

theorem V1_main_v1 (c : Dev nD) (b : Fin 16) (p : Fin 3136) (ch : Fin 256) :
    V1 m c main_v1 (ix2 ⟨b.val * 3136 + p.val, row_lt b p⟩ ch)
      = m ((c : Thread nD τ).loc main_arg0) (ix4 b ch ⟨p.val / 56, div56_lt p⟩ ⟨p.val % 56, mod56_lt p⟩) := by
  show W1 m c (Proc.devRef .tc main_v1) _ = _
  rw [W1_main_v1]
  refine (shapeCast_apply _ _ _ (ix4 b ⟨p.val / 56, div56_lt p⟩ ⟨p.val % 56, mod56_lt p⟩ ch) ?_).trans (nhwc_apply _ _ _ _ _)
  rw [Shape.rowMajor_val_four, Shape.rowMajor_val_two]
  show ((b.val * 56 + p.val / 56) * 56 + p.val % 56) * 256 + ch.val = (b.val * 3136 + p.val) * 256 + ch.val
  omega
theorem V1_main_v2 (c : Dev nD) (ch : Fin 256) (o : Fin 64) :
    V1 m c main_v2 (ix2 ch o) = m ((c : Thread nD τ).loc main_arg1) (ix2 o ch) := by
  show W1 m c (Proc.devRef .tc main_v2) _ = _
  rw [W1_main_v2]; exact transpose_ix2_apply _ _ ch o
theorem V1_main_v3 (c : Dev nD) (o : Fin 64) :
    V1 m c main_v3 (ix2 (0 : Fin 1) o) = m ((c : Thread nD τ).loc main_arg6) (ix1 o) := by
  show W1 m c (Proc.devRef .tc main_v3) _ = _
  rw [W1_main_v3]; exact shapeCast_a_1a_apply _ _ 0 o
theorem V1_main_v4 (c : Dev nD) (o : Fin 64) :
    V1 m c main_v4 (ix2 (0 : Fin 1) o) = m ((c : Thread nD τ).loc main_arg7) (ix1 o) := by
  show W1 m c (Proc.devRef .tc main_v4) _ = _
  rw [W1_main_v4]; exact shapeCast_a_1a_apply _ _ 0 o

/-! ## Region 1's inputs -/

theorem V3_main_v6 (c : Dev nD) (b : Fin 16) (i j : Fin 56) (o : Fin 64) :
    V3 m c main_v6 (ix4 b i j o)
      = out0 m c (ix2 ⟨b.val * 3136 + (⟨56 * i.val + j.val, pix_lt i j⟩ : Fin 3136).val, row_lt b ⟨56 * i.val + j.val, pix_lt i j⟩⟩ o) := by
  show W3 m c (Proc.devRef .tc main_v6) _ = _
  rw [W3_main_v6]
  refine shapeCast_apply _ _ _ _ ?_
  show (S50176x64.rowMajor _).val = (S16x56x56x64.rowMajor _).val
  rw [Shape.rowMajor_val_four, Shape.rowMajor_val_two]
  show (b.val * 3136 + (56 * i.val + j.val)) * 64 + o.val = ((b.val * 56 + i.val) * 56 + j.val) * 64 + o.val
  omega
theorem V3_main_v8 (c : Dev nD) (t : Fin 9) (ci o : Fin 64) :
    V3 m c main_v8 (ix3 t ci o)
      = m ((c : Thread nD τ).loc main_arg2) (ix4 o ci ⟨t.val / 3, div3_lt t⟩ ⟨t.val % 3, mod3_lt t⟩) := by
  show W3 m c (Proc.devRef .tc main_v8) _ = _
  rw [W3_main_v8]
  refine (shapeCast_apply _ _ _ (ix4 ⟨t.val / 3, div3_lt t⟩ ⟨t.val % 3, mod3_lt t⟩ ci o) ?_).trans
    (transpose_apply _ _ _ _ _ fun a => match a with | ⟨0, _⟩ => rfl | ⟨1, _⟩ => rfl | ⟨2, _⟩ => rfl | ⟨3, _⟩ => rfl)
  rw [Shape.rowMajor_val_four, Shape.rowMajor_val_three]
  show ((t.val / 3 * 3 + t.val % 3) * 64 + ci.val) * 64 + o.val = (t.val * 64 + ci.val) * 64 + o.val
  omega
theorem V3_main_v9 (c : Dev nD) (o : Fin 64) :
    V3 m c main_v9 (ix2 (0 : Fin 1) o) = m ((c : Thread nD τ).loc main_arg8) (ix1 o) := by
  show W3 m c (Proc.devRef .tc main_v9) _ = _
  rw [W3_main_v9]; exact shapeCast_a_1a_apply _ _ 0 o
theorem V3_main_v10 (c : Dev nD) (o : Fin 64) :
    V3 m c main_v10 (ix2 (0 : Fin 1) o) = m ((c : Thread nD τ).loc main_arg9) (ix1 o) := by
  show W3 m c (Proc.devRef .tc main_v10) _ = _
  rw [W3_main_v10]; exact shapeCast_a_1a_apply _ _ 0 o

/-! ## Region 2's inputs -/

theorem V5_main_v13 (c : Dev nD) (b : Fin 16) (p : Fin 3136) (o : Fin 64) :
    V5 m c main_v13 (ix3 b p o) = out1 m c (ix4 b ⟨p.val / 56, div56_lt p⟩ ⟨p.val % 56, mod56_lt p⟩ o) := by
  show W5 m c (Proc.devRef .tc main_v13) _ = _
  rw [W5_main_v13]
  refine shapeCast_apply _ _ _ _ ?_
  show (S16x56x56x64.rowMajor _).val = (S16x3136x64.rowMajor _).val
  rw [Shape.rowMajor_val_four, Shape.rowMajor_val_three]
  show ((b.val * 56 + p.val / 56) * 56 + p.val % 56) * 64 + o.val = (b.val * 3136 + p.val) * 64 + o.val
  omega
theorem V5_main_v12 (c : Dev nD) (b : Fin 16) (p : Fin 3136) (ch : Fin 256) :
    V5 m c main_v12 (ix3 b p ch)
      = m ((c : Thread nD τ).loc main_arg0) (ix4 b ch ⟨p.val / 56, div56_lt p⟩ ⟨p.val % 56, mod56_lt p⟩) := by
  show W5 m c (Proc.devRef .tc main_v12) _ = _
  rw [W5_main_v12]
  refine (shapeCast_apply _ _ _ (ix4 b ⟨p.val / 56, div56_lt p⟩ ⟨p.val % 56, mod56_lt p⟩ ch) ?_).trans (nhwc_apply _ _ _ _ _)
  rw [Shape.rowMajor_val_four, Shape.rowMajor_val_three]
  show ((b.val * 56 + p.val / 56) * 56 + p.val % 56) * 256 + ch.val = (b.val * 3136 + p.val) * 256 + ch.val
  omega
theorem V5_main_v14 (c : Dev nD) (o : Fin 64) (ch : Fin 256) :
    V5 m c main_v14 (ix2 o ch) = m ((c : Thread nD τ).loc main_arg3) (ix2 ch o) := by
  show W5 m c (Proc.devRef .tc main_v14) _ = _
  rw [W5_main_v14]; exact transpose_ix2_apply _ _ o ch
theorem V5_main_v15 (c : Dev nD) (ch : Fin 256) (r : Fin 16) :
    V5 m c main_v15 (ix2 ch r) = m ((c : Thread nD τ).loc main_arg4) (ix2 r ch) := by
  show W5 m c (Proc.devRef .tc main_v15) _ = _
  rw [W5_main_v15]; exact transpose_ix2_apply _ _ ch r
theorem V5_main_v16 (c : Dev nD) (r : Fin 16) (ch : Fin 256) :
    V5 m c main_v16 (ix2 r ch) = m ((c : Thread nD τ).loc main_arg5) (ix2 ch r) := by
  show W5 m c (Proc.devRef .tc main_v16) _ = _
  rw [W5_main_v16]; exact transpose_ix2_apply _ _ r ch
theorem V5_main_v17 (c : Dev nD) (ch : Fin 256) :
    V5 m c main_v17 (ix2 (0 : Fin 1) ch) = m ((c : Thread nD τ).loc main_arg10) (ix1 ch) := by
  show W5 m c (Proc.devRef .tc main_v17) _ = _
  rw [W5_main_v17]; exact shapeCast_a_1a_apply _ _ 0 ch
theorem V5_main_v18 (c : Dev nD) (ch : Fin 256) :
    V5 m c main_v18 (ix2 (0 : Fin 1) ch) = m ((c : Thread nD τ).loc main_arg11) (ix1 ch) := by
  show W5 m c (Proc.devRef .tc main_v18) _ = _
  rw [W5_main_v18]; exact shapeCast_a_1a_apply _ _ 0 ch

/-! ## The result -/

theorem W7_main_v21_apply (c : Dev nD) (b : Fin 16) (ch : Fin 256) (i j : Fin 56) :
    W7 m c (Proc.devRef .tc main_v21) (ix4 b ch i j) = out2 m c (ix3 b ⟨56 * i.val + j.val, pix_lt i j⟩ ch) := by
  rw [W7_main_v21]
  refine (transpose_apply _ _ _ _ (ix4 b i j ch) fun a => match a with | ⟨0, _⟩ => rfl | ⟨1, _⟩ => rfl | ⟨2, _⟩ => rfl | ⟨3, _⟩ => rfl).trans
    (shapeCast_apply _ _ _ _ ?_)
  show (S16x3136x256.rowMajor _).val = (S16x56x56x256.rowMajor _).val
  rw [Shape.rowMajor_val_four, Shape.rowMajor_val_three]
  show (b.val * 3136 + (56 * i.val + j.val)) * 256 + ch.val = ((b.val * 56 + i.val) * 56 + j.val) * 256 + ch.val
  omega

end Cert.ReferenceIdeal.RefRun

end
-- ==== Proof.R0Value.lean ====
import proofs.«108509_g2000006651879042_pallasbulk_171_5_alg».proof.Proof.R0Defs
import Idealize.ShloMosaic.Lib.Pipeline.Value
import Idealize.ShloMosaic.Lib.ValueIdx

set_option maxRecDepth 16384

noncomputable section

namespace Cert.ReferenceIdeal.R0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The result array after the region, as ONE function of its index

Row `r` of the result lies in block `r / 3272`, at row `r % 3272` of it; the sixteen blocks' parts inside the array
tile the 50176 rows. -/

/-- What the body leaves in the result's staging buffer at point `t`. -/
def blkOut0 (c : Dev nD) (t : Fin cfg0.N) : S3272x64.Idx → Elt F .f32 :=
  out0_4 (xin0 V c t) (iblk0 V c 1 t) (iblk0 V c 2 t) (iblk0 V c 3 t)

theorem after0_4' (c : Dev nD) (t : Fin cfg0.N) : (dat0 V c).after 4 t = blkOut0 V c t := after0_4 V c t

/-- It depends on the point and the index through their values only. -/
theorem blkOut0_congr (c : Dev nD) (t t' : Fin cfg0.N) (J J' : S3272x64.Idx) (ht : t.val = t'.val)
    (h0 : (J 0).val = (J' 0).val) (h1 : (J 1).val = (J' 1).val) : blkOut0 V c t J = blkOut0 V c t' J' := by
  obtain rfl : t = t' := Fin.ext ht
  refine congrArg (blkOut0 V c t) (funext fun a => ?_)
  match a with
  | ⟨0, _⟩ => exact Fin.ext h0
  | ⟨1, _⟩ => exact Fin.ext h1

theorem blk_lt (i : S50176x64.Idx) : (i 0).val / 3272 < cfg0.N := by
  have h : (i 0).val < 50176 := (i 0).isLt
  rw [show cfg0.N = 16 from N_0]
  omega

/-- The result array after the region. -/
def res0 (c : Dev nD) : S50176x64.Idx → Elt F .f32 := fun i =>
  blkOut0 V c ⟨(i 0).val / 3272, blk_lt i⟩ (ix2 ⟨(i 0).val % 3272, Nat.mod_lt _ (by decide)⟩ (i 1))

/-- The result window's block index at point `t` is `(t, 0)`. -/
theorem index0_4 : ∀ t : Fin cfg0.N, (cfg0.win 4).index t 0 = t.val ∧ (cfg0.win 4).index t 1 = 0 :=
  (by decide +kernel : ∀ t : Fin grid0.N, win0_4.index t 0 = t.val ∧ win0_4.index t 1 = 0)

/-- What the write-back at point `t` writes is block `t` of `res0`. -/
theorem flushed0 (c : Dev nD) (t : Fin cfg0.N) :
    (dat0 V c).flushed 4 t = ((cfg0.win 4).blk t).view.read (Elt F) (res0 V c) := by
  funext y
  show win0_4.cut (grid0.coords t) ((dat0 V c).after 4 t) y = res0 V c ((win0_4.rect t).emb y)
  rw [after0_4']
  have e0 : (((win0_4.rect t).emb y) 0 : Nat) = t.val * 3272 + (y 0).val := by
    rw [win0_4.rect_emb_val t y 0, (index0_4 t).1]; rfl
  have e1 : (((win0_4.rect t).emb y) 1 : Nat) = (y 1).val := by
    rw [win0_4.rect_emb_val t y 1, (index0_4 t).2]; show 0 * 64 + (y 1).val = (y 1).val; omega
  have hy : (y 0).val < 3272 := Nat.lt_of_lt_of_le (y 0).isLt (win0_4.xsize_le (grid0.coords t) 0)
  unfold res0
  refine blkOut0_congr V c _ _ _ _ ?_ ?_ ?_
  · show t.val = (((win0_4.rect t).emb y) 0 : Nat) / 3272
    rw [e0]; omega
  · show (y 0).val = (((win0_4.rect t).emb y) 0 : Nat) % 3272
    rw [e0]; omega
  · show (y 1).val = (((win0_4.rect t).emb y) 1 : Nat)
    rw [e1]

/-- The parts of the sixteen blocks inside the array: 3272 rows each, the last 1096; all 64 columns. -/
theorem xsize0_4 : ∀ t : Fin cfg0.N, (cfg0.win 4).xsize (grid0.coords t) 0 = (if t.val = 15 then 1096 else 3272)
    ∧ (cfg0.win 4).xsize (grid0.coords t) 1 = 64 :=
  (by decide +kernel : ∀ t : Fin grid0.N, win0_4.xsize (grid0.coords t) 0 = (if t.val = 15 then 1096 else 3272)
    ∧ win0_4.xsize (grid0.coords t) 1 = 64)

/-- An index of the result array is in point `t`'s block iff its row is among the block's rows inside the array. -/
theorem mem_blk0 (t : Fin cfg0.N) (i : S50176x64.Idx) :
    i ∈ ((cfg0.win 4).blk t).view.set
      ↔ t.val * 3272 ≤ (i 0).val ∧ (i 0).val < t.val * 3272 + (if t.val = 15 then 1096 else 3272) := by
  show i ∈ ((View.whole main_v5).slice (win0_4.rect t)).set ↔ _
  rw [View.set_slice_whole, Rect.mem_set_unit]
  have h1 : (i 1 : Nat) < 64 := (i 1).isLt
  constructor
  · intro h
    have h0 := h 0
    change win0_4.index t 0 * 3272 ≤ (i 0 : Nat) ∧ (i 0 : Nat) < win0_4.index t 0 * 3272 + win0_4.xsize (grid0.coords t) 0 at h0
    rw [(index0_4 t).1, (xsize0_4 t).1] at h0
    exact h0
  · intro h a
    match a with
    | ⟨0, _⟩ =>
      change win0_4.index t 0 * 3272 ≤ (i 0 : Nat) ∧ (i 0 : Nat) < win0_4.index t 0 * 3272 + win0_4.xsize (grid0.coords t) 0
      rw [(index0_4 t).1, (xsize0_4 t).1]
      exact h
    | ⟨1, _⟩ =>
      change win0_4.index t 1 * 64 ≤ (i 1 : Nat) ∧ (i 1 : Nat) < win0_4.index t 1 * 64 + win0_4.xsize (grid0.coords t) 1
      rw [(index0_4 t).2, (xsize0_4 t).2]
      omega

/-- Every index of the result array is in some point's block: the blocks' parts inside the array tile it. -/
theorem cover0 (i : S50176x64.Idx) :
    ∃ t : Fin cfg0.N, (cfg0.win 4).flush t = true ∧ i ∈ ((cfg0.win 4).blk t).view.set := by
  have h : (i 0).val < 50176 := (i 0).isLt
  refine ⟨⟨(i 0).val / 3272, blk_lt i⟩, flush0_4 _, (mem_blk0 _ i).mpr ⟨?_, ?_⟩⟩
  · show (i 0).val / 3272 * 3272 ≤ (i 0).val
    omega
  · show (i 0).val < (i 0).val / 3272 * 3272 + (if (i 0).val / 3272 = 15 then 1096 else 3272)
    split <;> omega

/-- So the result array after the region's write-backs is `res0`. -/
theorem arrAt0_4 (c : Dev nD) : (dat0 V c).arrAt 4 cfg0.N = res0 V c :=
  (dat0 V c).arrAt_eq_of_cover 4 (res0 V c) (fun t _ => flushed0 V c t) cover0

/-- The input arrays are never written. -/
theorem arrAt0_in (c : Dev nD) (w : Fin cfg0.W) (hw : (cfg0.win w).isOut = false) (n : Nat) :
    (dat0 V c).arrAt w n = V c (Pipeline.arrRef spec0 w) :=
  ((dat0 V c).arrAt_in w hw n).trans (A_eq0 V c w)

end Cert.ReferenceIdeal.R0

end
-- ==== Proof.R0Read.lean ====
import proofs.«108509_g2000006651879042_pallasbulk_171_5_alg».proof.Proof.R0Defs
import Idealize.ShloMosaic.Lib.Pipeline.Value
import Idealize.ShloMosaic.Lib.ValueIdx

set_option maxRecDepth 16384

noncomputable section

namespace Cert.ReferenceIdeal.R0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The input windows' blocks, element by element

Block `t` of the rows is rows `3272 t …` of the 50176 × 256 array (all its columns); the weights', the scale's and the
bias's blocks are their whole arrays at every point. -/

/-- The block indices of the four input windows. -/
theorem index0_0 : ∀ t : Fin cfg0.N, (cfg0.win 0).index t 0 = t.val ∧ (cfg0.win 0).index t 1 = 0 :=
  (by decide +kernel : ∀ t : Fin grid0.N, win0_0.index t 0 = t.val ∧ win0_0.index t 1 = 0)
theorem index0_1 : ∀ t : Fin cfg0.N, (cfg0.win 1).index t 0 = 0 ∧ (cfg0.win 1).index t 1 = 0 :=
  (by decide +kernel : ∀ t : Fin grid0.N, win0_1.index t 0 = 0 ∧ win0_1.index t 1 = 0)
theorem index0_2 : ∀ t : Fin cfg0.N, (cfg0.win 2).index t 0 = 0 ∧ (cfg0.win 2).index t 1 = 0 :=
  (by decide +kernel : ∀ t : Fin grid0.N, win0_2.index t 0 = 0 ∧ win0_2.index t 1 = 0)
theorem index0_3 : ∀ t : Fin cfg0.N, (cfg0.win 3).index t 0 = 0 ∧ (cfg0.win 3).index t 1 = 0 :=
  (by decide +kernel : ∀ t : Fin grid0.N, win0_3.index t 0 = 0 ∧ win0_3.index t 1 = 0)

/-- The parts of the rows' sixteen blocks inside the array: 3272 rows each, the last 1096; all 256 columns. -/
theorem xsize0_0 : ∀ t : Fin cfg0.N, (cfg0.win 0).xsize (grid0.coords t) 0 = (if t.val = 15 then 1096 else 3272)
    ∧ (cfg0.win 0).xsize (grid0.coords t) 1 = 256 :=
  (by decide +kernel : ∀ t : Fin grid0.N, win0_0.xsize (grid0.coords t) 0 = (if t.val = 15 then 1096 else 3272)
    ∧ win0_0.xsize (grid0.coords t) 1 = 256)

/-- An element of the rows' block at point `t`, inside the array, is the array's element `3272 t` rows further down. -/
theorem iblk0_0_apply (c : Dev nD) (t : Fin cfg0.N) (y : (win0_0.xblock (grid0.coords t)).Idx)
    (hy : t.val * 3272 + (y 0).val < 50176) :
    iblk0 V c 0 t y = V c main_v1 (ix2 ⟨t.val * 3272 + (y 0).val, hy⟩ ⟨(y 1).val, Nat.lt_of_lt_of_eq (y 1).isLt (xsize0_0 t).2⟩) := by
  show V c main_v1 ((win0_0.rect t).emb y) = _
  refine congrArg (V c main_v1) (funext fun a => ?_)
  match a with
  | ⟨0, _⟩ =>
    apply Fin.ext
    show (((win0_0.rect t).emb y) 0 : Nat) = t.val * 3272 + (y 0).val
    rw [win0_0.rect_emb_val t y 0, (index0_0 t).1]; rfl
  | ⟨1, _⟩ =>
    apply Fin.ext
    show (((win0_0.rect t).emb y) 1 : Nat) = (y 1).val
    rw [win0_0.rect_emb_val t y 1, (index0_0 t).2]; show 0 * 256 + (y 1).val = (y 1).val; omega

/-- The rows' whole 3272-row block at point `t`, on a row inside the array. -/
theorem xin0_apply (c : Dev nD) (t : Fin cfg0.N) (K : S3272x256.Idx) (hK : t.val * 3272 + (K 0).val < 50176) :
    xin0 V c t K = V c main_v1 (ix2 ⟨t.val * 3272 + (K 0).val, hK⟩ (K 1)) := by
  have hK0 : (K 0).val < 3272 := (K 0).isLt
  have ht : t.val < 16 := Nat.lt_of_lt_of_eq t.isLt N_0
  have hm : win0_0.moved (grid0.coords t) K = true := (win0_0.moved_iff _ K).mpr fun a => by
    match a with
    | ⟨0, _⟩ =>
      show (K 0).val < win0_0.xsize (grid0.coords t) 0
      rw [(xsize0_0 t).1]; split <;> omega
    | ⟨1, _⟩ =>
      show (K 1).val < win0_0.xsize (grid0.coords t) 1
      rw [(xsize0_0 t).2]; exact (K 1).isLt
  unfold xin0 Window.fill
  rw [dif_pos hm]
  exact iblk0_0_apply V c t _ hK

/-- The weights', the scale's and the bias's blocks are their whole arrays. -/
theorem iblk0_1_apply (c : Dev nD) (t : Fin cfg0.N) (y : S256x64.Idx) : iblk0 V c 1 t y = V c main_v2 y := by
  show V c main_v2 ((win0_1.rect t).emb y) = _
  refine congrArg (V c main_v2) (funext fun a => ?_)
  match a with
  | ⟨0, _⟩ => apply Fin.ext; show (((win0_1.rect t).emb y) 0 : Nat) = (y 0).val
              rw [win0_1.rect_emb_val t y 0, (index0_1 t).1]; show 0 * 256 + (y 0).val = (y 0).val; omega
  | ⟨1, _⟩ => apply Fin.ext; show (((win0_1.rect t).emb y) 1 : Nat) = (y 1).val
              rw [win0_1.rect_emb_val t y 1, (index0_1 t).2]; show 0 * 64 + (y 1).val = (y 1).val; omega
theorem iblk0_2_apply (c : Dev nD) (t : Fin cfg0.N) (y : S1x64.Idx) : iblk0 V c 2 t y = V c main_v3 y := by
  show V c main_v3 ((win0_2.rect t).emb y) = _
  refine congrArg (V c main_v3) (funext fun a => ?_)
  match a with
  | ⟨0, _⟩ => apply Fin.ext; show (((win0_2.rect t).emb y) 0 : Nat) = (y 0).val
              rw [win0_2.rect_emb_val t y 0, (index0_2 t).1]; show 0 * 1 + (y 0).val = (y 0).val; omega
  | ⟨1, _⟩ => apply Fin.ext; show (((win0_2.rect t).emb y) 1 : Nat) = (y 1).val
              rw [win0_2.rect_emb_val t y 1, (index0_2 t).2]; show 0 * 64 + (y 1).val = (y 1).val; omega
theorem iblk0_3_apply (c : Dev nD) (t : Fin cfg0.N) (y : S1x64.Idx) : iblk0 V c 3 t y = V c main_v4 y := by
  show V c main_v4 ((win0_3.rect t).emb y) = _
  refine congrArg (V c main_v4) (funext fun a => ?_)
  match a with
  | ⟨0, _⟩ => apply Fin.ext; show (((win0_3.rect t).emb y) 0 : Nat) = (y 0).val
              rw [win0_3.rect_emb_val t y 0, (index0_3 t).1]; show 0 * 1 + (y 0).val = (y 0).val; omega
  | ⟨1, _⟩ => apply Fin.ext; show (((win0_3.rect t).emb y) 1 : Nat) = (y 1).val
              rw [win0_3.rect_emb_val t y 1, (index0_3 t).2]; show 0 * 64 + (y 1).val = (y 1).val; omega

end Cert.ReferenceIdeal.R0

end
-- ==== Proof.RV0.lean ====
/-
  The first reference kernel's stored block, read one row at a time at the ideal values. Row `r` of the block is
  `max ((∑ c, x (r, c) · w (c, o)) · s o + b o) 0`; it depends on row `r` of the loaded rows only, so nothing is
  asked of the other rows of the block.
-/
import proofs.«108509_g2000006651879042_pallasbulk_171_5_alg».proof.Proof.Gen.ReferenceIdeal.Skeleton
import proofs.«108509_g2000006651879042_pallasbulk_171_5_alg».proof.Proof.Spec
import proofs.«108509_g2000006651879042_pallasbulk_171_5_alg».proof.Proof.LibRealLift
import Idealize.ShloMosaic.Lib.ValueLayout

noncomputable section

namespace Cert.ReferenceIdeal.RV0

open Idealize.ShloMosaic Idealize.ShloMosaic.ValueIdx
open Cert.ReferenceIdeal

/-! ## A plain matrix product read at an entry

Every matrix product of this program contracts the left operand's axis 1 with the right operand's axis 0, has no batch
axis, and accumulates into the zero splat. At entry `(r, o)` it is the sum over the contracted coordinate `c` of
`A (r, c) * B (c, o)`: it reads row `r` of the left operand only. -/

/-- A non-contracted, non-batch axis of the left operand reads the result index at the axis's position. -/
theorem lhsIdx_val_non {sl sr so : Shape} (D : DotDims sl sr so) {a : Fin sl.rank} (hb : a ∉ D.lhsBatch)
    (hn : a ∈ D.lhsNonContracting) (j : so.Idx) (k : D.contr.Idx) (q : Nat) (hq : q < so.rank)
    (hpq : D.lhsBatch.length + D.lhsNonContracting.idxOf a = q) :
    (D.lhsIdx j k a).val = (j ⟨q, hq⟩).val := by
  subst hpq
  unfold DotDims.lhsIdx
  rw [dif_neg hb, dif_pos hn]
  rfl

/-- A non-contracted, non-batch axis of the right operand reads the result index at the axis's position. -/
theorem rhsIdx_val_non {sl sr so : Shape} (D : DotDims sl sr so) {a : Fin sr.rank} (hb : a ∉ D.rhsBatch)
    (hn : a ∈ D.rhsNonContracting) (j : so.Idx) (k : D.contr.Idx) (q : Nat) (hq : q < so.rank)
    (hpq : D.lhsBatch.length + D.lhsNonContracting.length + D.rhsNonContracting.idxOf a = q) :
    (D.rhsIdx j k a).val = (j ⟨q, hq⟩).val := by
  subst hpq
  unfold DotDims.rhsIdx
  rw [dif_neg hb, dif_pos hn]
  rfl

/-- The plain product `[M, K] × [K, N] → [M, N]` into the zero accumulator, at entry `(r, o)`. -/
theorem mm_apply {M K N : Nat} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (A : FVec Ideal ⟨2, ![M, K]⟩ φ₁) (B : FVec Ideal ⟨2, ![K, N]⟩ φ₂)
    (r : Fin M) (o : Fin N) :
    matmul D prec A B (constant (F := Ideal) ⟨2, ![M, N]⟩ .f32 0x00000000#32) (ix2 r o)
      = ∑ c : Fin K, A (ix2 r c) * B (ix2 c o) := by
  refine (Ideal.matmul_constant_zero_apply D prec A B (ix2 r o)).trans ?_
  have hr : D.contr.rank = 1 := by rw [D.rank_contr, hlc]; rfl
  have hs : D.contr.size ⟨0, by omega⟩ = K := by
    rw [D.size_contr 0 (by rw [hlc]; exact Nat.one_pos), List.getElem_of_eq hlc]; rfl
  refine (Equiv.sum_comp (contrEquiv1 D K hr hs).symm _).symm.trans ?_
  refine Finset.sum_congr rfl fun c _ => ?_
  have hl : D.lhsIdx (ix2 r o) ((contrEquiv1 D K hr hs).symm c) = ix2 r c := by
    funext a
    match a with
    | ⟨0, _⟩ =>
      exact Fin.ext (lhsIdx_val_non D (a := 0) (by rw [hlb]; exact List.not_mem_nil)
        (by rw [hln]; exact List.mem_singleton.mpr rfl) _ _ 0 Nat.zero_lt_two (by rw [hlb, hln]; rfl))
    | ⟨1, _⟩ =>
      exact Fin.ext ((D.lhsIdx_val_of_single hlc _ _).trans (contrEquiv1_symm_val D K hr hs c))
  have hrr : D.rhsIdx (ix2 r o) ((contrEquiv1 D K hr hs).symm c) = ix2 c o := by
    funext a
    match a with
    | ⟨0, _⟩ =>
      exact Fin.ext ((D.rhsIdx_val_of_single hrc _ _).trans (contrEquiv1_symm_val D K hr hs c))
    | ⟨1, _⟩ =>
      exact Fin.ext (rhsIdx_val_non D (a := 1) (by rw [hrb]; exact List.not_mem_nil)
        (by rw [hrn]; exact List.mem_singleton.mpr rfl) _ _ 1 Nat.one_lt_two (by rw [hlb, hln, hrn]; rfl))
  rw [hl, hrr]

/-- The maximum of a real and zero, on the extended reals. -/
theorem max_coe_zero (a : ℝ) : max ((a : ℝ) : EReal) 0 = ((max a 0 : ℝ) : EReal) := by
  rw [← EReal.coe_zero]
  exact (EReal.coe_strictMono.monotone.map_max).symm

/-- Row `r` of the first kernel's stored block. -/
theorem k0_row (x : Vec Ideal S3272x256 .f32) (w : Vec Ideal S256x64 .f32) (s b : Vec Ideal S1x64 .f32)
    (r : Fin 3272) (xr : Fin 256 → ℝ) (w1 : Fin 64 → Fin 256 → ℝ) (s1 b1 : Fin 64 → ℝ)
    (hx : ∀ c : Fin 256, x (ix2 r c) = ((xr c : ℝ) : EReal))
    (hw : ∀ (c : Fin 256) (o : Fin 64), w (ix2 c o) = ((w1 o c : ℝ) : EReal))
    (hs : ∀ o : Fin 64, s (ix2 (0 : Fin 1) o) = ((s1 o : ℝ) : EReal))
    (hb : ∀ o : Fin 64, b (ix2 (0 : Fin 1) o) = ((b1 o : ℝ) : EReal)) (o : Fin 64) :
    Gen.k0_pay1 x w s b (ix2 r o) = ((max ((∑ c : Fin 256, xr c * w1 o c) * s1 o + b1 o) 0 : ℝ) : EReal) := by
  unfold Gen.k0_pay1
  rw [maximumf_apply, addf_apply, mulf_apply, broadcast_apply]
  rw [shapeCast_self, shapeCast_self, shapeCast_self, shapeCast_self]
  rw [broadcastTo_1b_ab_apply, broadcastTo_1b_ab_apply, hs, hb]
  rw [mm_apply _ rfl rfl rfl rfl rfl rfl]
  rw [Cert.RealLift.sum_mul_coe Finset.univ _ _ xr (fun c => w1 o c) hx (fun c => hw c o)]
  rw [← EReal.coe_mul, ← EReal.coe_add]
  exact (congrArg (max _) Ideal.ofBits_zero_f32).trans (max_coe_zero _)

end Cert.ReferenceIdeal.RV0

end
-- ==== Proof.R0Ideal.lean ====
import proofs.«108509_g2000006651879042_pallasbulk_171_5_alg».proof.Proof.R0Value
import proofs.«108509_g2000006651879042_pallasbulk_171_5_alg».proof.Proof.R0Read
import proofs.«108509_g2000006651879042_pallasbulk_171_5_alg».proof.Proof.RV0
import proofs.«108509_g2000006651879042_pallasbulk_171_5_alg».proof.Proof.Spec
import Idealize.ShloMosaic.Lib.ValueIdx

set_option maxRecDepth 16384

noncomputable section

namespace Cert.ReferenceIdeal.R0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## The result array after the region, over the reals

When the region's four input arrays hold (the coercions of) the real inputs — the image in rows `3136 b + p`, channels
along the columns —, the result array holds the first stage `h1` of the specification: every row of every block lies
inside the array, and a row of the stored block reads its own row of the loaded rows only. -/

variable (V : (c : Dev nD) → (b : Ref sig .tc) → Buf (Elt Ideal) ((c : Thread nD τ).loc b))

theorem row_lt (b : Fin 16) (p : Fin 3136) : b.val * 3136 + p.val < 50176 := by
  have := b.isLt; have := p.isLt; omega

theorem out0_spec (I : Cert.Spec.Inp) (c : Dev nD)
    (hx : ∀ (b : Fin 16) (p : Fin 3136) (ch : Fin 256),
      V c main_v1 (ix2 ⟨b.val * 3136 + p.val, row_lt b p⟩ ch) = ((I.x b ch p : ℝ) : EReal))
    (hw : ∀ (ch : Fin 256) (o : Fin 64), V c main_v2 (ix2 ch o) = ((I.w1 o ch : ℝ) : EReal))
    (hs : ∀ o : Fin 64, V c main_v3 (ix2 (0 : Fin 1) o) = ((I.s1 o : ℝ) : EReal))
    (hb : ∀ o : Fin 64, V c main_v4 (ix2 (0 : Fin 1) o) = ((I.b1 o : ℝ) : EReal)) :
    ∀ (b : Fin 16) (p : Fin 3136) (o : Fin 64),
      (dat0 V c).arrAt 4 cfg0.N (ix2 ⟨b.val * 3136 + p.val, row_lt b p⟩ o) = ((Cert.Spec.h1 I b p o : ℝ) : EReal) := by
  intro b p o
  have hR := row_lt b p
  rw [arrAt0_4]
  show Gen.k0_pay1 (xin0 V c ⟨(b.val * 3136 + p.val) / 3272, _⟩) (iblk0 V c 1 _) (iblk0 V c 2 _) (iblk0 V c 3 _)
    (ix2 ⟨(b.val * 3136 + p.val) % 3272, Nat.mod_lt _ (by decide)⟩ o) = _
  refine (RV0.k0_row _ _ _ _ ⟨(b.val * 3136 + p.val) % 3272, Nat.mod_lt _ (by decide)⟩ (fun ch => I.x b ch p) I.w1 I.s1 I.b1
    (fun ch => ?_) (fun ch o => (iblk0_1_apply V c _ _).trans (hw ch o)) (fun o => (iblk0_2_apply V c _ _).trans (hs o))
    (fun o => (iblk0_3_apply V c _ _).trans (hb o)) o).trans rfl
  refine (xin0_apply V c _ _ (by
    show (b.val * 3136 + p.val) / 3272 * 3272 + (b.val * 3136 + p.val) % 3272 < 50176; omega)).trans ?_
  refine Eq.trans (congrArg (V c main_v1) (funext fun a => ?_)) (hx b p ch)
  match a with
  | ⟨0, _⟩ =>
    apply Fin.ext
    show (b.val * 3136 + p.val) / 3272 * 3272 + (b.val * 3136 + p.val) % 3272 = b.val * 3136 + p.val
    omega
  | ⟨1, _⟩ => rfl

end Cert.ReferenceIdeal.R0

end
-- ==== Proof.R1Value.lean ====
import proofs.«108509_g2000006651879042_pallasbulk_171_5_alg».proof.Proof.R1Frame
import Idealize.ShloMosaic.Lib.Pipeline.Value
import Idealize.ShloMosaic.Lib.ValueIdx

/-! # Region 1: the output array after the region, as one function of the region's operand arrays

Point `t` handles image `t`: it reads block `[t, :, :, :]` of the activation array and the whole tap, scale and
shift arrays, and writes block `[t, :, :, :]` of the result. So the result array after the region is, image by
image, `out1_4` of that image and the three whole operands (`G1`); the sixteen blocks cover it. -/

set_option maxRecDepth 16384

noncomputable section

namespace Cert.ReferenceIdeal.R1

open Cert.ReferenceIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The whole-array function -/

/-- Image `n` of a 16×56×56×64 array, as a 1×56×56×64 block. -/
def img (a : S16x56x56x64.Idx → Elt F .f32) (n : Fin 16) : Vec F S1x56x56x64 .f32 :=
  fun y => a (ix4 n (y 1) (y 2) (y 3))

/-- The result array: at image `i 0`, what the body leaves from that image and the whole tap, scale and shift arrays. -/
def G1 (a : S16x56x56x64.Idx → Elt F .f32) (w : S9x64x64.Idx → Elt F .f32) (s : S1x64.Idx → Elt F .f32) (b : S1x64.Idx → Elt F .f32) :
    S16x56x56x64.Idx → Elt F .f32 :=
  fun i => out1_4 (img a (i 0)) w s b (ix4 (0 : Fin 1) (i 1) (i 2) (i 3))

/-! ## The index maps -/

/-- The printed index maps, decided over the grid: the activation and result blocks are image `t`; the tap, scale and
    shift windows are their whole arrays. -/
theorem idx_facts1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_4.index t (0 : Fin 4) = t.val ∧ win1_4.index t (1 : Fin 4) = 0 ∧ win1_4.index t (2 : Fin 4) = 0 ∧ win1_4.index t (3 : Fin 4) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

section Region
variable (V : (c : Dev nD) → (b : Ref sig .tc) → Buf (Elt F) ((c : Thread nD τ).loc b))

/-- The point's number as an image number. -/
def imgOf (t : Fin cfg1.N) : Fin 16 := ⟨t.val, Nat.lt_of_lt_of_eq t.isLt N_1⟩

/-! ## The input blocks, read off the arrays -/

/-- The activation block at point `t` is image `t` of the activation array. -/
theorem iblk1_0_eq (c : Dev nD) (t : Fin cfg1.N) : iblk1 V c 0 t = img (V c main_v6) (imgOf t) := by
  obtain ⟨e0, e1, e2, e3, -⟩ := idx_facts1 t
  funext y
  show V c main_v6 (((cfg1.win 0).blk t).view.emb y) = V c main_v6 (ix4 (imgOf t) (y 1) (y 2) (y 3))
  refine congrArg _ ?_
  funext a; apply Fin.ext
  match a with
  | ⟨0, _⟩ => show win1_0.index t (0 : Fin 4) * 1 + 1 * (y 0).val = t.val; have hy : (y 0).val < 1 := (y 0).isLt; omega
  | ⟨1, _⟩ => show win1_0.index t (1 : Fin 4) * 56 + 1 * (y 1).val = (y 1).val; omega
  | ⟨2, _⟩ => show win1_0.index t (2 : Fin 4) * 56 + 1 * (y 2).val = (y 2).val; omega
  | ⟨3, _⟩ => show win1_0.index t (3 : Fin 4) * 64 + 1 * (y 3).val = (y 3).val; omega

/-- The tap window at every point is the whole tap array. -/
theorem iblk1_1_eq (c : Dev nD) (t : Fin cfg1.N) : iblk1 V c 1 t = (V c main_v8 : S9x64x64.Idx → Elt F .f32) := by
  obtain ⟨-, -, -, -, -, -, -, -, e0, e1, e2, -⟩ := idx_facts1 t
  funext y
  show V c main_v8 (((cfg1.win 1).blk t).view.emb y) = V c main_v8 y
  refine congrArg _ ?_
  funext a; apply Fin.ext
  match a with
  | ⟨0, _⟩ => show win1_1.index t (0 : Fin 3) * 9 + 1 * (y 0).val = (y 0).val; omega
  | ⟨1, _⟩ => show win1_1.index t (1 : Fin 3) * 64 + 1 * (y 1).val = (y 1).val; omega
  | ⟨2, _⟩ => show win1_1.index t (2 : Fin 3) * 64 + 1 * (y 2).val = (y 2).val; omega

/-- The scale window at every point is the whole scale row. -/
theorem iblk1_2_eq (c : Dev nD) (t : Fin cfg1.N) : iblk1 V c 2 t = (V c main_v9 : S1x64.Idx → Elt F .f32) := by
  obtain ⟨-, -, -, -, -, -, -, -, -, -, -, e0, e1, -⟩ := idx_facts1 t
  funext y
  show V c main_v9 (((cfg1.win 2).blk t).view.emb y) = V c main_v9 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The shift window at every point is the whole shift row. -/
theorem iblk1_3_eq (c : Dev nD) (t : Fin cfg1.N) : iblk1 V c 3 t = (V c main_v10 : S1x64.Idx → Elt F .f32) := by
  obtain ⟨-, -, -, -, -, -, -, -, -, -, -, -, -, e0, e1⟩ := idx_facts1 t
  funext y
  show V c main_v10 (((cfg1.win 3).blk t).view.emb y) = V c main_v10 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-! ## What a point writes back -/

/-- The result array at an index of image `n` is what the body leaves from image `n`, at the index inside the image. -/
theorem G1_apply (a : S16x56x56x64.Idx → Elt F .f32) (w : S9x64x64.Idx → Elt F .f32) (s : S1x64.Idx → Elt F .f32) (b : S1x64.Idx → Elt F .f32)
    (n : Fin 16) (j : S1x56x56x64.Idx) :
    G1 a w s b (ix4 n (j 1) (j 2) (j 3)) = out1_4 (img a n) w s b j := by
  have key : ∀ (n n' : Fin 16) (y y' : S1x56x56x64.Idx), n = n' → y = y' →
      out1_4 (img a n) w s b y = out1_4 (img a n') w s b y' := by
    intro n n' y y' h1 h2; rw [h1, h2]
  unfold G1
  refine key _ _ _ _ rfl ?_
  funext d
  match d with
  | ⟨0, _⟩ => exact Fin.ext (by show 0 = (j 0).val; have hj : (j 0).val < 1 := (j 0).isLt; omega)
  | ⟨1, _⟩ => rfl
  | ⟨2, _⟩ => rfl
  | ⟨3, _⟩ => rfl

/-- A block-sized buffer `X` that agrees with an array function `G` at image `t` is, written back at point `t`, block
    `t` of `G`: the result window is uncut and its block at point `t` is image `t`. -/
theorem cut_eq_blk_of (X : Vec F S1x56x56x64 .f32) (G : S16x56x56x64.Idx → Elt F .f32) (t : Fin cfg1.N)
    (h : ∀ j : S1x56x56x64.Idx, X j = G (ix4 (imgOf t) (j 1) (j 2) (j 3))) :
    (cfg1.win 4).cut (grid1.coords t) X = ((cfg1.win 4).blk t).view.read (Elt F) G := by
  obtain ⟨-, -, -, -, e0, e1, e2, e3, -⟩ := idx_facts1 t
  funext j
  show X j = G (((cfg1.win 4).blk t).view.emb j)
  rw [h]
  refine congrArg G ?_
  funext a; apply Fin.ext
  match a with
  | ⟨0, _⟩ => show t.val = win1_4.index t (0 : Fin 4) * 1 + 1 * (j 0).val; have hj : (j 0).val < 1 := (j 0).isLt; omega
  | ⟨1, _⟩ => show (j 1).val = win1_4.index t (1 : Fin 4) * 56 + 1 * (j 1).val; omega
  | ⟨2, _⟩ => show (j 2).val = win1_4.index t (2 : Fin 4) * 56 + 1 * (j 2).val; omega
  | ⟨3, _⟩ => show (j 3).val = win1_4.index t (3 : Fin 4) * 64 + 1 * (j 3).val; omega

/-- WHAT POINT `t` WRITES BACK is block `t` of `G1` of the operand arrays as the region finds them. -/
theorem flushed1_4_eq (c : Dev nD) (t : Fin cfg1.N) :
    (dat1 V c).flushed 4 t = ((cfg1.win 4).blk t).view.read (Elt F) (G1 (V c main_v6) (V c main_v8) (V c main_v9) (V c main_v10)) := by
  have hfl : (dat1 V c).flushed 4 t = (cfg1.win 4).cut (grid1.coords t) ((dat1 V c).after 4 t) := rfl
  rw [hfl, after1_4, iblk1_0_eq, iblk1_1_eq, iblk1_2_eq, iblk1_3_eq]
  exact cut_eq_blk_of _ _ t fun j => (G1_apply _ _ _ _ (imgOf t) j).symm

/-! ## The blocks cover the array -/

/-- An index of the result array is in point `t`'s block iff each coordinate is in the block's range on its axis. -/
theorem mem_blk1_4 (t : Fin cfg1.N) (i : S16x56x56x64.Idx) :
    i ∈ ((cfg1.win 4).blk t).view.set ↔ ∀ a : Fin 4, win1_4.index t a * S1x56x56x64.size a ≤ (i a).val ∧ (i a).val < win1_4.index t a * S1x56x56x64.size a + S1x56x56x64.size a := by
  show i ∈ ((View.whole main_v11).slice (win1_4.rect t)).set ↔ _
  rw [View.set_slice_whole, Rect.mem_set_unit]
  exact Iff.rfl

/-- Every index of the result array is in the block of the point that handles its image. -/
theorem cover1_arr (i : S16x56x56x64.Idx) :
    ∃ t : Fin cfg1.N, (cfg1.win 4).flush t = true ∧ i ∈ ((cfg1.win 4).blk t).view.set := by
  have hi0 : (i 0).val < 16 := (i 0).isLt
  have hi1 : (i 1).val < 56 := (i 1).isLt
  have hi2 : (i 2).val < 56 := (i 2).isLt
  have hi3 : (i 3).val < 64 := (i 3).isLt
  refine ⟨⟨(i 0).val, Nat.lt_of_lt_of_eq hi0 N_1.symm⟩, flush1_4 _, ?_⟩
  obtain ⟨-, -, -, -, e0, e1, e2, e3, -⟩ := idx_facts1 ⟨(i 0).val, Nat.lt_of_lt_of_eq hi0 N_1.symm⟩
  rw [mem_blk1_4]
  intro a
  match a with
  | ⟨0, _⟩ => show win1_4.index _ (0 : Fin 4) * 1 ≤ (i 0).val ∧ (i 0).val < win1_4.index _ (0 : Fin 4) * 1 + 1; rw [e0]; show (i 0).val * 1 ≤ (i 0).val ∧ (i 0).val < (i 0).val * 1 + 1; omega
  | ⟨1, _⟩ => show win1_4.index _ (1 : Fin 4) * 56 ≤ (i 1).val ∧ (i 1).val < win1_4.index _ (1 : Fin 4) * 56 + 56; rw [e1]; omega
  | ⟨2, _⟩ => show win1_4.index _ (2 : Fin 4) * 56 ≤ (i 2).val ∧ (i 2).val < win1_4.index _ (2 : Fin 4) * 56 + 56; rw [e2]; omega
  | ⟨3, _⟩ => show win1_4.index _ (3 : Fin 4) * 64 ≤ (i 3).val ∧ (i 3).val < win1_4.index _ (3 : Fin 4) * 64 + 64; rw [e3]; omega

/-! ## The array after the region -/

/-- THE RESULT ARRAY after the region's write-backs: `G1` of the operand arrays as the region finds them. -/
theorem final1_4 (c : Dev nD) :
    (dat1 V c).arrAt 4 cfg1.N = G1 (V c main_v6) (V c main_v8) (V c main_v9) (V c main_v10) :=
  (dat1 V c).arrAt_eq_of_cover 4 _ (fun t _ => flushed1_4_eq V c t) cover1_arr

/-! ## The array after the region, entry by entry -/

/-- Image `b` of an array at an index inside the image. -/
theorem img_apply (a : S16x56x56x64.Idx → Elt F .f32) (b : Fin 16) (i j : Fin 56) (ci : Fin 64) :
    img a b (ix4 (0 : Fin 1) i j ci) = a (ix4 b i j ci) := rfl

/-- THE RESULT ARRAY at image `b`, pixel `(i, j)`, channel `o`: what the body leaves from image `b` of the
    activation array and the whole tap, scale and shift arrays, at `(0, i, j, o)`. -/
theorem arr1_apply (c : Dev nD) (b : Fin 16) (i j : Fin 56) (o : Fin 64) :
    (dat1 V c).arrAt 4 cfg1.N (ix4 b i j o)
      = out1_4 (img (V c main_v6) b) (V c main_v8) (V c main_v9) (V c main_v10) (ix4 (0 : Fin 1) i j o) := by
  rw [final1_4]
  exact G1_apply (V c main_v6) (V c main_v8) (V c main_v9) (V c main_v10) b (ix4 (0 : Fin 1) i j o)

end Region

end Cert.ReferenceIdeal.R1

end
-- ==== Proof.RV1.lean ====
/-
  The second reference kernel's stored block at the ideal values: the 3×3 convolution of the zero-padded image as nine
  64×64 matrix products of row- and column-shifted slabs of the padded scratch, then the scale, the bias and the
  rectification, read entry by entry as the specification's `conv`.
-/
import proofs.«108509_g2000006651879042_pallasbulk_171_5_alg».proof.Proof.Gen.ReferenceIdeal.Skeleton
import proofs.«108509_g2000006651879042_pallasbulk_171_5_alg».proof.Proof.Spec
import proofs.«108509_g2000006651879042_pallasbulk_171_5_alg».proof.Proof.LibRealLift
import proofs.«108509_g2000006651879042_pallasbulk_171_5_alg».proof.Proof.R1Defs
import Idealize.ShloMosaic.Lib.ValueLayout

noncomputable section

namespace Cert.ReferenceIdeal.RV1

open Idealize.ShloMosaic Idealize.ShloMosaic.ValueIdx
open Cert.ReferenceIdeal Cert.ReferenceIdeal.Gen

/-! ## A plain matrix product read at an entry

Every matrix product of this program contracts the left operand's axis 1 with the right operand's axis 0, has no batch
axis, and accumulates into the zero splat. At entry `(r, o)` it is the sum over the contracted coordinate `c` of
`A (r, c) * B (c, o)`: it reads row `r` of the left operand only. -/

/-- A non-contracted, non-batch axis of the left operand reads the result index at the axis's position. -/
theorem lhsIdx_val_non {sl sr so : Shape} (D : DotDims sl sr so) {a : Fin sl.rank} (hb : a ∉ D.lhsBatch)
    (hn : a ∈ D.lhsNonContracting) (j : so.Idx) (k : D.contr.Idx) (q : Nat) (hq : q < so.rank)
    (hpq : D.lhsBatch.length + D.lhsNonContracting.idxOf a = q) :
    (D.lhsIdx j k a).val = (j ⟨q, hq⟩).val := by
  subst hpq
  unfold DotDims.lhsIdx
  rw [dif_neg hb, dif_pos hn]
  rfl

/-- A non-contracted, non-batch axis of the right operand reads the result index at the axis's position. -/
theorem rhsIdx_val_non {sl sr so : Shape} (D : DotDims sl sr so) {a : Fin sr.rank} (hb : a ∉ D.rhsBatch)
    (hn : a ∈ D.rhsNonContracting) (j : so.Idx) (k : D.contr.Idx) (q : Nat) (hq : q < so.rank)
    (hpq : D.lhsBatch.length + D.lhsNonContracting.length + D.rhsNonContracting.idxOf a = q) :
    (D.rhsIdx j k a).val = (j ⟨q, hq⟩).val := by
  subst hpq
  unfold DotDims.rhsIdx
  rw [dif_neg hb, dif_pos hn]
  rfl

/-- The plain product `[M, K] × [K, N] → [M, N]` into the zero accumulator, at entry `(r, o)`. -/
theorem mm_apply {M K N : Nat} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (A : FVec Ideal ⟨2, ![M, K]⟩ φ₁) (B : FVec Ideal ⟨2, ![K, N]⟩ φ₂)
    (r : Fin M) (o : Fin N) :
    matmul D prec A B (constant (F := Ideal) ⟨2, ![M, N]⟩ .f32 0x00000000#32) (ix2 r o)
      = ∑ c : Fin K, A (ix2 r c) * B (ix2 c o) := by
  refine (Ideal.matmul_constant_zero_apply D prec A B (ix2 r o)).trans ?_
  have hr : D.contr.rank = 1 := by rw [D.rank_contr, hlc]; rfl
  have hs : D.contr.size ⟨0, by omega⟩ = K := by
    rw [D.size_contr 0 (by rw [hlc]; exact Nat.one_pos), List.getElem_of_eq hlc]; rfl
  refine (Equiv.sum_comp (contrEquiv1 D K hr hs).symm _).symm.trans ?_
  refine Finset.sum_congr rfl fun c _ => ?_
  have hl : D.lhsIdx (ix2 r o) ((contrEquiv1 D K hr hs).symm c) = ix2 r c := by
    funext a
    match a with
    | ⟨0, _⟩ =>
      exact Fin.ext (lhsIdx_val_non D (a := 0) (by rw [hlb]; exact List.not_mem_nil)
        (by rw [hln]; exact List.mem_singleton.mpr rfl) _ _ 0 Nat.zero_lt_two (by rw [hlb, hln]; rfl))
    | ⟨1, _⟩ =>
      exact Fin.ext ((D.lhsIdx_val_of_single hlc _ _).trans (contrEquiv1_symm_val D K hr hs c))
  have hrr : D.rhsIdx (ix2 r o) ((contrEquiv1 D K hr hs).symm c) = ix2 c o := by
    funext a
    match a with
    | ⟨0, _⟩ =>
      exact Fin.ext ((D.rhsIdx_val_of_single hrc _ _).trans (contrEquiv1_symm_val D K hr hs c))
    | ⟨1, _⟩ =>
      exact Fin.ext (rhsIdx_val_non D (a := 1) (by rw [hrb]; exact List.not_mem_nil)
        (by rw [hrn]; exact List.mem_singleton.mpr rfl) _ _ 1 Nat.one_lt_two (by rw [hlb, hln, hrn]; rfl))
  rw [hl, hrr]

/-- The maximum of a real and zero, on the extended reals. -/
theorem max_coe_zero (a : ℝ) : max ((a : ℝ) : EReal) 0 = ((max a 0 : ℝ) : EReal) := by
  rw [← EReal.coe_zero]
  exact (EReal.coe_strictMono.monotone.map_max).symm

/-! ## Pixels and layout -/

/-- The flattened pixel `56·i + j` of row `i`, column `j`. -/
def pix (i j : Fin 56) : Fin 3136 := ⟨56 * i.val + j.val, by have := i.isLt; have := j.isLt; omega⟩

theorem pix_val (i j : Fin 56) : (pix i j).val = 56 * i.val + j.val := rfl
theorem pix_div (i j : Fin 56) : (pix i j).val / 56 = i.val := by have := j.isLt; rw [pix_val]; omega
theorem pix_mod (i j : Fin 56) : (pix i j).val % 56 = j.val := by have := j.isLt; rw [pix_val]; omega

/-- A `[56, 56, 64]` array flattened to `[3136, 64]` reads, at pixel `56·i + j`, the operand at `(i, j)`. -/
theorem flat_apply {α : Type} (X : S56x56x64.Idx → α) (i j : Fin 56) (ci : Fin 64) :
    shapeCast S3136x64 X shapeCasts_S56x56x64_S3136x64 (ix2 (pix i j) ci) = X (ix3 i j ci) :=
  shapeCast_apply X _ _ _ (by
    rw [Shape.rowMajor_val_three, Shape.rowMajor_val_two]
    show (i.val * 56 + j.val) * 64 + ci.val = (56 * i.val + j.val) * 64 + ci.val
    omega)

/-- A `[3136, 64]` array viewed `[1, 56, 56, 64]` reads, at `(0, i, j)`, the operand at pixel `56·i + j`. -/
theorem unflat_apply {α : Type} (Z : S3136x64.Idx → α) (i j : Fin 56) (o : Fin 64) :
    shapeCast S1x56x56x64 Z shapeCasts_S3136x64_S1x56x56x64 (ix4 (0 : Fin 1) i j o) = Z (ix2 (pix i j) o) :=
  shapeCast_apply Z _ _ _ (by
    rw [Shape.rowMajor_val_four, Shape.rowMajor_val_two]
    show (56 * i.val + j.val) * 64 + o.val = ((0 * 56 + i.val) * 56 + j.val) * 64 + o.val
    omega)

/-- The slab of 56 rows starting at row `k` of a `[58, 56, 64]` array. -/
theorem slice_apply {α : Type} (k : Nat) (hk : k ≤ 2) (h : S58x56x64.Slices ![k, 0, 0] S56x56x64) (v : S58x56x64.Idx → α)
    (i j : Fin 56) (ci : Fin 64) :
    extractStridedSlice S56x56x64 ![k, 0, 0] v h (ix3 i j ci)
      = v (ix3 (⟨i.val + k, by have := i.isLt; omega⟩ : Fin 58) j ci) :=
  extractStridedSlice_apply _ v h _ _ fun a =>
    match a with
    | ⟨0, _⟩ => by show i.val + k = k + i.val; omega
    | ⟨1, _⟩ => by show j.val = 0 + j.val; omega
    | ⟨2, _⟩ => by show ci.val = 0 + ci.val; omega

/-! ## One tap -/

/-- A slab of the (column-shifted) padded scratch, flattened. -/
def flat (off : Fin S58x56x64.rank → Nat) (h : S58x56x64.Slices off S56x56x64) (v : Vec Ideal S58x56x64 .f32) :
    FVec Ideal S3136x64 .f32 :=
  shapeCast S3136x64 (extractStridedSlice S56x56x64 off v h) shapeCasts_S56x56x64_S3136x64

/-- One tap: a flattened slab times one 64×64 weight matrix. -/
def tapv (A : FVec Ideal S3136x64 .f32) (w : Vec Ideal S1x64x64 .f32) : FVec Ideal S3136x64 .f32 :=
  matmul (φ₁ := .f32) (φ₂ := .f32) dot_S3136x64_S64x64_S3136x64_1_0_0_1_n_n none A
    (shapeCast S64x64 w shapeCasts_S1x64x64_S64x64) (constant (F := Ideal) S3136x64 .f32 0x00000000#32)

/-- Tap `(ky, kx)` at pixel `(i, j)`, output channel `o`: the load `v` is the padded image shifted `kx` columns,
    the slab starts at row `ky`, the weight matrix is the tap's. -/
theorem tap_apply (I : Cert.Spec.Inp) (hr : Fin 3136 → Fin 64 → ℝ) (k : Nat) (ky kx : Fin 3) (hky : ky.val = k)
    (h : S58x56x64.Slices ![k, 0, 0] S56x56x64) (v : Vec Ideal S58x56x64 .f32) (w : Vec Ideal S1x64x64 .f32)
    (hv : ∀ (i' : Fin 58) (j : Fin 56) (ci : Fin 64),
      v (ix3 i' j ci) = ((Cert.Spec.pad hr i'.val (j.val + kx.val) ci : ℝ) : EReal))
    (hw : ∀ (ci o : Fin 64), w (ix3 (0 : Fin 1) ci o) = ((I.w2 o ci ky kx : ℝ) : EReal))
    (i j : Fin 56) (o : Fin 64) :
    tapv (flat ![k, 0, 0] h v) w (ix2 (pix i j) o)
      = ((∑ ci : Fin 64, Cert.Spec.pad hr (i.val + ky.val) (j.val + kx.val) ci * I.w2 o ci ky kx : ℝ) : EReal) := by
  subst hky
  unfold tapv flat
  rw [mm_apply _ rfl rfl rfl rfl rfl rfl]
  exact Cert.RealLift.sum_mul_coe Finset.univ _ _
    (fun ci => Cert.Spec.pad hr (i.val + ky.val) (j.val + kx.val) ci) (fun ci => I.w2 o ci ky kx)
    (fun ci => by rw [flat_apply, slice_apply ky.val (by have := ky.isLt; omega)]; exact hv _ j ci)
    (fun ci => by rw [shapeCast_1ab_ab_apply]; exact hw ci o)

/-! ## The payloads as sums of taps -/

theorem k1_pay4_eq (v10 : Vec Ideal S58x56x64 .f32) (v13 v19 v25 : Vec Ideal S1x64x64 .f32) :
    k1_pay4 v10 v13 v19 v25
      = addf (addf (addf (broadcast S3136x64 (Scalar.ofBits (F := Ideal) .f32 0x00000000#32))
          (tapv (flat ![0, 0, 0] slices_S58x56x64_o0_0_0_S56x56x64 v10) v13))
          (tapv (flat ![1, 0, 0] slices_S58x56x64_o1_0_0_S56x56x64 v10) v19))
          (tapv (flat ![2, 0, 0] slices_S58x56x64_o2_0_0_S56x56x64 v10) v25) := rfl

theorem k1_pay5_eq (v28 : FVec Ideal S3136x64 .f32) (v29 : Vec Ideal S58x56x64 .f32) (v32 v38 v44 : Vec Ideal S1x64x64 .f32)
    (v48 : Vec Ideal S58x56x64 .f32) (v51 v57 : Vec Ideal S1x64x64 .f32) :
    k1_pay5 v28 v29 v32 v38 v44 v48 v51 v57
      = addf (addf (addf (addf (addf v28
          (tapv (flat ![0, 0, 0] slices_S58x56x64_o0_0_0_S56x56x64 v29) v32))
          (tapv (flat ![1, 0, 0] slices_S58x56x64_o1_0_0_S56x56x64 v29) v38))
          (tapv (flat ![2, 0, 0] slices_S58x56x64_o2_0_0_S56x56x64 v29) v44))
          (tapv (flat ![0, 0, 0] slices_S58x56x64_o0_0_0_S56x56x64 v48) v51))
          (tapv (flat ![1, 0, 0] slices_S58x56x64_o1_0_0_S56x56x64 v48) v57) := rfl

theorem k1_pay6_eq (v48 : Vec Ideal S58x56x64 .f32) :
    k1_pay6 v48 = flat ![2, 0, 0] slices_S58x56x64_o2_0_0_S56x56x64 v48 := rfl

theorem k1_pay1_eq (v60 v62 : FVec Ideal S3136x64 .f32) (v63 : Vec Ideal S1x64x64 .f32) (v67 v71 : Vec Ideal S1x64 .f32) :
    k1_pay1 v60 v62 v63 v67 v71
      = shapeCast S1x56x56x64
          (maximumf (addf (mulf (addf v60 (tapv v62 v63))
              (broadcastTo S3136x64 (shapeCast S1x64 v67 shapeCasts_S1x64_S1x64) broadcasts_S1x64_S3136x64))
              (broadcastTo S3136x64 (shapeCast S1x64 v71 shapeCasts_S1x64_S1x64) broadcasts_S1x64_S3136x64))
            (broadcast S3136x64 (Scalar.ofBits (F := Ideal) .f32 0x00000000#32)))
          shapeCasts_S3136x64_S1x56x56x64 := rfl

/-! ## The stored block at an entry -/

/-- The second kernel's stored value at pixel `(i, j)`, output channel `o`, from the three column-shifted loads of the
    padded scratch, the nine weight matrices (tap `(ky, kx)` is matrix `3·ky + kx`), the scale row and the bias row. -/
theorem conv_payload_val (I : Cert.Spec.Inp) (hr : Fin 3136 → Fin 64 → ℝ)
    (v10 v29 v48 : Vec Ideal S58x56x64 .f32)
    (v13 v19 v25 v32 v38 v44 v51 v57 v63 : Vec Ideal S1x64x64 .f32) (v67 v71 : Vec Ideal S1x64 .f32)
    (h10 : ∀ (i' : Fin 58) (j : Fin 56) (ci : Fin 64), v10 (ix3 i' j ci) = ((Cert.Spec.pad hr i'.val (j.val + (0 : Fin 3).val) ci : ℝ) : EReal))
    (h29 : ∀ (i' : Fin 58) (j : Fin 56) (ci : Fin 64), v29 (ix3 i' j ci) = ((Cert.Spec.pad hr i'.val (j.val + (1 : Fin 3).val) ci : ℝ) : EReal))
    (h48 : ∀ (i' : Fin 58) (j : Fin 56) (ci : Fin 64), v48 (ix3 i' j ci) = ((Cert.Spec.pad hr i'.val (j.val + (2 : Fin 3).val) ci : ℝ) : EReal))
    (h13 : ∀ ci o : Fin 64, v13 (ix3 (0 : Fin 1) ci o) = ((I.w2 o ci 0 0 : ℝ) : EReal))
    (h19 : ∀ ci o : Fin 64, v19 (ix3 (0 : Fin 1) ci o) = ((I.w2 o ci 1 0 : ℝ) : EReal))
    (h25 : ∀ ci o : Fin 64, v25 (ix3 (0 : Fin 1) ci o) = ((I.w2 o ci 2 0 : ℝ) : EReal))
    (h32 : ∀ ci o : Fin 64, v32 (ix3 (0 : Fin 1) ci o) = ((I.w2 o ci 0 1 : ℝ) : EReal))
    (h38 : ∀ ci o : Fin 64, v38 (ix3 (0 : Fin 1) ci o) = ((I.w2 o ci 1 1 : ℝ) : EReal))
    (h44 : ∀ ci o : Fin 64, v44 (ix3 (0 : Fin 1) ci o) = ((I.w2 o ci 2 1 : ℝ) : EReal))
    (h51 : ∀ ci o : Fin 64, v51 (ix3 (0 : Fin 1) ci o) = ((I.w2 o ci 0 2 : ℝ) : EReal))
    (h57 : ∀ ci o : Fin 64, v57 (ix3 (0 : Fin 1) ci o) = ((I.w2 o ci 1 2 : ℝ) : EReal))
    (h63 : ∀ ci o : Fin 64, v63 (ix3 (0 : Fin 1) ci o) = ((I.w2 o ci 2 2 : ℝ) : EReal))
    (h67 : ∀ o : Fin 64, v67 (ix2 (0 : Fin 1) o) = ((I.s2 o : ℝ) : EReal))
    (h71 : ∀ o : Fin 64, v71 (ix2 (0 : Fin 1) o) = ((I.b2 o : ℝ) : EReal))
    (i j : Fin 56) (o : Fin 64) :
    k1_pay1 (k1_pay5 (k1_pay4 v10 v13 v19 v25) v29 v32 v38 v44 v48 v51 v57) (k1_pay6 v48) v63 v67 v71
        (ix4 (0 : Fin 1) i j o)
      = ((max (Cert.Spec.conv I hr (pix i j) o * I.s2 o + I.b2 o) 0 : ℝ) : EReal) := by
  rw [k1_pay1_eq, k1_pay5_eq, k1_pay4_eq, k1_pay6_eq, unflat_apply]
  rw [maximumf_apply, addf_apply, mulf_apply, broadcastTo_1b_ab_apply, broadcastTo_1b_ab_apply, shapeCast_self v67,
    shapeCast_self v71, h67, h71, broadcast_apply]
  simp only [addf_apply, broadcast_apply]
  rw [tap_apply I hr 0 0 0 rfl _ v10 v13 h10 h13, tap_apply I hr 1 1 0 rfl _ v10 v19 h10 h19,
    tap_apply I hr 2 2 0 rfl _ v10 v25 h10 h25, tap_apply I hr 0 0 1 rfl _ v29 v32 h29 h32,
    tap_apply I hr 1 1 1 rfl _ v29 v38 h29 h38, tap_apply I hr 2 2 1 rfl _ v29 v44 h29 h44,
    tap_apply I hr 0 0 2 rfl _ v48 v51 h48 h51, tap_apply I hr 1 1 2 rfl _ v48 v57 h48 h57,
    tap_apply I hr 2 2 2 rfl _ v48 v63 h48 h63]
  have hz : (Scalar.ofBits (F := Ideal) .f32 0x00000000#32 : EReal) = ((0 : ℝ) : EReal) :=
    Ideal.ofBits_zero_f32.trans EReal.coe_zero.symm
  rw [hz]
  simp only [← EReal.coe_add, ← EReal.coe_mul]
  rw [EReal.coe_zero]
  refine (max_coe_zero _).trans (congrArg (fun x : ℝ => ((max (x * I.s2 o + I.b2 o) 0 : ℝ) : EReal)) ?_)
  unfold Cert.Spec.conv
  simp only [Fin.sum_univ_three, pix_div, pix_mod]
  ring

/-! ## The composed form: the padded scratch, its three column-shifted loads, the nine weight matrices -/

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl
theorem hz4 : (![0, 0, 0, 0] : Fin 4 → Nat) = fun _ => 0 := by
  funext a; match a with | ⟨0, _⟩ => rfl | ⟨1, _⟩ => rfl | ⟨2, _⟩ => rfl | ⟨3, _⟩ => rfl

/-- The input block with its unit axis dropped. -/
theorem k1_pay3_apply (x4 : Vec Ideal S1x56x56x64 .f32) (i j : Fin 56) (ci : Fin 64) :
    k1_pay3 x4 (ix3 i j ci) = x4 (ix4 (0 : Fin 1) i j ci) := by
  unfold k1_pay3
  rw [shapeCast_self, shapeCast_1abc_abc_apply]

/-- The scratch after the zero fill and the store of the image at its interior is the zero-padded image. -/
theorem pad_val (hr : Fin 3136 → Fin 64 → ℝ) (y : FVec Ideal S56x56x64 .f32)
    (hy : ∀ (i j : Fin 56) (ci : Fin 64), y (ix3 i j ci) = ((hr (pix i j) ci : ℝ) : EReal))
    (a b : Fin 58) (ci : Fin 64) :
    Cert.ReferenceIdeal.R1.pad y (ix3 a b ci) = ((Cert.Spec.pad hr a.val b.val ci : ℝ) : EReal) := by
  unfold Cert.ReferenceIdeal.R1.pad Cert.Spec.pad
  by_cases hin : (1 ≤ a.val ∧ a.val ≤ 56) ∧ (1 ≤ b.val ∧ b.val ≤ 56)
  · rw [dif_pos hin]
    have he : ix3 a b ci = Cert.ReferenceIdeal.R1.rIn.emb
        (ix3 (⟨a.val - 1, by omega⟩ : Fin 56) (⟨b.val - 1, by omega⟩ : Fin 56) ci) := by
      funext d; apply Fin.ext
      match d with
      | ⟨0, _⟩ => show a.val = 1 + 1 * (a.val - 1); omega
      | ⟨1, _⟩ => show b.val = 1 + 1 * (b.val - 1); omega
      | ⟨2, _⟩ => show ci.val = 0 + 1 * ci.val; omega
    refine (congrArg (View.canon _) he).trans ((View.canon_cons_emb _ _ _ _).trans ((hy _ _ ci).trans ?_))
    rfl
  · rw [dif_neg hin]
    have hnot : ix3 a b ci ∉ Cert.ReferenceIdeal.R1.rIn.set := by
      intro hm
      have h := Rect.mem_set_unit.mp hm
      have h0 : 1 ≤ a.val ∧ a.val < 1 + 56 := h (0 : Fin 3)
      have h1 : 1 ≤ b.val ∧ b.val < 1 + 56 := h (1 : Fin 3)
      exact hin ⟨⟨h0.1, by omega⟩, ⟨h1.1, by omega⟩⟩
    refine (View.canon_cons_of_not_mem (⟨Cert.ReferenceIdeal.R1.rIn, y⟩ : View.Piece (Elt Ideal) S58x58x64 .f32)
      [⟨Cert.ReferenceIdeal.R1.rAll, k1_pay2 (F := Ideal)⟩] hnot).trans ?_
    refine (congrFun (View.canon_unit_zero (Val := Elt Ideal) (S := S58x58x64) (e := .f32) hz3 _ (k1_pay2 (F := Ideal))) _).trans ?_
    unfold k1_pay2
    rw [shapeCast_self, broadcast_apply]
    exact Ideal.ofBits_zero_f32.trans EReal.coe_zero.symm

/-- The load of the scratch's 56 columns starting at column `kx`. -/
theorem ld_col (P : Vec Ideal S58x58x64 .f32) (kx : Nat) (hkx : kx ≤ 2)
    (inb : ∀ a, (![0, kx, 0] : Fin S58x58x64.rank → Nat) a + S58x56x64.size a ≤ S58x58x64.size a)
    (i' : Fin 58) (j : Fin 56) (ci : Fin 64) :
    View.ld P (Rect.unit (s := S58x58x64) ![0, kx, 0] S58x56x64.size inb) (ix3 i' j ci)
      = P (ix3 i' (⟨j.val + kx, by have := j.isLt; omega⟩ : Fin 58) ci) := by
  show P _ = P _
  refine congrArg P (funext fun d => Fin.ext ?_)
  match d with
  | ⟨0, _⟩ => show 0 + 1 * i'.val = i'.val; omega
  | ⟨1, _⟩ => show kx + 1 * j.val = j.val + kx; omega
  | ⟨2, _⟩ => show 0 + 1 * ci.val = ci.val; omega

/-- The load of weight matrix `t` of the nine. -/
theorem ld_w (x1 : Vec Ideal S9x64x64 .f32) (t : Nat) (ht : t < 9)
    (inb : ∀ a, (![t, 0, 0] : Fin S9x64x64.rank → Nat) a + S1x64x64.size a ≤ S9x64x64.size a) (ci o : Fin 64) :
    View.ld x1 (Rect.unit (s := S9x64x64) ![t, 0, 0] S1x64x64.size inb) (ix3 (0 : Fin 1) ci o)
      = x1 (ix3 (⟨t, ht⟩ : Fin 9) ci o) := by
  show x1 _ = x1 _
  refine congrArg x1 (funext fun d => Fin.ext ?_)
  match d with
  | ⟨0, _⟩ => show t + 1 * 0 = t; omega
  | ⟨1, _⟩ => show 0 + 1 * ci.val = ci.val; omega
  | ⟨2, _⟩ => show 0 + 1 * o.val = o.val; omega

/-- What the second kernel's body stores, from the four input blocks, at pixel `(i, j)`, output channel `o`:
    weight matrix `t` of the nine is tap `(t / 3, t % 3)`. -/
theorem conv1_val (I : Cert.Spec.Inp) (hr : Fin 3136 → Fin 64 → ℝ)
    (x0 : Vec Ideal S1x56x56x64 .f32) (x1 : Vec Ideal S9x64x64 .f32) (x2 x3 : Vec Ideal S1x64 .f32)
    (hx0 : ∀ (i j : Fin 56) (ci : Fin 64), x0 (ix4 (0 : Fin 1) i j ci) = ((hr (pix i j) ci : ℝ) : EReal))
    (hx1 : ∀ (t : Fin 9) (ci o : Fin 64), x1 (ix3 t ci o)
      = ((I.w2 o ci ⟨t.val / 3, by have := t.isLt; omega⟩ ⟨t.val % 3, Nat.mod_lt _ (by norm_num)⟩ : ℝ) : EReal))
    (hx2 : ∀ o : Fin 64, x2 (ix2 (0 : Fin 1) o) = ((I.s2 o : ℝ) : EReal))
    (hx3 : ∀ o : Fin 64, x3 (ix2 (0 : Fin 1) o) = ((I.b2 o : ℝ) : EReal))
    (i j : Fin 56) (o : Fin 64) :
    Cert.ReferenceIdeal.R1.conv1 (Cert.ReferenceIdeal.R1.pad (k1_pay3 (View.ld x0 Cert.ReferenceIdeal.R1.rX))) x1 x2 x3
        (ix4 (0 : Fin 1) i j o)
      = ((max (Cert.Spec.conv I hr (pix i j) o * I.s2 o + I.b2 o) 0 : ℝ) : EReal) := by
  have hPv : ∀ (a b : Fin 58) (ci : Fin 64),
      Cert.ReferenceIdeal.R1.pad (k1_pay3 (View.ld x0 Cert.ReferenceIdeal.R1.rX)) (ix3 a b ci)
        = ((Cert.Spec.pad hr a.val b.val ci : ℝ) : EReal) :=
    pad_val hr _ (fun i j ci => (k1_pay3_apply _ i j ci).trans
      ((congrFun (View.ld_unit_zero (S := S1x56x56x64) hz4 _ x0) _).trans (hx0 i j ci)))
  unfold Cert.ReferenceIdeal.R1.conv1
  exact conv_payload_val I hr _ _ _ _ _ _ _ _ _ _ _ _ _ _
    (fun i' j ci => (ld_col _ 0 (by omega) _ i' j ci).trans (hPv i' _ ci))
    (fun i' j ci => (ld_col _ 1 (by omega) _ i' j ci).trans (hPv i' _ ci))
    (fun i' j ci => (ld_col _ 2 (by omega) _ i' j ci).trans (hPv i' _ ci))
    (fun ci o => (ld_w x1 0 (by omega) _ ci o).trans (hx1 _ ci o))
    (fun ci o => (ld_w x1 3 (by omega) _ ci o).trans (hx1 _ ci o))
    (fun ci o => (ld_w x1 6 (by omega) _ ci o).trans (hx1 _ ci o))
    (fun ci o => (ld_w x1 1 (by omega) _ ci o).trans (hx1 _ ci o))
    (fun ci o => (ld_w x1 4 (by omega) _ ci o).trans (hx1 _ ci o))
    (fun ci o => (ld_w x1 7 (by omega) _ ci o).trans (hx1 _ ci o))
    (fun ci o => (ld_w x1 2 (by omega) _ ci o).trans (hx1 _ ci o))
    (fun ci o => (ld_w x1 5 (by omega) _ ci o).trans (hx1 _ ci o))
    (fun ci o => (ld_w x1 8 (by omega) _ ci o).trans (hx1 _ ci o))
    (fun o => (congrFun (View.ld_unit_zero (S := S1x64) hz2 _ x2) _).trans (hx2 o))
    (fun o => (congrFun (View.ld_unit_zero (S := S1x64) hz2 _ x3) _).trans (hx3 o))
    i j o

/-- The same for the output window's staging buffer after the body. -/
theorem out1_4_val (I : Cert.Spec.Inp) (hr : Fin 3136 → Fin 64 → ℝ)
    (x0 : Vec Ideal S1x56x56x64 .f32) (x1 : Vec Ideal S9x64x64 .f32) (x2 x3 : Vec Ideal S1x64 .f32)
    (hx0 : ∀ (i j : Fin 56) (ci : Fin 64), x0 (ix4 (0 : Fin 1) i j ci) = ((hr (pix i j) ci : ℝ) : EReal))
    (hx1 : ∀ (t : Fin 9) (ci o : Fin 64), x1 (ix3 t ci o)
      = ((I.w2 o ci ⟨t.val / 3, by have := t.isLt; omega⟩ ⟨t.val % 3, Nat.mod_lt _ (by norm_num)⟩ : ℝ) : EReal))
    (hx2 : ∀ o : Fin 64, x2 (ix2 (0 : Fin 1) o) = ((I.s2 o : ℝ) : EReal))
    (hx3 : ∀ o : Fin 64, x3 (ix2 (0 : Fin 1) o) = ((I.b2 o : ℝ) : EReal))
    (i j : Fin 56) (o : Fin 64) :
    Cert.ReferenceIdeal.R1.out1_4 x0 x1 x2 x3 (ix4 (0 : Fin 1) i j o)
      = ((max (Cert.Spec.conv I hr (pix i j) o * I.s2 o + I.b2 o) 0 : ℝ) : EReal) := by
  unfold Cert.ReferenceIdeal.R1.out1_4
  rw [View.canon_unit_zero (S := S1x56x56x64) hz4]
  exact conv1_val I hr x0 x1 x2 x3 hx0 hx1 hx2 hx3 i j o

end Cert.ReferenceIdeal.RV1

end
-- ==== Proof.R1Ideal.lean ====
import proofs.«108509_g2000006651879042_pallasbulk_171_5_alg».proof.Proof.R1Value
import proofs.«108509_g2000006651879042_pallasbulk_171_5_alg».proof.Proof.RV1
import proofs.«108509_g2000006651879042_pallasbulk_171_5_alg».proof.Proof.Spec

/-! # Region 1 at the ideal values: the result array is the specification's second stage

The result array after the region is, image by image, what the body leaves from that image of the activation array
and the whole tap, scale and shift arrays (`arr1_apply`); at the ideal values that is the 3×3 convolution of the
zero-padded image, scaled, shifted and clamped at zero (`RV1.out1_4_val`). -/

set_option maxRecDepth 16384

noncomputable section

namespace Cert.ReferenceIdeal.R1

open Cert.ReferenceIdeal.Gen
open Idealize.ShloMosaic Idealize.ShloMosaic.TcCoe Idealize.ShloMosaic.ValueIdx
open Idealize.SL Idealize.SL.Sem
open Cert.ReferenceIdeal.RV1 (pix)

/-- If the activation array holds the real image `hr b` by flattened pixel, the tap array the weights `w2` with tap
    `(ky, kx)` at matrix `3·ky + kx`, and the scale and shift rows `s2` and `b2`, then the result array after the
    region holds, at image `b`, pixel `(i, j)`, channel `o`, the clamped, scaled and shifted convolution. -/
theorem out1_spec (I : Cert.Spec.Inp)
    (V : (c : Dev nD) → (b : Ref sig .tc) → Buf (Elt Ideal) ((c : Thread nD τ).loc b)) (c : Dev nD)
    (hr : Fin 16 → Fin 3136 → Fin 64 → ℝ)
    (hx : ∀ (b : Fin 16) (i j : Fin 56) (ci : Fin 64), V c main_v6 (ix4 b i j ci) = ((hr b (pix i j) ci : ℝ) : EReal))
    (hw : ∀ (t : Fin 9) (ci o : Fin 64), V c main_v8 (ix3 t ci o)
      = ((I.w2 o ci ⟨t.val / 3, by have := t.isLt; omega⟩ ⟨t.val % 3, Nat.mod_lt _ (by norm_num)⟩ : ℝ) : EReal))
    (hs : ∀ o : Fin 64, V c main_v9 (ix2 (0 : Fin 1) o) = ((I.s2 o : ℝ) : EReal))
    (hb : ∀ o : Fin 64, V c main_v10 (ix2 (0 : Fin 1) o) = ((I.b2 o : ℝ) : EReal))
    (b : Fin 16) (i j : Fin 56) (o : Fin 64) :
    (dat1 V c).arrAt 4 cfg1.N (ix4 b i j o)
      = ((max (Cert.Spec.conv I (hr b) (pix i j) o * I.s2 o + I.b2 o) 0 : ℝ) : EReal) :=
  (arr1_apply V c b i j o).trans
    (Cert.ReferenceIdeal.RV1.out1_4_val I (hr b) (img (V c main_v6) b) (V c main_v8) (V c main_v9) (V c main_v10)
      (fun i j ci => (img_apply (V c main_v6) b i j ci).trans (hx b i j ci)) hw hs hb i j o)

end Cert.ReferenceIdeal.R1

end
-- ==== Proof.R2Value.lean ====
import proofs.«108509_g2000006651879042_pallasbulk_171_5_alg».proof.Proof.R2Defs
import Idealize.ShloMosaic.Lib.Pipeline.Value
import Idealize.ShloMosaic.Lib.ValueIdx

set_option maxRecDepth 16384

noncomputable section

namespace Cert.ReferenceIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! Region 2's output, read as values: what each point writes back is the point's image of ONE function of the seven
    input arrays, and the output array after the region is that function. -/

section Value
variable (V : (c : Dev nD) → (b : Ref sig .tc) → Buf (Elt F) ((c : Thread nD τ).loc b))

open ValueIdx in
/-- Image `n` of an array of sixteen images of 3136 rows by 64 channels, as a block of one image. -/
def img64 (a : S16x3136x64.Idx → Elt F .f32) (n : Fin 16) : Vec F S1x3136x64 .f32 := fun y => a (ix3 n (y 1) (y 2))

open ValueIdx in
/-- Image `n` of an array of sixteen images of 3136 rows by 256 channels, as a block of one image. -/
def img256 (a : S16x3136x256.Idx → Elt F .f32) (n : Fin 16) : Vec F S1x3136x256 .f32 := fun y => a (ix3 n (y 1) (y 2))

open ValueIdx in
/-- The output array of region 2 as one function of its seven input arrays: element `(n, r, ch)` is element `(0, r, ch)`
    of the body's result on image `n` of the two image arrays and the five parameter arrays whole. -/
def arr2_7 (a0 : S16x3136x64.Idx → Elt F .f32) (a1 : S16x3136x256.Idx → Elt F .f32) (a2 : Vec F S64x256 .f32) (a3 : Vec F S1x256 .f32)
    (a4 : Vec F S1x256 .f32) (a5 : Vec F S256x16 .f32) (a6 : Vec F S16x256 .f32) : S16x3136x256.Idx → Elt F .f32 :=
  fun i => out2_7 (img64 a0 (i 0)) (img256 a1 (i 0)) a2 a3 a4 a5 a6 (ix3 0 (i 1) (i 2))

/-- The printed index maps, decided over the grid: the image windows 0, 1 and 7 sit at block `(t, 0, 0)`, the parameter
    windows 2 to 6 at block `(0, 0)`. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_7.index t (0 : Fin 3) = t.val ∧ win2_7.index t (1 : Fin 3) = 0 ∧ win2_7.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

open ValueIdx in
/-- Window 0's block at point `t` is image `t` of its array. -/
theorem iblk2_0 (c : Dev nD) (t : Fin cfg2.N) : iblk2 V c 0 t = img64 (V c main_v13) (t.cast N_2) := by
  obtain ⟨e0, e1, e2, -⟩ := idx_facts2 t
  funext y
  show V c main_v13 (((cfg2.win 0).blk t).view.emb y) = V c main_v13 (ix3 (t.cast N_2) (y 1) (y 2))
  refine congrArg _ ?_
  funext a; apply Fin.ext
  match a with
  | ⟨0, _⟩ => show win2_0.index t (0 : Fin 3) * 1 + 1 * (y 0).val = t.val; have hy : (y 0).val < 1 := (y 0).isLt; omega
  | ⟨1, _⟩ => show win2_0.index t (1 : Fin 3) * 3136 + 1 * (y 1).val = (y 1).val; omega
  | ⟨2, _⟩ => show win2_0.index t (2 : Fin 3) * 64 + 1 * (y 2).val = (y 2).val; omega

open ValueIdx in
/-- Window 1's block at point `t` is image `t` of its array. -/
theorem iblk2_1 (c : Dev nD) (t : Fin cfg2.N) : iblk2 V c 1 t = img256 (V c main_v12) (t.cast N_2) := by
  obtain ⟨-, -, -, e0, e1, e2, -⟩ := idx_facts2 t
  funext y
  show V c main_v12 (((cfg2.win 1).blk t).view.emb y) = V c main_v12 (ix3 (t.cast N_2) (y 1) (y 2))
  refine congrArg _ ?_
  funext a; apply Fin.ext
  match a with
  | ⟨0, _⟩ => show win2_1.index t (0 : Fin 3) * 1 + 1 * (y 0).val = t.val; have hy : (y 0).val < 1 := (y 0).isLt; omega
  | ⟨1, _⟩ => show win2_1.index t (1 : Fin 3) * 3136 + 1 * (y 1).val = (y 1).val; omega
  | ⟨2, _⟩ => show win2_1.index t (2 : Fin 3) * 256 + 1 * (y 2).val = (y 2).val; omega

/-- Windows 2 to 6 hold their whole arrays at every point. -/
theorem iblk2_2 (c : Dev nD) (t : Fin cfg2.N) : iblk2 V c 2 t = V c main_v14 := by
  obtain ⟨-, -, -, -, -, -, -, -, -, e0, e1, -⟩ := idx_facts2 t
  funext y
  show V c main_v14 (((cfg2.win 2).blk t).view.emb y) = V c main_v14 y
  refine congrArg _ ?_
  funext a; apply Fin.ext
  match a with
  | ⟨0, _⟩ => show win2_2.index t (0 : Fin 2) * 64 + 1 * (y 0).val = (y 0).val; omega
  | ⟨1, _⟩ => show win2_2.index t (1 : Fin 2) * 256 + 1 * (y 1).val = (y 1).val; omega
theorem iblk2_3 (c : Dev nD) (t : Fin cfg2.N) : iblk2 V c 3 t = V c main_v17 := by
  obtain ⟨-, -, -, -, -, -, -, -, -, -, -, e0, e1, -⟩ := idx_facts2 t
  funext y
  show V c main_v17 (((cfg2.win 3).blk t).view.emb y) = V c main_v17 y
  refine congrArg _ ?_
  funext a; apply Fin.ext
  match a with
  | ⟨0, _⟩ => show win2_3.index t (0 : Fin 2) * 1 + 1 * (y 0).val = (y 0).val; omega
  | ⟨1, _⟩ => show win2_3.index t (1 : Fin 2) * 256 + 1 * (y 1).val = (y 1).val; omega
theorem iblk2_4 (c : Dev nD) (t : Fin cfg2.N) : iblk2 V c 4 t = V c main_v18 := by
  obtain ⟨-, -, -, -, -, -, -, -, -, -, -, -, -, e0, e1, -⟩ := idx_facts2 t
  funext y
  show V c main_v18 (((cfg2.win 4).blk t).view.emb y) = V c main_v18 y
  refine congrArg _ ?_
  funext a; apply Fin.ext
  match a with
  | ⟨0, _⟩ => show win2_4.index t (0 : Fin 2) * 1 + 1 * (y 0).val = (y 0).val; omega
  | ⟨1, _⟩ => show win2_4.index t (1 : Fin 2) * 256 + 1 * (y 1).val = (y 1).val; omega
theorem iblk2_5 (c : Dev nD) (t : Fin cfg2.N) : iblk2 V c 5 t = V c main_v15 := by
  obtain ⟨-, -, -, -, -, -, -, -, -, -, -, -, -, -, -, e0, e1, -⟩ := idx_facts2 t
  funext y
  show V c main_v15 (((cfg2.win 5).blk t).view.emb y) = V c main_v15 y
  refine congrArg _ ?_
  funext a; apply Fin.ext
  match a with
  | ⟨0, _⟩ => show win2_5.index t (0 : Fin 2) * 256 + 1 * (y 0).val = (y 0).val; omega
  | ⟨1, _⟩ => show win2_5.index t (1 : Fin 2) * 16 + 1 * (y 1).val = (y 1).val; omega
theorem iblk2_6 (c : Dev nD) (t : Fin cfg2.N) : iblk2 V c 6 t = V c main_v16 := by
  obtain ⟨-, -, -, -, -, -, -, -, -, -, -, -, -, -, -, -, -, e0, e1⟩ := idx_facts2 t
  funext y
  show V c main_v16 (((cfg2.win 6).blk t).view.emb y) = V c main_v16 y
  refine congrArg _ ?_
  funext a; apply Fin.ext
  match a with
  | ⟨0, _⟩ => show win2_6.index t (0 : Fin 2) * 16 + 1 * (y 0).val = (y 0).val; omega
  | ⟨1, _⟩ => show win2_6.index t (1 : Fin 2) * 256 + 1 * (y 1).val = (y 1).val; omega

/-- What point `t` writes back is all of what the body left in the staging buffer (the window is uncut). -/
theorem flushed2 (c : Dev nD) (t : Fin cfg2.N) : (dat2 V c).flushed 7 t
    = out2_7 (iblk2 V c 0 t) (iblk2 V c 1 t) (iblk2 V c 2 t) (iblk2 V c 3 t) (iblk2 V c 4 t) (iblk2 V c 5 t) (iblk2 V c 6 t) := by
  show (cfg2.win 7).cut (grid2.coords t) ((dat2 V c).after 7 t) = _
  rw [after2_7]
  rfl

end Value

section Value2
variable (V : (c : Dev nD) → (b : Ref sig .tc) → Buf (Elt F) ((c : Thread nD τ).loc b))

open ValueIdx in
/-- Block `t` of window 7's array, read through the block's view: element `j` is array element `(t, j 1, j 2)`. -/
theorem read_blk2_7 (t : Fin cfg2.N) (G : S16x3136x256.Idx → Elt F .f32) (j : S1x3136x256.Idx) :
    ((cfg2.win 7).blk t).view.read (Elt F) G j = G (ix3 (t.cast N_2) (j 1) (j 2)) := by
  obtain ⟨-, -, -, -, -, -, e0, e1, e2, -⟩ := idx_facts2 t
  show G (((cfg2.win 7).blk t).view.emb j) = G (ix3 (t.cast N_2) (j 1) (j 2))
  refine congrArg G ?_
  funext a; apply Fin.ext
  match a with
  | ⟨0, _⟩ => show win2_7.index t (0 : Fin 3) * 1 + 1 * (j 0).val = t.val; have hj : (j 0).val < 1 := (j 0).isLt; omega
  | ⟨1, _⟩ => show win2_7.index t (1 : Fin 3) * 3136 + 1 * (j 1).val = (j 1).val; omega
  | ⟨2, _⟩ => show win2_7.index t (2 : Fin 3) * 256 + 1 * (j 2).val = (j 2).val; omega

open ValueIdx in
/-- Image `n` of `arr2_7` is the body's result on image `n` of the image arrays. -/
theorem arr2_7_img (a0 : S16x3136x64.Idx → Elt F .f32) (a1 : S16x3136x256.Idx → Elt F .f32) (a2 : Vec F S64x256 .f32) (a3 : Vec F S1x256 .f32)
    (a4 : Vec F S1x256 .f32) (a5 : Vec F S256x16 .f32) (a6 : Vec F S16x256 .f32) (n : Fin 16) (j : S1x3136x256.Idx) :
    arr2_7 a0 a1 a2 a3 a4 a5 a6 (ix3 n (j 1) (j 2)) = out2_7 (img64 a0 n) (img256 a1 n) a2 a3 a4 a5 a6 j := by
  have hj : (ix3 (0 : Fin 1) (j 1) (j 2) : S1x3136x256.Idx) = j := by
    funext a
    match a with
    | ⟨0, _⟩ => exact Fin.ext (by show 0 = (j 0).val; have hj : (j 0).val < 1 := (j 0).isLt; omega)
    | ⟨1, _⟩ => rfl
    | ⟨2, _⟩ => rfl
  show out2_7 (img64 a0 n) (img256 a1 n) a2 a3 a4 a5 a6 (ix3 (0 : Fin 1) (j 1) (j 2)) = _
  rw [hj]

/-- What point `t` writes back is block `t` of `arr2_7` of the input arrays as the region finds them. -/
theorem flushed2_eq (c : Dev nD) (t : Fin cfg2.N) :
    (dat2 V c).flushed 7 t = ((cfg2.win 7).blk t).view.read (Elt F)
      (arr2_7 (V c main_v13) (V c main_v12) (V c main_v14) (V c main_v17) (V c main_v18) (V c main_v15) (V c main_v16)) := by
  rw [flushed2, iblk2_0, iblk2_1, iblk2_2, iblk2_3, iblk2_4, iblk2_5, iblk2_6]
  funext j
  exact ((read_blk2_7 t _ j).trans (arr2_7_img (V c main_v13) (V c main_v12) (V c main_v14) (V c main_v17) (V c main_v18)
    (V c main_v15) (V c main_v16) (t.cast N_2) j)).symm

/-- An index of window 7's array is in point `t`'s block iff each coordinate is in the block's range on its axis. -/
theorem mem_blk2_7 (t : Fin cfg2.N) (i : S16x3136x256.Idx) :
    i ∈ ((cfg2.win 7).blk t).view.set ↔ ∀ a : Fin 3, win2_7.index t a * S1x3136x256.size a ≤ (i a).val
      ∧ (i a).val < win2_7.index t a * S1x3136x256.size a + S1x3136x256.size a := by
  show i ∈ ((View.whole main_v19).slice (win2_7.rect t)).set ↔ _
  rw [View.set_slice_whole, Rect.mem_set_unit]
  exact Iff.rfl

/-- Every element of the output array is in the block of the point of its image. -/
theorem cover2_7_arr (i : S16x3136x256.Idx) :
    ∃ t : Fin cfg2.N, (cfg2.win 7).flush t = true ∧ i ∈ ((cfg2.win 7).blk t).view.set := by
  have hi0 : (i 0).val < 16 := (i 0).isLt
  have hi1 : (i 1).val < 3136 := (i 1).isLt
  have hi2 : (i 2).val < 256 := (i 2).isLt
  refine ⟨(i 0).cast N_2.symm, flush2_7 _, ?_⟩
  rw [mem_blk2_7]
  obtain ⟨-, -, -, -, -, -, e0, e1, e2, -⟩ := idx_facts2 ((i 0).cast N_2.symm)
  have e0' : win2_7.index ((i 0).cast N_2.symm) (0 : Fin 3) = (i 0).val := e0
  intro a
  match a with
  | ⟨0, _⟩ => show win2_7.index ((i 0).cast N_2.symm) (0 : Fin 3) * 1 ≤ (i 0).val ∧ (i 0).val < win2_7.index ((i 0).cast N_2.symm) (0 : Fin 3) * 1 + 1; omega
  | ⟨1, _⟩ => show win2_7.index ((i 0).cast N_2.symm) (1 : Fin 3) * 3136 ≤ (i 1).val ∧ (i 1).val < win2_7.index ((i 0).cast N_2.symm) (1 : Fin 3) * 3136 + 3136; omega
  | ⟨2, _⟩ => show win2_7.index ((i 0).cast N_2.symm) (2 : Fin 3) * 256 ≤ (i 2).val ∧ (i 2).val < win2_7.index ((i 0).cast N_2.symm) (2 : Fin 3) * 256 + 256; omega

/-- The output array after the region's write-backs is `arr2_7` of the input arrays as the region finds them. -/
theorem final2 (c : Dev nD) : (dat2 V c).arrAt 7 cfg2.N
    = arr2_7 (V c main_v13) (V c main_v12) (V c main_v14) (V c main_v17) (V c main_v18) (V c main_v15) (V c main_v16) :=
  (dat2 V c).arrAt_eq_of_cover 7 _ (fun t _ => flushed2_eq V c t) cover2_7_arr

end Value2

end Cert.ReferenceIdeal.R2

end
-- ==== Proof.RV2.lean ====
/-
  The third reference kernel's stored block at the ideal values: the 1×1 convolution with its scale and bias, the
  squeeze (mean over the pixels), the two small dense layers of the gate, the gated product, the residual sum and the
  final rectification, read entry by entry as real-number formulas.
-/
import proofs.«108509_g2000006651879042_pallasbulk_171_5_alg».proof.Proof.Gen.ReferenceIdeal.Skeleton
import proofs.«108509_g2000006651879042_pallasbulk_171_5_alg».proof.Proof.Spec
import proofs.«108509_g2000006651879042_pallasbulk_171_5_alg».proof.Proof.LibRealLift
import proofs.«108509_g2000006651879042_pallasbulk_171_5_alg».proof.Proof.R2Defs
import Idealize.ShloMosaic.Lib.ValueLayout

noncomputable section

namespace Cert.ReferenceIdeal.RV2

open Idealize.ShloMosaic Idealize.ShloMosaic.ValueIdx
open Cert.ReferenceIdeal Cert.ReferenceIdeal.Gen

/-! ## A plain matrix product read at an entry

Every matrix product of this program contracts the left operand's axis 1 with the right operand's axis 0, has no batch
axis, and accumulates into the zero splat. At entry `(r, o)` it is the sum over the contracted coordinate `c` of
`A (r, c) * B (c, o)`: it reads row `r` of the left operand only. -/

/-- A non-contracted, non-batch axis of the left operand reads the result index at the axis's position. -/
theorem lhsIdx_val_non {sl sr so : Shape} (D : DotDims sl sr so) {a : Fin sl.rank} (hb : a ∉ D.lhsBatch)
    (hn : a ∈ D.lhsNonContracting) (j : so.Idx) (k : D.contr.Idx) (q : Nat) (hq : q < so.rank)
    (hpq : D.lhsBatch.length + D.lhsNonContracting.idxOf a = q) :
    (D.lhsIdx j k a).val = (j ⟨q, hq⟩).val := by
  subst hpq
  unfold DotDims.lhsIdx
  rw [dif_neg hb, dif_pos hn]
  rfl

/-- A non-contracted, non-batch axis of the right operand reads the result index at the axis's position. -/
theorem rhsIdx_val_non {sl sr so : Shape} (D : DotDims sl sr so) {a : Fin sr.rank} (hb : a ∉ D.rhsBatch)
    (hn : a ∈ D.rhsNonContracting) (j : so.Idx) (k : D.contr.Idx) (q : Nat) (hq : q < so.rank)
    (hpq : D.lhsBatch.length + D.lhsNonContracting.length + D.rhsNonContracting.idxOf a = q) :
    (D.rhsIdx j k a).val = (j ⟨q, hq⟩).val := by
  subst hpq
  unfold DotDims.rhsIdx
  rw [dif_neg hb, dif_pos hn]
  rfl

/-- The plain product `[M, K] × [K, N] → [M, N]` into the zero accumulator, at entry `(r, o)`. -/
theorem mm_apply {M K N : Nat} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (A : FVec Ideal ⟨2, ![M, K]⟩ φ₁) (B : FVec Ideal ⟨2, ![K, N]⟩ φ₂)
    (r : Fin M) (o : Fin N) :
    matmul D prec A B (constant (F := Ideal) ⟨2, ![M, N]⟩ .f32 0x00000000#32) (ix2 r o)
      = ∑ c : Fin K, A (ix2 r c) * B (ix2 c o) := by
  refine (Ideal.matmul_constant_zero_apply D prec A B (ix2 r o)).trans ?_
  have hr : D.contr.rank = 1 := by rw [D.rank_contr, hlc]; rfl
  have hs : D.contr.size ⟨0, by omega⟩ = K := by
    rw [D.size_contr 0 (by rw [hlc]; exact Nat.one_pos), List.getElem_of_eq hlc]; rfl
  refine (Equiv.sum_comp (contrEquiv1 D K hr hs).symm _).symm.trans ?_
  refine Finset.sum_congr rfl fun c _ => ?_
  have hl : D.lhsIdx (ix2 r o) ((contrEquiv1 D K hr hs).symm c) = ix2 r c := by
    funext a
    match a with
    | ⟨0, _⟩ =>
      exact Fin.ext (lhsIdx_val_non D (a := 0) (by rw [hlb]; exact List.not_mem_nil)
        (by rw [hln]; exact List.mem_singleton.mpr rfl) _ _ 0 Nat.zero_lt_two (by rw [hlb, hln]; rfl))
    | ⟨1, _⟩ =>
      exact Fin.ext ((D.lhsIdx_val_of_single hlc _ _).trans (contrEquiv1_symm_val D K hr hs c))
  have hrr : D.rhsIdx (ix2 r o) ((contrEquiv1 D K hr hs).symm c) = ix2 c o := by
    funext a
    match a with
    | ⟨0, _⟩ =>
      exact Fin.ext ((D.rhsIdx_val_of_single hrc _ _).trans (contrEquiv1_symm_val D K hr hs c))
    | ⟨1, _⟩ =>
      exact Fin.ext (rhsIdx_val_non D (a := 1) (by rw [hrb]; exact List.not_mem_nil)
        (by rw [hrn]; exact List.mem_singleton.mpr rfl) _ _ 1 Nat.one_lt_two (by rw [hlb, hln, hrn]; rfl))
  rw [hl, hrr]

/-- The maximum of a real and zero, on the extended reals. -/
theorem max_coe_zero (a : ℝ) : max ((a : ℝ) : EReal) 0 = ((max a 0 : ℝ) : EReal) := by
  rw [← EReal.coe_zero]
  exact (EReal.coe_strictMono.monotone.map_max).symm

/-- The logistic function of a vector, read at an index. -/
theorem logistic_apply {s : Shape} {φ : FTy} (x : FVec Ideal s φ) (i : s.Idx) : logistic x i = Ideal.logistic (x i) := rfl

/-- The single-precision word `0x45440000` is the number 3136 (the number of pixels). -/
theorem ofBits_3136 : Ideal.ofBits .f32 0x45440000#32 = ((3136 : ℝ) : EReal) := by
  simp [Ideal.ofBits, Ideal.ieee, -EReal.coe_mul]; norm_num

/-! ## The mathematics, over the reals, from any second-stage image `h2r` -/

section Real
variable (I : Cert.Spec.Inp) (h2r : Fin 3136 → Fin 64 → ℝ)

/-- Third stage before the gate. -/
def H3 (c : Fin 256) (p : Fin 3136) : ℝ := (∑ o : Fin 64, h2r p o * I.w3 c o) * I.s3 c + I.b3 c
/-- The squeeze: the mean over the pixels. -/
def Y (c : Fin 256) : ℝ := (∑ p : Fin 3136, H3 I h2r c p) / 3136
/-- The hidden layer of the excitation. -/
def Hid (r : Fin 16) : ℝ := max (∑ c : Fin 256, Y I h2r c * I.fc1 r c) 0
/-- The gate. -/
def G (c : Fin 256) : ℝ := (1 + Real.exp (-(∑ r : Fin 16, Hid I h2r r * I.fc2 c r)))⁻¹

/-- At the specification's second stage these are the specification's functions. -/
theorem H3_spec (b : Fin 16) : H3 I (Cert.Spec.h2 I b) = Cert.Spec.h3 I b := rfl
theorem Y_spec (b : Fin 16) : Y I (Cert.Spec.h2 I b) = Cert.Spec.y I b := rfl
theorem Hid_spec (b : Fin 16) : Hid I (Cert.Spec.h2 I b) = Cert.Spec.hid I b := rfl
theorem G_spec (b : Fin 16) : G I (Cert.Spec.h2 I b) = Cert.Spec.gate I b := rfl
theorem out_spec (b : Fin 16) (c : Fin 256) (p : Fin 3136) :
    max (H3 I (Cert.Spec.h2 I b) c p * G I (Cert.Spec.h2 I b) c + I.x b c p) 0 = Cert.Spec.out I b c p := rfl

end Real

/-! ## The payload in four stages -/

/-- The 1×1 convolution with its scale and bias: a `[3136, 256]` array. -/
def st3 (v0 : Vec Ideal S1x3136x64 .f32) (v3 : Vec Ideal S64x256 .f32) (v6 v10 : Vec Ideal S1x256 .f32) :
    FVec Ideal S3136x256 .f32 :=
  addf (mulf (matmul (φ₁ := .f32) (φ₂ := .f32) dot_S3136x64_S64x256_S3136x256_1_0_0_1_n_n none
        (shapeCast S3136x64 (shapeCast S1x3136x64 v0 shapeCasts_S1x3136x64_S1x3136x64) shapeCasts_S1x3136x64_S3136x64)
        (shapeCast S64x256 v3 shapeCasts_S64x256_S64x256) (constant (F := Ideal) S3136x256 .f32 0x00000000#32))
      (broadcastTo S3136x256 (shapeCast S1x256 v6 shapeCasts_S1x256_S1x256) broadcasts_S1x256_S3136x256))
    (broadcastTo S3136x256 (shapeCast S1x256 v10 shapeCasts_S1x256_S1x256) broadcasts_S1x256_S3136x256)

/-- The squeeze: the sum over the pixels divided by their number. -/
def sq (A : FVec Ideal S3136x256 .f32) : FVec Ideal S1x256 .f32 :=
  divf (multiReduction .add [1] S1x256 (shapeCast S1x3136x256 A shapeCasts_S3136x256_S1x3136x256) 0x00000000#32
      reduces_S1x3136x256_S1x256 (.inl rfl) rfl)
    (broadcast S1x256 (Scalar.ofBits (F := Ideal) .f32 0x45440000#32))

/-- The hidden layer: a dense layer and a rectification. -/
def hidv (y : FVec Ideal S1x256 .f32) (v19 : Vec Ideal S256x16 .f32) : FVec Ideal S1x16 .f32 :=
  maximumf (matmul (φ₁ := .f32) (φ₂ := .f32) dot_S1x256_S256x16_S1x16_1_0_0_1_n_n none y (shapeCast S256x16 v19 shapeCasts_S256x16_S256x16)
      (constant (F := Ideal) S1x16 .f32 0x00000000#32))
    (broadcast S1x16 (Scalar.ofBits (F := Ideal) .f32 0x00000000#32))

/-- The gate: a dense layer and the logistic function. -/
def gatev (h : FVec Ideal S1x16 .f32) (v24 : Vec Ideal S16x256 .f32) : FVec Ideal S1x256 .f32 :=
  logistic (matmul (φ₁ := .f32) (φ₂ := .f32) dot_S1x16_S16x256_S1x256_1_0_0_1_n_n none h (shapeCast S16x256 v24 shapeCasts_S16x256_S16x256)
      (constant (F := Ideal) S1x256 .f32 0x00000000#32))

/-- The gated product, the residual sum and the rectification. -/
def fin (A : FVec Ideal S3136x256 .f32) (g : FVec Ideal S1x256 .f32) (v31 : Vec Ideal S1x3136x256 .f32) :
    FVec Ideal S1x3136x256 .f32 :=
  maximumf (addf (mulf (shapeCast S1x3136x256 A shapeCasts_S3136x256_S1x3136x256)
        (broadcastTo S1x3136x256 (shapeCast S1x1x256 g shapeCasts_S1x256_S1x1x256) broadcasts_S1x1x256_S1x3136x256))
      (shapeCast S1x3136x256 v31 shapeCasts_S1x3136x256_S1x3136x256))
    (broadcast S1x3136x256 (Scalar.ofBits (F := Ideal) .f32 0x00000000#32))

/-- The generated payload is the composition of the four stages. -/
theorem k2_pay1_eq (v0 : Vec Ideal S1x3136x64 .f32) (v3 : Vec Ideal S64x256 .f32) (v6 v10 : Vec Ideal S1x256 .f32)
    (v19 : Vec Ideal S256x16 .f32) (v24 : Vec Ideal S16x256 .f32) (v31 : Vec Ideal S1x3136x256 .f32) :
    k2_pay1 v0 v3 v6 v10 v19 v24 v31
      = fin (st3 v0 v3 v6 v10) (gatev (hidv (sq (st3 v0 v3 v6 v10)) v19) v24) v31 := rfl

/-! ## Each stage at an entry -/

theorem st3_apply (I : Cert.Spec.Inp) (h2r : Fin 3136 → Fin 64 → ℝ)
    (v0 : Vec Ideal S1x3136x64 .f32) (v3 : Vec Ideal S64x256 .f32) (v6 v10 : Vec Ideal S1x256 .f32)
    (h0 : ∀ (p : Fin 3136) (o : Fin 64), v0 (ix3 (0 : Fin 1) p o) = ((h2r p o : ℝ) : EReal))
    (h3 : ∀ (o : Fin 64) (c : Fin 256), v3 (ix2 o c) = ((I.w3 c o : ℝ) : EReal))
    (h6 : ∀ c : Fin 256, v6 (ix2 (0 : Fin 1) c) = ((I.s3 c : ℝ) : EReal))
    (h10 : ∀ c : Fin 256, v10 (ix2 (0 : Fin 1) c) = ((I.b3 c : ℝ) : EReal)) (p : Fin 3136) (c : Fin 256) :
    st3 v0 v3 v6 v10 (ix2 p c) = ((H3 I h2r c p : ℝ) : EReal) := by
  unfold st3 H3
  rw [addf_apply, mulf_apply, broadcastTo_1b_ab_apply, broadcastTo_1b_ab_apply, shapeCast_self v6, shapeCast_self v10,
    h6, h10, mm_apply _ rfl rfl rfl rfl rfl rfl]
  rw [Cert.RealLift.sum_mul_coe Finset.univ _ _ (fun o => h2r p o) (fun o => I.w3 c o)
    (fun o => by rw [shapeCast_1ab_ab_apply, shapeCast_self]; exact h0 p o)
    (fun o => by rw [shapeCast_self]; exact h3 o c)]
  rw [← EReal.coe_mul, ← EReal.coe_add]

theorem sq_apply (A : FVec Ideal S3136x256 .f32) (a : Fin 256 → Fin 3136 → ℝ)
    (hA : ∀ (p : Fin 3136) (c : Fin 256), A (ix2 p c) = ((a c p : ℝ) : EReal)) (c : Fin 256) :
    sq A (ix2 (0 : Fin 1) c) = (((∑ p : Fin 3136, a c p) / 3136 : ℝ) : EReal) := by
  unfold sq
  rw [divf_apply, broadcast_apply]
  have hsum : multiReduction .add [1] S1x256 (shapeCast S1x3136x256 A shapeCasts_S3136x256_S1x3136x256) 0x00000000#32
      reduces_S1x3136x256_S1x256 (.inl rfl) rfl (ix2 (0 : Fin 1) c) = ((∑ p : Fin 3136, a c p : ℝ) : EReal) := by
    refine (Ideal.multiReduction_add_single _ _ reduces_S1x3136x256_S1x256 (.inl rfl) rfl (ix2 (0 : Fin 1) c)).trans ?_
    refine Cert.RealLift.sum_coe Finset.univ _ (fun p => a c p) fun p => ?_
    have hl : (reduces_S1x3136x256_S1x256).lift (ix2 (0 : Fin 1) c) p
        = ix3 (0 : Fin 1) (⟨p.val, p.isLt⟩ : Fin 3136) c := by
      funext d; apply Fin.ext
      match d with
      | ⟨0, _⟩ => rfl
      | ⟨1, _⟩ => rfl
      | ⟨2, _⟩ => rfl
    rw [hl, shapeCast_ab_1ab_apply]
    exact hA _ c
  rw [hsum]
  exact (congrArg (Ideal.div _) ofBits_3136).trans (Cert.RealLift.IsR.div_coe _ _ (by norm_num))

theorem hidv_apply (y : FVec Ideal S1x256 .f32) (yr : Fin 256 → ℝ)
    (hy : ∀ c : Fin 256, y (ix2 (0 : Fin 1) c) = ((yr c : ℝ) : EReal))
    (v19 : Vec Ideal S256x16 .f32) (f1 : Fin 16 → Fin 256 → ℝ)
    (h19 : ∀ (c : Fin 256) (r : Fin 16), v19 (ix2 c r) = ((f1 r c : ℝ) : EReal)) (r : Fin 16) :
    hidv y v19 (ix2 (0 : Fin 1) r) = ((max (∑ c : Fin 256, yr c * f1 r c) 0 : ℝ) : EReal) := by
  unfold hidv
  rw [maximumf_apply, broadcast_apply, shapeCast_self, mm_apply _ rfl rfl rfl rfl rfl rfl]
  rw [Cert.RealLift.sum_mul_coe Finset.univ _ _ yr (fun c => f1 r c) hy (fun c => h19 c r)]
  exact (congrArg (max _) Ideal.ofBits_zero_f32).trans (max_coe_zero _)

theorem gatev_apply (h : FVec Ideal S1x16 .f32) (hr : Fin 16 → ℝ)
    (hh : ∀ r : Fin 16, h (ix2 (0 : Fin 1) r) = ((hr r : ℝ) : EReal))
    (v24 : Vec Ideal S16x256 .f32) (f2 : Fin 256 → Fin 16 → ℝ)
    (h24 : ∀ (r : Fin 16) (c : Fin 256), v24 (ix2 r c) = ((f2 c r : ℝ) : EReal)) (c : Fin 256) :
    gatev h v24 (ix2 (0 : Fin 1) c) = (((1 + Real.exp (-(∑ r : Fin 16, hr r * f2 c r)))⁻¹ : ℝ) : EReal) := by
  unfold gatev
  rw [logistic_apply, shapeCast_self, mm_apply _ rfl rfl rfl rfl rfl rfl]
  rw [Cert.RealLift.sum_mul_coe Finset.univ _ _ hr (fun r => f2 c r) hh (fun r => h24 r c)]
  exact Ideal.logistic_coe _

theorem fin_apply (A : FVec Ideal S3136x256 .f32) (a : Fin 256 → Fin 3136 → ℝ)
    (hA : ∀ (p : Fin 3136) (c : Fin 256), A (ix2 p c) = ((a c p : ℝ) : EReal))
    (g : FVec Ideal S1x256 .f32) (gr : Fin 256 → ℝ) (hg : ∀ c : Fin 256, g (ix2 (0 : Fin 1) c) = ((gr c : ℝ) : EReal))
    (v31 : Vec Ideal S1x3136x256 .f32) (xr : Fin 256 → Fin 3136 → ℝ)
    (h31 : ∀ (p : Fin 3136) (c : Fin 256), v31 (ix3 (0 : Fin 1) p c) = ((xr c p : ℝ) : EReal))
    (p : Fin 3136) (c : Fin 256) :
    fin A g v31 (ix3 (0 : Fin 1) p c) = ((max (a c p * gr c + xr c p) 0 : ℝ) : EReal) := by
  unfold fin
  rw [maximumf_apply, addf_apply, mulf_apply, broadcast_apply, shapeCast_self v31, shapeCast_ab_1ab_apply, hA, h31]
  have hb : broadcastTo S1x3136x256 (shapeCast S1x1x256 g shapeCasts_S1x256_S1x1x256) broadcasts_S1x1x256_S1x3136x256
      (ix3 (0 : Fin 1) p c) = ((gr c : ℝ) : EReal) := by
    refine (broadcastTo_apply _ _ (ix3 (0 : Fin 1) p c) (ix3 (0 : Fin 1) (0 : Fin 1) c) fun ax => ?_).trans ?_
    · match ax with
      | ⟨0, _⟩ => rfl
      | ⟨1, _⟩ => rfl
      | ⟨2, _⟩ => rfl
    · rw [shapeCast_ab_1ab_apply]; exact hg c
  rw [hb, ← EReal.coe_mul, ← EReal.coe_add]
  exact (congrArg (max _) Ideal.ofBits_zero_f32).trans (max_coe_zero _)

/-! ## The stored block at an entry -/

/-- The third kernel's stored value at pixel `p`, channel `c`. -/
theorem k2_val (I : Cert.Spec.Inp) (h2r : Fin 3136 → Fin 64 → ℝ) (xr : Fin 256 → Fin 3136 → ℝ)
    (v0 : Vec Ideal S1x3136x64 .f32) (v3 : Vec Ideal S64x256 .f32) (v6 v10 : Vec Ideal S1x256 .f32)
    (v19 : Vec Ideal S256x16 .f32) (v24 : Vec Ideal S16x256 .f32) (v31 : Vec Ideal S1x3136x256 .f32)
    (h0 : ∀ (p : Fin 3136) (o : Fin 64), v0 (ix3 (0 : Fin 1) p o) = ((h2r p o : ℝ) : EReal))
    (h3 : ∀ (o : Fin 64) (c : Fin 256), v3 (ix2 o c) = ((I.w3 c o : ℝ) : EReal))
    (h6 : ∀ c : Fin 256, v6 (ix2 (0 : Fin 1) c) = ((I.s3 c : ℝ) : EReal))
    (h10 : ∀ c : Fin 256, v10 (ix2 (0 : Fin 1) c) = ((I.b3 c : ℝ) : EReal))
    (h19 : ∀ (c : Fin 256) (r : Fin 16), v19 (ix2 c r) = ((I.fc1 r c : ℝ) : EReal))
    (h24 : ∀ (r : Fin 16) (c : Fin 256), v24 (ix2 r c) = ((I.fc2 c r : ℝ) : EReal))
    (h31 : ∀ (p : Fin 3136) (c : Fin 256), v31 (ix3 (0 : Fin 1) p c) = ((xr c p : ℝ) : EReal))
    (p : Fin 3136) (c : Fin 256) :
    k2_pay1 v0 v3 v6 v10 v19 v24 v31 (ix3 (0 : Fin 1) p c)
      = ((max (H3 I h2r c p * G I h2r c + xr c p) 0 : ℝ) : EReal) := by
  rw [k2_pay1_eq]
  have hA := st3_apply I h2r v0 v3 v6 v10 h0 h3 h6 h10
  have hy : ∀ c : Fin 256, sq (st3 v0 v3 v6 v10) (ix2 (0 : Fin 1) c) = ((Y I h2r c : ℝ) : EReal) :=
    sq_apply _ (fun c p => H3 I h2r c p) hA
  have hh : ∀ r : Fin 16, hidv (sq (st3 v0 v3 v6 v10)) v19 (ix2 (0 : Fin 1) r) = ((Hid I h2r r : ℝ) : EReal) :=
    hidv_apply _ (Y I h2r) hy v19 I.fc1 h19
  have hg : ∀ c : Fin 256, gatev (hidv (sq (st3 v0 v3 v6 v10)) v19) v24 (ix2 (0 : Fin 1) c) = ((G I h2r c : ℝ) : EReal) :=
    gatev_apply _ (Hid I h2r) hh v24 I.fc2 h24
  exact fin_apply _ (fun c p => H3 I h2r c p) hA _ (G I h2r) hg v31 xr h31 p c

/-! ## The output window's staging buffer after the body -/

/-- What the third kernel's body leaves in its output buffer, from the seven input blocks, at pixel `p`, channel `c`. -/
theorem out2_7_val (I : Cert.Spec.Inp) (h2r : Fin 3136 → Fin 64 → ℝ) (xr : Fin 256 → Fin 3136 → ℝ)
    (x0 : Vec Ideal S1x3136x64 .f32) (x1 : Vec Ideal S1x3136x256 .f32) (x2 : Vec Ideal S64x256 .f32)
    (x3 x4 : Vec Ideal S1x256 .f32) (x5 : Vec Ideal S256x16 .f32) (x6 : Vec Ideal S16x256 .f32)
    (h0 : ∀ (p : Fin 3136) (o : Fin 64), x0 (ix3 (0 : Fin 1) p o) = ((h2r p o : ℝ) : EReal))
    (h1 : ∀ (p : Fin 3136) (c : Fin 256), x1 (ix3 (0 : Fin 1) p c) = ((xr c p : ℝ) : EReal))
    (h2 : ∀ (o : Fin 64) (c : Fin 256), x2 (ix2 o c) = ((I.w3 c o : ℝ) : EReal))
    (h3 : ∀ c : Fin 256, x3 (ix2 (0 : Fin 1) c) = ((I.s3 c : ℝ) : EReal))
    (h4 : ∀ c : Fin 256, x4 (ix2 (0 : Fin 1) c) = ((I.b3 c : ℝ) : EReal))
    (h5 : ∀ (c : Fin 256) (r : Fin 16), x5 (ix2 c r) = ((I.fc1 r c : ℝ) : EReal))
    (h6 : ∀ (r : Fin 16) (c : Fin 256), x6 (ix2 r c) = ((I.fc2 c r : ℝ) : EReal))
    (p : Fin 3136) (c : Fin 256) :
    Cert.ReferenceIdeal.R2.out2_7 x0 x1 x2 x3 x4 x5 x6 (ix3 (0 : Fin 1) p c)
      = ((max (H3 I h2r c p * G I h2r c + xr c p) 0 : ℝ) : EReal) := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold Cert.ReferenceIdeal.R2.out2_7
  rw [View.canon_unit_zero (S := S1x3136x256) hz3, View.ld_unit_zero (S := S1x3136x64) hz3,
    View.ld_unit_zero (S := S64x256) hz2, View.ld_unit_zero (S := S1x256) hz2, View.ld_unit_zero (S := S1x256) hz2,
    View.ld_unit_zero (S := S256x16) hz2, View.ld_unit_zero (S := S16x256) hz2,
    View.ld_unit_zero (S := S1x3136x256) hz3]
  exact k2_val I h2r xr x0 x2 x3 x4 x5 x6 x1 h0 h2 h3 h4 h5 h6 h1 p c

end Cert.ReferenceIdeal.RV2

end
-- ==== Proof.R2Ideal.lean ====
import proofs.«108509_g2000006651879042_pallasbulk_171_5_alg».proof.Proof.R2Value
import proofs.«108509_g2000006651879042_pallasbulk_171_5_alg».proof.Proof.RV2

set_option maxRecDepth 16384

noncomputable section

namespace Cert.ReferenceIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen
open Idealize.ShloMosaic.ValueIdx

variable {F : FTy → Type} [FloatOps F]

local notation "𝕄" => MT nD τ sig Unit (Elt F) ℕ (UR sig nD τ) ℕ

/-! Region 2 at the ideal values: if the seven input arrays hold (the coercions of) real arrays — the second stage's
    images, the block's input images, the third stage's weights, scale and shift, and the two gate matrices —, the
    output array after the region holds, at image `b`, pixel `p`, channel `ch`, the rectified sum of the input and
    the gated third stage. -/

theorem out2_spec (I : Cert.Spec.Inp)
    (V : (c : Dev nD) → (b : Ref sig .tc) → Buf (Elt Ideal) ((c : Thread nD τ).loc b)) (c : Dev nD)
    (h2r : Fin 16 → Fin 3136 → Fin 64 → ℝ)
    (hx0 : ∀ (b : Fin 16) (p : Fin 3136) (o : Fin 64), V c main_v13 (ix3 b p o) = ((h2r b p o : ℝ) : EReal))
    (hx1 : ∀ (b : Fin 16) (p : Fin 3136) (ch : Fin 256), V c main_v12 (ix3 b p ch) = ((I.x b ch p : ℝ) : EReal))
    (hw3 : ∀ (o : Fin 64) (ch : Fin 256), V c main_v14 (ix2 o ch) = ((I.w3 ch o : ℝ) : EReal))
    (hs3 : ∀ ch : Fin 256, V c main_v17 (ix2 (0 : Fin 1) ch) = ((I.s3 ch : ℝ) : EReal))
    (hb3 : ∀ ch : Fin 256, V c main_v18 (ix2 (0 : Fin 1) ch) = ((I.b3 ch : ℝ) : EReal))
    (hf1 : ∀ (ch : Fin 256) (r : Fin 16), V c main_v15 (ix2 ch r) = ((I.fc1 r ch : ℝ) : EReal))
    (hf2 : ∀ (r : Fin 16) (ch : Fin 256), V c main_v16 (ix2 r ch) = ((I.fc2 ch r : ℝ) : EReal)) :
    ∀ (b : Fin 16) (p : Fin 3136) (ch : Fin 256), (dat2 V c).arrAt 7 cfg2.N (ix3 b p ch)
      = ((max (Cert.ReferenceIdeal.RV2.H3 I (h2r b) ch p * Cert.ReferenceIdeal.RV2.G I (h2r b) ch + I.x b ch p) 0 : ℝ) : EReal) := by
  intro b p ch
  rw [final2]
  refine (arr2_7_img (V c main_v13) (V c main_v12) (V c main_v14) (V c main_v17) (V c main_v18) (V c main_v15) (V c main_v16)
    b (ix3 (0 : Fin 1) p ch)).trans ?_
  exact Cert.ReferenceIdeal.RV2.out2_7_val I (h2r b) (fun ch p => I.x b ch p) (img64 (V c main_v13) b) (img256 (V c main_v12) b)
    (V c main_v14) (V c main_v17) (V c main_v18) (V c main_v15) (V c main_v16)
    (fun p o => hx0 b p o) (fun p ch => hx1 b p ch) hw3 hs3 hb3 hf1 hf2 p ch

end Cert.ReferenceIdeal.R2

end
-- ==== Proof.RefRunSpec.lean ====
import proofs.«108509_g2000006651879042_pallasbulk_171_5_alg».proof.Proof.RefRunIdx
import proofs.«108509_g2000006651879042_pallasbulk_171_5_alg».proof.Proof.R0Ideal
import proofs.«108509_g2000006651879042_pallasbulk_171_5_alg».proof.Proof.R1Ideal
import proofs.«108509_g2000006651879042_pallasbulk_171_5_alg».proof.Proof.R2Ideal
import proofs.«108509_g2000006651879042_pallasbulk_171_5_alg».proof.Proof.Spec

noncomputable section

/-! # The reference's result over the reals

When the twelve arguments hold (the coercions of) real arrays, the result buffer the reference ends with holds the
specification's output: the three regions' outputs are the specification's three stages, each read through the
transposes and reshapes between them. -/

namespace Cert.ReferenceIdeal.RefRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.R0 Cert.ReferenceIdeal.R1 Cert.ReferenceIdeal.R2

open Idealize.ShloMosaic.ValueIdx
variable (m : (ℓ : Loc nD τ sig) → Buf (Elt Ideal) ℓ)

/-- A pixel is its row and column. -/
theorem pix_div_mod (p : Fin 3136) : (⟨56 * (⟨p.val / 56, div56_lt p⟩ : Fin 56).val + (⟨p.val % 56, mod56_lt p⟩ : Fin 56).val, pix_lt _ _⟩ : Fin 3136) = p :=
  Fin.ext (by show 56 * (p.val / 56) + p.val % 56 = p.val; omega)

theorem ref_value
    (c : Dev nD) (I : Cert.Spec.Inp)
    (h0 : ∀ (b : Fin 16) (ch : Fin 256) (p : Fin 3136),
      m ((c : Thread nD τ).loc main_arg0) (ix4 b ch ⟨p.val / 56, div56_lt p⟩ ⟨p.val % 56, mod56_lt p⟩) = ((I.x b ch p : ℝ) : EReal))
    (h1 : ∀ (o : Fin 64) (ch : Fin 256), m ((c : Thread nD τ).loc main_arg1) (ix2 o ch) = ((I.w1 o ch : ℝ) : EReal))
    (h2 : ∀ (o ci : Fin 64) (ky kx : Fin 3), m ((c : Thread nD τ).loc main_arg2) (ix4 o ci ky kx) = ((I.w2 o ci ky kx : ℝ) : EReal))
    (h3 : ∀ (ch : Fin 256) (o : Fin 64), m ((c : Thread nD τ).loc main_arg3) (ix2 ch o) = ((I.w3 ch o : ℝ) : EReal))
    (h4 : ∀ (r : Fin 16) (ch : Fin 256), m ((c : Thread nD τ).loc main_arg4) (ix2 r ch) = ((I.fc1 r ch : ℝ) : EReal))
    (h5 : ∀ (ch : Fin 256) (r : Fin 16), m ((c : Thread nD τ).loc main_arg5) (ix2 ch r) = ((I.fc2 ch r : ℝ) : EReal))
    (h6 : ∀ o : Fin 64, m ((c : Thread nD τ).loc main_arg6) (ix1 o) = ((I.s1 o : ℝ) : EReal))
    (h7 : ∀ o : Fin 64, m ((c : Thread nD τ).loc main_arg7) (ix1 o) = ((I.b1 o : ℝ) : EReal))
    (h8 : ∀ o : Fin 64, m ((c : Thread nD τ).loc main_arg8) (ix1 o) = ((I.s2 o : ℝ) : EReal))
    (h9 : ∀ o : Fin 64, m ((c : Thread nD τ).loc main_arg9) (ix1 o) = ((I.b2 o : ℝ) : EReal))
    (h10 : ∀ ch : Fin 256, m ((c : Thread nD τ).loc main_arg10) (ix1 ch) = ((I.s3 ch : ℝ) : EReal))
    (h11 : ∀ ch : Fin 256, m ((c : Thread nD τ).loc main_arg11) (ix1 ch) = ((I.b3 ch : ℝ) : EReal)) :
    ∀ (b : Fin 16) (ch : Fin 256) (i j : Fin 56),
      W7 m c (Proc.devRef .tc main_v21) (ix4 b ch i j)
        = ((Cert.Spec.out I b ch ⟨56 * i.val + j.val, pix_lt i j⟩ : ℝ) : EReal) := by
  intro b ch i j
  -- region 0's output is the first stage
  have H0 : ∀ (b : Fin 16) (p : Fin 3136) (o : Fin 64),
      out0 m c (ix2 ⟨b.val * 3136 + p.val, row_lt b p⟩ o) = ((Cert.Spec.h1 I b p o : ℝ) : EReal) :=
    R0.out0_spec (V1 m) I c
      (fun b p ch => (V1_main_v1 m c b p ch).trans (h0 b ch p))
      (fun ch o => (V1_main_v2 m c ch o).trans (h1 o ch))
      (fun o => (V1_main_v3 m c o).trans (h6 o))
      (fun o => (V1_main_v4 m c o).trans (h7 o))
  -- region 1's output is the second stage
  have H1 : ∀ (b : Fin 16) (i j : Fin 56) (o : Fin 64),
      out1 m c (ix4 b i j o) = ((Cert.Spec.h2 I b ⟨56 * i.val + j.val, pix_lt i j⟩ o : ℝ) : EReal) :=
    fun b i j o => R1.out1_spec I (V3 m) c (Cert.Spec.h1 I)
      (fun b i j ci => (V3_main_v6 m c b i j ci).trans (H0 b ⟨56 * i.val + j.val, pix_lt i j⟩ ci))
      (fun t ci o => (V3_main_v8 m c t ci o).trans (h2 o ci _ _))
      (fun o => (V3_main_v9 m c o).trans (h8 o))
      (fun o => (V3_main_v10 m c o).trans (h9 o)) b i j o
  -- region 2's output is the block's output
  have H2 : ∀ (b : Fin 16) (p : Fin 3136) (ch : Fin 256),
      out2 m c (ix3 b p ch) = ((Cert.Spec.out I b ch p : ℝ) : EReal) :=
    fun b p ch => R2.out2_spec I (V5 m) c (Cert.Spec.h2 I)
      (fun b p o => (V5_main_v13 m c b p o).trans ((H1 b _ _ o).trans (by rw [pix_div_mod])))
      (fun b p ch => (V5_main_v12 m c b p ch).trans (h0 b ch p))
      (fun o ch => (V5_main_v14 m c o ch).trans (h3 ch o))
      (fun ch => (V5_main_v17 m c ch).trans (h10 ch))
      (fun ch => (V5_main_v18 m c ch).trans (h11 ch))
      (fun ch r => (V5_main_v15 m c ch r).trans (h4 r ch))
      (fun r ch => (V5_main_v16 m c r ch).trans (h5 ch r)) b p ch
  exact (W7_main_v21_apply m c b ch i j).trans (H2 b _ ch)

end Cert.ReferenceIdeal.RefRun

end
-- ==== Proof.Alg.lean ====
/-
  The two idealized programs end with equal results. Under the precondition every argument array is real, so the
  twelve arguments are the coercion of a real input `I` of the specification; the fused kernel's result array and the
  three-kernel reference's result array both hold, at (image b, channel c, row i, column j), the specification's
  number `Spec.out I b c (56·i + j)`.
-/
import proofs.«108509_g2000006651879042_pallasbulk_171_5_alg».proof.Defs
import proofs.«108509_g2000006651879042_pallasbulk_171_5_alg».proof.Proof.Gen.Pre_finite_inputs
import proofs.«108509_g2000006651879042_pallasbulk_171_5_alg».proof.Proof.KAlg
import proofs.«108509_g2000006651879042_pallasbulk_171_5_alg».proof.Proof.KIValueOut
import proofs.«108509_g2000006651879042_pallasbulk_171_5_alg».proof.Proof.Finite
import proofs.«108509_g2000006651879042_pallasbulk_171_5_alg».proof.Proof.RefRunSpec
import proofs.«108509_g2000006651879042_pallasbulk_171_5_alg».proof.Proof.RefRun

noncomputable section

open Idealize.ShloMosaic Idealize.ShloMosaic.ValueIdx Idealize.SL.Sem

namespace Cert.Alg

/-- The specification's result as an array of extended reals. -/
def resOf (I : Cert.Spec.Inp) : (⟨4, ![16, 256, 56, 56]⟩ : Shape).Idx → EReal := fun y =>
  ((Cert.Spec.out I ⟨(y 0).val, (y 0).isLt⟩ ⟨(y 1).val, (y 1).isLt⟩
    ⟨56 * (y 2).val + (y 3).val, by have h2 : (y 2).val < 56 := (y 2).isLt; have h3 : (y 3).val < 56 := (y 3).isLt; omega⟩ : ℝ) : EReal)

theorem resOf_apply (I : Cert.Spec.Inp) (b : Fin 16) (ch : Fin 256) (i j : Fin 56) :
    resOf I (ix4 b ch i j) = ((Cert.Spec.out I b ch ⟨56 * i.val + j.val, by have := i.isLt; have := j.isLt; omega⟩ : ℝ) : EReal) := rfl

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  -- every argument array is real, on every device
  have hre := fun c => @Cert.Finite.reals_of_pre Cert.Pre_finite_inputs.Gen.facts _ _ _ _ _ _ _ _ _ _ _ _ (hpre c)
  let I : Dev Cert.KernelIdeal.nD → Cert.Spec.Inp := fun c =>
    Cert.Finite.inpOf (Cert.KernelIdeal.KVal.a0 m c) (Cert.KernelIdeal.KVal.a1 m c) (Cert.KernelIdeal.KVal.a2 m c)
      (Cert.KernelIdeal.KVal.a3 m c) (Cert.KernelIdeal.KVal.a4 m c) (Cert.KernelIdeal.KVal.a5 m c) (Cert.KernelIdeal.KVal.a6 m c)
      (Cert.KernelIdeal.KVal.a7 m c) (Cert.KernelIdeal.KVal.a8 m c) (Cert.KernelIdeal.KVal.a9 m c) (Cert.KernelIdeal.KVal.a10 m c)
      (Cert.KernelIdeal.KVal.a11 m c)
  refine ⟨fun c => resOf (I c), ?_, ?_⟩
  · -- the fused kernel
    refine (θ_run (Cert.KernelIdeal.defs (F := Ideal)) _ _).mono (fun r h c => ⟨(h c).1.trans ?_, (h c).2⟩)
      (Cert.KernelIdeal.KVal.run_value (F := Ideal) m g)
    obtain ⟨h0, h1, h2, h3, h4, h5, h6, h7, h8, h9, h10, h11⟩ := hre c
    funext y
    obtain ⟨b, ch, i, j, rfl⟩ : ∃ (b : Fin 16) (ch : Fin 256) (i j : Fin 56), y = ix4 b ch i j := ⟨y 0, y 1, y 2, y 3, eq_ix4 y⟩
    refine (Cert.KernelIdeal.KVal.RES_apply m c b ch i j).trans ?_
    unfold Cert.KernelIdeal.KVal.blkOut
    refine (Cert.KernelIdeal.KVal.blk_value m c (I c)
      (fun b ch p => Cert.Finite.inpOf_x _ _ _ _ _ _ _ _ _ _ _ _ h0 b ch p)
      (fun o ch => Cert.Finite.inpOf_w1 _ _ _ _ _ _ _ _ _ _ _ _ h1 o ch)
      (fun o ci ky kx => Cert.Finite.inpOf_w2 _ _ _ _ _ _ _ _ _ _ _ _ h2 o ci ky kx)
      (fun ch o => Cert.Finite.inpOf_w3 _ _ _ _ _ _ _ _ _ _ _ _ h3 ch o)
      (fun r ch => Cert.Finite.inpOf_fc1 _ _ _ _ _ _ _ _ _ _ _ _ h4 r ch)
      (fun ch r => Cert.Finite.inpOf_fc2 _ _ _ _ _ _ _ _ _ _ _ _ h5 ch r)
      (fun o => Cert.Finite.inpOf_s1 _ _ _ _ _ _ _ _ _ _ _ _ h6 o)
      (fun o => Cert.Finite.inpOf_b1 _ _ _ _ _ _ _ _ _ _ _ _ h7 o)
      (fun o => Cert.Finite.inpOf_s2 _ _ _ _ _ _ _ _ _ _ _ _ h8 o)
      (fun o => Cert.Finite.inpOf_b2 _ _ _ _ _ _ _ _ _ _ _ _ h9 o)
      (fun ch => Cert.Finite.inpOf_s3 _ _ _ _ _ _ _ _ _ _ _ _ h10 ch)
      (fun ch => Cert.Finite.inpOf_b3 _ _ _ _ _ _ _ _ _ _ _ _ h11 ch) _ ch _).trans ?_
    rfl
  · -- the reference
    refine (θ_run (Cert.ReferenceIdeal.defs (F := Ideal)) _ _).mono (fun r h c => ⟨(h c).1.trans ?_, (h c).2⟩)
      (Cert.ReferenceIdeal.RefRun.run (F := Ideal) m' g' Cert.ReferenceIdeal.R0.rowLocal_ideal)
    obtain ⟨h0, h1, h2, h3, h4, h5, h6, h7, h8, h9, h10, h11⟩ := hre c
    obtain ⟨e0, e1, e2, e3, e4, e5, e6, e7, e8, e9, e10, e11⟩ := hagree c
    funext y
    obtain ⟨b, ch, i, j, rfl⟩ : ∃ (b : Fin 16) (ch : Fin 256) (i j : Fin 56), y = ix4 b ch i j := ⟨y 0, y 1, y 2, y 3, eq_ix4 y⟩
    refine (Cert.ReferenceIdeal.RefRun.ref_value m' c (I c)
      (fun b ch p => by rw [e0]; exact Cert.Finite.inpOf_x _ _ _ _ _ _ _ _ _ _ _ _ h0 b ch p)
      (fun o ch => by rw [e1]; exact Cert.Finite.inpOf_w1 _ _ _ _ _ _ _ _ _ _ _ _ h1 o ch)
      (fun o ci ky kx => by rw [e2]; exact Cert.Finite.inpOf_w2 _ _ _ _ _ _ _ _ _ _ _ _ h2 o ci ky kx)
      (fun ch o => by rw [e3]; exact Cert.Finite.inpOf_w3 _ _ _ _ _ _ _ _ _ _ _ _ h3 ch o)
      (fun r ch => by rw [e4]; exact Cert.Finite.inpOf_fc1 _ _ _ _ _ _ _ _ _ _ _ _ h4 r ch)
      (fun ch r => by rw [e5]; exact Cert.Finite.inpOf_fc2 _ _ _ _ _ _ _ _ _ _ _ _ h5 ch r)
      (fun o => by rw [e6]; exact Cert.Finite.inpOf_s1 _ _ _ _ _ _ _ _ _ _ _ _ h6 o)
      (fun o => by rw [e7]; exact Cert.Finite.inpOf_b1 _ _ _ _ _ _ _ _ _ _ _ _ h7 o)
      (fun o => by rw [e8]; exact Cert.Finite.inpOf_s2 _ _ _ _ _ _ _ _ _ _ _ _ h8 o)
      (fun o => by rw [e9]; exact Cert.Finite.inpOf_b2 _ _ _ _ _ _ _ _ _ _ _ _ h9 o)
      (fun ch => by rw [e10]; exact Cert.Finite.inpOf_s3 _ _ _ _ _ _ _ _ _ _ _ _ h10 ch)
      (fun ch => by rw [e11]; exact Cert.Finite.inpOf_b3 _ _ _ _ _ _ _ _ _ _ _ _ h11 ch) b ch i j).trans ?_
    rfl

end Cert.Alg

end
-- ==== Proof.lean ====
/-
  The certificate. The fused kernel (one launch per image: 1×1 convolution, 3×3 convolution through a zero-padded
  scratch image, 1×1 convolution, squeeze-excite gate, residual) and the reference (the same block as three launches
  with the batch-norm scale applied after each contraction) each run to the end without a fault and leave their
  arguments unchanged; the kernel's idealization rewrote nothing; and on finite inputs the two idealized programs end
  with the same result, entry by entry, because over the reals a scale commutes with a sum of products.
-/
import proofs.«108509_g2000006651879042_pallasbulk_171_5_alg».proof.Defs
import proofs.«108509_g2000006651879042_pallasbulk_171_5_alg».proof.Proof.Gen.Kernel
import proofs.«108509_g2000006651879042_pallasbulk_171_5_alg».proof.Proof.Gen.KernelIdeal
import proofs.«108509_g2000006651879042_pallasbulk_171_5_alg».proof.Proof.Gen.ReferenceIdeal
import proofs.«108509_g2000006651879042_pallasbulk_171_5_alg».proof.Proof.Gen.Pre_finite_inputs
import proofs.«108509_g2000006651879042_pallasbulk_171_5_alg».proof.Proof.KBodyFrame
import proofs.«108509_g2000006651879042_pallasbulk_171_5_alg».proof.Proof.KIBodyFrame
import proofs.«108509_g2000006651879042_pallasbulk_171_5_alg».proof.Proof.RefRun
import proofs.«108509_g2000006651879042_pallasbulk_171_5_alg».proof.Proof.Alg

noncomputable section

namespace Cert.Proof

open Idealize.ShloMosaic Idealize.SL.Sem

/-- The reference's frame: its run through the three regions, at the extended reals, where a matrix product's row
    depends only on the left operand's row (which the overhanging last block of the first region needs). -/
theorem frame_ri : Cert.frame_ReferenceIdeal (hReferenceIdeal := Cert.ReferenceIdeal.Gen.facts)
    (hPre_finite_inputs := Cert.Pre_finite_inputs.Gen.facts) :=
  fun m g _ => Cert.ReferenceIdeal.RefRun.frame m g Cert.ReferenceIdeal.R0.rowLocal_ideal

theorem claim : Cert.Claim :=
  ⟨Cert.Kernel.Gen.facts, Cert.KernelIdeal.Gen.facts, Cert.ReferenceIdeal.Gen.facts, Cert.Pre_finite_inputs.Gen.facts,
    Cert.Kernel.Body.frame_k, Cert.KernelIdeal.Body.frame_ki, frame_ri, trivial, Cert.Alg.algebraic⟩

end Cert.Proof

end
